-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x4 : Shape := ⟨2, ![1600000, 4]⟩
abbrev S1600000 : Shape := ⟨1, ![1600000]⟩
abbrev S4x64 : Shape := ⟨2, ![4, 64]⟩
abbrev S64 : Shape := ⟨1, ![64]⟩
abbrev S4x64x64 : Shape := ⟨3, ![4, 64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part2 {F : FTy → Type} [FloatOps F] (main_arg9 : FVec F S4x64 .f32) (main_arg10 : FVec F S4x64 .f32) (main_arg11 : FVec F S4x64 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64 .f32 := Host.absf main_arg11
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  main_v48

def fn_part1 {F : FTy → Type} [FloatOps F] (main_arg6 : FVec F S4x64x64 .f32) (main_arg7 : FVec F S4x64 .f32) (main_arg8 : FVec F S4x64x64 .f32) (main_arg9 : FVec F S4x64 .f32) (main_arg10 : FVec F S4x64 .f32) (main_arg11 : FVec F S4x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x64 .f32 := Host.absf main_arg8
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S1600000x4 .f32) (main_arg2 : IVec S1600000 32) (main_arg3 : IVec S1600000 32) (main_arg4 : FVec F S4x64 .f32) (main_arg5 : FVec F S64 .f32) (main_arg6 : FVec F S4x64x64 .f32) (main_arg7 : FVec F S4x64 .f32) (main_arg8 : FVec F S4x64x64 .f32) (main_arg9 : FVec F S4x64 .f32) (main_arg10 : FVec F S4x64 .f32) (main_arg11 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x4 .f32 := Host.absf main_arg1
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000x4 : Shape := ⟨2, ![1600000, 4]⟩
abbrev S1600000 : Shape := ⟨1, ![1600000]⟩
abbrev S4x64 : Shape := ⟨2, ![4, 64]⟩
abbrev S64 : Shape := ⟨1, ![64]⟩
abbrev S4x64x64 : Shape := ⟨3, ![4, 64, 64]⟩
abbrev S1600000x64 : Shape := ⟨2, ![1600000, 64]⟩
abbrev S10000x4 : Shape := ⟨2, ![10000, 4]⟩
abbrev S10000x64 : Shape := ⟨2, ![10000, 64]⟩
abbrev S1x64 : Shape := ⟨2, ![1, 64]⟩
abbrev S_ : Shape := ⟨0, ![]⟩
abbrev S1600000x1 : Shape := ⟨2, ![1600000, 1]⟩
abbrev S1x64x64 : Shape := ⟨3, ![1, 64, 64]⟩
abbrev S64x64 : Shape := ⟨2, ![64, 64]⟩

abbrev nBuf : Space → Nat
  | .hbm => 237
  | .vmem => 110
  | .smem => 0
  | _ => 0

abbrev hbmTy0_0 (i : Nat) : BufTy := match i % 128 with
  | 0 => ⟨S100000x64, .f32⟩
  | 1 => ⟨S1600000x4, .f32⟩
  | 2 => ⟨S1600000, .i32⟩
  | 3 => ⟨S1600000, .i32⟩
  | 4 => ⟨S4x64, .f32⟩
  | 5 => ⟨S64, .f32⟩
  | 6 => ⟨S4x64x64, .f32⟩
  | 7 => ⟨S4x64, .f32⟩
  | 8 => ⟨S4x64x64, .f32⟩
  | 9 => ⟨S4x64, .f32⟩
  | 10 => ⟨S4x64, .f32⟩
  | 11 => ⟨S4x64, .f32⟩
  | 12 => ⟨S1600000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S1x64x64, .f32⟩
  | 28 => ⟨S64x64, .f32⟩
  | 29 => ⟨S1x64, .f32⟩
  | 30 => ⟨S64, .f32⟩
  | 31 => ⟨S1x64x64, .f32⟩
  | 32 => ⟨S64x64, .f32⟩
  | 33 => ⟨S1x64, .f32⟩
  | 34 => ⟨S64, .f32⟩
  | 35 => ⟨S100000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S100000x64, .f32⟩
  | 49 => ⟨S100000x64, .f32⟩
  | 50 => ⟨S100000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S64, .f32⟩
  | 66 => ⟨S1x64, .f32⟩
  | 67 => ⟨S64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S1x64x64, .f32⟩
  | 84 => ⟨S64x64, .f32⟩
  | 85 => ⟨S1x64, .f32⟩
  | 86 => ⟨S64, .f32⟩
  | 87 => ⟨S1x64x64, .f32⟩
  | 88 => ⟨S64x64, .f32⟩
  | 89 => ⟨S1x64, .f32⟩
  | 90 => ⟨S64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S_, .i32⟩
  | 98 => ⟨S_, .f32⟩
  | 99 => ⟨S64, .f32⟩
  | 100 => ⟨S1x64, .f32⟩
  | 101 => ⟨S_, .f32⟩
  | 102 => ⟨S1x64, .f32⟩
  | 103 => ⟨S1x64, .f32⟩
  | 104 => ⟨S100000x64, .f32⟩
  | 105 => ⟨S100000x64, .f32⟩
  | 106 => ⟨S100000x64, .f32⟩
  | 107 => ⟨S_, .f32⟩
  | 108 => ⟨S_, .f32⟩
  | 109 => ⟨S_, .f32⟩
  | 110 => ⟨S_, .f32⟩
  | 111 => ⟨S64, .f32⟩
  | 112 => ⟨S64, .f32⟩
  | 113 => ⟨S64, .f32⟩
  | 114 => ⟨S_, .f32⟩
  | 115 => ⟨S_, .i1⟩
  | 116 => ⟨S_, .f32⟩
  | 117 => ⟨S_, .f32⟩
  | 118 => ⟨S64, .f32⟩
  | 119 => ⟨S64, .f32⟩
  | 120 => ⟨S1x64, .f32⟩
  | 121 => ⟨S64, .f32⟩
  | 122 => ⟨S1x64, .f32⟩
  | 123 => ⟨S64, .f32⟩
  | 124 => ⟨S100000x64, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S1x64x64, .f32⟩
  | 12 => ⟨S64x64, .f32⟩
  | 13 => ⟨S1x64, .f32⟩
  | 14 => ⟨S64, .f32⟩
  | 15 => ⟨S1x64x64, .f32⟩
  | 16 => ⟨S64x64, .f32⟩
  | 17 => ⟨S1x64, .f32⟩
  | 18 => ⟨S64, .f32⟩
  | 19 => ⟨S100000x64, .f32⟩
  | 20 => ⟨S_, .f32⟩
  | 21 => ⟨S64, .f32⟩
  | 22 => ⟨S_, .f32⟩
  | 23 => ⟨S64, .f32⟩
  | 24 => ⟨S64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S100000x64, .f32⟩
  | 33 => ⟨S100000x64, .f32⟩
  | 34 => ⟨S100000x64, .f32⟩
  | 35 => ⟨S_, .f32⟩
  | 36 => ⟨S_, .f32⟩
  | 37 => ⟨S_, .f32⟩
  | 38 => ⟨S_, .f32⟩
  | 39 => ⟨S64, .f32⟩
  | 40 => ⟨S64, .f32⟩
  | 41 => ⟨S64, .f32⟩
  | 42 => ⟨S_, .f32⟩
  | 43 => ⟨S_, .i1⟩
  | 44 => ⟨S_, .f32⟩
  | 45 => ⟨S_, .f32⟩
  | 46 => ⟨S64, .f32⟩
  | 47 => ⟨S64, .f32⟩
  | 48 => ⟨S1x64, .f32⟩
  | 49 => ⟨S64, .f32⟩
  | 50 => ⟨S1x64, .f32⟩
  | 51 => ⟨S64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1x64x64, .f32⟩
  | 68 => ⟨S64x64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S100000x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S100000x64, .f32⟩
  | 89 => ⟨S100000x64, .f32⟩
  | 90 => ⟨S100000x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S64, .f32⟩
  | 106 => ⟨S1x64, .f32⟩
  | 107 => ⟨S64, .f32⟩
  | 108 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64, .f32⟩
  | .local _ .vmem, ⟨27, _⟩ => ⟨S64, .f32⟩
  | .local _ .vmem, ⟨28, _⟩ => ⟨S64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S64, .f32⟩
  | .local _ .vmem, ⟨44, _⟩ => ⟨S64x64, .f32⟩
  | .local _ .vmem, ⟨45, _⟩ => ⟨S64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64, .f32⟩
  | .local _ .vmem, ⟨53, _⟩ => ⟨S64, .f32⟩
  | .local _ .vmem, ⟨54, _⟩ => ⟨S64, .f32⟩
  | .local _ .vmem, ⟨55, _⟩ => ⟨S64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S64, .f32⟩
  | .local _ .vmem, ⟨70, _⟩ => ⟨S64x64, .f32⟩
  | .local _ .vmem, ⟨71, _⟩ => ⟨S64, .f32⟩
  | .local _ .vmem, ⟨72, _⟩ => ⟨S10000x64, .f32⟩
  | .local _ .vmem, ⟨73, _⟩ => ⟨S10000x64, .f32⟩
  | .local _ .vmem, ⟨74, _⟩ => ⟨S10000x64, .f32⟩
  | .local _ .vmem, ⟨75, _⟩ => ⟨S10000x64, .f32⟩
  | .local _ .vmem, ⟨76, _⟩ => ⟨S10000x64, .f32⟩
  | .local _ .vmem, ⟨77, _⟩ => ⟨S10000x64, .f32⟩
  | .local _ .vmem, ⟨78, _⟩ => ⟨S64, .f32⟩
  | .local _ .vmem, ⟨79, _⟩ => ⟨S64, .f32⟩
  | .local _ .vmem, ⟨80, _⟩ => ⟨S64, .f32⟩
  | .local _ .vmem, ⟨81, _⟩ => ⟨S64, .f32⟩
  | .local _ .vmem, ⟨82, _⟩ => ⟨S10000x64, .f32⟩
  | .local _ .vmem, ⟨83, _⟩ => ⟨S10000x64, .f32⟩
  | .local _ .vmem, ⟨84, _⟩ => ⟨S10000x64, .f32⟩
  | .local _ .vmem, ⟨85, _⟩ => ⟨S10000x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S10000x64, .f32⟩
  | .local _ .vmem, ⟨93, _⟩ => ⟨S10000x64, .f32⟩
  | .local _ .vmem, ⟨94, _⟩ => ⟨S64x64, .f32⟩
  | .local _ .vmem, ⟨95, _⟩ => ⟨S64, .f32⟩
  | .local _ .vmem, ⟨96, _⟩ => ⟨S64x64, .f32⟩
  | .local _ .vmem, ⟨97, _⟩ => ⟨S64, .f32⟩
  | .local _ .vmem, ⟨98, _⟩ => ⟨S10000x64, .f32⟩
  | .local _ .vmem, ⟨99, _⟩ => ⟨S10000x64, .f32⟩
  | .local _ .vmem, ⟨100, _⟩ => ⟨S10000x64, .f32⟩
  | .local _ .vmem, ⟨101, _⟩ => ⟨S10000x64, .f32⟩
  | .local _ .vmem, ⟨102, _⟩ => ⟨S10000x64, .f32⟩
  | .local _ .vmem, ⟨103, _⟩ => ⟨S10000x64, .f32⟩
  | .local _ .vmem, ⟨104, _⟩ => ⟨S64, .f32⟩
  | .local _ .vmem, ⟨105, _⟩ => ⟨S64, .f32⟩
  | .local _ .vmem, ⟨106, _⟩ => ⟨S64, .f32⟩
  | .local _ .vmem, ⟨107, _⟩ => ⟨S64, .f32⟩
  | .local _ .vmem, ⟨108, _⟩ => ⟨S10000x64, .f32⟩
  | .local _ .vmem, ⟨109, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_4 : Ref sig .tc := ⟨.hbm, 69, rfl⟩
abbrev main_v30 : Ref sig .tc := ⟨.hbm, 70, rfl⟩
abbrev main_v31 : Ref sig .tc := ⟨.hbm, 71, rfl⟩
abbrev main_c_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_6 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_7 : Ref sig .tc := ⟨.hbm, 92, rfl⟩
abbrev main_v50 : Ref sig .tc := ⟨.hbm, 93, rfl⟩
abbrev main_cst_8 : Ref sig .tc := ⟨.hbm, 94, rfl⟩
abbrev main_v51 : Ref sig .tc := ⟨.hbm, 95, rfl⟩
abbrev main_v52 : Ref sig .tc := ⟨.hbm, 96, rfl⟩
abbrev main_c_9 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_cst_1 : Ref sig .tc := ⟨.hbm, 108, rfl⟩
abbrev main_call1_v8 : Ref sig .tc := ⟨.hbm, 109, rfl⟩
abbrev main_call1_cst_2 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_cst_3 : Ref sig .tc := ⟨.hbm, 114, rfl⟩
abbrev main_call1_v12 : Ref sig .tc := ⟨.hbm, 115, rfl⟩
abbrev main_call1_cst_4 : Ref sig .tc := ⟨.hbm, 116, rfl⟩
abbrev main_call1_call0_v0 : Ref sig .tc := ⟨.hbm, 117, rfl⟩
abbrev main_call1_call0_v1 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_c_10 : Ref sig .tc := ⟨.hbm, 125, rfl⟩
abbrev main_v59 : Ref sig .tc := ⟨.hbm, 126, rfl⟩
abbrev main_v60 : Ref sig .tc := ⟨.hbm, 127, rfl⟩
abbrev main_c_11 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_12 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_13 : Ref sig .tc := ⟨.hbm, 148, rfl⟩
abbrev main_v79 : Ref sig .tc := ⟨.hbm, 149, rfl⟩
abbrev main_cst_14 : Ref sig .tc := ⟨.hbm, 150, rfl⟩
abbrev main_v80 : Ref sig .tc := ⟨.hbm, 151, rfl⟩
abbrev main_v81 : Ref sig .tc := ⟨.hbm, 152, rfl⟩
abbrev main_c_15 : Ref sig .tc := ⟨.hbm, 153, rfl⟩
abbrev main_call2_cst : Ref sig .tc := ⟨.hbm, 154, rfl⟩
abbrev main_call2_v0 : Ref sig .tc := ⟨.hbm, 155, rfl⟩
abbrev main_call2_v1 : Ref sig .tc := ⟨.hbm, 156, rfl⟩
abbrev main_call2_cst_0 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_v7 : Ref sig .tc := ⟨.hbm, 163, rfl⟩
abbrev main_call2_cst_1 : Ref sig .tc := ⟨.hbm, 164, rfl⟩
abbrev main_call2_v8 : Ref sig .tc := ⟨.hbm, 165, rfl⟩
abbrev main_call2_cst_2 : Ref sig .tc := ⟨.hbm, 166, rfl⟩
abbrev main_call2_v9 : Ref sig .tc := ⟨.hbm, 167, rfl⟩
abbrev main_call2_v10 : Ref sig .tc := ⟨.hbm, 168, rfl⟩
abbrev main_call2_v11 : Ref sig .tc := ⟨.hbm, 169, rfl⟩
abbrev main_call2_cst_3 : Ref sig .tc := ⟨.hbm, 170, rfl⟩
abbrev main_call2_v12 : Ref sig .tc := ⟨.hbm, 171, rfl⟩
abbrev main_call2_cst_4 : Ref sig .tc := ⟨.hbm, 172, rfl⟩
abbrev main_call2_call0_v0 : Ref sig .tc := ⟨.hbm, 173, rfl⟩
abbrev main_call2_call0_v1 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_c_16 : Ref sig .tc := ⟨.hbm, 181, rfl⟩
abbrev main_v88 : Ref sig .tc := ⟨.hbm, 182, rfl⟩
abbrev main_v89 : Ref sig .tc := ⟨.hbm, 183, rfl⟩
abbrev main_c_17 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_cst_18 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_cst_19 : Ref sig .tc := ⟨.hbm, 204, rfl⟩
abbrev main_v108 : Ref sig .tc := ⟨.hbm, 205, rfl⟩
abbrev main_cst_20 : Ref sig .tc := ⟨.hbm, 206, rfl⟩
abbrev main_v109 : Ref sig .tc := ⟨.hbm, 207, rfl⟩
abbrev main_v110 : Ref sig .tc := ⟨.hbm, 208, rfl⟩
abbrev main_c_21 : Ref sig .tc := ⟨.hbm, 209, rfl⟩
abbrev main_call3_cst : Ref sig .tc := ⟨.hbm, 210, rfl⟩
abbrev main_call3_v0 : Ref sig .tc := ⟨.hbm, 211, rfl⟩
abbrev main_call3_v1 : Ref sig .tc := ⟨.hbm, 212, rfl⟩
abbrev main_call3_cst_0 : Ref sig .tc := ⟨.hbm, 213, rfl⟩
abbrev main_call3_v2 : Ref sig .tc := ⟨.hbm, 214, rfl⟩
abbrev main_call3_v3 : Ref sig .tc := ⟨.hbm, 215, rfl⟩
abbrev main_call3_v4 : Ref sig .tc := ⟨.hbm, 216, rfl⟩
abbrev main_call3_v5 : Ref sig .tc := ⟨.hbm, 217, rfl⟩
abbrev main_call3_v6 : Ref sig .tc := ⟨.hbm, 218, rfl⟩
abbrev main_call3_v7 : Ref sig .tc := ⟨.hbm, 219, rfl⟩
abbrev main_call3_cst_1 : Ref sig .tc := ⟨.hbm, 220, rfl⟩
abbrev main_call3_v8 : Ref sig .tc := ⟨.hbm, 221, rfl⟩
abbrev main_call3_cst_2 : Ref sig .tc := ⟨.hbm, 222, rfl⟩
abbrev main_call3_v9 : Ref sig .tc := ⟨.hbm, 223, rfl⟩
abbrev main_call3_v10 : Ref sig .tc := ⟨.hbm, 224, rfl⟩
abbrev main_call3_v11 : Ref sig .tc := ⟨.hbm, 225, rfl⟩
abbrev main_call3_cst_3 : Ref sig .tc := ⟨.hbm, 226, rfl⟩
abbrev main_call3_v12 : Ref sig .tc := ⟨.hbm, 227, rfl⟩
abbrev main_call3_cst_4 : Ref sig .tc := ⟨.hbm, 228, rfl⟩
abbrev main_call3_call0_v0 : Ref sig .tc := ⟨.hbm, 229, rfl⟩
abbrev main_call3_call0_v1 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg6_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc8_stg6_0 : Ref sig .tc := ⟨.vmem, 72, rfl⟩
abbrev cc8_stg6_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg3_0 : Ref sig .tc := ⟨.vmem, 79, rfl⟩
abbrev cc9_stg4_0 : Ref sig .tc := ⟨.vmem, 80, rfl⟩
abbrev cc9_stg5_0 : Ref sig .tc := ⟨.vmem, 81, rfl⟩
abbrev cc9_stg6_0 : Ref sig .tc := ⟨.vmem, 82, rfl⟩
abbrev cc9_stg6_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg2_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg1_1 : Ref sig .tc := ⟨.vmem, 93, rfl⟩
abbrev cc11_stg2_0 : Ref sig .tc := ⟨.vmem, 94, rfl⟩
abbrev cc11_stg3_0 : Ref sig .tc := ⟨.vmem, 95, rfl⟩
abbrev cc11_stg4_0 : Ref sig .tc := ⟨.vmem, 96, rfl⟩
abbrev cc11_stg5_0 : Ref sig .tc := ⟨.vmem, 97, rfl⟩
abbrev cc11_stg6_0 : Ref sig .tc := ⟨.vmem, 98, rfl⟩
abbrev cc11_stg6_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg3_0 : Ref sig .tc := ⟨.vmem, 105, rfl⟩
abbrev cc12_stg4_0 : Ref sig .tc := ⟨.vmem, 106, rfl⟩
abbrev cc12_stg5_0 : Ref sig .tc := ⟨.vmem, 107, rfl⟩
abbrev cc12_stg6_0 : Ref sig .tc := ⟨.vmem, 108, rfl⟩
abbrev cc12_stg6_1 : Ref sig .tc := ⟨.vmem, 109, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem6_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem4_0 : DmaSem sig := 70
abbrev cc8_sem5_0 : DmaSem sig := 71
abbrev cc8_sem6_0 : DmaSem sig := 72
abbrev cc8_sem6_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem3_0 : DmaSem sig := 79
abbrev cc9_sem4_0 : DmaSem sig := 80
abbrev cc9_sem5_0 : DmaSem sig := 81
abbrev cc9_sem6_0 : DmaSem sig := 82
abbrev cc9_sem6_1 : DmaSem sig := 83
abbrev cc10_sem0_0 : DmaSem sig := 84
abbrev cc10_sem0_1 : DmaSem sig := 85
abbrev cc10_sem1_0 : DmaSem sig := 86
abbrev cc10_sem1_1 : DmaSem sig := 87
abbrev cc10_sem2_0 : DmaSem sig := 88
abbrev cc10_sem2_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem3_0 : DmaSem sig := 95
abbrev cc11_sem4_0 : DmaSem sig := 96
abbrev cc11_sem5_0 : DmaSem sig := 97
abbrev cc11_sem6_0 : DmaSem sig := 98
abbrev cc11_sem6_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem3_0 : DmaSem sig := 105
abbrev cc12_sem4_0 : DmaSem sig := 106
abbrev cc12_sem5_0 : DmaSem sig := 107
abbrev cc12_sem6_0 : DmaSem sig := 108
abbrev cc12_sem6_1 : DmaSem sig := 109

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![160], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S10000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![160], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S10000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_4 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_5 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S10000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

class Facts₀ : Prop where
  inb_S10000x4_S10000x4_0_0 : ∀ a, (![0, 0] : Fin 2 → Nat) a + S10000x4.size a ≤ S10000x4.size a
  h_S10000x4 : 0 < S10000x4.numel
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S10000x64_S10000x64 : S10000x64.ShapeCasts S10000x64
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S10000x4_S4x64_S10000x64_1_0_0_1_n_n_wf : DotDims.WF S10000x4 S4x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S1600000x4.size a
  hwx0_0 : ∀ i : grid0.Coords, EltTy.bits .f32 = 32 ∨ (Rect.block (s := S1600000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S1600000x64.size a
  hwx0_3 : ∀ i : grid0.Coords, EltTy.bits .f32 = 32 ∨ (Rect.block (s := S1600000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1600000x64.size a
  hwx1_1 : ∀ i : grid1.Coords, EltTy.bits .f32 = 32 ∨ (Rect.block (s := S1600000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1600000x64.size a
  hwx1_2 : ∀ i : grid1.Coords, EltTy.bits .f32 = 32 ∨ (Rect.block (s := S1600000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1600000x64.size a
  hwx4_0 : ∀ i : grid4.Coords, EltTy.bits .f32 = 32 ∨ (Rect.block (s := S1600000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1600000x64.size a
  hwx4_1 : ∀ i : grid4.Coords, EltTy.bits .f32 = 32 ∨ (Rect.block (s := S1600000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1600000x64.size a
  hwx4_2 : ∀ i : grid4.Coords, EltTy.bits .f32 = 32 ∨ (Rect.block (s := S1600000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64.size a ≤ S64.size a
  hwx6_5 : ∀ i : grid6.Coords, EltTy.bits .f32 = 32 ∨ (Rect.block (s := S64) S64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S1600000x64.size a
  hwx7_0 : ∀ i : grid7.Coords, EltTy.bits .f32 = 32 ∨ (Rect.block (s := S1600000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S1600000x64.size a
  hwx7_1 : ∀ i : grid7.Coords, EltTy.bits .f32 = 32 ∨ (Rect.block (s := S1600000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S1600000x64.size a
  hwx7_2 : ∀ i : grid7.Coords, EltTy.bits .f32 = 32 ∨ (Rect.block (s := S1600000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64.size a ≤ S64.size a
  hwx8_3 : ∀ i : grid8.Coords, EltTy.bits .f32 = 32 ∨ (Rect.block (s := S64) S64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64.size a ≤ S64.size a
  hwx8_5 : ∀ i : grid8.Coords, EltTy.bits .f32 = 32 ∨ (Rect.block (s := S64) S64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64.size a ≤ S64.size a
  hwx9_2 : ∀ i : grid9.Coords, EltTy.bits .f32 = 32 ∨ (Rect.block (s := S64) S64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64.size a ≤ S64.size a
  hwx9_3 : ∀ i : grid9.Coords, EltTy.bits .f32 = 32 ∨ (Rect.block (s := S64) S64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64.size a ≤ S64.size a
  hwx9_4 : ∀ i : grid9.Coords, EltTy.bits .f32 = 32 ∨ (Rect.block (s := S64) S64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64.size a ≤ S64.size a
  hwx9_5 : ∀ i : grid9.Coords, EltTy.bits .f32 = 32 ∨ (Rect.block (s := S64) S64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x64.size a ≤ S100000x64.size a
  hwx9_6 : ∀ i : grid9.Coords, EltTy.bits .f32 = 32 ∨ (Rect.block (s := S100000x64) S10000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S1600000x64.size a
  hwx10_0 : ∀ i : grid10.Coords, EltTy.bits .f32 = 32 ∨ (Rect.block (s := S1600000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S1600000x64.size a
  hwx10_1 : ∀ i : grid10.Coords, EltTy.bits .f32 = 32 ∨ (Rect.block (s := S1600000x64) S10000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S1600000x64.size a
  hwx10_2 : ∀ i : grid10.Coords, EltTy.bits .f32 = 32 ∨ (Rect.block (s := S1600000x64) S10000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S100000x64.size a
  hwx11_1 : ∀ i : grid11.Coords, EltTy.bits .f32 = 32 ∨ (Rect.block (s := S100000x64) S10000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64.size a ≤ S64.size a
  hwx11_3 : ∀ i : grid11.Coords, EltTy.bits .f32 = 32 ∨ (Rect.block (s := S64) S64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64x64.size a ≤ S64x64.size a
  hwx11_4 : ∀ i : grid11.Coords, EltTy.bits .f32 = 32 ∨ (Rect.block (s := S64x64) S64x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64.size a ≤ S64.size a
  hwx11_5 : ∀ i : grid11.Coords, EltTy.bits .f32 = 32 ∨ (Rect.block (s := S64) S64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S10000x64.size a ≤ S100000x64.size a
  hwx11_6 : ∀ i : grid11.Coords, EltTy.bits .f32 = 32 ∨ (Rect.block (s := S100000x64) S10000x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S100000x64.size a
  hwx12_1 : ∀ i : grid12.Coords, EltTy.bits .f32 = 32 ∨ (Rect.block (s := S100000x64) S10000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64.size a ≤ S64.size a
  hwx12_2 : ∀ i : grid12.Coords, EltTy.bits .f32 = 32 ∨ (Rect.block (s := S64) S64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64.size a ≤ S64.size a
  hwx12_3 : ∀ i : grid12.Coords, EltTy.bits .f32 = 32 ∨ (Rect.block (s := S64) S64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S64.size a ≤ S64.size a
  hwx12_4 : ∀ i : grid12.Coords, EltTy.bits .f32 = 32 ∨ (Rect.block (s := S64) S64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64.size a ≤ S64.size a
  hwx12_5 : ∀ i : grid12.Coords, EltTy.bits .f32 = 32 ∨ (Rect.block (s := S64) S64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S10000x64.size a ≤ S100000x64.size a
  hwx12_6 : ∀ i : grid12.Coords, EltTy.bits .f32 = 32 ∨ (Rect.block (s := S100000x64) S10000x64.size (cc12_transform_6 i) (hinb12_6 i)).WholeWords (EltTy.packing .f32)

variable [Facts₀]

def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg1) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v20) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v29) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v36) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v29) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v48) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v49) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v52) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v55) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v57) S64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v58) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v65) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v0) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v66) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v58) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v69) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v71) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v73) S64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v75) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v77) S64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v78) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v78) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v58) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v81) S64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v82) S64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v84) S64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v86) S64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v87) S10000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v94) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v0) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v95) S10000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v87) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v98) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v100) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v102) S64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v104) S64x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v106) S64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v107) S10000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v107) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v87) S10000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v110) S64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v111) S64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v113) S64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v115) S64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v116) S10000x64.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

class Facts : Prop extends Facts₀ where

variable [Facts]
-- ==== ReferenceIdeal.lean ====
abbrev S100000x64 : Shape := ⟨2, ![100000, 64]⟩
abbrev S1600000x4 : Shape := ⟨2, ![1600000, 4]⟩
abbrev S1600000 : Shape := ⟨1, ![1600000]⟩
abbrev S4x64 : Shape := ⟨2, ![4, 64]⟩
abbrev S64 : Shape := ⟨1, ![64]⟩
abbrev S4x64x64 : Shape := ⟨3, ![4, 64, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S1x64x64 : Shape := ⟨3, ![1, 64, 64]⟩
abbrev S64x64 : Shape := ⟨2, ![64, 64]⟩

abbrev nBuf : Space → Nat
  | .hbm => 372
  | .vmem => 0
  | .smem => 0
  | _ => 0

abbrev hbmTy0_0 (i : Nat) : BufTy := match i % 128 with
  | 0 => ⟨S100000x64, .f32⟩
  | 1 => ⟨S1600000x4, .f32⟩
  | 2 => ⟨S1600000, .i32⟩
  | 3 => ⟨S1600000, .i32⟩
  | 4 => ⟨S4x64, .f32⟩
  | 5 => ⟨S64, .f32⟩
  | 6 => ⟨S4x64x64, .f32⟩
  | 7 => ⟨S4x64, .f32⟩
  | 8 => ⟨S4x64x64, .f32⟩
  | 9 => ⟨S4x64, .f32⟩
  | 10 => ⟨S4x64, .f32⟩
  | 11 => ⟨S4x64, .f32⟩
  | 12 => ⟨S1600000x64, .f32⟩
  | 13 => ⟨S1x64, .f32⟩
  | 14 => ⟨S1600000x64, .f32⟩
  | 15 => ⟨S1600000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x64, .f32⟩
  | 26 => ⟨S_, .f32⟩
  | 27 => ⟨S1600000x64, .f32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S100000x64, .f32⟩
  | 34 => ⟨S1x64x64, .f32⟩
  | 35 => ⟨S64x64, .f32⟩
  | 36 => ⟨S100000x64, .f32⟩
  | 37 => ⟨S1x64, .f32⟩
  | 38 => ⟨S64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S100000x64, .f32⟩
  | 66 => ⟨S100000x64, .f32⟩
  | 67 => ⟨S100000x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S1600000x64, .f32⟩
  | 115 => ⟨S_, .f32⟩
  | 116 => ⟨S1600000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S1x64x64, .f32⟩
  | 7 => ⟨S64x64, .f32⟩
  | 8 => ⟨S100000x64, .f32⟩
  | 9 => ⟨S1x64, .f32⟩
  | 10 => ⟨S64, .f32⟩
  | 11 => ⟨S1x64, .f32⟩
  | 12 => ⟨S100000x64, .f32⟩
  | 13 => ⟨S100000x64, .f32⟩
  | 14 => ⟨S_, .f32⟩
  | 15 => ⟨S64, .f32⟩
  | 16 => ⟨S_, .f32⟩
  | 17 => ⟨S64, .f32⟩
  | 18 => ⟨S64, .f32⟩
  | 19 => ⟨S_, .i32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S64, .f32⟩
  | 36 => ⟨S_, .f32⟩
  | 37 => ⟨S_, .i1⟩
  | 38 => ⟨S_, .f32⟩
  | 39 => ⟨S_, .f32⟩
  | 40 => ⟨S64, .f32⟩
  | 41 => ⟨S64, .f32⟩
  | 42 => ⟨S1x64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S1600000x64, .f32⟩
  | 76 => ⟨S_, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S1x64x64, .f32⟩
  | 96 => ⟨S64x64, .f32⟩
  | 97 => ⟨S100000x64, .f32⟩
  | 98 => ⟨S1x64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S_, .f32⟩
  | 106 => ⟨S64, .f32⟩
  | 107 => ⟨S64, .f32⟩
  | 108 => ⟨S_, .i32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S_, .f32⟩
  | 120 => ⟨S_, .f32⟩
  | 121 => ⟨S_, .f32⟩
  | 122 => ⟨S64, .f32⟩
  | 123 => ⟨S64, .f32⟩
  | 124 => ⟨S64, .f32⟩
  | 125 => ⟨S_, .f32⟩
  | 126 => ⟨S_, .i1⟩
  | 127 => ⟨S_, .f32⟩
  | _ => ⟨S100000x64, .f32⟩

abbrev hbmTy0_2 (i : Nat) : BufTy := match i % 128 with
  | 0 => ⟨S_, .f32⟩
  | 1 => ⟨S64, .f32⟩
  | 2 => ⟨S64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S64, .f32⟩
  | 13 => ⟨S64, .f32⟩
  | 14 => ⟨S64, .f32⟩
  | 15 => ⟨S1x64, .f32⟩
  | 16 => ⟨S100000x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1600000x64, .f32⟩
  | 37 => ⟨S_, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S1x64x64, .f32⟩
  | 57 => ⟨S64x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S_, .f32⟩
  | 67 => ⟨S64, .f32⟩
  | 68 => ⟨S64, .f32⟩
  | 69 => ⟨S_, .i32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S100000x64, .f32⟩
  | 77 => ⟨S100000x64, .f32⟩
  | 78 => ⟨S100000x64, .f32⟩
  | 79 => ⟨S_, .f32⟩
  | 80 => ⟨S_, .f32⟩
  | 81 => ⟨S_, .f32⟩
  | 82 => ⟨S_, .f32⟩
  | 83 => ⟨S64, .f32⟩
  | 84 => ⟨S64, .f32⟩
  | 85 => ⟨S64, .f32⟩
  | 86 => ⟨S_, .f32⟩
  | 87 => ⟨S_, .i1⟩
  | 88 => ⟨S_, .f32⟩
  | 89 => ⟨S_, .f32⟩
  | 90 => ⟨S64, .f32⟩
  | 91 => ⟨S64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_1 : Ref sig .tc := ⟨.hbm, 53, rfl⟩
abbrev main_v34 : Ref sig .tc := ⟨.hbm, 54, rfl⟩
abbrev main_cst_2 : Ref sig .tc := ⟨.hbm, 55, rfl⟩
abbrev main_v35 : Ref sig .tc := ⟨.hbm, 56, rfl⟩
abbrev main_v36 : Ref sig .tc := ⟨.hbm, 57, rfl⟩
abbrev main_c_3 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_cst_1 : Ref sig .tc := ⟨.hbm, 69, rfl⟩
abbrev main_call2_v8 : Ref sig .tc := ⟨.hbm, 70, rfl⟩
abbrev main_call2_cst_2 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_cst_3 : Ref sig .tc := ⟨.hbm, 75, rfl⟩
abbrev main_call2_v12 : Ref sig .tc := ⟨.hbm, 76, rfl⟩
abbrev main_call2_cst_4 : Ref sig .tc := ⟨.hbm, 77, rfl⟩
abbrev main_call2_call0_v0 : Ref sig .tc := ⟨.hbm, 78, rfl⟩
abbrev main_call2_call0_v1 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_4 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call3_cst : Ref sig .tc := ⟨.hbm, 101, rfl⟩
abbrev main_call3_v0 : Ref sig .tc := ⟨.hbm, 102, rfl⟩
abbrev main_v57 : Ref sig .tc := ⟨.hbm, 103, rfl⟩
abbrev main_v58 : Ref sig .tc := ⟨.hbm, 104, rfl⟩
abbrev main_c_5 : Ref sig .tc := ⟨.hbm, 105, rfl⟩
abbrev main_v59 : Ref sig .tc := ⟨.hbm, 106, rfl⟩
abbrev main_v60 : Ref sig .tc := ⟨.hbm, 107, rfl⟩
abbrev main_c_6 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_call4_cst : Ref sig .tc := ⟨.hbm, 115, rfl⟩
abbrev main_call4_v0 : Ref sig .tc := ⟨.hbm, 116, rfl⟩
abbrev main_v67 : Ref sig .tc := ⟨.hbm, 117, rfl⟩
abbrev main_cst_7 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_call5_cst : Ref sig .tc := ⟨.hbm, 131, rfl⟩
abbrev main_call5_v0 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_8 : Ref sig .tc := ⟨.hbm, 142, rfl⟩
abbrev main_v89 : Ref sig .tc := ⟨.hbm, 143, rfl⟩
abbrev main_cst_9 : Ref sig .tc := ⟨.hbm, 144, rfl⟩
abbrev main_v90 : Ref sig .tc := ⟨.hbm, 145, rfl⟩
abbrev main_v91 : Ref sig .tc := ⟨.hbm, 146, rfl⟩
abbrev main_c_10 : Ref sig .tc := ⟨.hbm, 147, rfl⟩
abbrev main_call6_cst : Ref sig .tc := ⟨.hbm, 148, rfl⟩
abbrev main_call6_v0 : Ref sig .tc := ⟨.hbm, 149, rfl⟩
abbrev main_call6_v1 : Ref sig .tc := ⟨.hbm, 150, rfl⟩
abbrev main_call6_cst_0 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_v5 : Ref sig .tc := ⟨.hbm, 155, rfl⟩
abbrev main_call6_v6 : Ref sig .tc := ⟨.hbm, 156, rfl⟩
abbrev main_call6_v7 : Ref sig .tc := ⟨.hbm, 157, rfl⟩
abbrev main_call6_cst_1 : Ref sig .tc := ⟨.hbm, 158, rfl⟩
abbrev main_call6_v8 : Ref sig .tc := ⟨.hbm, 159, rfl⟩
abbrev main_call6_cst_2 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_cst_3 : Ref sig .tc := ⟨.hbm, 164, rfl⟩
abbrev main_call6_v12 : Ref sig .tc := ⟨.hbm, 165, rfl⟩
abbrev main_call6_cst_4 : Ref sig .tc := ⟨.hbm, 166, rfl⟩
abbrev main_call6_call0_v0 : Ref sig .tc := ⟨.hbm, 167, rfl⟩
abbrev main_call6_call0_v1 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_cst_11 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_call7_cst : Ref sig .tc := ⟨.hbm, 190, rfl⟩
abbrev main_call7_v0 : Ref sig .tc := ⟨.hbm, 191, rfl⟩
abbrev main_v112 : Ref sig .tc := ⟨.hbm, 192, rfl⟩
abbrev main_v113 : Ref sig .tc := ⟨.hbm, 193, rfl⟩
abbrev main_c_12 : Ref sig .tc := ⟨.hbm, 194, rfl⟩
abbrev main_v114 : Ref sig .tc := ⟨.hbm, 195, rfl⟩
abbrev main_v115 : Ref sig .tc := ⟨.hbm, 196, rfl⟩
abbrev main_c_13 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_call8_cst : Ref sig .tc := ⟨.hbm, 204, rfl⟩
abbrev main_call8_v0 : Ref sig .tc := ⟨.hbm, 205, rfl⟩
abbrev main_v122 : Ref sig .tc := ⟨.hbm, 206, rfl⟩
abbrev main_cst_14 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_call9_cst : Ref sig .tc := ⟨.hbm, 220, rfl⟩
abbrev main_call9_v0 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_cst_15 : Ref sig .tc := ⟨.hbm, 231, rfl⟩
abbrev main_v144 : Ref sig .tc := ⟨.hbm, 232, rfl⟩
abbrev main_cst_16 : Ref sig .tc := ⟨.hbm, 233, rfl⟩
abbrev main_v145 : Ref sig .tc := ⟨.hbm, 234, rfl⟩
abbrev main_v146 : Ref sig .tc := ⟨.hbm, 235, rfl⟩
abbrev main_c_17 : Ref sig .tc := ⟨.hbm, 236, rfl⟩
abbrev main_call10_cst : Ref sig .tc := ⟨.hbm, 237, rfl⟩
abbrev main_call10_v0 : Ref sig .tc := ⟨.hbm, 238, rfl⟩
abbrev main_call10_v1 : Ref sig .tc := ⟨.hbm, 239, rfl⟩
abbrev main_call10_cst_0 : Ref sig .tc := ⟨.hbm, 240, rfl⟩
abbrev main_call10_v2 : Ref sig .tc := ⟨.hbm, 241, rfl⟩
abbrev main_call10_v3 : Ref sig .tc := ⟨.hbm, 242, rfl⟩
abbrev main_call10_v4 : Ref sig .tc := ⟨.hbm, 243, rfl⟩
abbrev main_call10_v5 : Ref sig .tc := ⟨.hbm, 244, rfl⟩
abbrev main_call10_v6 : Ref sig .tc := ⟨.hbm, 245, rfl⟩
abbrev main_call10_v7 : Ref sig .tc := ⟨.hbm, 246, rfl⟩
abbrev main_call10_cst_1 : Ref sig .tc := ⟨.hbm, 247, rfl⟩
abbrev main_call10_v8 : Ref sig .tc := ⟨.hbm, 248, rfl⟩
abbrev main_call10_cst_2 : Ref sig .tc := ⟨.hbm, 249, rfl⟩
abbrev main_call10_v9 : Ref sig .tc := ⟨.hbm, 250, rfl⟩
abbrev main_call10_v10 : Ref sig .tc := ⟨.hbm, 251, rfl⟩
abbrev main_call10_v11 : Ref sig .tc := ⟨.hbm, 252, rfl⟩
abbrev main_call10_cst_3 : Ref sig .tc := ⟨.hbm, 253, rfl⟩
abbrev main_call10_v12 : Ref sig .tc := ⟨.hbm, 254, rfl⟩
abbrev main_call10_cst_4 : Ref sig .tc := ⟨.hbm, 255, rfl⟩
abbrev main_call10_call0_v0 : Ref sig .tc := ⟨.hbm, 256, rfl⟩
abbrev main_call10_call0_v1 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_18 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_call11_cst : Ref sig .tc := ⟨.hbm, 279, rfl⟩
abbrev main_call11_v0 : Ref sig .tc := ⟨.hbm, 280, rfl⟩
abbrev main_v167 : Ref sig .tc := ⟨.hbm, 281, rfl⟩
abbrev main_v168 : Ref sig .tc := ⟨.hbm, 282, rfl⟩
abbrev main_c_19 : Ref sig .tc := ⟨.hbm, 283, rfl⟩
abbrev main_v169 : Ref sig .tc := ⟨.hbm, 284, rfl⟩
abbrev main_v170 : Ref sig .tc := ⟨.hbm, 285, rfl⟩
abbrev main_c_20 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_call12_cst : Ref sig .tc := ⟨.hbm, 293, rfl⟩
abbrev main_call12_v0 : Ref sig .tc := ⟨.hbm, 294, rfl⟩
abbrev main_v177 : Ref sig .tc := ⟨.hbm, 295, rfl⟩
abbrev main_cst_21 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_call13_cst : Ref sig .tc := ⟨.hbm, 309, rfl⟩
abbrev main_call13_v0 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_cst_22 : Ref sig .tc := ⟨.hbm, 320, rfl⟩
abbrev main_v199 : Ref sig .tc := ⟨.hbm, 321, rfl⟩
abbrev main_cst_23 : Ref sig .tc := ⟨.hbm, 322, rfl⟩
abbrev main_v200 : Ref sig .tc := ⟨.hbm, 323, rfl⟩
abbrev main_v201 : Ref sig .tc := ⟨.hbm, 324, rfl⟩
abbrev main_c_24 : Ref sig .tc := ⟨.hbm, 325, rfl⟩
abbrev main_call14_cst : Ref sig .tc := ⟨.hbm, 326, rfl⟩
abbrev main_call14_v0 : Ref sig .tc := ⟨.hbm, 327, rfl⟩
abbrev main_call14_v1 : Ref sig .tc := ⟨.hbm, 328, rfl⟩
abbrev main_call14_cst_0 : Ref sig .tc := ⟨.hbm, 329, rfl⟩
abbrev main_call14_v2 : Ref sig .tc := ⟨.hbm, 330, rfl⟩
abbrev main_call14_v3 : Ref sig .tc := ⟨.hbm, 331, rfl⟩
abbrev main_call14_v4 : Ref sig .tc := ⟨.hbm, 332, rfl⟩
abbrev main_call14_v5 : Ref sig .tc := ⟨.hbm, 333, rfl⟩
abbrev main_call14_v6 : Ref sig .tc := ⟨.hbm, 334, rfl⟩
abbrev main_call14_v7 : Ref sig .tc := ⟨.hbm, 335, rfl⟩
abbrev main_call14_cst_1 : Ref sig .tc := ⟨.hbm, 336, rfl⟩
abbrev main_call14_v8 : Ref sig .tc := ⟨.hbm, 337, rfl⟩
abbrev main_call14_cst_2 : Ref sig .tc := ⟨.hbm, 338, rfl⟩
abbrev main_call14_v9 : Ref sig .tc := ⟨.hbm, 339, rfl⟩
abbrev main_call14_v10 : Ref sig .tc := ⟨.hbm, 340, rfl⟩
abbrev main_call14_v11 : Ref sig .tc := ⟨.hbm, 341, rfl⟩
abbrev main_call14_cst_3 : Ref sig .tc := ⟨.hbm, 342, rfl⟩
abbrev main_call14_v12 : Ref sig .tc := ⟨.hbm, 343, rfl⟩
abbrev main_call14_cst_4 : Ref sig .tc := ⟨.hbm, 344, rfl⟩
abbrev main_call14_call0_v0 : Ref sig .tc := ⟨.hbm, 345, rfl⟩
abbrev main_call14_call0_v1 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩
abbrev main_v206 : Ref sig .tc := ⟨.hbm, 351, rfl⟩
abbrev main_v207 : Ref sig .tc := ⟨.hbm, 352, rfl⟩
abbrev main_v208 : Ref sig .tc := ⟨.hbm, 353, rfl⟩
abbrev main_v209 : Ref sig .tc := ⟨.hbm, 354, rfl⟩
abbrev main_v210 : Ref sig .tc := ⟨.hbm, 355, rfl⟩
abbrev main_cst_25 : Ref sig .tc := ⟨.hbm, 356, rfl⟩
abbrev main_v211 : Ref sig .tc := ⟨.hbm, 357, rfl⟩
abbrev main_v212 : Ref sig .tc := ⟨.hbm, 358, rfl⟩
abbrev main_v213 : Ref sig .tc := ⟨.hbm, 359, rfl⟩
abbrev main_v214 : Ref sig .tc := ⟨.hbm, 360, rfl⟩
abbrev main_v215 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_v220 : Ref sig .tc := ⟨.hbm, 366, rfl⟩
abbrev main_v221 : Ref sig .tc := ⟨.hbm, 367, rfl⟩
abbrev main_call15_cst : Ref sig .tc := ⟨.hbm, 368, rfl⟩
abbrev main_call15_v0 : Ref sig .tc := ⟨.hbm, 369, rfl⟩
abbrev main_v222 : Ref sig .tc := ⟨.hbm, 370, rfl⟩
abbrev main_v223 : Ref sig .tc := ⟨.hbm, 371, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S1600000x4_S4x64_S1600000x64_1_0_0_1_n_n_wf : DotDims.WF S1600000x4 S4x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x4_S4x64_S1600000x64_1_0_0_1_n_n : DotDims S1600000x4 S4x64 S1600000x64 where
  lhsContracting := [1]
  rhsContracting := [0]
  lhsNonContracting := [0]
  rhsNonContracting := [1]
  lhsBatch := []
  rhsBatch := []
  wf := dot_S1600000x4_S4x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run, with the final memory NAMED.  @main is thirteen kernel regions among stretches of
  host operations; the buffer contents at each boundary are a fold from the launch memory (a host stretch applies its
  operations, a region replaces its arrays by what its write-backs leave).  Every weakly fair execution terminates and
  every unscoped buffer ends at the last boundary's contents; the value of the result is then read off that fold.
-/
import proofs.«166775_j9826885173932_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped TensorCore buffer ends at
    the contents the last region leaves: the segments run in order, and the last thread state is read against the
    final memory. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h => h)

end Cert.KernelIdeal.KRun

end
-- ==== Proof.BnLaw.lean ====
/-
  The scalar facts behind the batch-norm step.  On the extended reals, multiplying by the reciprocal square root of
  `w` and dividing by the square root of `w` agree whenever `0 < w` (a positive real, or +∞ where both sides are 0);
  they differ at 0, at negative reals and at −∞.  The variance-plus-epsilon of a column is always such a `w`: a
  variance is a sum of squares divided by a positive count, and a square is never negative on the extended reals.
  The float literals that these facts need as numbers are read here, once.
-/
import Idealize.ShloMosaic.PureOps.Ideal

noncomputable section

namespace Cert.BnLaw

open Idealize.ShloMosaic

/-- The literal `100000.0` denotes the real 100000. -/
theorem ofBits_1e5 : Ideal.ofBits .f32 0x47C35000#32 = ((100000 : ℝ) : EReal) := by
  simp [Ideal.ofBits, Ideal.ieee, -EReal.coe_mul]; norm_num

/-- The batch-norm epsilon literal denotes a positive real. -/
theorem eps_pos : ∃ e : ℝ, 0 < e ∧ Ideal.ofBits .f32 0x3727C5AC#32 = ((e : ℝ) : EReal) := by
  refine ⟨10995116 / 1099511627776, by norm_num, ?_⟩
  simp [Ideal.ofBits, Ideal.ieee, -EReal.coe_mul]; norm_num

/-- Dividing by the square root is multiplying by the reciprocal square root, at every positive `w`. -/
theorem mul_rsqrt_eq_div_sqrt (x w : EReal) (hw : 0 < w) : x * Ideal.rsqrt w = Ideal.div x (Ideal.sqrt w) := by
  induction w using EReal.rec with
  | bot => exact absurd hw (by simp)
  | top => simp [Ideal.div]
  | coe r =>
    have hr : 0 < r := by exact_mod_cast hw
    have hs : 0 < Real.sqrt r := Real.sqrt_pos.2 hr
    have hs0 : ((Real.sqrt r : ℝ) : EReal) ≠ 0 := by exact_mod_cast hs.ne'
    simp only [Ideal.rsqrt_coe, Ideal.sqrt_coe, not_lt.2 hr.le, hr.ne', if_false, Ideal.div, hs0]
    rw [EReal.coe_inv]

end Cert.BnLaw

end
-- ==== Proof.Spec.lean ====
/-
  What each kernel of the graph network computes, as ONE function of whole arrays, index by index on the extended
  reals.  Nodes are rows of an N × 64 array, edges rows of an E × 64 array; every function is generic in the number of
  rows, because each reads row r of its row-indexed inputs only: a block of rows of the result is the same function of
  the same block of rows of the inputs, which is what lets the kernels compute it tile by tile.
    * the edge transform: row e of the edge features times the 4 × 64 weight, plus the bias;
    * the message: relu of the gathered source row plus the transformed edge row;
    * the two-layer perceptron on (h + agg): relu(z·W1 + b1)·W2 + b2, row by row;
    * batch-norm, relu and residual: the kernel multiplies by the reciprocal square root of (var + ε), the
      reference divides by the square root of (var + ε); the two agree column by column as soon as var ≥ 0.
  A layer is these composed with the gather, the scatter-add and the batch statistics, which both programs compute by
  the same host operations: those enter as opaque functions.
-/
import Idealize.ShloMosaic.PureOps.Ideal
import Idealize.ShloMosaic.Lib.ValueIdx
import proofs.«166775_j9826885173932_2_alg».proof.Proof.BnLaw

noncomputable section

namespace Cert.Gine

open Idealize.ShloMosaic Idealize.ShloMosaic.ValueIdx

/-- The float zero word, kept as a word: both programs spell it, neither side evaluates it. -/
abbrev Z : EReal := Ideal.ofBits .f32 0x00000000#32
/-- The batch-norm epsilon word. -/
abbrev EPS : EReal := Ideal.ofBits .f32 0x3727C5AC#32

/-- Arrays of extended reals of r rows and c columns, and vectors of n entries. -/
abbrev Mat (r c : Nat) : Type := (⟨2, ![r, c]⟩ : Shape).Idx → EReal
abbrev Col (n : Nat) : Type := (⟨1, ![n]⟩ : Shape).Idx → EReal

/-- The transformed edge features: edge row times weight, plus bias. -/
def edgeF {E : Nat} (ef : Mat E 4) (we : Mat 4 64) (be : Col 64) : Mat E 64 :=
  fun i => (∑ k : Fin 4, ef (ix2 (i 0) k) * we (ix2 k (i 1))) + be (ix1 (i 1))

/-- The message: relu of source row plus edge row. -/
def msgF {E : Nat} (hs ee : Mat E 64) : Mat E 64 := fun i => max (hs i + ee i) Z

/-- The hidden layer at row r, unit k: relu((h + agg)·W1 + b1). -/
def hidF {N : Nat} (h agg : Mat N 64) (w1 : Mat 64 64) (b1 : Col 64) (r : Fin N) (k : Fin 64) : EReal :=
  max ((∑ k' : Fin 64, (h (ix2 r k') + agg (ix2 r k')) * w1 (ix2 k' k)) + b1 (ix1 k)) Z

/-- The perceptron's output: hidden·W2 + b2. -/
def mlpF {N : Nat} (h agg : Mat N 64) (w1 : Mat 64 64) (b1 : Col 64) (w2 : Mat 64 64) (b2 : Col 64) : Mat N 64 :=
  fun i => (∑ k : Fin 64, hidF h agg w1 b1 (i 0) k * w2 (ix2 k (i 1))) + b2 (ix1 (i 1))

/-- Normalise, rectify, add the residual — the kernel's way: times the reciprocal root. -/
def bnMulF {N : Nat} (z h : Mat N 64) (mu var g b : Col 64) : Mat N 64 :=
  fun i => max (g (ix1 (i 1)) * (z i - mu (ix1 (i 1))) * Ideal.rsqrt (var (ix1 (i 1)) + EPS) + b (ix1 (i 1))) Z + h i

/-- The same the reference's way: divided by the root. -/
def bnDivF {N : Nat} (z h : Mat N 64) (mu var g b : Col 64) : Mat N 64 :=
  fun i => max (Ideal.div (g (ix1 (i 1)) * (z i - mu (ix1 (i 1)))) (Ideal.sqrt (var (ix1 (i 1)) + EPS)) + b (ix1 (i 1))) Z + h i

/-- A nonnegative variance plus the positive epsilon is positive. -/
theorem var_eps_pos (v : EReal) (hv : 0 ≤ v) : 0 < v + EPS := by
  obtain ⟨e, he, hE⟩ := Cert.BnLaw.eps_pos
  show 0 < v + Ideal.ofBits .f32 0x3727C5AC#32
  rw [hE]
  have h0 : (0 : EReal) < (e : EReal) := by exact_mod_cast he
  exact lt_of_lt_of_le h0 (le_add_of_nonneg_left hv)

/-- The two batch-norm forms agree wherever the variance is nonnegative. -/
theorem bnMulF_eq_bnDivF {N : Nat} (z h : Mat N 64) (mu var g b : Col 64) (hvar : ∀ j, 0 ≤ var j) :
    bnMulF z h mu var g b = bnDivF z h mu var g b := by
  funext i
  unfold bnMulF bnDivF
  rw [Cert.BnLaw.mul_rsqrt_eq_div_sqrt _ _ (var_eps_pos _ (hvar _))]

/-- One message-passing layer, the kernel's way.  `gath` gathers source rows, `scat` scatter-adds messages into
    destination rows, `mean` and `vari` are the column statistics: the host's own operations, opaque here. -/
def layerMul {N E : Nat} (gath : Mat N 64 → Mat E 64) (scat : Mat E 64 → Mat N 64) (mean vari : Mat N 64 → Col 64)
    (w1 : Mat 64 64) (b1 : Col 64) (w2 : Mat 64 64) (b2 g b : Col 64) (ee : Mat E 64) (h : Mat N 64) : Mat N 64 :=
  bnMulF (mlpF h (scat (msgF (gath h) ee)) w1 b1 w2 b2) h
    (mean (mlpF h (scat (msgF (gath h) ee)) w1 b1 w2 b2)) (vari (mlpF h (scat (msgF (gath h) ee)) w1 b1 w2 b2)) g b

/-- The same layer the reference's way. -/
def layerDiv {N E : Nat} (gath : Mat N 64 → Mat E 64) (scat : Mat E 64 → Mat N 64) (mean vari : Mat N 64 → Col 64)
    (w1 : Mat 64 64) (b1 : Col 64) (w2 : Mat 64 64) (b2 g b : Col 64) (ee : Mat E 64) (h : Mat N 64) : Mat N 64 :=
  bnDivF (mlpF h (scat (msgF (gath h) ee)) w1 b1 w2 b2) h
    (mean (mlpF h (scat (msgF (gath h) ee)) w1 b1 w2 b2)) (vari (mlpF h (scat (msgF (gath h) ee)) w1 b1 w2 b2)) g b

/-- The two layers are one function as soon as the variance statistic is never negative. -/
theorem layerMul_eq_layerDiv {N E : Nat} (gath : Mat N 64 → Mat E 64) (scat : Mat E 64 → Mat N 64) (mean vari : Mat N 64 → Col 64)
    (hvar : ∀ z j, 0 ≤ vari z j)
    (w1 : Mat 64 64) (b1 : Col 64) (w2 : Mat 64 64) (b2 g b : Col 64) (ee : Mat E 64) (h : Mat N 64) :
    layerMul gath scat mean vari w1 b1 w2 b2 g b ee h = layerDiv gath scat mean vari w1 b1 w2 b2 g b ee h :=
  bnMulF_eq_bnDivF _ _ _ _ _ _ (hvar _)

end Cert.Gine

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Edge0.lean ====
/-
  Region 0 (the edge transform): the array it leaves.  Each grid point reads block t (10000 rows) of the edge features,
  the whole 4 × 64 weight and the whole bias, and writes back block t of  features·weight + bias.  Row e of the result
  reads row e of the features only, and the blocks are consecutive row ranges tiling the 1600000 rows: the array
  after the region is that function of the whole arrays.
-/
import proofs.«166775_j9826885173932_2_alg».proof.Proof.Gen.KernelIdeal.Frame
import proofs.«166775_j9826885173932_2_alg».proof.Proof.Spec
import proofs.«166775_j9826885173932_2_alg».proof.Proof.LibPlainDot
import Idealize.ShloMosaic.Lib.Pipeline.Value
import Idealize.ShloMosaic.Lib.ValueLayout

set_option maxRecDepth 16384

noncomputable section

namespace Cert.KernelIdeal.Edge0

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The kernel's product of a 10000 × 4 block by the 4 × 64 weight, at an entry: a sum of four products. -/
theorem mm (l : FVec Ideal S10000x4 .f32) (r : FVec Ideal S4x64 .f32) (a : Fin 10000) (b : Fin 64) :
    matmul dot_S10000x4_S4x64_S10000x64_1_0_0_1_n_n none l r (constant S10000x64 .f32 0x00000000#32) (ix2 a b)
      = ∑ k : Fin 4, l (ix2 a k) * r (ix2 k b) :=
  Cert.LibPlainDot.matmul_zero_apply (M := 10000) (K := 4) (N := 64) dot_S10000x4_S4x64_S10000x64_1_0_0_1_n_n rfl rfl rfl rfl
    (fun _ _ => rfl) (fun _ _ => rfl) none l r a b

/-- The body's stored value, entry by entry: the edge transform of its loaded blocks. -/
theorem pay_eq (x0 : Vec Ideal S10000x4 .f32) (x1 : Vec Ideal S4x64 .f32) (x2 : Vec Ideal S64 .f32) :
    k0_pay1 x0 x1 x2 = edgeF (E := 10000) x0 x1 x2 := by
  funext j
  obtain ⟨p, q, rfl⟩ : ∃ (p : Fin 10000) (q : Fin 64), j = ix2 p q := ⟨j 0, j 1, eq_ix2 j⟩
  unfold k0_pay1
  simp only [addf_apply, broadcastTo_1b_ab_apply, shapeCast_a_1a_apply, mm]
  rfl

/-- The printed index maps, decided over the grid: features and result move together, block t at row-block t; weight
    and bias are read whole. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row r, column k of the features' block at point t is row (the output block's row) of the features array. -/
theorem rd0 (c : Dev nD) (t : Fin cfg0.N) (j : ((cfg0.win 3).xblock (cfg0.grid.coords t)).Idx) (k : Fin 4) :
    iblk0 V c 0 t (ix2 (j 0) k) = V c (Pipeline.arrRef spec0 0) (ix2 ((((cfg0.win 3).blk t).view.emb j) 0) k) := by
  obtain ⟨e0, e1, e2, e3, e4, e5, e6⟩ := idx_facts t
  refine (show iblk0 V c 0 t (ix2 (j 0) k) = V c (Pipeline.arrRef spec0 0) (((cfg0.win 0).blk t).view.emb (ix2 (j 0) k)) from rfl).trans
    (congrArg (V c (Pipeline.arrRef spec0 0)) ?_)
  funext a; apply Fin.ext
  match a with
  | ⟨0, _⟩ => show win0_0.index t (0 : Fin 2) * 10000 + 1 * (j 0).val = win0_3.index t (0 : Fin 2) * 10000 + 1 * (j 0).val; omega
  | ⟨1, _⟩ => show win0_0.index t (1 : Fin 2) * 4 + 1 * k.val = k.val; omega

/-- The weight is read whole at every point. -/
theorem rd1 (c : Dev nD) (t : Fin cfg0.N) (y : S4x64.Idx) : iblk0 V c 1 t y = V c (Pipeline.arrRef spec0 1) y := by
  obtain ⟨e0, e1, e2, e3, e4, e5, e6⟩ := idx_facts t
  refine (show iblk0 V c 1 t y = V c (Pipeline.arrRef spec0 1) (((cfg0.win 1).blk t).view.emb y) from rfl).trans
    (congrArg (V c (Pipeline.arrRef spec0 1)) ?_)
  funext a; apply Fin.ext
  match a with
  | ⟨0, _⟩ => show win0_1.index t (0 : Fin 2) * 4 + 1 * (y 0).val = (y 0).val; omega
  | ⟨1, _⟩ => show win0_1.index t (1 : Fin 2) * 64 + 1 * (y 1).val = (y 1).val; omega

/-- The bias is read whole at every point. -/
theorem rd2 (c : Dev nD) (t : Fin cfg0.N) (y : S64.Idx) : iblk0 V c 2 t y = V c (Pipeline.arrRef spec0 2) y := by
  obtain ⟨e0, e1, e2, e3, e4, e5, e6⟩ := idx_facts t
  refine (show iblk0 V c 2 t y = V c (Pipeline.arrRef spec0 2) (((cfg0.win 2).blk t).view.emb y) from rfl).trans
    (congrArg (V c (Pipeline.arrRef spec0 2)) ?_)
  funext a; apply Fin.ext
  match a with
  | ⟨0, _⟩ => show win0_2.index t (0 : Fin 1) * 64 + 1 * (y 0).val = (y 0).val; omega

/-- The column of an element of the output's block is its column inside the block. -/
theorem col_eq (t : Fin cfg0.N) (j : ((cfg0.win 3).xblock (cfg0.grid.coords t)).Idx) :
    (((cfg0.win 3).blk t).view.emb j) 1 = j 1 := by
  obtain ⟨e0, e1, e2, e3, e4, e5, e6⟩ := idx_facts t
  exact Fin.ext (by show win0_3.index t (1 : Fin 2) * 64 + 1 * (j 1).val = (j 1).val; omega)

/-- What point t writes back is block t of the edge transform of the arrays as the region finds them. -/
theorem flushed_eq (c : Dev nD) (t : Fin cfg0.N) :
    (dat0 V c).flushed 3 t = ((cfg0.win 3).blk t).view.read (Elt Ideal)
      (edgeF (E := 1600000) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S10000x4) hz2, View.ld_unit_zero (S := S4x64) hz2, View.ld_unit_zero (S := S64) hz1]
  rw [pay_eq]
  funext j
  show edgeF (E := 10000) (iblk0 V c 0 t) (iblk0 V c 1 t) (iblk0 V c 2 t) j
     = edgeF (E := 1600000) (V c (Pipeline.arrRef spec0 0)) (V c (Pipeline.arrRef spec0 1)) (V c (Pipeline.arrRef spec0 2)) (((cfg0.win 3).blk t).view.emb j)
  unfold edgeF
  simp only [rd0 V c t j, rd1 V c t, rd2 V c t, col_eq t j]

/-- An index of the array is in point t's block iff each coordinate is in the block's range on its axis. -/
theorem mem_blk (t : Fin cfg0.N) (i : S1600000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Every row is in the block of the point numbered by its row-block. -/
theorem cover (i : S1600000x64.Idx) : ∃ t : Fin cfg0.N, (cfg0.win 3).flush t = true ∧ i ∈ ((cfg0.win 3).blk t).view.set := by
  have hN : grid0.N = 160 := N_0
  have hi0 : (i 0).val < 1600000 := (i 0).isLt
  have hi1 : (i 1).val < 64 := (i 1).isLt
  let t : Fin cfg0.N := ⟨(i 0).val / 10000, by show _ < grid0.N; omega⟩
  obtain ⟨e0, e1, e2, e3, e4, e5, e6⟩ := idx_facts t
  have e5' : win0_3.index t (0 : Fin 2) = (i 0).val / 10000 := e5
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE ARRAY after the region: the edge transform of the three arrays the region found. -/
theorem final (c : Dev nD) : (dat0 V c).arrAt 3 cfg0.N
    = edgeF (E := 1600000) (V c (Pipeline.arrRef spec0 0)) (V c (Pipeline.arrRef spec0 1)) (V c (Pipeline.arrRef spec0 2)) :=
  (dat0 V c).arrAt_eq_of_cover 3 _ (fun t _ => flushed_eq V c t) (cover)

end Cert.KernelIdeal.Edge0

end
-- ==== Proof.Msg1.lean ====
/-
  Region 1 (the message kernel): the array it leaves.  Each grid point reads block t of the gathered source rows and
  block t of the transformed edge rows (10000 rows each), and writes back block t of relu(source + edge).  The blocks
  are consecutive row ranges that tile the 1600000 rows, and the message is pointwise, so the array after the region
  is the message function of the two whole arrays the region found.
-/
import proofs.«166775_j9826885173932_2_alg».proof.Proof.Gen.KernelIdeal.Frame
import proofs.«166775_j9826885173932_2_alg».proof.Proof.Spec
import Idealize.ShloMosaic.Lib.Pipeline.Value

set_option maxRecDepth 16384

noncomputable section

namespace Cert.KernelIdeal.Msg1

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the message function of its two loaded blocks. -/
theorem pay_eq (x0 x1 : Vec Ideal S10000x64 .f32) : k1_pay1 x0 x1 = msgF (E := 10000) x0 x1 := by
  funext j
  unfold k1_pay1
  simp only [shapeCast_self]
  rfl

/-- The printed index maps, decided over the grid: all three windows move together, block t at row-block t. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What point t writes back is block t of the message function of the arrays as the region finds them. -/
theorem flushed_eq (c : Dev nD) (t : Fin cfg1.N) :
    (dat1 V c).flushed 2 t = ((cfg1.win 2).blk t).view.read (Elt Ideal)
      (msgF (E := 1600000) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x64) hz]
  rw [pay_eq]
  obtain ⟨e0, e1, e2, e3, e4, e5⟩ := idx_facts t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  have hA : iblk1 V c 0 t j = V c (Pipeline.arrRef spec1 0) (((cfg1.win 2).blk t).view.emb j) := by
    show V c (Pipeline.arrRef spec1 0) (((cfg1.win 0).blk t).view.emb j) = _
    rw [h0]
  have hB : iblk1 V c 1 t j = V c (Pipeline.arrRef spec1 1) (((cfg1.win 2).blk t).view.emb j) := by
    show V c (Pipeline.arrRef spec1 1) (((cfg1.win 1).blk t).view.emb j) = _
    rw [h1]
  show msgF (E := 10000) (iblk1 V c 0 t) (iblk1 V c 1 t) j
     = msgF (E := 1600000) (V c (Pipeline.arrRef spec1 0)) (V c (Pipeline.arrRef spec1 1)) (((cfg1.win 2).blk t).view.emb j)
  unfold msgF
  rw [hA, hB]

/-- An index of the array is in point t's block iff each coordinate is in the block's range on its axis. -/
theorem mem_blk (t : Fin cfg1.N) (i : S1600000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v8).slice (win1_2.rect t)).set ↔ _
  rw [View.set_slice_whole, Rect.mem_set_unit]
  exact Iff.rfl

/-- Every row is in the block of the point numbered by its row-block. -/
theorem cover (i : S1600000x64.Idx) : ∃ t : Fin cfg1.N, (cfg1.win 2).flush t = true ∧ i ∈ ((cfg1.win 2).blk t).view.set := by
  have hN : grid1.N = 160 := N_1
  have hi0 : (i 0).val < 1600000 := (i 0).isLt
  have hi1 : (i 1).val < 64 := (i 1).isLt
  let t : Fin cfg1.N := ⟨(i 0).val / 10000, by show _ < grid1.N; omega⟩
  obtain ⟨e0, e1, e2, e3, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE ARRAY after the region: the message function of the two arrays the region found. -/
theorem final (c : Dev nD) : (dat1 V c).arrAt 2 cfg1.N
    = msgF (E := 1600000) (V c (Pipeline.arrRef spec1 0)) (V c (Pipeline.arrRef spec1 1)) :=
  (dat1 V c).arrAt_eq_of_cover 2 _ (fun t _ => flushed_eq V c t) (cover)

end Cert.KernelIdeal.Msg1

end
-- ==== Proof.Mlp2.lean ====
/-
  Region 2 (the two-layer perceptron): the array it leaves.  Each grid point reads block t (10000 rows) of the layer's
  input h and of the aggregated messages, and the whole weights and biases; it writes back block t of
  relu((h + agg)·W1 + b1)·W2 + b2.  The kernel rounds to bf16 on the way into each product: on the extended reals a
  change of float format is the identity.  Row r of the result reads row r of h and agg only, and the blocks are
  consecutive row ranges tiling the 100000 rows: the array after the region is that function of the whole arrays.
-/
import proofs.«166775_j9826885173932_2_alg».proof.Proof.Gen.KernelIdeal.Frame
import proofs.«166775_j9826885173932_2_alg».proof.Proof.Spec
import proofs.«166775_j9826885173932_2_alg».proof.Proof.LibPlainDot
import Idealize.ShloMosaic.Lib.Pipeline.Value
import Idealize.ShloMosaic.Lib.ValueLayout

set_option maxRecDepth 16384

noncomputable section

namespace Cert.KernelIdeal.Mlp2

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The kernel's product of a 10000 × 64 block by a 64 × 64 weight, at an entry: a sum of sixty-four products. -/
theorem mm (l : FVec Ideal S10000x64 .bf16) (r : FVec Ideal S64x64 .bf16) (a : Fin 10000) (b : Fin 64) :
    matmul dot_S10000x64_S64x64_S10000x64_1_0_0_1_n_n none l r (constant S10000x64 .f32 0x00000000#32) (ix2 a b)
      = ∑ k : Fin 64, l (ix2 a k) * r (ix2 k b) :=
  Cert.LibPlainDot.matmul_zero_apply (M := 10000) (K := 64) (N := 64) dot_S10000x64_S64x64_S10000x64_1_0_0_1_n_n rfl rfl rfl rfl
    (fun _ _ => rfl) (fun _ _ => rfl) none l r a b

/-- The body's stored value, entry by entry: the perceptron of its loaded blocks. -/
theorem pay_eq (h agg : Vec Ideal S10000x64 .f32) (w1 : Vec Ideal S64x64 .f32) (b1 : Vec Ideal S64 .f32)
    (w2 : Vec Ideal S64x64 .f32) (b2 : Vec Ideal S64 .f32) :
    k2_pay1 h agg w1 b1 w2 b2 = mlpF (N := 10000) h agg w1 b1 w2 b2 := by
  funext j
  obtain ⟨p, q, rfl⟩ : ∃ (p : Fin 10000) (q : Fin 64), j = ix2 p q := ⟨j 0, j 1, eq_ix2 j⟩
  unfold k2_pay1
  simp only [shapeCast_self]
  simp only [addf_apply, maximumf_apply, truncf_apply, broadcast_apply, broadcastTo_1b_ab_apply, shapeCast_a_1a_apply, mm]
  rfl

/-- The printed index maps, decided over the grid: h, agg and the result move together, block t at row-block t; the
    weights and biases are read whole. -/
theorem idx_facts : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row r, column k of row-blocked window 0's block at point t is the output block's row of its array. -/
theorem rd0 (c : Dev nD) (t : Fin cfg2.N) (j : ((cfg2.win 6).xblock (cfg2.grid.coords t)).Idx) (k : Fin 64) :
    iblk2 V c 0 t (ix2 (j 0) k) = V c (Pipeline.arrRef spec2 0) (ix2 ((((cfg2.win 6).blk t).view.emb j) 0) k) := by
  obtain ⟨e0, e1, e2, e3, e4, e5, e6, e7, e8, e9, e10, e11⟩ := idx_facts t
  refine (show iblk2 V c 0 t (ix2 (j 0) k) = V c (Pipeline.arrRef spec2 0) (((cfg2.win 0).blk t).view.emb (ix2 (j 0) k)) from rfl).trans
    (congrArg (V c (Pipeline.arrRef spec2 0)) ?_)
  funext a; apply Fin.ext
  match a with
  | ⟨0, _⟩ => show win2_0.index t (0 : Fin 2) * 10000 + 1 * (j 0).val = win2_6.index t (0 : Fin 2) * 10000 + 1 * (j 0).val; omega
  | ⟨1, _⟩ => show win2_0.index t (1 : Fin 2) * 64 + 1 * k.val = k.val; omega

/-- Row r, column k of row-blocked window 1's block at point t is the output block's row of its array. -/
theorem rd1 (c : Dev nD) (t : Fin cfg2.N) (j : ((cfg2.win 6).xblock (cfg2.grid.coords t)).Idx) (k : Fin 64) :
    iblk2 V c 1 t (ix2 (j 0) k) = V c (Pipeline.arrRef spec2 1) (ix2 ((((cfg2.win 6).blk t).view.emb j) 0) k) := by
  obtain ⟨e0, e1, e2, e3, e4, e5, e6, e7, e8, e9, e10, e11⟩ := idx_facts t
  refine (show iblk2 V c 1 t (ix2 (j 0) k) = V c (Pipeline.arrRef spec2 1) (((cfg2.win 1).blk t).view.emb (ix2 (j 0) k)) from rfl).trans
    (congrArg (V c (Pipeline.arrRef spec2 1)) ?_)
  funext a; apply Fin.ext
  match a with
  | ⟨0, _⟩ => show win2_1.index t (0 : Fin 2) * 10000 + 1 * (j 0).val = win2_6.index t (0 : Fin 2) * 10000 + 1 * (j 0).val; omega
  | ⟨1, _⟩ => show win2_1.index t (1 : Fin 2) * 64 + 1 * k.val = k.val; omega

/-- Weight window 2 is read whole at every point. -/
theorem rd2 (c : Dev nD) (t : Fin cfg2.N) (y : S64x64.Idx) : iblk2 V c 2 t y = V c (Pipeline.arrRef spec2 2) y := by
  obtain ⟨e0, e1, e2, e3, e4, e5, e6, e7, e8, e9, e10, e11⟩ := idx_facts t
  refine (show iblk2 V c 2 t y = V c (Pipeline.arrRef spec2 2) (((cfg2.win 2).blk t).view.emb y) from rfl).trans
    (congrArg (V c (Pipeline.arrRef spec2 2)) ?_)
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Bias window 3 is read whole at every point. -/
theorem rd3 (c : Dev nD) (t : Fin cfg2.N) (y : S64.Idx) : iblk2 V c 3 t y = V c (Pipeline.arrRef spec2 3) y := by
  obtain ⟨e0, e1, e2, e3, e4, e5, e6, e7, e8, e9, e10, e11⟩ := idx_facts t
  refine (show iblk2 V c 3 t y = V c (Pipeline.arrRef spec2 3) (((cfg2.win 3).blk t).view.emb y) from rfl).trans
    (congrArg (V c (Pipeline.arrRef spec2 3)) ?_)
  funext a; apply Fin.ext
  match a with
  | ⟨0, _⟩ => show win2_3.index t (0 : Fin 1) * 64 + 1 * (y 0).val = (y 0).val; omega

/-- Weight window 4 is read whole at every point. -/
theorem rd4 (c : Dev nD) (t : Fin cfg2.N) (y : S64x64.Idx) : iblk2 V c 4 t y = V c (Pipeline.arrRef spec2 4) y := by
  obtain ⟨e0, e1, e2, e3, e4, e5, e6, e7, e8, e9, e10, e11⟩ := idx_facts t
  refine (show iblk2 V c 4 t y = V c (Pipeline.arrRef spec2 4) (((cfg2.win 4).blk t).view.emb y) from rfl).trans
    (congrArg (V c (Pipeline.arrRef spec2 4)) ?_)
  funext a; apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Bias window 5 is read whole at every point. -/
theorem rd5 (c : Dev nD) (t : Fin cfg2.N) (y : S64.Idx) : iblk2 V c 5 t y = V c (Pipeline.arrRef spec2 5) y := by
  obtain ⟨e0, e1, e2, e3, e4, e5, e6, e7, e8, e9, e10, e11⟩ := idx_facts t
  refine (show iblk2 V c 5 t y = V c (Pipeline.arrRef spec2 5) (((cfg2.win 5).blk t).view.emb y) from rfl).trans
    (congrArg (V c (Pipeline.arrRef spec2 5)) ?_)
  funext a; apply Fin.ext
  match a with
  | ⟨0, _⟩ => show win2_5.index t (0 : Fin 1) * 64 + 1 * (y 0).val = (y 0).val; omega

/-- The column of an element of the output's block is its column inside the block. -/
theorem col_eq (t : Fin cfg2.N) (j : ((cfg2.win 6).xblock (cfg2.grid.coords t)).Idx) :
    (((cfg2.win 6).blk t).view.emb j) 1 = j 1 := by
  obtain ⟨e0, e1, e2, e3, e4, e5, e6, e7, e8, e9, e10, e11⟩ := idx_facts t
  exact Fin.ext (by show win2_6.index t (1 : Fin 2) * 64 + 1 * (j 1).val = (j 1).val; omega)

/-- The perceptron of the blocks at point t, at an element of the block, is the perceptron of the whole arrays at that
    element's place in the array. -/
theorem blk_eq (c : Dev nD) (t : Fin cfg2.N) (j : ((cfg2.win 6).xblock (cfg2.grid.coords t)).Idx) :
    mlpF (N := 10000) (iblk2 V c 0 t) (iblk2 V c 1 t) (iblk2 V c 2 t) (iblk2 V c 3 t) (iblk2 V c 4 t) (iblk2 V c 5 t) j
     = mlpF (N := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (((cfg2.win 6).blk t).view.emb j) := by
  unfold mlpF hidF
  simp only [rd0 V c t j, rd1 V c t j, rd2 V c t, rd3 V c t, rd4 V c t, rd5 V c t, col_eq t j]

/-- What point t writes back is block t of the perceptron of the arrays as the region finds them. -/
theorem flushed_eq (c : Dev nD) (t : Fin cfg2.N) :
    (dat2 V c).flushed 6 t = ((cfg2.win 6).blk t).view.read (Elt Ideal)
      (mlpF (N := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S64) hz1]
  rw [pay_eq]
  exact funext fun j => blk_eq V c t j

/-- An index of the array is in point t's block iff each coordinate is in the block's range on its axis. -/
theorem mem_blk (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v20).slice (win2_6.rect t)).set ↔ _
  rw [View.set_slice_whole, Rect.mem_set_unit]
  exact Iff.rfl

/-- Every row is in the block of the point numbered by its row-block. -/
theorem cover (i : S100000x64.Idx) : ∃ t : Fin cfg2.N, (cfg2.win 6).flush t = true ∧ i ∈ ((cfg2.win 6).blk t).view.set := by
  have hN : grid2.N = 10 := N_2
  have hi0 : (i 0).val < 100000 := (i 0).isLt
  have hi1 : (i 1).val < 64 := (i 1).isLt
  let t : Fin cfg2.N := ⟨(i 0).val / 10000, by show _ < grid2.N; omega⟩
  obtain ⟨e0, e1, e2, e3, e4, e5, e6, e7, e8, e9, e10, e11⟩ := idx_facts t
  have e10' : win2_6.index t (0 : Fin 2) = (i 0).val / 10000 := e10
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

/-- THE ARRAY after the region. -/
theorem final (c : Dev nD) : (dat2 V c).arrAt 6 cfg2.N
    = mlpF (N := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 6 _ (fun t _ => flushed_eq V c t) (cover)

end Cert.KernelIdeal.Mlp2

end
-- ==== Proof.Bn3.lean ====
/-
  Region 3 (normalise, rectify, add the residual): the array it leaves.  Each grid point reads block t (10000 rows) of
  the perceptron's output and of the layer's input, and the whole column statistics, scale and shift; it writes back
  block t of  relu(γ·(z − μ)·(var + ε)^(−1/2) + β) + h.  The function is pointwise in the row, the blocks are
  consecutive row ranges tiling the 100000 rows: the array after the region is that function of the whole arrays.
-/
import proofs.«166775_j9826885173932_2_alg».proof.Proof.Gen.KernelIdeal.Frame
import proofs.«166775_j9826885173932_2_alg».proof.Proof.Spec
import Idealize.ShloMosaic.Lib.Pipeline.Value
import Idealize.ShloMosaic.Lib.ValueLayout

set_option maxRecDepth 16384

noncomputable section

namespace Cert.KernelIdeal.Bn3

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The reciprocal square root of a vector, read at an index. -/
theorem rsqrt_at {s : Shape} (v : FVec Ideal s .f32) (i : s.Idx) : rsqrt v i = Ideal.rsqrt (v i) := rfl

/-- The body's stored value, entry by entry: the normalised, rectified, residual function of its loaded blocks. -/
theorem pay_eq (z : Vec Ideal S10000x64 .f32) (mu var g b : Vec Ideal S64 .f32) (h : Vec Ideal S10000x64 .f32) :
    k3_pay1 z mu var g b h = bnMulF (N := 10000) z h mu var g b := by
  funext j
  obtain ⟨p, q, rfl⟩ : ∃ (p : Fin 10000) (q : Fin 64), j = ix2 p q := ⟨j 0, j 1, eq_ix2 j⟩
  unfold k3_pay1
  simp only [shapeCast_self]
  simp only [addf_apply, maximumf_apply, mulf_apply, subf_apply, broadcast_apply, broadcastTo_1b_ab_apply, rsqrt_at,
    shapeCast_a_1a_apply]
  rfl

/-- The printed index maps, decided over the grid: the row-blocked windows move together, block t at row-block t; the
    column vectors are read whole. -/
theorem idx_facts : ∀ t : Fin cfg3.N, win3_0.index t (0 : Fin 2) = win3_6.index t (0 : Fin 2)
    ∧ win3_0.index t (1 : Fin 2) = win3_6.index t (1 : Fin 2)
    ∧ win3_1.index t (0 : Fin 2) = win3_6.index t (0 : Fin 2)
    ∧ win3_1.index t (1 : Fin 2) = win3_6.index t (1 : Fin 2)
    ∧ win3_2.index t (0 : Fin 1) = 0 ∧ win3_3.index t (0 : Fin 1) = 0
    ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

/-- Row-blocked window 0's block at point t is the same rows of its array as the output's block. -/
theorem rd0 (c : Dev nD) (t : Fin cfg3.N) (j : ((cfg3.win 6).xblock (cfg3.grid.coords t)).Idx) :
    iblk3 V c 0 t j = V c (Pipeline.arrRef spec3 0) (((cfg3.win 6).blk t).view.emb j) := by
  obtain ⟨e0, e1, e2, e3, e4, e5, e6, e7, e8, e9⟩ := idx_facts t
  refine (show iblk3 V c 0 t j = V c (Pipeline.arrRef spec3 0) (((cfg3.win 0).blk t).view.emb j) from rfl).trans
    (congrArg (V c (Pipeline.arrRef spec3 0)) ?_)
  funext a; apply Fin.ext
  match a with
  | ⟨0, _⟩ => show win3_0.index t (0 : Fin 2) * 10000 + 1 * (j 0).val = win3_6.index t (0 : Fin 2) * 10000 + 1 * (j 0).val; omega
  | ⟨1, _⟩ => show win3_0.index t (1 : Fin 2) * 64 + 1 * (j 1).val = win3_6.index t (1 : Fin 2) * 64 + 1 * (j 1).val; omega

/-- Row-blocked window 1's block at point t is the same rows of its array as the output's block. -/
theorem rd1 (c : Dev nD) (t : Fin cfg3.N) (j : ((cfg3.win 6).xblock (cfg3.grid.coords t)).Idx) :
    iblk3 V c 1 t j = V c (Pipeline.arrRef spec3 1) (((cfg3.win 6).blk t).view.emb j) := by
  obtain ⟨e0, e1, e2, e3, e4, e5, e6, e7, e8, e9⟩ := idx_facts t
  refine (show iblk3 V c 1 t j = V c (Pipeline.arrRef spec3 1) (((cfg3.win 1).blk t).view.emb j) from rfl).trans
    (congrArg (V c (Pipeline.arrRef spec3 1)) ?_)
  funext a; apply Fin.ext
  match a with
  | ⟨0, _⟩ => show win3_1.index t (0 : Fin 2) * 10000 + 1 * (j 0).val = win3_6.index t (0 : Fin 2) * 10000 + 1 * (j 0).val; omega
  | ⟨1, _⟩ => show win3_1.index t (1 : Fin 2) * 64 + 1 * (j 1).val = win3_6.index t (1 : Fin 2) * 64 + 1 * (j 1).val; omega

/-- Column window 2 is read whole at every point. -/
theorem rd2 (c : Dev nD) (t : Fin cfg3.N) (y : S64.Idx) : iblk3 V c 2 t y = V c (Pipeline.arrRef spec3 2) y := by
  obtain ⟨e0, e1, e2, e3, e4, e5, e6, e7, e8, e9⟩ := idx_facts t
  refine (show iblk3 V c 2 t y = V c (Pipeline.arrRef spec3 2) (((cfg3.win 2).blk t).view.emb y) from rfl).trans
    (congrArg (V c (Pipeline.arrRef spec3 2)) ?_)
  funext a; apply Fin.ext
  match a with
  | ⟨0, _⟩ => show win3_2.index t (0 : Fin 1) * 64 + 1 * (y 0).val = (y 0).val; omega

/-- Column window 3 is read whole at every point. -/
theorem rd3 (c : Dev nD) (t : Fin cfg3.N) (y : S64.Idx) : iblk3 V c 3 t y = V c (Pipeline.arrRef spec3 3) y := by
  obtain ⟨e0, e1, e2, e3, e4, e5, e6, e7, e8, e9⟩ := idx_facts t
  refine (show iblk3 V c 3 t y = V c (Pipeline.arrRef spec3 3) (((cfg3.win 3).blk t).view.emb y) from rfl).trans
    (congrArg (V c (Pipeline.arrRef spec3 3)) ?_)
  funext a; apply Fin.ext
  match a with
  | ⟨0, _⟩ => show win3_3.index t (0 : Fin 1) * 64 + 1 * (y 0).val = (y 0).val; omega

/-- Column window 4 is read whole at every point. -/
theorem rd4 (c : Dev nD) (t : Fin cfg3.N) (y : S64.Idx) : iblk3 V c 4 t y = V c (Pipeline.arrRef spec3 4) y := by
  obtain ⟨e0, e1, e2, e3, e4, e5, e6, e7, e8, e9⟩ := idx_facts t
  refine (show iblk3 V c 4 t y = V c (Pipeline.arrRef spec3 4) (((cfg3.win 4).blk t).view.emb y) from rfl).trans
    (congrArg (V c (Pipeline.arrRef spec3 4)) ?_)
  funext a; apply Fin.ext
  match a with
  | ⟨0, _⟩ => show win3_4.index t (0 : Fin 1) * 64 + 1 * (y 0).val = (y 0).val; omega

/-- Column window 5 is read whole at every point. -/
theorem rd5 (c : Dev nD) (t : Fin cfg3.N) (y : S64.Idx) : iblk3 V c 5 t y = V c (Pipeline.arrRef spec3 5) y := by
  obtain ⟨e0, e1, e2, e3, e4, e5, e6, e7, e8, e9⟩ := idx_facts t
  refine (show iblk3 V c 5 t y = V c (Pipeline.arrRef spec3 5) (((cfg3.win 5).blk t).view.emb y) from rfl).trans
    (congrArg (V c (Pipeline.arrRef spec3 5)) ?_)
  funext a; apply Fin.ext
  match a with
  | ⟨0, _⟩ => show win3_5.index t (0 : Fin 1) * 64 + 1 * (y 0).val = (y 0).val; omega

/-- The column of an element of the output's block is its column inside the block. -/
theorem col_eq (t : Fin cfg3.N) (j : ((cfg3.win 6).xblock (cfg3.grid.coords t)).Idx) :
    (ix1 ((((cfg3.win 6).blk t).view.emb j) 1) : (⟨1, ![64]⟩ : Shape).Idx) = ix1 (j 1) := by
  obtain ⟨e0, e1, e2, e3, e4, e5, e6, e7, e8, e9⟩ := idx_facts t
  exact congrArg ix1 (Fin.ext (by show win3_6.index t (1 : Fin 2) * 64 + 1 * (j 1).val = (j 1).val; omega))

/-- The function of the blocks at point t, at an element of the block, is the function of the whole arrays at that
    element's place in the array. -/
theorem blk_eq (c : Dev nD) (t : Fin cfg3.N) (j : ((cfg3.win 6).xblock (cfg3.grid.coords t)).Idx) :
    bnMulF (N := 10000) (iblk3 V c 0 t) (iblk3 V c 1 t) (iblk3 V c 2 t) (iblk3 V c 3 t) (iblk3 V c 4 t) (iblk3 V c 5 t) j
     = bnMulF (N := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (((cfg3.win 6).blk t).view.emb j) := by
  unfold bnMulF
  simp only [rd0 V c t j, rd1 V c t j, rd2 V c t, rd3 V c t, rd4 V c t, rd5 V c t, col_eq t j] <;> rfl

set_option maxHeartbeats 1000000 in
/-- What point t writes back is block t of the function of the arrays as the region finds them. -/
theorem flushed_eq (c : Dev nD) (t : Fin cfg3.N) :
    (dat3 V c).flushed 6 t = ((cfg3.win 6).blk t).view.read (Elt Ideal)
      (bnMulF (N := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz2]
  simp only [View.ld_unit_zero (S := S10000x64) hz2, View.ld_unit_zero (S := S64) hz1]
  rw [pay_eq]
  exact funext fun j => blk_eq V c t j

/-- An index of the array is in point t's block iff each coordinate is in the block's range on its axis. -/
theorem mem_blk (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v29).slice (win3_6.rect t)).set ↔ _
  rw [View.set_slice_whole, Rect.mem_set_unit]
  exact Iff.rfl

/-- Every row is in the block of the point numbered by its row-block. -/
theorem cover (i : S100000x64.Idx) : ∃ t : Fin cfg3.N, (cfg3.win 6).flush t = true ∧ i ∈ ((cfg3.win 6).blk t).view.set := by
  have hN : grid3.N = 10 := N_3
  have hi0 : (i 0).val < 100000 := (i 0).isLt
  have hi1 : (i 1).val < 64 := (i 1).isLt
  let t : Fin cfg3.N := ⟨(i 0).val / 10000, by show _ < grid3.N; omega⟩
  obtain ⟨e0, e1, e2, e3, e4, e5, e6, e7, e8, e9⟩ := idx_facts t
  have e8' : win3_6.index t (0 : Fin 2) = (i 0).val / 10000 := e8
  refine ⟨t, flush3_6 t, ?_⟩
  rw [mem_blk]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 64 ≤ (i 1).val ∧ (i 1).val < win3_6.index t (1 : Fin 2) * 64 + 64; omega

/-- THE ARRAY after the region. -/
theorem final (c : Dev nD) : (dat3 V c).arrAt 6 cfg3.N
    = bnMulF (N := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 V c).arrAt_eq_of_cover 6 _ (fun t _ => flushed_eq V c t) (cover)

end Cert.KernelIdeal.Bn3

end
-- ==== Proof.RefStages.lean ====
/-
  The stages of the network in the reference's own vocabulary.  The gather of source rows, the scatter-add into
  destination rows, the column mean and variance, and the per-layer slices of the stacked weights are host operations
  that BOTH programs apply: they are named here once and never opened.  The reference's other stages — edge
  transform, message, perceptron, normalise-rectify-residual — are spelt with whole-array host operations; read entry
  by entry each is the corresponding function of Proof/Spec.lean (a host matrix product is the sum of products, a
  broadcast bias is the bias entry of the column).  So a whole layer of the reference is the specification's layer, the
  reference's way (dividing by the square root).
-/
import proofs.«166775_j9826885173932_2_alg».proof.Proof.Gen.ReferenceIdeal
import proofs.«166775_j9826885173932_2_alg».proof.Proof.Spec
import proofs.«166775_j9826885173932_2_alg».proof.Proof.LibPlainDot
import Idealize.ShloMosaic.Lib.Pipeline.Value

noncomputable section

namespace Cert.ReferenceIdeal.Stages

open Cert.ReferenceIdeal Cert.ReferenceIdeal.Gen Cert.Gine
open Idealize.ShloMosaic Idealize.ShloMosaic.TcCoe Idealize.ShloMosaic.ValueIdx

/-- Float and 32-bit integer arrays of a shape, at the extended reals. -/
abbrev CF (s : Shape) : Type := FVec Ideal s .f32
abbrev CI (s : Shape) : Type := IVec s 32

/-! ## The shared host stages (opaque) -/

/-- The gather's row indices: a negative index wraps once, as jnp indexing does; as a column. -/
def idxR (s : CI S1600000) : CI S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Source rows gathered per edge. -/
def gathR (s : CI S1600000) (h : CF S100000x64) : CF S1600000x64 :=
  Host.gather gather_S100000x64_S1600000x1_S1600000x64_1_0_n_n_0_1_164 h (idxR s)

/-- Messages summed into their destination rows. -/
def scatR (d : CI S1600000) (u : CF S1600000x64) : CF S100000x64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d) u

/-- The column means. -/
def meanR (z : CF S100000x64) : CF S64 :=
  Host.divf (Host.reduceAdd z (constant (F := Ideal) S_ .f32 0x00000000#32) reducesTo_S100000x64_S64_d0 h_S_)
    (broadcastInDim S64 ![] bcast_S_S64 (constant (F := Ideal) S_ .f32 0x47C35000#32))

/-- The count the variance divides by: 100000 minus the (zero) degrees-of-freedom correction. -/
def cntR : CF S_ := subf (constant (F := Ideal) S_ .f32 0x47C35000#32) (sitofp .f32 (constantI S_ 32 0#32))

/-- The centred array: each entry minus its column's mean. -/
def centR (z : CF S100000x64) : CF S100000x64 :=
  subf z (broadcastInDim S100000x64 ![0, 1] bcast_S1x64_S100000x64_0_1
    (Host.divf (broadcastInDim S1x64 ![1] bcast_S64_S1x64_1 (Host.reduceAdd z (constant (F := Ideal) S_ .f32 0x00000000#32) reducesTo_S100000x64_S64_d0 h_S_))
      (broadcastInDim S1x64 ![] bcast_S_S1x64 (constant (F := Ideal) S_ .f32 0x47C35000#32))))

/-- The column variances: the mean square of the centred array, where the count is positive (else the not-a-number word). -/
def varR (z : CF S100000x64) : CF S64 :=
  select (broadcastInDim S64 ![] bcast_S_S64 (cmpf .ogt cntR (constant (F := Ideal) S_ .f32 0x00000000#32)))
    (Host.divf (Host.reduceAdd (mulf (centR z) (centR z)) (constant (F := Ideal) S_ .f32 0x00000000#32) reducesTo_S100000x64_S64_d0 h_S_)
      (broadcastInDim S64 ![] bcast_S_S64 cntR))
    (broadcastInDim S64 ![] bcast_S_S64 (id (constant (F := Ideal) S_ .f32 0x7FC00000#32)))

/-- Layer 0's 64 × 64 slice of a stacked weight, and its 64-vector slice of a stacked bias. -/
def mat0 (w : CF S4x64x64) : CF S64x64 :=
  shapeCast S64x64 (extractStridedSlice S1x64x64 ![0, 0, 0] w slices_S4x64x64_S1x64x64_0_0_0) shapeCasts_S1x64x64_S64x64
def vec0 (b : CF S4x64) : CF S64 :=
  shapeCast S64 (extractStridedSlice S1x64 ![0, 0] b slices_S4x64_S1x64_0_0) shapeCasts_S1x64_S64

/-- Layer 1's 64 × 64 slice of a stacked weight, and its 64-vector slice of a stacked bias. -/
def mat1 (w : CF S4x64x64) : CF S64x64 :=
  shapeCast S64x64 (extractStridedSlice S1x64x64 ![1, 0, 0] w slices_S4x64x64_S1x64x64_1_0_0) shapeCasts_S1x64x64_S64x64
def vec1 (b : CF S4x64) : CF S64 :=
  shapeCast S64 (extractStridedSlice S1x64 ![1, 0] b slices_S4x64_S1x64_1_0) shapeCasts_S1x64_S64

/-- Layer 2's 64 × 64 slice of a stacked weight, and its 64-vector slice of a stacked bias. -/
def mat2 (w : CF S4x64x64) : CF S64x64 :=
  shapeCast S64x64 (extractStridedSlice S1x64x64 ![2, 0, 0] w slices_S4x64x64_S1x64x64_2_0_0) shapeCasts_S1x64x64_S64x64
def vec2 (b : CF S4x64) : CF S64 :=
  shapeCast S64 (extractStridedSlice S1x64 ![2, 0] b slices_S4x64_S1x64_2_0) shapeCasts_S1x64_S64

/-- Layer 3's 64 × 64 slice of a stacked weight, and its 64-vector slice of a stacked bias. -/
def mat3 (w : CF S4x64x64) : CF S64x64 :=
  shapeCast S64x64 (extractStridedSlice S1x64x64 ![3, 0, 0] w slices_S4x64x64_S1x64x64_3_0_0) shapeCasts_S1x64x64_S64x64
def vec3 (b : CF S4x64) : CF S64 :=
  shapeCast S64 (extractStridedSlice S1x64 ![3, 0] b slices_S4x64_S1x64_3_0) shapeCasts_S1x64_S64

/-! ## The reference's own stages, as it spells them -/

/-- A 64-vector as every row of a 100000 × 64 array. -/
def bcRow (v : CF S64) : CF S100000x64 :=
  broadcastInDim S100000x64 ![0, 1] bcast_S1x64_S100000x64_0_1 (broadcastInDim S1x64 ![1] bcast_S64_S1x64_1 v)

def reluN (x : CF S100000x64) : CF S100000x64 :=
  maximumf x (broadcastInDim S100000x64 ![] bcast_S_S100000x64 (constant (F := Ideal) S_ .f32 0x00000000#32))

def dotN (x : CF S100000x64) (w : CF S64x64) : CF S100000x64 :=
  Host.dotGeneral dot_S100000x64_S64x64_S100000x64_1_0_0_1_n_n none x w

def edgeRaw (ef : CF S1600000x4) (we : CF S4x64) (be : CF S64) : CF S1600000x64 :=
  addf (Host.dotGeneral dot_S1600000x4_S4x64_S1600000x64_1_0_0_1_n_n none ef we)
    (broadcastInDim S1600000x64 ![0, 1] bcast_S1x64_S1600000x64_0_1 (broadcastInDim S1x64 ![1] bcast_S64_S1x64_1 be))

def msgRaw (a e : CF S1600000x64) : CF S1600000x64 :=
  maximumf (addf a e) (broadcastInDim S1600000x64 ![] bcast_S_S1600000x64 (constant (F := Ideal) S_ .f32 0x00000000#32))

def mlpRaw (h agg : CF S100000x64) (w1 : CF S64x64) (b1 : CF S64) (w2 : CF S64x64) (b2 : CF S64) : CF S100000x64 :=
  addf (dotN (reluN (addf (dotN (addf h agg) w1) (bcRow b1))) w2) (bcRow b2)

def bnRaw (z h : CF S100000x64) (mu var g b : CF S64) : CF S100000x64 :=
  addf (reluN (addf (Host.divf (mulf (bcRow g) (subf z (bcRow mu)))
      (bcRow (Host.sqrt (addf var (broadcastInDim S64 ![] bcast_S_S64 (constant (F := Ideal) S_ .f32 0x3727C5AC#32)))))) (bcRow b))) h

/-- One layer of the reference over the shared stages. -/
def layerRaw (s d : CI S1600000) (w1 : CF S64x64) (b1 : CF S64) (w2 : CF S64x64) (b2 g b : CF S64)
    (e : CF S1600000x64) (h : CF S100000x64) : CF S100000x64 :=
  bnRaw (mlpRaw h (scatR d (msgRaw (gathR s h) e)) w1 b1 w2 b2) h
    (meanR (mlpRaw h (scatR d (msgRaw (gathR s h) e)) w1 b1 w2 b2))
    (varR (mlpRaw h (scatR d (msgRaw (gathR s h) e)) w1 b1 w2 b2)) g b

/-! ## Read entry by entry -/

theorem hdivf_at {s : Shape} (a b : FVec Ideal s .f32) (i : s.Idx) : Host.divf a b i = Ideal.div (a i) (b i) := rfl
theorem hsqrt_at {s : Shape} (a : FVec Ideal s .f32) (i : s.Idx) : Host.sqrt a i = Ideal.sqrt (a i) := rfl

theorem bcRow_apply (v : CF S64) (r : Fin 100000) (q : Fin 64) : bcRow v (ix2 r q) = v (ix1 q) := by
  unfold bcRow
  rw [broadcastInDim_apply ![0, 1] bcast_S1x64_S100000x64_0_1 _ (ix2 r q) (ix2 (0 : Fin 1) q)
      (fun a => by match a with | ⟨0, _⟩ => rfl | ⟨1, _⟩ => rfl),
    broadcastInDim_apply ![1] bcast_S64_S1x64_1 v (ix2 (0 : Fin 1) q) (ix1 q) (fun a => by match a with | ⟨0, _⟩ => rfl)]

theorem dotN_apply (x : CF S100000x64) (w : CF S64x64) (r : Fin 100000) (q : Fin 64) :
    dotN x w (ix2 r q) = ∑ k : Fin 64, x (ix2 r k) * w (ix2 k q) :=
  Cert.LibPlainDot.dotGeneral_apply (M := 100000) (K := 64) (N := 64) dot_S100000x64_S64x64_S100000x64_1_0_0_1_n_n rfl rfl rfl rfl
    (fun _ _ => rfl) (fun _ _ => rfl) none _ x w r q

theorem msgRaw_eq (a e : CF S1600000x64) : msgRaw a e = msgF (E := 1600000) a e := by
  funext i; rfl

theorem edgeRaw_eq (ef : CF S1600000x4) (we : CF S4x64) (be : CF S64) : edgeRaw ef we be = edgeF (E := 1600000) ef we be := by
  funext i
  obtain ⟨r, q, rfl⟩ : ∃ (r : Fin 1600000) (q : Fin 64), i = ix2 r q := ⟨i 0, i 1, eq_ix2 i⟩
  unfold edgeRaw edgeF
  rw [addf_apply,
    broadcastInDim_apply ![0, 1] bcast_S1x64_S1600000x64_0_1 _ (ix2 r q) (ix2 (0 : Fin 1) q)
      (fun a => by match a with | ⟨0, _⟩ => rfl | ⟨1, _⟩ => rfl),
    broadcastInDim_apply ![1] bcast_S64_S1x64_1 be (ix2 (0 : Fin 1) q) (ix1 q) (fun a => by match a with | ⟨0, _⟩ => rfl)]
  exact congrArg (· + be (ix1 q))
    (Cert.LibPlainDot.dotGeneral_apply (M := 1600000) (K := 4) (N := 64) dot_S1600000x4_S4x64_S1600000x64_1_0_0_1_n_n rfl rfl rfl rfl
      (fun _ _ => rfl) (fun _ _ => rfl) none _ ef we r q)

theorem mlpRaw_eq (h agg : CF S100000x64) (w1 : CF S64x64) (b1 : CF S64) (w2 : CF S64x64) (b2 : CF S64) :
    mlpRaw h agg w1 b1 w2 b2 = mlpF (N := 100000) h agg w1 b1 w2 b2 := by
  funext i
  obtain ⟨r, q, rfl⟩ : ∃ (r : Fin 100000) (q : Fin 64), i = ix2 r q := ⟨i 0, i 1, eq_ix2 i⟩
  unfold mlpRaw reluN mlpF hidF
  simp only [addf_apply, maximumf_apply, bcRow_apply, dotN_apply]
  rfl

theorem bnRaw_eq (z h : CF S100000x64) (mu var g b : CF S64) : bnRaw z h mu var g b = bnDivF (N := 100000) z h mu var g b := by
  funext i
  obtain ⟨r, q, rfl⟩ : ∃ (r : Fin 100000) (q : Fin 64), i = ix2 r q := ⟨i 0, i 1, eq_ix2 i⟩
  unfold bnRaw reluN bnDivF
  simp only [addf_apply, maximumf_apply, mulf_apply, subf_apply, bcRow_apply, hdivf_at, hsqrt_at]
  rfl

/-- A layer of the reference is the specification's layer, dividing by the root. -/
theorem layerRaw_eq (s d : CI S1600000) (w1 : CF S64x64) (b1 : CF S64) (w2 : CF S64x64) (b2 g b : CF S64)
    (e : CF S1600000x64) (h : CF S100000x64) :
    layerRaw s d w1 b1 w2 b2 g b e h = layerDiv (N := 100000) (E := 1600000) (gathR s) (scatR d) meanR varR w1 b1 w2 b2 g b e h := by
  unfold layerRaw layerDiv
  rw [bnRaw_eq, mlpRaw_eq, msgRaw_eq]

end Cert.ReferenceIdeal.Stages

end
-- ==== Proof.NotWritten.lean ====
/-
  A buffer that none of a line of host operations writes keeps its contents: each operation's written set is a single
  buffer, and the buffer in question is none of them.
-/
import Idealize.ShloMosaic.Lib.StableHlo.Run

open Idealize.ShloMosaic in
/-- `not_written [ops]` closes `StableHlo.after ops V b = V b` for a literal line `ops` none of whose operations writes `b`. -/
macro "not_written" "[" ops:ident "]" : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))
-- ==== Proof.KLayer0.lean ====
/-
  Layer 0 of the idealized kernel program, read through its boundary contents.  From the contents W1 at the layer's
  entry: a host stretch gathers the source rows; the message region leaves relu(source + edge); a host stretch
  scatter-adds the messages into destination rows and slices this layer's weights; the perceptron region leaves its
  output; three host stretches take the column mean and variance and slice the scale and shift; the last region
  normalises, rectifies and adds the residual.  Each step is one small equation between reads of consecutive boundary
  contents; together they say the layer's output is the specification's layer (the kernel's way) of the entry
  contents, and that the transformed edge features and the arguments pass through untouched.
-/
import proofs.«166775_j9826885173932_2_alg».proof.Proof.Gen.KernelIdeal.Frame
import proofs.«166775_j9826885173932_2_alg».proof.Proof.Msg1
import proofs.«166775_j9826885173932_2_alg».proof.Proof.Mlp2
import proofs.«166775_j9826885173932_2_alg».proof.Proof.Bn3
import proofs.«166775_j9826885173932_2_alg».proof.Proof.RefStages
import proofs.«166775_j9826885173932_2_alg».proof.Proof.NotWritten

set_option maxRecDepth 16384
set_option maxHeartbeats 1000000

noncomputable section

namespace Cert.KernelIdeal.KLayer0

open Cert.KernelIdeal Cert.KernelIdeal.Gen Cert.Gine Cert.ReferenceIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ### The gather stretch -/

theorem g_gath : W2 m ρ c (Proc.devRef .tc main_v7) = gathR (W1 m ρ c (Proc.devRef .tc main_arg2)) (W1 m ρ c (Proc.devRef .tc main_arg0)) := by
  show StableHlo.after hostOps1 (W1 m ρ c) (Proc.devRef .tc main_v7) = _
  after_results_simp
  try rfl

theorem g_keep_main_v0 : W2 m ρ c (Proc.devRef .tc main_v0) = W1 m ρ c (Proc.devRef .tc main_v0) := by
  show StableHlo.after hostOps1 (W1 m ρ c) (Proc.devRef .tc main_v0) = _
  not_written [hostOps1]

theorem g_keep_main_arg2 : W2 m ρ c (Proc.devRef .tc main_arg2) = W1 m ρ c (Proc.devRef .tc main_arg2) := by
  show StableHlo.after hostOps1 (W1 m ρ c) (Proc.devRef .tc main_arg2) = _
  not_written [hostOps1]

theorem g_keep_main_arg3 : W2 m ρ c (Proc.devRef .tc main_arg3) = W1 m ρ c (Proc.devRef .tc main_arg3) := by
  show StableHlo.after hostOps1 (W1 m ρ c) (Proc.devRef .tc main_arg3) = _
  not_written [hostOps1]

theorem g_keep_main_arg6 : W2 m ρ c (Proc.devRef .tc main_arg6) = W1 m ρ c (Proc.devRef .tc main_arg6) := by
  show StableHlo.after hostOps1 (W1 m ρ c) (Proc.devRef .tc main_arg6) = _
  not_written [hostOps1]

theorem g_keep_main_arg7 : W2 m ρ c (Proc.devRef .tc main_arg7) = W1 m ρ c (Proc.devRef .tc main_arg7) := by
  show StableHlo.after hostOps1 (W1 m ρ c) (Proc.devRef .tc main_arg7) = _
  not_written [hostOps1]

theorem g_keep_main_arg8 : W2 m ρ c (Proc.devRef .tc main_arg8) = W1 m ρ c (Proc.devRef .tc main_arg8) := by
  show StableHlo.after hostOps1 (W1 m ρ c) (Proc.devRef .tc main_arg8) = _
  not_written [hostOps1]

theorem g_keep_main_arg9 : W2 m ρ c (Proc.devRef .tc main_arg9) = W1 m ρ c (Proc.devRef .tc main_arg9) := by
  show StableHlo.after hostOps1 (W1 m ρ c) (Proc.devRef .tc main_arg9) = _
  not_written [hostOps1]

theorem g_keep_main_arg10 : W2 m ρ c (Proc.devRef .tc main_arg10) = W1 m ρ c (Proc.devRef .tc main_arg10) := by
  show StableHlo.after hostOps1 (W1 m ρ c) (Proc.devRef .tc main_arg10) = _
  not_written [hostOps1]

theorem g_keep_main_arg11 : W2 m ρ c (Proc.devRef .tc main_arg11) = W1 m ρ c (Proc.devRef .tc main_arg11) := by
  show StableHlo.after hostOps1 (W1 m ρ c) (Proc.devRef .tc main_arg11) = _
  not_written [hostOps1]

theorem g_keep_main_arg0 : W2 m ρ c (Proc.devRef .tc main_arg0) = W1 m ρ c (Proc.devRef .tc main_arg0) := by
  show StableHlo.after hostOps1 (W1 m ρ c) (Proc.devRef .tc main_arg0) = _
  not_written [hostOps1]

/-! ### The message region -/

theorem m_msg : W3 m ρ c (Proc.devRef .tc main_v8) = msgF (E := 1600000) (W2 m ρ c (Proc.devRef .tc main_v7)) (W2 m ρ c (Proc.devRef .tc main_v0)) :=
  (W3_arr m ρ c 2).trans (Cert.KernelIdeal.Msg1.final (V2 m ρ) c)

theorem m_keep_main_v0 : W3 m ρ c (Proc.devRef .tc main_v0) = W2 m ρ c (Proc.devRef .tc main_v0) :=
  (W3_arr m ρ c 1).trans (((dat1 (V2 m ρ) c).arrAt_in 1 rfl _).trans (A_eq1 (V2 m ρ) c 1))

theorem m_keep_main_arg2 : W3 m ρ c (Proc.devRef .tc main_arg2) = W2 m ρ c (Proc.devRef .tc main_arg2) := W3_of_ne m ρ c main_arg2 (by decide)

theorem m_keep_main_arg3 : W3 m ρ c (Proc.devRef .tc main_arg3) = W2 m ρ c (Proc.devRef .tc main_arg3) := W3_of_ne m ρ c main_arg3 (by decide)

theorem m_keep_main_arg6 : W3 m ρ c (Proc.devRef .tc main_arg6) = W2 m ρ c (Proc.devRef .tc main_arg6) := W3_of_ne m ρ c main_arg6 (by decide)

theorem m_keep_main_arg7 : W3 m ρ c (Proc.devRef .tc main_arg7) = W2 m ρ c (Proc.devRef .tc main_arg7) := W3_of_ne m ρ c main_arg7 (by decide)

theorem m_keep_main_arg8 : W3 m ρ c (Proc.devRef .tc main_arg8) = W2 m ρ c (Proc.devRef .tc main_arg8) := W3_of_ne m ρ c main_arg8 (by decide)

theorem m_keep_main_arg9 : W3 m ρ c (Proc.devRef .tc main_arg9) = W2 m ρ c (Proc.devRef .tc main_arg9) := W3_of_ne m ρ c main_arg9 (by decide)

theorem m_keep_main_arg10 : W3 m ρ c (Proc.devRef .tc main_arg10) = W2 m ρ c (Proc.devRef .tc main_arg10) := W3_of_ne m ρ c main_arg10 (by decide)

theorem m_keep_main_arg11 : W3 m ρ c (Proc.devRef .tc main_arg11) = W2 m ρ c (Proc.devRef .tc main_arg11) := W3_of_ne m ρ c main_arg11 (by decide)

theorem m_keep_main_arg0 : W3 m ρ c (Proc.devRef .tc main_arg0) = W2 m ρ c (Proc.devRef .tc main_arg0) := W3_of_ne m ρ c main_arg0 (by decide)

/-! ### The scatter-add stretch (and this layer's slices of the perceptron's weights) -/

theorem s_agg : W4 m ρ c (Proc.devRef .tc main_v11) = scatR (W3 m ρ c (Proc.devRef .tc main_arg3)) (W3 m ρ c (Proc.devRef .tc main_v8)) := by
  show StableHlo.after hostOps2 (W3 m ρ c) (Proc.devRef .tc main_v11) = _
  after_results_simp
  try rfl

theorem s_w1 : W4 m ρ c (Proc.devRef .tc main_v13) = mat0 (W3 m ρ c (Proc.devRef .tc main_arg6)) := by
  show StableHlo.after hostOps2 (W3 m ρ c) (Proc.devRef .tc main_v13) = _
  after_results_simp
  try rfl

theorem s_b1 : W4 m ρ c (Proc.devRef .tc main_v15) = vec0 (W3 m ρ c (Proc.devRef .tc main_arg7)) := by
  show StableHlo.after hostOps2 (W3 m ρ c) (Proc.devRef .tc main_v15) = _
  after_results_simp
  try rfl

theorem s_w2 : W4 m ρ c (Proc.devRef .tc main_v17) = mat0 (W3 m ρ c (Proc.devRef .tc main_arg8)) := by
  show StableHlo.after hostOps2 (W3 m ρ c) (Proc.devRef .tc main_v17) = _
  after_results_simp
  try rfl

theorem s_b2 : W4 m ρ c (Proc.devRef .tc main_v19) = vec0 (W3 m ρ c (Proc.devRef .tc main_arg9)) := by
  show StableHlo.after hostOps2 (W3 m ρ c) (Proc.devRef .tc main_v19) = _
  after_results_simp
  try rfl

theorem s_keep_main_v0 : W4 m ρ c (Proc.devRef .tc main_v0) = W3 m ρ c (Proc.devRef .tc main_v0) := by
  show StableHlo.after hostOps2 (W3 m ρ c) (Proc.devRef .tc main_v0) = _
  not_written [hostOps2]

theorem s_keep_main_arg2 : W4 m ρ c (Proc.devRef .tc main_arg2) = W3 m ρ c (Proc.devRef .tc main_arg2) := by
  show StableHlo.after hostOps2 (W3 m ρ c) (Proc.devRef .tc main_arg2) = _
  not_written [hostOps2]

theorem s_keep_main_arg3 : W4 m ρ c (Proc.devRef .tc main_arg3) = W3 m ρ c (Proc.devRef .tc main_arg3) := by
  show StableHlo.after hostOps2 (W3 m ρ c) (Proc.devRef .tc main_arg3) = _
  not_written [hostOps2]

theorem s_keep_main_arg6 : W4 m ρ c (Proc.devRef .tc main_arg6) = W3 m ρ c (Proc.devRef .tc main_arg6) := by
  show StableHlo.after hostOps2 (W3 m ρ c) (Proc.devRef .tc main_arg6) = _
  not_written [hostOps2]

theorem s_keep_main_arg7 : W4 m ρ c (Proc.devRef .tc main_arg7) = W3 m ρ c (Proc.devRef .tc main_arg7) := by
  show StableHlo.after hostOps2 (W3 m ρ c) (Proc.devRef .tc main_arg7) = _
  not_written [hostOps2]

theorem s_keep_main_arg8 : W4 m ρ c (Proc.devRef .tc main_arg8) = W3 m ρ c (Proc.devRef .tc main_arg8) := by
  show StableHlo.after hostOps2 (W3 m ρ c) (Proc.devRef .tc main_arg8) = _
  not_written [hostOps2]

theorem s_keep_main_arg9 : W4 m ρ c (Proc.devRef .tc main_arg9) = W3 m ρ c (Proc.devRef .tc main_arg9) := by
  show StableHlo.after hostOps2 (W3 m ρ c) (Proc.devRef .tc main_arg9) = _
  not_written [hostOps2]

theorem s_keep_main_arg10 : W4 m ρ c (Proc.devRef .tc main_arg10) = W3 m ρ c (Proc.devRef .tc main_arg10) := by
  show StableHlo.after hostOps2 (W3 m ρ c) (Proc.devRef .tc main_arg10) = _
  not_written [hostOps2]

theorem s_keep_main_arg11 : W4 m ρ c (Proc.devRef .tc main_arg11) = W3 m ρ c (Proc.devRef .tc main_arg11) := by
  show StableHlo.after hostOps2 (W3 m ρ c) (Proc.devRef .tc main_arg11) = _
  not_written [hostOps2]

theorem s_keep_main_arg0 : W4 m ρ c (Proc.devRef .tc main_arg0) = W3 m ρ c (Proc.devRef .tc main_arg0) := by
  show StableHlo.after hostOps2 (W3 m ρ c) (Proc.devRef .tc main_arg0) = _
  not_written [hostOps2]

/-! ### The perceptron region -/

theorem p_z : W5 m ρ c (Proc.devRef .tc main_v20) = mlpF (N := 100000) (W4 m ρ c (Proc.devRef .tc main_arg0)) (W4 m ρ c (Proc.devRef .tc main_v11)) (W4 m ρ c (Proc.devRef .tc main_v13)) (W4 m ρ c (Proc.devRef .tc main_v15)) (W4 m ρ c (Proc.devRef .tc main_v17)) (W4 m ρ c (Proc.devRef .tc main_v19)) :=
  (W5_arr m ρ c 6).trans (Cert.KernelIdeal.Mlp2.final (V4 m ρ) c)

theorem p_keep_main_arg0 : W5 m ρ c (Proc.devRef .tc main_arg0) = W4 m ρ c (Proc.devRef .tc main_arg0) :=
  (W5_arr m ρ c 0).trans (((dat2 (V4 m ρ) c).arrAt_in 0 rfl _).trans (A_eq2 (V4 m ρ) c 0))

theorem p_keep_main_v0 : W5 m ρ c (Proc.devRef .tc main_v0) = W4 m ρ c (Proc.devRef .tc main_v0) := W5_of_ne m ρ c main_v0 (by decide)

theorem p_keep_main_arg2 : W5 m ρ c (Proc.devRef .tc main_arg2) = W4 m ρ c (Proc.devRef .tc main_arg2) := W5_of_ne m ρ c main_arg2 (by decide)

theorem p_keep_main_arg3 : W5 m ρ c (Proc.devRef .tc main_arg3) = W4 m ρ c (Proc.devRef .tc main_arg3) := W5_of_ne m ρ c main_arg3 (by decide)

theorem p_keep_main_arg6 : W5 m ρ c (Proc.devRef .tc main_arg6) = W4 m ρ c (Proc.devRef .tc main_arg6) := W5_of_ne m ρ c main_arg6 (by decide)

theorem p_keep_main_arg7 : W5 m ρ c (Proc.devRef .tc main_arg7) = W4 m ρ c (Proc.devRef .tc main_arg7) := W5_of_ne m ρ c main_arg7 (by decide)

theorem p_keep_main_arg8 : W5 m ρ c (Proc.devRef .tc main_arg8) = W4 m ρ c (Proc.devRef .tc main_arg8) := W5_of_ne m ρ c main_arg8 (by decide)

theorem p_keep_main_arg9 : W5 m ρ c (Proc.devRef .tc main_arg9) = W4 m ρ c (Proc.devRef .tc main_arg9) := W5_of_ne m ρ c main_arg9 (by decide)

theorem p_keep_main_arg10 : W5 m ρ c (Proc.devRef .tc main_arg10) = W4 m ρ c (Proc.devRef .tc main_arg10) := W5_of_ne m ρ c main_arg10 (by decide)

theorem p_keep_main_arg11 : W5 m ρ c (Proc.devRef .tc main_arg11) = W4 m ρ c (Proc.devRef .tc main_arg11) := W5_of_ne m ρ c main_arg11 (by decide)

/-! ### The batch statistics (three stretches in a row) and this layer's scale and shift -/

theorem v_mean : W8 m ρ c (Proc.devRef .tc main_v23) = meanR (W5 m ρ c (Proc.devRef .tc main_v20)) := by
  show StableHlo.after hostOps3_2 (StableHlo.after hostOps3_1 (StableHlo.after hostOps3 (W5 m ρ c))) (Proc.devRef .tc main_v23) = _
  after_results_simp
  try rfl

theorem v_var : W8 m ρ c (Proc.devRef .tc main_v24) = varR (W5 m ρ c (Proc.devRef .tc main_v20)) := by
  show StableHlo.after hostOps3_2 (StableHlo.after hostOps3_1 (StableHlo.after hostOps3 (W5 m ρ c))) (Proc.devRef .tc main_v24) = _
  after_results_simp
  try rfl

theorem v_g : W8 m ρ c (Proc.devRef .tc main_v26) = vec0 (W5 m ρ c (Proc.devRef .tc main_arg10)) := by
  show StableHlo.after hostOps3_2 (StableHlo.after hostOps3_1 (StableHlo.after hostOps3 (W5 m ρ c))) (Proc.devRef .tc main_v26) = _
  after_results_simp
  try rfl

theorem v_b : W8 m ρ c (Proc.devRef .tc main_v28) = vec0 (W5 m ρ c (Proc.devRef .tc main_arg11)) := by
  show StableHlo.after hostOps3_2 (StableHlo.after hostOps3_1 (StableHlo.after hostOps3 (W5 m ρ c))) (Proc.devRef .tc main_v28) = _
  after_results_simp
  try rfl

theorem v_keep_main_v0 : W8 m ρ c (Proc.devRef .tc main_v0) = W5 m ρ c (Proc.devRef .tc main_v0) := by
  show StableHlo.after hostOps3_2 (StableHlo.after hostOps3_1 (StableHlo.after hostOps3 (W5 m ρ c))) (Proc.devRef .tc main_v0) = _
  rw [show StableHlo.after hostOps3_2 (StableHlo.after hostOps3_1 (StableHlo.after hostOps3 (W5 m ρ c))) (Proc.devRef .tc main_v0) = StableHlo.after hostOps3_1 (StableHlo.after hostOps3 (W5 m ρ c)) (Proc.devRef .tc main_v0) from by not_written [hostOps3_2],
    show StableHlo.after hostOps3_1 (StableHlo.after hostOps3 (W5 m ρ c)) (Proc.devRef .tc main_v0) = StableHlo.after hostOps3 (W5 m ρ c) (Proc.devRef .tc main_v0) from by not_written [hostOps3_1]]
  not_written [hostOps3]

theorem v_keep_main_arg2 : W8 m ρ c (Proc.devRef .tc main_arg2) = W5 m ρ c (Proc.devRef .tc main_arg2) := by
  show StableHlo.after hostOps3_2 (StableHlo.after hostOps3_1 (StableHlo.after hostOps3 (W5 m ρ c))) (Proc.devRef .tc main_arg2) = _
  rw [show StableHlo.after hostOps3_2 (StableHlo.after hostOps3_1 (StableHlo.after hostOps3 (W5 m ρ c))) (Proc.devRef .tc main_arg2) = StableHlo.after hostOps3_1 (StableHlo.after hostOps3 (W5 m ρ c)) (Proc.devRef .tc main_arg2) from by not_written [hostOps3_2],
    show StableHlo.after hostOps3_1 (StableHlo.after hostOps3 (W5 m ρ c)) (Proc.devRef .tc main_arg2) = StableHlo.after hostOps3 (W5 m ρ c) (Proc.devRef .tc main_arg2) from by not_written [hostOps3_1]]
  not_written [hostOps3]

theorem v_keep_main_arg3 : W8 m ρ c (Proc.devRef .tc main_arg3) = W5 m ρ c (Proc.devRef .tc main_arg3) := by
  show StableHlo.after hostOps3_2 (StableHlo.after hostOps3_1 (StableHlo.after hostOps3 (W5 m ρ c))) (Proc.devRef .tc main_arg3) = _
  rw [show StableHlo.after hostOps3_2 (StableHlo.after hostOps3_1 (StableHlo.after hostOps3 (W5 m ρ c))) (Proc.devRef .tc main_arg3) = StableHlo.after hostOps3_1 (StableHlo.after hostOps3 (W5 m ρ c)) (Proc.devRef .tc main_arg3) from by not_written [hostOps3_2],
    show StableHlo.after hostOps3_1 (StableHlo.after hostOps3 (W5 m ρ c)) (Proc.devRef .tc main_arg3) = StableHlo.after hostOps3 (W5 m ρ c) (Proc.devRef .tc main_arg3) from by not_written [hostOps3_1]]
  not_written [hostOps3]

theorem v_keep_main_arg6 : W8 m ρ c (Proc.devRef .tc main_arg6) = W5 m ρ c (Proc.devRef .tc main_arg6) := by
  show StableHlo.after hostOps3_2 (StableHlo.after hostOps3_1 (StableHlo.after hostOps3 (W5 m ρ c))) (Proc.devRef .tc main_arg6) = _
  rw [show StableHlo.after hostOps3_2 (StableHlo.after hostOps3_1 (StableHlo.after hostOps3 (W5 m ρ c))) (Proc.devRef .tc main_arg6) = StableHlo.after hostOps3_1 (StableHlo.after hostOps3 (W5 m ρ c)) (Proc.devRef .tc main_arg6) from by not_written [hostOps3_2],
    show StableHlo.after hostOps3_1 (StableHlo.after hostOps3 (W5 m ρ c)) (Proc.devRef .tc main_arg6) = StableHlo.after hostOps3 (W5 m ρ c) (Proc.devRef .tc main_arg6) from by not_written [hostOps3_1]]
  not_written [hostOps3]

theorem v_keep_main_arg7 : W8 m ρ c (Proc.devRef .tc main_arg7) = W5 m ρ c (Proc.devRef .tc main_arg7) := by
  show StableHlo.after hostOps3_2 (StableHlo.after hostOps3_1 (StableHlo.after hostOps3 (W5 m ρ c))) (Proc.devRef .tc main_arg7) = _
  rw [show StableHlo.after hostOps3_2 (StableHlo.after hostOps3_1 (StableHlo.after hostOps3 (W5 m ρ c))) (Proc.devRef .tc main_arg7) = StableHlo.after hostOps3_1 (StableHlo.after hostOps3 (W5 m ρ c)) (Proc.devRef .tc main_arg7) from by not_written [hostOps3_2],
    show StableHlo.after hostOps3_1 (StableHlo.after hostOps3 (W5 m ρ c)) (Proc.devRef .tc main_arg7) = StableHlo.after hostOps3 (W5 m ρ c) (Proc.devRef .tc main_arg7) from by not_written [hostOps3_1]]
  not_written [hostOps3]

theorem v_keep_main_arg8 : W8 m ρ c (Proc.devRef .tc main_arg8) = W5 m ρ c (Proc.devRef .tc main_arg8) := by
  show StableHlo.after hostOps3_2 (StableHlo.after hostOps3_1 (StableHlo.after hostOps3 (W5 m ρ c))) (Proc.devRef .tc main_arg8) = _
  rw [show StableHlo.after hostOps3_2 (StableHlo.after hostOps3_1 (StableHlo.after hostOps3 (W5 m ρ c))) (Proc.devRef .tc main_arg8) = StableHlo.after hostOps3_1 (StableHlo.after hostOps3 (W5 m ρ c)) (Proc.devRef .tc main_arg8) from by not_written [hostOps3_2],
    show StableHlo.after hostOps3_1 (StableHlo.after hostOps3 (W5 m ρ c)) (Proc.devRef .tc main_arg8) = StableHlo.after hostOps3 (W5 m ρ c) (Proc.devRef .tc main_arg8) from by not_written [hostOps3_1]]
  not_written [hostOps3]

theorem v_keep_main_arg9 : W8 m ρ c (Proc.devRef .tc main_arg9) = W5 m ρ c (Proc.devRef .tc main_arg9) := by
  show StableHlo.after hostOps3_2 (StableHlo.after hostOps3_1 (StableHlo.after hostOps3 (W5 m ρ c))) (Proc.devRef .tc main_arg9) = _
  rw [show StableHlo.after hostOps3_2 (StableHlo.after hostOps3_1 (StableHlo.after hostOps3 (W5 m ρ c))) (Proc.devRef .tc main_arg9) = StableHlo.after hostOps3_1 (StableHlo.after hostOps3 (W5 m ρ c)) (Proc.devRef .tc main_arg9) from by not_written [hostOps3_2],
    show StableHlo.after hostOps3_1 (StableHlo.after hostOps3 (W5 m ρ c)) (Proc.devRef .tc main_arg9) = StableHlo.after hostOps3 (W5 m ρ c) (Proc.devRef .tc main_arg9) from by not_written [hostOps3_1]]
  not_written [hostOps3]

theorem v_keep_main_arg10 : W8 m ρ c (Proc.devRef .tc main_arg10) = W5 m ρ c (Proc.devRef .tc main_arg10) := by
  show StableHlo.after hostOps3_2 (StableHlo.after hostOps3_1 (StableHlo.after hostOps3 (W5 m ρ c))) (Proc.devRef .tc main_arg10) = _
  rw [show StableHlo.after hostOps3_2 (StableHlo.after hostOps3_1 (StableHlo.after hostOps3 (W5 m ρ c))) (Proc.devRef .tc main_arg10) = StableHlo.after hostOps3_1 (StableHlo.after hostOps3 (W5 m ρ c)) (Proc.devRef .tc main_arg10) from by not_written [hostOps3_2],
    show StableHlo.after hostOps3_1 (StableHlo.after hostOps3 (W5 m ρ c)) (Proc.devRef .tc main_arg10) = StableHlo.after hostOps3 (W5 m ρ c) (Proc.devRef .tc main_arg10) from by not_written [hostOps3_1]]
  not_written [hostOps3]

theorem v_keep_main_arg11 : W8 m ρ c (Proc.devRef .tc main_arg11) = W5 m ρ c (Proc.devRef .tc main_arg11) := by
  show StableHlo.after hostOps3_2 (StableHlo.after hostOps3_1 (StableHlo.after hostOps3 (W5 m ρ c))) (Proc.devRef .tc main_arg11) = _
  rw [show StableHlo.after hostOps3_2 (StableHlo.after hostOps3_1 (StableHlo.after hostOps3 (W5 m ρ c))) (Proc.devRef .tc main_arg11) = StableHlo.after hostOps3_1 (StableHlo.after hostOps3 (W5 m ρ c)) (Proc.devRef .tc main_arg11) from by not_written [hostOps3_2],
    show StableHlo.after hostOps3_1 (StableHlo.after hostOps3 (W5 m ρ c)) (Proc.devRef .tc main_arg11) = StableHlo.after hostOps3 (W5 m ρ c) (Proc.devRef .tc main_arg11) from by not_written [hostOps3_1]]
  not_written [hostOps3]

theorem v_keep_main_arg0 : W8 m ρ c (Proc.devRef .tc main_arg0) = W5 m ρ c (Proc.devRef .tc main_arg0) := by
  show StableHlo.after hostOps3_2 (StableHlo.after hostOps3_1 (StableHlo.after hostOps3 (W5 m ρ c))) (Proc.devRef .tc main_arg0) = _
  rw [show StableHlo.after hostOps3_2 (StableHlo.after hostOps3_1 (StableHlo.after hostOps3 (W5 m ρ c))) (Proc.devRef .tc main_arg0) = StableHlo.after hostOps3_1 (StableHlo.after hostOps3 (W5 m ρ c)) (Proc.devRef .tc main_arg0) from by not_written [hostOps3_2],
    show StableHlo.after hostOps3_1 (StableHlo.after hostOps3 (W5 m ρ c)) (Proc.devRef .tc main_arg0) = StableHlo.after hostOps3 (W5 m ρ c) (Proc.devRef .tc main_arg0) from by not_written [hostOps3_1]]
  not_written [hostOps3]

theorem v_keep_main_v20 : W8 m ρ c (Proc.devRef .tc main_v20) = W5 m ρ c (Proc.devRef .tc main_v20) := by
  show StableHlo.after hostOps3_2 (StableHlo.after hostOps3_1 (StableHlo.after hostOps3 (W5 m ρ c))) (Proc.devRef .tc main_v20) = _
  rw [show StableHlo.after hostOps3_2 (StableHlo.after hostOps3_1 (StableHlo.after hostOps3 (W5 m ρ c))) (Proc.devRef .tc main_v20) = StableHlo.after hostOps3_1 (StableHlo.after hostOps3 (W5 m ρ c)) (Proc.devRef .tc main_v20) from by not_written [hostOps3_2],
    show StableHlo.after hostOps3_1 (StableHlo.after hostOps3 (W5 m ρ c)) (Proc.devRef .tc main_v20) = StableHlo.after hostOps3 (W5 m ρ c) (Proc.devRef .tc main_v20) from by not_written [hostOps3_1]]
  not_written [hostOps3]

/-! ### The normalise-rectify-residual region -/

theorem n_out : W9 m ρ c (Proc.devRef .tc main_v29) = bnMulF (N := 100000) (W8 m ρ c (Proc.devRef .tc main_v20)) (W8 m ρ c (Proc.devRef .tc main_arg0)) (W8 m ρ c (Proc.devRef .tc main_v23)) (W8 m ρ c (Proc.devRef .tc main_v24)) (W8 m ρ c (Proc.devRef .tc main_v26)) (W8 m ρ c (Proc.devRef .tc main_v28)) :=
  (W9_arr m ρ c 6).trans (Cert.KernelIdeal.Bn3.final (V8 m ρ) c)

theorem n_keep_main_v0 : W9 m ρ c (Proc.devRef .tc main_v0) = W8 m ρ c (Proc.devRef .tc main_v0) := W9_of_ne m ρ c main_v0 (by decide)

theorem n_keep_main_arg2 : W9 m ρ c (Proc.devRef .tc main_arg2) = W8 m ρ c (Proc.devRef .tc main_arg2) := W9_of_ne m ρ c main_arg2 (by decide)

theorem n_keep_main_arg3 : W9 m ρ c (Proc.devRef .tc main_arg3) = W8 m ρ c (Proc.devRef .tc main_arg3) := W9_of_ne m ρ c main_arg3 (by decide)

theorem n_keep_main_arg6 : W9 m ρ c (Proc.devRef .tc main_arg6) = W8 m ρ c (Proc.devRef .tc main_arg6) := W9_of_ne m ρ c main_arg6 (by decide)

theorem n_keep_main_arg7 : W9 m ρ c (Proc.devRef .tc main_arg7) = W8 m ρ c (Proc.devRef .tc main_arg7) := W9_of_ne m ρ c main_arg7 (by decide)

theorem n_keep_main_arg8 : W9 m ρ c (Proc.devRef .tc main_arg8) = W8 m ρ c (Proc.devRef .tc main_arg8) := W9_of_ne m ρ c main_arg8 (by decide)

theorem n_keep_main_arg9 : W9 m ρ c (Proc.devRef .tc main_arg9) = W8 m ρ c (Proc.devRef .tc main_arg9) := W9_of_ne m ρ c main_arg9 (by decide)

theorem n_keep_main_arg10 : W9 m ρ c (Proc.devRef .tc main_arg10) = W8 m ρ c (Proc.devRef .tc main_arg10) := W9_of_ne m ρ c main_arg10 (by decide)

theorem n_keep_main_arg11 : W9 m ρ c (Proc.devRef .tc main_arg11) = W8 m ρ c (Proc.devRef .tc main_arg11) := W9_of_ne m ρ c main_arg11 (by decide)

/-! ### The layer -/

/-- The layer leaves the transformed edge features alone. -/
theorem kept_main_v0 : W9 m ρ c (Proc.devRef .tc main_v0) = W1 m ρ c (Proc.devRef .tc main_v0) := by
  rw [n_keep_main_v0 m ρ c, v_keep_main_v0 m ρ c, p_keep_main_v0 m ρ c, s_keep_main_v0 m ρ c, m_keep_main_v0 m ρ c, g_keep_main_v0 m ρ c]
/-- The layer leaves argument 2 alone. -/
theorem kept_main_arg2 : W9 m ρ c (Proc.devRef .tc main_arg2) = W1 m ρ c (Proc.devRef .tc main_arg2) := by
  rw [n_keep_main_arg2 m ρ c, v_keep_main_arg2 m ρ c, p_keep_main_arg2 m ρ c, s_keep_main_arg2 m ρ c, m_keep_main_arg2 m ρ c, g_keep_main_arg2 m ρ c]
/-- The layer leaves argument 3 alone. -/
theorem kept_main_arg3 : W9 m ρ c (Proc.devRef .tc main_arg3) = W1 m ρ c (Proc.devRef .tc main_arg3) := by
  rw [n_keep_main_arg3 m ρ c, v_keep_main_arg3 m ρ c, p_keep_main_arg3 m ρ c, s_keep_main_arg3 m ρ c, m_keep_main_arg3 m ρ c, g_keep_main_arg3 m ρ c]
/-- The layer leaves argument 6 alone. -/
theorem kept_main_arg6 : W9 m ρ c (Proc.devRef .tc main_arg6) = W1 m ρ c (Proc.devRef .tc main_arg6) := by
  rw [n_keep_main_arg6 m ρ c, v_keep_main_arg6 m ρ c, p_keep_main_arg6 m ρ c, s_keep_main_arg6 m ρ c, m_keep_main_arg6 m ρ c, g_keep_main_arg6 m ρ c]
/-- The layer leaves argument 7 alone. -/
theorem kept_main_arg7 : W9 m ρ c (Proc.devRef .tc main_arg7) = W1 m ρ c (Proc.devRef .tc main_arg7) := by
  rw [n_keep_main_arg7 m ρ c, v_keep_main_arg7 m ρ c, p_keep_main_arg7 m ρ c, s_keep_main_arg7 m ρ c, m_keep_main_arg7 m ρ c, g_keep_main_arg7 m ρ c]
/-- The layer leaves argument 8 alone. -/
theorem kept_main_arg8 : W9 m ρ c (Proc.devRef .tc main_arg8) = W1 m ρ c (Proc.devRef .tc main_arg8) := by
  rw [n_keep_main_arg8 m ρ c, v_keep_main_arg8 m ρ c, p_keep_main_arg8 m ρ c, s_keep_main_arg8 m ρ c, m_keep_main_arg8 m ρ c, g_keep_main_arg8 m ρ c]
/-- The layer leaves argument 9 alone. -/
theorem kept_main_arg9 : W9 m ρ c (Proc.devRef .tc main_arg9) = W1 m ρ c (Proc.devRef .tc main_arg9) := by
  rw [n_keep_main_arg9 m ρ c, v_keep_main_arg9 m ρ c, p_keep_main_arg9 m ρ c, s_keep_main_arg9 m ρ c, m_keep_main_arg9 m ρ c, g_keep_main_arg9 m ρ c]
/-- The layer leaves argument 10 alone. -/
theorem kept_main_arg10 : W9 m ρ c (Proc.devRef .tc main_arg10) = W1 m ρ c (Proc.devRef .tc main_arg10) := by
  rw [n_keep_main_arg10 m ρ c, v_keep_main_arg10 m ρ c, p_keep_main_arg10 m ρ c, s_keep_main_arg10 m ρ c, m_keep_main_arg10 m ρ c, g_keep_main_arg10 m ρ c]
/-- The layer leaves argument 11 alone. -/
theorem kept_main_arg11 : W9 m ρ c (Proc.devRef .tc main_arg11) = W1 m ρ c (Proc.devRef .tc main_arg11) := by
  rw [n_keep_main_arg11 m ρ c, v_keep_main_arg11 m ρ c, p_keep_main_arg11 m ρ c, s_keep_main_arg11 m ρ c, m_keep_main_arg11 m ρ c, g_keep_main_arg11 m ρ c]

/-- The layer's output is the specification's layer, the kernel's way, of the entry contents. -/
theorem layer : W9 m ρ c (Proc.devRef .tc main_v29)
    = layerMul (N := 100000) (E := 1600000) (gathR (W1 m ρ c (Proc.devRef .tc main_arg2))) (scatR (W1 m ρ c (Proc.devRef .tc main_arg3))) meanR varR
        (mat0 (W1 m ρ c (Proc.devRef .tc main_arg6))) (vec0 (W1 m ρ c (Proc.devRef .tc main_arg7))) (mat0 (W1 m ρ c (Proc.devRef .tc main_arg8))) (vec0 (W1 m ρ c (Proc.devRef .tc main_arg9)))
        (vec0 (W1 m ρ c (Proc.devRef .tc main_arg10))) (vec0 (W1 m ρ c (Proc.devRef .tc main_arg11))) (W1 m ρ c (Proc.devRef .tc main_v0)) (W1 m ρ c (Proc.devRef .tc main_arg0)) := by
  unfold layerMul
  simp only [n_out m ρ c, v_mean m ρ c, v_var m ρ c, v_g m ρ c, v_b m ρ c, v_keep_main_v20 m ρ c, v_keep_main_arg0 m ρ c, p_z m ρ c, s_agg m ρ c, s_w1 m ρ c, s_b1 m ρ c, s_w2 m ρ c, s_b2 m ρ c, s_keep_main_arg0 m ρ c, m_msg m ρ c, m_keep_main_arg0 m ρ c, m_keep_main_v0 m ρ c, g_gath m ρ c, g_keep_main_arg0 m ρ c, g_keep_main_v0 m ρ c, p_keep_main_arg0 m ρ c, m_keep_main_arg3 m ρ c, g_keep_main_arg3 m ρ c, m_keep_main_arg6 m ρ c, g_keep_main_arg6 m ρ c, m_keep_main_arg7 m ρ c, g_keep_main_arg7 m ρ c, m_keep_main_arg8 m ρ c, g_keep_main_arg8 m ρ c, m_keep_main_arg9 m ρ c, g_keep_main_arg9 m ρ c, p_keep_main_arg10 m ρ c, s_keep_main_arg10 m ρ c, m_keep_main_arg10 m ρ c, g_keep_main_arg10 m ρ c, p_keep_main_arg11 m ρ c, s_keep_main_arg11 m ρ c, m_keep_main_arg11 m ρ c, g_keep_main_arg11 m ρ c]

end Cert.KernelIdeal.KLayer0

end
-- ==== Proof.Msg4.lean ====
/-
  Region 4 (the message kernel): the array it leaves.  Each grid point reads block t of the gathered source rows and
  block t of the transformed edge rows (10000 rows each), and writes back block t of relu(source + edge).  The blocks
  are consecutive row ranges that tile the 1600000 rows, and the message is pointwise, so the array after the region
  is the message function of the two whole arrays the region found.
-/
import proofs.«166775_j9826885173932_2_alg».proof.Proof.Gen.KernelIdeal.Frame
import proofs.«166775_j9826885173932_2_alg».proof.Proof.Spec
import Idealize.ShloMosaic.Lib.Pipeline.Value

set_option maxRecDepth 16384

noncomputable section

namespace Cert.KernelIdeal.Msg4

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the message function of its two loaded blocks. -/
theorem pay_eq (x0 x1 : Vec Ideal S10000x64 .f32) : k4_pay1 x0 x1 = msgF (E := 10000) x0 x1 := by
  funext j
  unfold k4_pay1
  simp only [shapeCast_self]
  rfl

/-- The printed index maps, decided over the grid: all three windows move together, block t at row-block t. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val ∧ win4_2.index t (1 : Fin 2) = 0 :=
  (by decide +kernel : ∀ t : Fin grid4.N, _)

/-- What point t writes back is block t of the message function of the arrays as the region finds them. -/
theorem flushed_eq (c : Dev nD) (t : Fin cfg4.N) :
    (dat4 V c).flushed 2 t = ((cfg4.win 2).blk t).view.read (Elt Ideal)
      (msgF (E := 1600000) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S10000x64) hz]
  rw [pay_eq]
  obtain ⟨e0, e1, e2, e3, e4, e5⟩ := idx_facts t
  funext j
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  have hA : iblk4 V c 0 t j = V c (Pipeline.arrRef spec4 0) (((cfg4.win 2).blk t).view.emb j) := by
    show V c (Pipeline.arrRef spec4 0) (((cfg4.win 0).blk t).view.emb j) = _
    rw [h0]
  have hB : iblk4 V c 1 t j = V c (Pipeline.arrRef spec4 1) (((cfg4.win 2).blk t).view.emb j) := by
    show V c (Pipeline.arrRef spec4 1) (((cfg4.win 1).blk t).view.emb j) = _
    rw [h1]
  show msgF (E := 10000) (iblk4 V c 0 t) (iblk4 V c 1 t) j
     = msgF (E := 1600000) (V c (Pipeline.arrRef spec4 0)) (V c (Pipeline.arrRef spec4 1)) (((cfg4.win 2).blk t).view.emb j)
  unfold msgF
  rw [hA, hB]

/-- An index of the array is in point t's block iff each coordinate is in the block's range on its axis. -/
theorem mem_blk (t : Fin cfg4.N) (i : S1600000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v37).slice (win4_2.rect t)).set ↔ _
  rw [View.set_slice_whole, Rect.mem_set_unit]
  exact Iff.rfl

/-- Every row is in the block of the point numbered by its row-block. -/
theorem cover (i : S1600000x64.Idx) : ∃ t : Fin cfg4.N, (cfg4.win 2).flush t = true ∧ i ∈ ((cfg4.win 2).blk t).view.set := by
  have hN : grid4.N = 160 := N_4
  have hi0 : (i 0).val < 1600000 := (i 0).isLt
  have hi1 : (i 1).val < 64 := (i 1).isLt
  let t : Fin cfg4.N := ⟨(i 0).val / 10000, by show _ < grid4.N; omega⟩
  obtain ⟨e0, e1, e2, e3, e4, e5⟩ := idx_facts t
  have e4' : win4_2.index t (0 : Fin 2) = (i 0).val / 10000 := e4
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE ARRAY after the region: the message function of the two arrays the region found. -/
theorem final (c : Dev nD) : (dat4 V c).arrAt 2 cfg4.N
    = msgF (E := 1600000) (V c (Pipeline.arrRef spec4 0)) (V c (Pipeline.arrRef spec4 1)) :=
  (dat4 V c).arrAt_eq_of_cover 2 _ (fun t _ => flushed_eq V c t) (cover)

end Cert.KernelIdeal.Msg4

end
-- ==== Proof.Mlp5.lean ====
/-
  Region 5 (the two-layer perceptron): the array it leaves.  Each grid point reads block t (10000 rows) of the layer's
  input h and of the aggregated messages, and the whole weights and biases; it writes back block t of
  relu((h + agg)·W1 + b1)·W2 + b2.  The kernel rounds to bf16 on the way into each product: on the extended reals a
  change of float format is the identity.  Row r of the result reads row r of h and agg only, and the blocks are
  consecutive row ranges tiling the 100000 rows: the array after the region is that function of the whole arrays.
-/
import proofs.«166775_j9826885173932_2_alg».proof.Proof.Gen.KernelIdeal.Frame
import proofs.«166775_j9826885173932_2_alg».proof.Proof.Spec
import proofs.«166775_j9826885173932_2_alg».proof.Proof.LibPlainDot
import Idealize.ShloMosaic.Lib.Pipeline.Value
import Idealize.ShloMosaic.Lib.ValueLayout

set_option maxRecDepth 16384

noncomputable section

namespace Cert.KernelIdeal.Mlp5

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The kernel's product of a 10000 × 64 block by a 64 × 64 weight, at an entry: a sum of sixty-four products. -/
theorem mm (l : FVec Ideal S10000x64 .bf16) (r : FVec Ideal S64x64 .bf16) (a : Fin 10000) (b : Fin 64) :
    matmul dot_S10000x64_S64x64_S10000x64_1_0_0_1_n_n none l r (constant S10000x64 .f32 0x00000000#32) (ix2 a b)
      = ∑ k : Fin 64, l (ix2 a k) * r (ix2 k b) :=
  Cert.LibPlainDot.matmul_zero_apply (M := 10000) (K := 64) (N := 64) dot_S10000x64_S64x64_S10000x64_1_0_0_1_n_n rfl rfl rfl rfl
    (fun _ _ => rfl) (fun _ _ => rfl) none l r a b

/-- The body's stored value, entry by entry: the perceptron of its loaded blocks. -/
theorem pay_eq (h agg : Vec Ideal S10000x64 .f32) (w1 : Vec Ideal S64x64 .f32) (b1 : Vec Ideal S64 .f32)
    (w2 : Vec Ideal S64x64 .f32) (b2 : Vec Ideal S64 .f32) :
    k5_pay1 h agg w1 b1 w2 b2 = mlpF (N := 10000) h agg w1 b1 w2 b2 := by
  funext j
  obtain ⟨p, q, rfl⟩ : ∃ (p : Fin 10000) (q : Fin 64), j = ix2 p q := ⟨j 0, j 1, eq_ix2 j⟩
  unfold k5_pay1
  simp only [shapeCast_self]
  simp only [addf_apply, maximumf_apply, truncf_apply, broadcast_apply, broadcastTo_1b_ab_apply, shapeCast_a_1a_apply, mm]
  rfl

/-- The printed index maps, decided over the grid: h, agg and the result move together, block t at row-block t; the
    weights and biases are read whole. -/
theorem idx_facts : ∀ t : Fin cfg5.N, win5_0.index t (0 : Fin 2) = win5_6.index t (0 : Fin 2)
    ∧ win5_0.index t (1 : Fin 2) = 0
    ∧ win5_1.index t (0 : Fin 2) = win5_6.index t (0 : Fin 2)
    ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- Row r, column k of row-blocked window 0's block at point t is the output block's row of its array. -/
theorem rd0 (c : Dev nD) (t : Fin cfg5.N) (j : ((cfg5.win 6).xblock (cfg5.grid.coords t)).Idx) (k : Fin 64) :
    iblk5 V c 0 t (ix2 (j 0) k) = V c (Pipeline.arrRef spec5 0) (ix2 ((((cfg5.win 6).blk t).view.emb j) 0) k) := by
  obtain ⟨e0, e1, e2, e3, e4, e5, e6, e7, e8, e9, e10, e11⟩ := idx_facts t
  refine (show iblk5 V c 0 t (ix2 (j 0) k) = V c (Pipeline.arrRef spec5 0) (((cfg5.win 0).blk t).view.emb (ix2 (j 0) k)) from rfl).trans
    (congrArg (V c (Pipeline.arrRef spec5 0)) ?_)
  funext a; apply Fin.ext
  match a with
  | ⟨0, _⟩ => show win5_0.index t (0 : Fin 2) * 10000 + 1 * (j 0).val = win5_6.index t (0 : Fin 2) * 10000 + 1 * (j 0).val; omega
  | ⟨1, _⟩ => show win5_0.index t (1 : Fin 2) * 64 + 1 * k.val = k.val; omega

/-- Row r, column k of row-blocked window 1's block at point t is the output block's row of its array. -/
theorem rd1 (c : Dev nD) (t : Fin cfg5.N) (j : ((cfg5.win 6).xblock (cfg5.grid.coords t)).Idx) (k : Fin 64) :
    iblk5 V c 1 t (ix2 (j 0) k) = V c (Pipeline.arrRef spec5 1) (ix2 ((((cfg5.win 6).blk t).view.emb j) 0) k) := by
  obtain ⟨e0, e1, e2, e3, e4, e5, e6, e7, e8, e9, e10, e11⟩ := idx_facts t
  refine (show iblk5 V c 1 t (ix2 (j 0) k) = V c (Pipeline.arrRef spec5 1) (((cfg5.win 1).blk t).view.emb (ix2 (j 0) k)) from rfl).trans
    (congrArg (V c (Pipeline.arrRef spec5 1)) ?_)
  funext a; apply Fin.ext
  match a with
  | ⟨0, _⟩ => show win5_1.index t (0 : Fin 2) * 10000 + 1 * (j 0).val = win5_6.index t (0 : Fin 2) * 10000 + 1 * (j 0).val; omega
  | ⟨1, _⟩ => show win5_1.index t (1 : Fin 2) * 64 + 1 * k.val = k.val; omega

/-- Weight window 2 is read whole at every point. -/
theorem rd2 (c : Dev nD) (t : Fin cfg5.N) (y : S64x64.Idx) : iblk5 V c 2 t y = V c (Pipeline.arrRef spec5 2) y := by
  obtain ⟨e0, e1, e2, e3, e4, e5, e6, e7, e8, e9, e10, e11⟩ := idx_facts t
  refine (show iblk5 V c 2 t y = V c (Pipeline.arrRef spec5 2) (((cfg5.win 2).blk t).view.emb y) from rfl).trans
    (congrArg (V c (Pipeline.arrRef spec5 2)) ?_)
  funext a; apply Fin.ext
  match a with
  | ⟨0, _⟩ => show win5_2.index t (0 : Fin 2) * 64 + 1 * (y 0).val = (y 0).val; omega
  | ⟨1, _⟩ => show win5_2.index t (1 : Fin 2) * 64 + 1 * (y 1).val = (y 1).val; omega

/-- Bias window 3 is read whole at every point. -/
theorem rd3 (c : Dev nD) (t : Fin cfg5.N) (y : S64.Idx) : iblk5 V c 3 t y = V c (Pipeline.arrRef spec5 3) y := by
  obtain ⟨e0, e1, e2, e3, e4, e5, e6, e7, e8, e9, e10, e11⟩ := idx_facts t
  refine (show iblk5 V c 3 t y = V c (Pipeline.arrRef spec5 3) (((cfg5.win 3).blk t).view.emb y) from rfl).trans
    (congrArg (V c (Pipeline.arrRef spec5 3)) ?_)
  funext a; apply Fin.ext
  match a with
  | ⟨0, _⟩ => show win5_3.index t (0 : Fin 1) * 64 + 1 * (y 0).val = (y 0).val; omega

/-- Weight window 4 is read whole at every point. -/
theorem rd4 (c : Dev nD) (t : Fin cfg5.N) (y : S64x64.Idx) : iblk5 V c 4 t y = V c (Pipeline.arrRef spec5 4) y := by
  obtain ⟨e0, e1, e2, e3, e4, e5, e6, e7, e8, e9, e10, e11⟩ := idx_facts t
  refine (show iblk5 V c 4 t y = V c (Pipeline.arrRef spec5 4) (((cfg5.win 4).blk t).view.emb y) from rfl).trans
    (congrArg (V c (Pipeline.arrRef spec5 4)) ?_)
  funext a; apply Fin.ext
  match a with
  | ⟨0, _⟩ => show win5_4.index t (0 : Fin 2) * 64 + 1 * (y 0).val = (y 0).val; omega
  | ⟨1, _⟩ => show win5_4.index t (1 : Fin 2) * 64 + 1 * (y 1).val = (y 1).val; omega

/-- Bias window 5 is read whole at every point. -/
theorem rd5 (c : Dev nD) (t : Fin cfg5.N) (y : S64.Idx) : iblk5 V c 5 t y = V c (Pipeline.arrRef spec5 5) y := by
  obtain ⟨e0, e1, e2, e3, e4, e5, e6, e7, e8, e9, e10, e11⟩ := idx_facts t
  refine (show iblk5 V c 5 t y = V c (Pipeline.arrRef spec5 5) (((cfg5.win 5).blk t).view.emb y) from rfl).trans
    (congrArg (V c (Pipeline.arrRef spec5 5)) ?_)
  funext a; apply Fin.ext
  match a with
  | ⟨0, _⟩ => show win5_5.index t (0 : Fin 1) * 64 + 1 * (y 0).val = (y 0).val; omega

/-- The column of an element of the output's block is its column inside the block. -/
theorem col_eq (t : Fin cfg5.N) (j : ((cfg5.win 6).xblock (cfg5.grid.coords t)).Idx) :
    (((cfg5.win 6).blk t).view.emb j) 1 = j 1 := by
  obtain ⟨e0, e1, e2, e3, e4, e5, e6, e7, e8, e9, e10, e11⟩ := idx_facts t
  exact Fin.ext (by show win5_6.index t (1 : Fin 2) * 64 + 1 * (j 1).val = (j 1).val; omega)

/-- The perceptron of the blocks at point t, at an element of the block, is the perceptron of the whole arrays at that
    element's place in the array. -/
theorem blk_eq (c : Dev nD) (t : Fin cfg5.N) (j : ((cfg5.win 6).xblock (cfg5.grid.coords t)).Idx) :
    mlpF (N := 10000) (iblk5 V c 0 t) (iblk5 V c 1 t) (iblk5 V c 2 t) (iblk5 V c 3 t) (iblk5 V c 4 t) (iblk5 V c 5 t) j
     = mlpF (N := 100000) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (((cfg5.win 6).blk t).view.emb j) := by
  unfold mlpF hidF
  simp only [rd0 V c t j, rd1 V c t j, rd2 V c t, rd3 V c t, rd4 V c t, rd5 V c t, col_eq t j]

/-- What point t writes back is block t of the perceptron of the arrays as the region finds them. -/
theorem flushed_eq (c : Dev nD) (t : Fin cfg5.N) :
    (dat5 V c).flushed 6 t = ((cfg5.win 6).blk t).view.read (Elt Ideal)
      (mlpF (N := 100000) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz2]
  simp only [View.ld_unit_zero (S := S10000x64) hz2, View.ld_unit_zero (S := S64x64) hz2, View.ld_unit_zero (S := S64) hz1]
  rw [pay_eq]
  exact funext fun j => blk_eq V c t j

/-- An index of the array is in point t's block iff each coordinate is in the block's range on its axis. -/
theorem mem_blk (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v49).slice (win5_6.rect t)).set ↔ _
  rw [View.set_slice_whole, Rect.mem_set_unit]
  exact Iff.rfl

/-- Every row is in the block of the point numbered by its row-block. -/
theorem cover (i : S100000x64.Idx) : ∃ t : Fin cfg5.N, (cfg5.win 6).flush t = true ∧ i ∈ ((cfg5.win 6).blk t).view.set := by
  have hN : grid5.N = 10 := N_5
  have hi0 : (i 0).val < 100000 := (i 0).isLt
  have hi1 : (i 1).val < 64 := (i 1).isLt
  let t : Fin cfg5.N := ⟨(i 0).val / 10000, by show _ < grid5.N; omega⟩
  obtain ⟨e0, e1, e2, e3, e4, e5, e6, e7, e8, e9, e10, e11⟩ := idx_facts t
  have e10' : win5_6.index t (0 : Fin 2) = (i 0).val / 10000 := e10
  refine ⟨t, flush5_6 t, ?_⟩
  rw [mem_blk]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 64 ≤ (i 1).val ∧ (i 1).val < win5_6.index t (1 : Fin 2) * 64 + 64; omega

/-- THE ARRAY after the region. -/
theorem final (c : Dev nD) : (dat5 V c).arrAt 6 cfg5.N
    = mlpF (N := 100000) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 V c).arrAt_eq_of_cover 6 _ (fun t _ => flushed_eq V c t) (cover)

end Cert.KernelIdeal.Mlp5

end
-- ==== Proof.Bn6.lean ====
/-
  Region 6 (normalise, rectify, add the residual): the array it leaves.  Each grid point reads block t (10000 rows) of
  the perceptron's output and of the layer's input, and the whole column statistics, scale and shift; it writes back
  block t of  relu(γ·(z − μ)·(var + ε)^(−1/2) + β) + h.  The function is pointwise in the row, the blocks are
  consecutive row ranges tiling the 100000 rows: the array after the region is that function of the whole arrays.
-/
import proofs.«166775_j9826885173932_2_alg».proof.Proof.Gen.KernelIdeal.Frame
import proofs.«166775_j9826885173932_2_alg».proof.Proof.Spec
import Idealize.ShloMosaic.Lib.Pipeline.Value
import Idealize.ShloMosaic.Lib.ValueLayout

set_option maxRecDepth 16384

noncomputable section

namespace Cert.KernelIdeal.Bn6

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The reciprocal square root of a vector, read at an index. -/
theorem rsqrt_at {s : Shape} (v : FVec Ideal s .f32) (i : s.Idx) : rsqrt v i = Ideal.rsqrt (v i) := rfl

/-- The body's stored value, entry by entry: the normalised, rectified, residual function of its loaded blocks. -/
theorem pay_eq (z : Vec Ideal S10000x64 .f32) (mu var g b : Vec Ideal S64 .f32) (h : Vec Ideal S10000x64 .f32) :
    k6_pay1 z mu var g b h = bnMulF (N := 10000) z h mu var g b := by
  funext j
  obtain ⟨p, q, rfl⟩ : ∃ (p : Fin 10000) (q : Fin 64), j = ix2 p q := ⟨j 0, j 1, eq_ix2 j⟩
  unfold k6_pay1
  simp only [shapeCast_self]
  simp only [addf_apply, maximumf_apply, mulf_apply, subf_apply, broadcast_apply, broadcastTo_1b_ab_apply, rsqrt_at,
    shapeCast_a_1a_apply]
  rfl

/-- The printed index maps, decided over the grid: the row-blocked windows move together, block t at row-block t; the
    column vectors are read whole. -/
theorem idx_facts : ∀ t : Fin cfg6.N, win6_0.index t (0 : Fin 2) = win6_6.index t (0 : Fin 2)
    ∧ win6_0.index t (1 : Fin 2) = win6_6.index t (1 : Fin 2)
    ∧ win6_1.index t (0 : Fin 2) = win6_6.index t (0 : Fin 2)
    ∧ win6_1.index t (1 : Fin 2) = win6_6.index t (1 : Fin 2)
    ∧ win6_2.index t (0 : Fin 1) = 0 ∧ win6_3.index t (0 : Fin 1) = 0
    ∧ win6_4.index t (0 : Fin 1) = 0 ∧ win6_5.index t (0 : Fin 1) = 0
    ∧ win6_6.index t (0 : Fin 2) = t.val ∧ win6_6.index t (1 : Fin 2) = 0 :=
  (by decide +kernel : ∀ t : Fin grid6.N, _)

/-- Row-blocked window 0's block at point t is the same rows of its array as the output's block. -/
theorem rd0 (c : Dev nD) (t : Fin cfg6.N) (j : ((cfg6.win 6).xblock (cfg6.grid.coords t)).Idx) :
    iblk6 V c 0 t j = V c (Pipeline.arrRef spec6 0) (((cfg6.win 6).blk t).view.emb j) := by
  obtain ⟨e0, e1, e2, e3, e4, e5, e6, e7, e8, e9⟩ := idx_facts t
  refine (show iblk6 V c 0 t j = V c (Pipeline.arrRef spec6 0) (((cfg6.win 0).blk t).view.emb j) from rfl).trans
    (congrArg (V c (Pipeline.arrRef spec6 0)) ?_)
  funext a; apply Fin.ext
  match a with
  | ⟨0, _⟩ => show win6_0.index t (0 : Fin 2) * 10000 + 1 * (j 0).val = win6_6.index t (0 : Fin 2) * 10000 + 1 * (j 0).val; omega
  | ⟨1, _⟩ => show win6_0.index t (1 : Fin 2) * 64 + 1 * (j 1).val = win6_6.index t (1 : Fin 2) * 64 + 1 * (j 1).val; omega

/-- Row-blocked window 1's block at point t is the same rows of its array as the output's block. -/
theorem rd1 (c : Dev nD) (t : Fin cfg6.N) (j : ((cfg6.win 6).xblock (cfg6.grid.coords t)).Idx) :
    iblk6 V c 1 t j = V c (Pipeline.arrRef spec6 1) (((cfg6.win 6).blk t).view.emb j) := by
  obtain ⟨e0, e1, e2, e3, e4, e5, e6, e7, e8, e9⟩ := idx_facts t
  refine (show iblk6 V c 1 t j = V c (Pipeline.arrRef spec6 1) (((cfg6.win 1).blk t).view.emb j) from rfl).trans
    (congrArg (V c (Pipeline.arrRef spec6 1)) ?_)
  funext a; apply Fin.ext
  match a with
  | ⟨0, _⟩ => show win6_1.index t (0 : Fin 2) * 10000 + 1 * (j 0).val = win6_6.index t (0 : Fin 2) * 10000 + 1 * (j 0).val; omega
  | ⟨1, _⟩ => show win6_1.index t (1 : Fin 2) * 64 + 1 * (j 1).val = win6_6.index t (1 : Fin 2) * 64 + 1 * (j 1).val; omega

/-- Column window 2 is read whole at every point. -/
theorem rd2 (c : Dev nD) (t : Fin cfg6.N) (y : S64.Idx) : iblk6 V c 2 t y = V c (Pipeline.arrRef spec6 2) y := by
  obtain ⟨e0, e1, e2, e3, e4, e5, e6, e7, e8, e9⟩ := idx_facts t
  refine (show iblk6 V c 2 t y = V c (Pipeline.arrRef spec6 2) (((cfg6.win 2).blk t).view.emb y) from rfl).trans
    (congrArg (V c (Pipeline.arrRef spec6 2)) ?_)
  funext a; apply Fin.ext
  match a with
  | ⟨0, _⟩ => show win6_2.index t (0 : Fin 1) * 64 + 1 * (y 0).val = (y 0).val; omega

/-- Column window 3 is read whole at every point. -/
theorem rd3 (c : Dev nD) (t : Fin cfg6.N) (y : S64.Idx) : iblk6 V c 3 t y = V c (Pipeline.arrRef spec6 3) y := by
  obtain ⟨e0, e1, e2, e3, e4, e5, e6, e7, e8, e9⟩ := idx_facts t
  refine (show iblk6 V c 3 t y = V c (Pipeline.arrRef spec6 3) (((cfg6.win 3).blk t).view.emb y) from rfl).trans
    (congrArg (V c (Pipeline.arrRef spec6 3)) ?_)
  funext a; apply Fin.ext
  match a with
  | ⟨0, _⟩ => show win6_3.index t (0 : Fin 1) * 64 + 1 * (y 0).val = (y 0).val; omega

/-- Column window 4 is read whole at every point. -/
theorem rd4 (c : Dev nD) (t : Fin cfg6.N) (y : S64.Idx) : iblk6 V c 4 t y = V c (Pipeline.arrRef spec6 4) y := by
  obtain ⟨e0, e1, e2, e3, e4, e5, e6, e7, e8, e9⟩ := idx_facts t
  refine (show iblk6 V c 4 t y = V c (Pipeline.arrRef spec6 4) (((cfg6.win 4).blk t).view.emb y) from rfl).trans
    (congrArg (V c (Pipeline.arrRef spec6 4)) ?_)
  funext a; apply Fin.ext
  match a with
  | ⟨0, _⟩ => show win6_4.index t (0 : Fin 1) * 64 + 1 * (y 0).val = (y 0).val; omega

/-- Column window 5 is read whole at every point. -/
theorem rd5 (c : Dev nD) (t : Fin cfg6.N) (y : S64.Idx) : iblk6 V c 5 t y = V c (Pipeline.arrRef spec6 5) y := by
  obtain ⟨e0, e1, e2, e3, e4, e5, e6, e7, e8, e9⟩ := idx_facts t
  refine (show iblk6 V c 5 t y = V c (Pipeline.arrRef spec6 5) (((cfg6.win 5).blk t).view.emb y) from rfl).trans
    (congrArg (V c (Pipeline.arrRef spec6 5)) ?_)
  funext a; apply Fin.ext
  match a with
  | ⟨0, _⟩ => show win6_5.index t (0 : Fin 1) * 64 + 1 * (y 0).val = (y 0).val; omega

/-- The column of an element of the output's block is its column inside the block. -/
theorem col_eq (t : Fin cfg6.N) (j : ((cfg6.win 6).xblock (cfg6.grid.coords t)).Idx) :
    (ix1 ((((cfg6.win 6).blk t).view.emb j) 1) : (⟨1, ![64]⟩ : Shape).Idx) = ix1 (j 1) := by
  obtain ⟨e0, e1, e2, e3, e4, e5, e6, e7, e8, e9⟩ := idx_facts t
  exact congrArg ix1 (Fin.ext (by show win6_6.index t (1 : Fin 2) * 64 + 1 * (j 1).val = (j 1).val; omega))

/-- The function of the blocks at point t, at an element of the block, is the function of the whole arrays at that
    element's place in the array. -/
theorem blk_eq (c : Dev nD) (t : Fin cfg6.N) (j : ((cfg6.win 6).xblock (cfg6.grid.coords t)).Idx) :
    bnMulF (N := 10000) (iblk6 V c 0 t) (iblk6 V c 1 t) (iblk6 V c 2 t) (iblk6 V c 3 t) (iblk6 V c 4 t) (iblk6 V c 5 t) j
     = bnMulF (N := 100000) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) (((cfg6.win 6).blk t).view.emb j) := by
  unfold bnMulF
  simp only [rd0 V c t j, rd1 V c t j, rd2 V c t, rd3 V c t, rd4 V c t, rd5 V c t, col_eq t j] <;> rfl

set_option maxHeartbeats 1000000 in
/-- What point t writes back is block t of the function of the arrays as the region finds them. -/
theorem flushed_eq (c : Dev nD) (t : Fin cfg6.N) :
    (dat6 V c).flushed 6 t = ((cfg6.win 6).blk t).view.read (Elt Ideal)
      (bnMulF (N := 100000) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero hz2]
  simp only [View.ld_unit_zero (S := S10000x64) hz2, View.ld_unit_zero (S := S64) hz1]
  rw [pay_eq]
  exact funext fun j => blk_eq V c t j

/-- An index of the array is in point t's block iff each coordinate is in the block's range on its axis. -/
theorem mem_blk (t : Fin cfg6.N) (i : S100000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v58).slice (win6_6.rect t)).set ↔ _
  rw [View.set_slice_whole, Rect.mem_set_unit]
  exact Iff.rfl

/-- Every row is in the block of the point numbered by its row-block. -/
theorem cover (i : S100000x64.Idx) : ∃ t : Fin cfg6.N, (cfg6.win 6).flush t = true ∧ i ∈ ((cfg6.win 6).blk t).view.set := by
  have hN : grid6.N = 10 := N_6
  have hi0 : (i 0).val < 100000 := (i 0).isLt
  have hi1 : (i 1).val < 64 := (i 1).isLt
  let t : Fin cfg6.N := ⟨(i 0).val / 10000, by show _ < grid6.N; omega⟩
  obtain ⟨e0, e1, e2, e3, e4, e5, e6, e7, e8, e9⟩ := idx_facts t
  have e8' : win6_6.index t (0 : Fin 2) = (i 0).val / 10000 := e8
  refine ⟨t, flush6_6 t, ?_⟩
  rw [mem_blk]
  intro a
  match a with
  | ⟨0, _⟩ => show win6_6.index t (0 : Fin 2) * 10000 ≤ (i 0).val ∧ (i 0).val < win6_6.index t (0 : Fin 2) * 10000 + 10000; omega
  | ⟨1, _⟩ => show win6_6.index t (1 : Fin 2) * 64 ≤ (i 1).val ∧ (i 1).val < win6_6.index t (1 : Fin 2) * 64 + 64; omega

/-- THE ARRAY after the region. -/
theorem final (c : Dev nD) : (dat6 V c).arrAt 6 cfg6.N
    = bnMulF (N := 100000) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) :=
  (dat6 V c).arrAt_eq_of_cover 6 _ (fun t _ => flushed_eq V c t) (cover)

end Cert.KernelIdeal.Bn6

end
-- ==== Proof.KLayer1.lean ====
/-
  Layer 1 of the idealized kernel program, read through its boundary contents.  From the contents W9 at the layer's
  entry: a host stretch gathers the source rows; the message region leaves relu(source + edge); a host stretch
  scatter-adds the messages into destination rows and slices this layer's weights; the perceptron region leaves its
  output; three host stretches take the column mean and variance and slice the scale and shift; the last region
  normalises, rectifies and adds the residual.  Each step is one small equation between reads of consecutive boundary
  contents; together they say the layer's output is the specification's layer (the kernel's way) of the entry
  contents, and that the transformed edge features and the arguments pass through untouched.
-/
import proofs.«166775_j9826885173932_2_alg».proof.Proof.Gen.KernelIdeal.Frame
import proofs.«166775_j9826885173932_2_alg».proof.Proof.Msg4
import proofs.«166775_j9826885173932_2_alg».proof.Proof.Mlp5
import proofs.«166775_j9826885173932_2_alg».proof.Proof.Bn6
import proofs.«166775_j9826885173932_2_alg».proof.Proof.RefStages
import proofs.«166775_j9826885173932_2_alg».proof.Proof.NotWritten

set_option maxRecDepth 16384
set_option maxHeartbeats 1000000

noncomputable section

namespace Cert.KernelIdeal.KLayer1

open Cert.KernelIdeal Cert.KernelIdeal.Gen Cert.Gine Cert.ReferenceIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ### The gather stretch -/

theorem g_gath : W10 m ρ c (Proc.devRef .tc main_v36) = gathR (W9 m ρ c (Proc.devRef .tc main_arg2)) (W9 m ρ c (Proc.devRef .tc main_v29)) := by
  show StableHlo.after hostOps4 (W9 m ρ c) (Proc.devRef .tc main_v36) = _
  after_results_simp
  try rfl

theorem g_keep_main_v0 : W10 m ρ c (Proc.devRef .tc main_v0) = W9 m ρ c (Proc.devRef .tc main_v0) := by
  show StableHlo.after hostOps4 (W9 m ρ c) (Proc.devRef .tc main_v0) = _
  not_written [hostOps4]

theorem g_keep_main_arg2 : W10 m ρ c (Proc.devRef .tc main_arg2) = W9 m ρ c (Proc.devRef .tc main_arg2) := by
  show StableHlo.after hostOps4 (W9 m ρ c) (Proc.devRef .tc main_arg2) = _
  not_written [hostOps4]

theorem g_keep_main_arg3 : W10 m ρ c (Proc.devRef .tc main_arg3) = W9 m ρ c (Proc.devRef .tc main_arg3) := by
  show StableHlo.after hostOps4 (W9 m ρ c) (Proc.devRef .tc main_arg3) = _
  not_written [hostOps4]

theorem g_keep_main_arg6 : W10 m ρ c (Proc.devRef .tc main_arg6) = W9 m ρ c (Proc.devRef .tc main_arg6) := by
  show StableHlo.after hostOps4 (W9 m ρ c) (Proc.devRef .tc main_arg6) = _
  not_written [hostOps4]

theorem g_keep_main_arg7 : W10 m ρ c (Proc.devRef .tc main_arg7) = W9 m ρ c (Proc.devRef .tc main_arg7) := by
  show StableHlo.after hostOps4 (W9 m ρ c) (Proc.devRef .tc main_arg7) = _
  not_written [hostOps4]

theorem g_keep_main_arg8 : W10 m ρ c (Proc.devRef .tc main_arg8) = W9 m ρ c (Proc.devRef .tc main_arg8) := by
  show StableHlo.after hostOps4 (W9 m ρ c) (Proc.devRef .tc main_arg8) = _
  not_written [hostOps4]

theorem g_keep_main_arg9 : W10 m ρ c (Proc.devRef .tc main_arg9) = W9 m ρ c (Proc.devRef .tc main_arg9) := by
  show StableHlo.after hostOps4 (W9 m ρ c) (Proc.devRef .tc main_arg9) = _
  not_written [hostOps4]

theorem g_keep_main_arg10 : W10 m ρ c (Proc.devRef .tc main_arg10) = W9 m ρ c (Proc.devRef .tc main_arg10) := by
  show StableHlo.after hostOps4 (W9 m ρ c) (Proc.devRef .tc main_arg10) = _
  not_written [hostOps4]

theorem g_keep_main_arg11 : W10 m ρ c (Proc.devRef .tc main_arg11) = W9 m ρ c (Proc.devRef .tc main_arg11) := by
  show StableHlo.after hostOps4 (W9 m ρ c) (Proc.devRef .tc main_arg11) = _
  not_written [hostOps4]

theorem g_keep_main_v29 : W10 m ρ c (Proc.devRef .tc main_v29) = W9 m ρ c (Proc.devRef .tc main_v29) := by
  show StableHlo.after hostOps4 (W9 m ρ c) (Proc.devRef .tc main_v29) = _
  not_written [hostOps4]

/-! ### The message region -/

theorem m_msg : W11 m ρ c (Proc.devRef .tc main_v37) = msgF (E := 1600000) (W10 m ρ c (Proc.devRef .tc main_v36)) (W10 m ρ c (Proc.devRef .tc main_v0)) :=
  (W11_arr m ρ c 2).trans (Cert.KernelIdeal.Msg4.final (V10 m ρ) c)

theorem m_keep_main_v0 : W11 m ρ c (Proc.devRef .tc main_v0) = W10 m ρ c (Proc.devRef .tc main_v0) :=
  (W11_arr m ρ c 1).trans (((dat4 (V10 m ρ) c).arrAt_in 1 rfl _).trans (A_eq4 (V10 m ρ) c 1))

theorem m_keep_main_arg2 : W11 m ρ c (Proc.devRef .tc main_arg2) = W10 m ρ c (Proc.devRef .tc main_arg2) := W11_of_ne m ρ c main_arg2 (by decide)

theorem m_keep_main_arg3 : W11 m ρ c (Proc.devRef .tc main_arg3) = W10 m ρ c (Proc.devRef .tc main_arg3) := W11_of_ne m ρ c main_arg3 (by decide)

theorem m_keep_main_arg6 : W11 m ρ c (Proc.devRef .tc main_arg6) = W10 m ρ c (Proc.devRef .tc main_arg6) := W11_of_ne m ρ c main_arg6 (by decide)

theorem m_keep_main_arg7 : W11 m ρ c (Proc.devRef .tc main_arg7) = W10 m ρ c (Proc.devRef .tc main_arg7) := W11_of_ne m ρ c main_arg7 (by decide)

theorem m_keep_main_arg8 : W11 m ρ c (Proc.devRef .tc main_arg8) = W10 m ρ c (Proc.devRef .tc main_arg8) := W11_of_ne m ρ c main_arg8 (by decide)

theorem m_keep_main_arg9 : W11 m ρ c (Proc.devRef .tc main_arg9) = W10 m ρ c (Proc.devRef .tc main_arg9) := W11_of_ne m ρ c main_arg9 (by decide)

theorem m_keep_main_arg10 : W11 m ρ c (Proc.devRef .tc main_arg10) = W10 m ρ c (Proc.devRef .tc main_arg10) := W11_of_ne m ρ c main_arg10 (by decide)

theorem m_keep_main_arg11 : W11 m ρ c (Proc.devRef .tc main_arg11) = W10 m ρ c (Proc.devRef .tc main_arg11) := W11_of_ne m ρ c main_arg11 (by decide)

theorem m_keep_main_v29 : W11 m ρ c (Proc.devRef .tc main_v29) = W10 m ρ c (Proc.devRef .tc main_v29) := W11_of_ne m ρ c main_v29 (by decide)

/-! ### The scatter-add stretch (and this layer's slices of the perceptron's weights) -/

theorem s_agg : W12 m ρ c (Proc.devRef .tc main_v40) = scatR (W11 m ρ c (Proc.devRef .tc main_arg3)) (W11 m ρ c (Proc.devRef .tc main_v37)) := by
  show StableHlo.after hostOps5 (W11 m ρ c) (Proc.devRef .tc main_v40) = _
  after_results_simp
  try rfl

theorem s_w1 : W12 m ρ c (Proc.devRef .tc main_v42) = mat1 (W11 m ρ c (Proc.devRef .tc main_arg6)) := by
  show StableHlo.after hostOps5 (W11 m ρ c) (Proc.devRef .tc main_v42) = _
  after_results_simp
  try rfl

theorem s_b1 : W12 m ρ c (Proc.devRef .tc main_v44) = vec1 (W11 m ρ c (Proc.devRef .tc main_arg7)) := by
  show StableHlo.after hostOps5 (W11 m ρ c) (Proc.devRef .tc main_v44) = _
  after_results_simp
  try rfl

theorem s_w2 : W12 m ρ c (Proc.devRef .tc main_v46) = mat1 (W11 m ρ c (Proc.devRef .tc main_arg8)) := by
  show StableHlo.after hostOps5 (W11 m ρ c) (Proc.devRef .tc main_v46) = _
  after_results_simp
  try rfl

theorem s_b2 : W12 m ρ c (Proc.devRef .tc main_v48) = vec1 (W11 m ρ c (Proc.devRef .tc main_arg9)) := by
  show StableHlo.after hostOps5 (W11 m ρ c) (Proc.devRef .tc main_v48) = _
  after_results_simp
  try rfl

theorem s_keep_main_v0 : W12 m ρ c (Proc.devRef .tc main_v0) = W11 m ρ c (Proc.devRef .tc main_v0) := by
  show StableHlo.after hostOps5 (W11 m ρ c) (Proc.devRef .tc main_v0) = _
  not_written [hostOps5]

theorem s_keep_main_arg2 : W12 m ρ c (Proc.devRef .tc main_arg2) = W11 m ρ c (Proc.devRef .tc main_arg2) := by
  show StableHlo.after hostOps5 (W11 m ρ c) (Proc.devRef .tc main_arg2) = _
  not_written [hostOps5]

theorem s_keep_main_arg3 : W12 m ρ c (Proc.devRef .tc main_arg3) = W11 m ρ c (Proc.devRef .tc main_arg3) := by
  show StableHlo.after hostOps5 (W11 m ρ c) (Proc.devRef .tc main_arg3) = _
  not_written [hostOps5]

theorem s_keep_main_arg6 : W12 m ρ c (Proc.devRef .tc main_arg6) = W11 m ρ c (Proc.devRef .tc main_arg6) := by
  show StableHlo.after hostOps5 (W11 m ρ c) (Proc.devRef .tc main_arg6) = _
  not_written [hostOps5]

theorem s_keep_main_arg7 : W12 m ρ c (Proc.devRef .tc main_arg7) = W11 m ρ c (Proc.devRef .tc main_arg7) := by
  show StableHlo.after hostOps5 (W11 m ρ c) (Proc.devRef .tc main_arg7) = _
  not_written [hostOps5]

theorem s_keep_main_arg8 : W12 m ρ c (Proc.devRef .tc main_arg8) = W11 m ρ c (Proc.devRef .tc main_arg8) := by
  show StableHlo.after hostOps5 (W11 m ρ c) (Proc.devRef .tc main_arg8) = _
  not_written [hostOps5]

theorem s_keep_main_arg9 : W12 m ρ c (Proc.devRef .tc main_arg9) = W11 m ρ c (Proc.devRef .tc main_arg9) := by
  show StableHlo.after hostOps5 (W11 m ρ c) (Proc.devRef .tc main_arg9) = _
  not_written [hostOps5]

theorem s_keep_main_arg10 : W12 m ρ c (Proc.devRef .tc main_arg10) = W11 m ρ c (Proc.devRef .tc main_arg10) := by
  show StableHlo.after hostOps5 (W11 m ρ c) (Proc.devRef .tc main_arg10) = _
  not_written [hostOps5]

theorem s_keep_main_arg11 : W12 m ρ c (Proc.devRef .tc main_arg11) = W11 m ρ c (Proc.devRef .tc main_arg11) := by
  show StableHlo.after hostOps5 (W11 m ρ c) (Proc.devRef .tc main_arg11) = _
  not_written [hostOps5]

theorem s_keep_main_v29 : W12 m ρ c (Proc.devRef .tc main_v29) = W11 m ρ c (Proc.devRef .tc main_v29) := by
  show StableHlo.after hostOps5 (W11 m ρ c) (Proc.devRef .tc main_v29) = _
  not_written [hostOps5]

/-! ### The perceptron region -/

theorem p_z : W13 m ρ c (Proc.devRef .tc main_v49) = mlpF (N := 100000) (W12 m ρ c (Proc.devRef .tc main_v29)) (W12 m ρ c (Proc.devRef .tc main_v40)) (W12 m ρ c (Proc.devRef .tc main_v42)) (W12 m ρ c (Proc.devRef .tc main_v44)) (W12 m ρ c (Proc.devRef .tc main_v46)) (W12 m ρ c (Proc.devRef .tc main_v48)) :=
  (W13_arr m ρ c 6).trans (Cert.KernelIdeal.Mlp5.final (V12 m ρ) c)

theorem p_keep_main_v29 : W13 m ρ c (Proc.devRef .tc main_v29) = W12 m ρ c (Proc.devRef .tc main_v29) :=
  (W13_arr m ρ c 0).trans (((dat5 (V12 m ρ) c).arrAt_in 0 rfl _).trans (A_eq5 (V12 m ρ) c 0))

theorem p_keep_main_v0 : W13 m ρ c (Proc.devRef .tc main_v0) = W12 m ρ c (Proc.devRef .tc main_v0) := W13_of_ne m ρ c main_v0 (by decide)

theorem p_keep_main_arg2 : W13 m ρ c (Proc.devRef .tc main_arg2) = W12 m ρ c (Proc.devRef .tc main_arg2) := W13_of_ne m ρ c main_arg2 (by decide)

theorem p_keep_main_arg3 : W13 m ρ c (Proc.devRef .tc main_arg3) = W12 m ρ c (Proc.devRef .tc main_arg3) := W13_of_ne m ρ c main_arg3 (by decide)

theorem p_keep_main_arg6 : W13 m ρ c (Proc.devRef .tc main_arg6) = W12 m ρ c (Proc.devRef .tc main_arg6) := W13_of_ne m ρ c main_arg6 (by decide)

theorem p_keep_main_arg7 : W13 m ρ c (Proc.devRef .tc main_arg7) = W12 m ρ c (Proc.devRef .tc main_arg7) := W13_of_ne m ρ c main_arg7 (by decide)

theorem p_keep_main_arg8 : W13 m ρ c (Proc.devRef .tc main_arg8) = W12 m ρ c (Proc.devRef .tc main_arg8) := W13_of_ne m ρ c main_arg8 (by decide)

theorem p_keep_main_arg9 : W13 m ρ c (Proc.devRef .tc main_arg9) = W12 m ρ c (Proc.devRef .tc main_arg9) := W13_of_ne m ρ c main_arg9 (by decide)

theorem p_keep_main_arg10 : W13 m ρ c (Proc.devRef .tc main_arg10) = W12 m ρ c (Proc.devRef .tc main_arg10) := W13_of_ne m ρ c main_arg10 (by decide)

theorem p_keep_main_arg11 : W13 m ρ c (Proc.devRef .tc main_arg11) = W12 m ρ c (Proc.devRef .tc main_arg11) := W13_of_ne m ρ c main_arg11 (by decide)

/-! ### The batch statistics (three stretches in a row) and this layer's scale and shift -/

theorem v_mean : W16 m ρ c (Proc.devRef .tc main_v52) = meanR (W13 m ρ c (Proc.devRef .tc main_v49)) := by
  show StableHlo.after hostOps6_2 (StableHlo.after hostOps6_1 (StableHlo.after hostOps6 (W13 m ρ c))) (Proc.devRef .tc main_v52) = _
  after_results_simp
  try rfl

theorem v_var : W16 m ρ c (Proc.devRef .tc main_v53) = varR (W13 m ρ c (Proc.devRef .tc main_v49)) := by
  show StableHlo.after hostOps6_2 (StableHlo.after hostOps6_1 (StableHlo.after hostOps6 (W13 m ρ c))) (Proc.devRef .tc main_v53) = _
  after_results_simp
  try rfl

theorem v_g : W16 m ρ c (Proc.devRef .tc main_v55) = vec1 (W13 m ρ c (Proc.devRef .tc main_arg10)) := by
  show StableHlo.after hostOps6_2 (StableHlo.after hostOps6_1 (StableHlo.after hostOps6 (W13 m ρ c))) (Proc.devRef .tc main_v55) = _
  after_results_simp
  try rfl

theorem v_b : W16 m ρ c (Proc.devRef .tc main_v57) = vec1 (W13 m ρ c (Proc.devRef .tc main_arg11)) := by
  show StableHlo.after hostOps6_2 (StableHlo.after hostOps6_1 (StableHlo.after hostOps6 (W13 m ρ c))) (Proc.devRef .tc main_v57) = _
  after_results_simp
  try rfl

theorem v_keep_main_v0 : W16 m ρ c (Proc.devRef .tc main_v0) = W13 m ρ c (Proc.devRef .tc main_v0) := by
  show StableHlo.after hostOps6_2 (StableHlo.after hostOps6_1 (StableHlo.after hostOps6 (W13 m ρ c))) (Proc.devRef .tc main_v0) = _
  rw [show StableHlo.after hostOps6_2 (StableHlo.after hostOps6_1 (StableHlo.after hostOps6 (W13 m ρ c))) (Proc.devRef .tc main_v0) = StableHlo.after hostOps6_1 (StableHlo.after hostOps6 (W13 m ρ c)) (Proc.devRef .tc main_v0) from by not_written [hostOps6_2],
    show StableHlo.after hostOps6_1 (StableHlo.after hostOps6 (W13 m ρ c)) (Proc.devRef .tc main_v0) = StableHlo.after hostOps6 (W13 m ρ c) (Proc.devRef .tc main_v0) from by not_written [hostOps6_1]]
  not_written [hostOps6]

theorem v_keep_main_arg2 : W16 m ρ c (Proc.devRef .tc main_arg2) = W13 m ρ c (Proc.devRef .tc main_arg2) := by
  show StableHlo.after hostOps6_2 (StableHlo.after hostOps6_1 (StableHlo.after hostOps6 (W13 m ρ c))) (Proc.devRef .tc main_arg2) = _
  rw [show StableHlo.after hostOps6_2 (StableHlo.after hostOps6_1 (StableHlo.after hostOps6 (W13 m ρ c))) (Proc.devRef .tc main_arg2) = StableHlo.after hostOps6_1 (StableHlo.after hostOps6 (W13 m ρ c)) (Proc.devRef .tc main_arg2) from by not_written [hostOps6_2],
    show StableHlo.after hostOps6_1 (StableHlo.after hostOps6 (W13 m ρ c)) (Proc.devRef .tc main_arg2) = StableHlo.after hostOps6 (W13 m ρ c) (Proc.devRef .tc main_arg2) from by not_written [hostOps6_1]]
  not_written [hostOps6]

theorem v_keep_main_arg3 : W16 m ρ c (Proc.devRef .tc main_arg3) = W13 m ρ c (Proc.devRef .tc main_arg3) := by
  show StableHlo.after hostOps6_2 (StableHlo.after hostOps6_1 (StableHlo.after hostOps6 (W13 m ρ c))) (Proc.devRef .tc main_arg3) = _
  rw [show StableHlo.after hostOps6_2 (StableHlo.after hostOps6_1 (StableHlo.after hostOps6 (W13 m ρ c))) (Proc.devRef .tc main_arg3) = StableHlo.after hostOps6_1 (StableHlo.after hostOps6 (W13 m ρ c)) (Proc.devRef .tc main_arg3) from by not_written [hostOps6_2],
    show StableHlo.after hostOps6_1 (StableHlo.after hostOps6 (W13 m ρ c)) (Proc.devRef .tc main_arg3) = StableHlo.after hostOps6 (W13 m ρ c) (Proc.devRef .tc main_arg3) from by not_written [hostOps6_1]]
  not_written [hostOps6]

theorem v_keep_main_arg6 : W16 m ρ c (Proc.devRef .tc main_arg6) = W13 m ρ c (Proc.devRef .tc main_arg6) := by
  show StableHlo.after hostOps6_2 (StableHlo.after hostOps6_1 (StableHlo.after hostOps6 (W13 m ρ c))) (Proc.devRef .tc main_arg6) = _
  rw [show StableHlo.after hostOps6_2 (StableHlo.after hostOps6_1 (StableHlo.after hostOps6 (W13 m ρ c))) (Proc.devRef .tc main_arg6) = StableHlo.after hostOps6_1 (StableHlo.after hostOps6 (W13 m ρ c)) (Proc.devRef .tc main_arg6) from by not_written [hostOps6_2],
    show StableHlo.after hostOps6_1 (StableHlo.after hostOps6 (W13 m ρ c)) (Proc.devRef .tc main_arg6) = StableHlo.after hostOps6 (W13 m ρ c) (Proc.devRef .tc main_arg6) from by not_written [hostOps6_1]]
  not_written [hostOps6]

theorem v_keep_main_arg7 : W16 m ρ c (Proc.devRef .tc main_arg7) = W13 m ρ c (Proc.devRef .tc main_arg7) := by
  show StableHlo.after hostOps6_2 (StableHlo.after hostOps6_1 (StableHlo.after hostOps6 (W13 m ρ c))) (Proc.devRef .tc main_arg7) = _
  rw [show StableHlo.after hostOps6_2 (StableHlo.after hostOps6_1 (StableHlo.after hostOps6 (W13 m ρ c))) (Proc.devRef .tc main_arg7) = StableHlo.after hostOps6_1 (StableHlo.after hostOps6 (W13 m ρ c)) (Proc.devRef .tc main_arg7) from by not_written [hostOps6_2],
    show StableHlo.after hostOps6_1 (StableHlo.after hostOps6 (W13 m ρ c)) (Proc.devRef .tc main_arg7) = StableHlo.after hostOps6 (W13 m ρ c) (Proc.devRef .tc main_arg7) from by not_written [hostOps6_1]]
  not_written [hostOps6]

theorem v_keep_main_arg8 : W16 m ρ c (Proc.devRef .tc main_arg8) = W13 m ρ c (Proc.devRef .tc main_arg8) := by
  show StableHlo.after hostOps6_2 (StableHlo.after hostOps6_1 (StableHlo.after hostOps6 (W13 m ρ c))) (Proc.devRef .tc main_arg8) = _
  rw [show StableHlo.after hostOps6_2 (StableHlo.after hostOps6_1 (StableHlo.after hostOps6 (W13 m ρ c))) (Proc.devRef .tc main_arg8) = StableHlo.after hostOps6_1 (StableHlo.after hostOps6 (W13 m ρ c)) (Proc.devRef .tc main_arg8) from by not_written [hostOps6_2],
    show StableHlo.after hostOps6_1 (StableHlo.after hostOps6 (W13 m ρ c)) (Proc.devRef .tc main_arg8) = StableHlo.after hostOps6 (W13 m ρ c) (Proc.devRef .tc main_arg8) from by not_written [hostOps6_1]]
  not_written [hostOps6]

theorem v_keep_main_arg9 : W16 m ρ c (Proc.devRef .tc main_arg9) = W13 m ρ c (Proc.devRef .tc main_arg9) := by
  show StableHlo.after hostOps6_2 (StableHlo.after hostOps6_1 (StableHlo.after hostOps6 (W13 m ρ c))) (Proc.devRef .tc main_arg9) = _
  rw [show StableHlo.after hostOps6_2 (StableHlo.after hostOps6_1 (StableHlo.after hostOps6 (W13 m ρ c))) (Proc.devRef .tc main_arg9) = StableHlo.after hostOps6_1 (StableHlo.after hostOps6 (W13 m ρ c)) (Proc.devRef .tc main_arg9) from by not_written [hostOps6_2],
    show StableHlo.after hostOps6_1 (StableHlo.after hostOps6 (W13 m ρ c)) (Proc.devRef .tc main_arg9) = StableHlo.after hostOps6 (W13 m ρ c) (Proc.devRef .tc main_arg9) from by not_written [hostOps6_1]]
  not_written [hostOps6]

theorem v_keep_main_arg10 : W16 m ρ c (Proc.devRef .tc main_arg10) = W13 m ρ c (Proc.devRef .tc main_arg10) := by
  show StableHlo.after hostOps6_2 (StableHlo.after hostOps6_1 (StableHlo.after hostOps6 (W13 m ρ c))) (Proc.devRef .tc main_arg10) = _
  rw [show StableHlo.after hostOps6_2 (StableHlo.after hostOps6_1 (StableHlo.after hostOps6 (W13 m ρ c))) (Proc.devRef .tc main_arg10) = StableHlo.after hostOps6_1 (StableHlo.after hostOps6 (W13 m ρ c)) (Proc.devRef .tc main_arg10) from by not_written [hostOps6_2],
    show StableHlo.after hostOps6_1 (StableHlo.after hostOps6 (W13 m ρ c)) (Proc.devRef .tc main_arg10) = StableHlo.after hostOps6 (W13 m ρ c) (Proc.devRef .tc main_arg10) from by not_written [hostOps6_1]]
  not_written [hostOps6]

theorem v_keep_main_arg11 : W16 m ρ c (Proc.devRef .tc main_arg11) = W13 m ρ c (Proc.devRef .tc main_arg11) := by
  show StableHlo.after hostOps6_2 (StableHlo.after hostOps6_1 (StableHlo.after hostOps6 (W13 m ρ c))) (Proc.devRef .tc main_arg11) = _
  rw [show StableHlo.after hostOps6_2 (StableHlo.after hostOps6_1 (StableHlo.after hostOps6 (W13 m ρ c))) (Proc.devRef .tc main_arg11) = StableHlo.after hostOps6_1 (StableHlo.after hostOps6 (W13 m ρ c)) (Proc.devRef .tc main_arg11) from by not_written [hostOps6_2],
    show StableHlo.after hostOps6_1 (StableHlo.after hostOps6 (W13 m ρ c)) (Proc.devRef .tc main_arg11) = StableHlo.after hostOps6 (W13 m ρ c) (Proc.devRef .tc main_arg11) from by not_written [hostOps6_1]]
  not_written [hostOps6]

theorem v_keep_main_v29 : W16 m ρ c (Proc.devRef .tc main_v29) = W13 m ρ c (Proc.devRef .tc main_v29) := by
  show StableHlo.after hostOps6_2 (StableHlo.after hostOps6_1 (StableHlo.after hostOps6 (W13 m ρ c))) (Proc.devRef .tc main_v29) = _
  rw [show StableHlo.after hostOps6_2 (StableHlo.after hostOps6_1 (StableHlo.after hostOps6 (W13 m ρ c))) (Proc.devRef .tc main_v29) = StableHlo.after hostOps6_1 (StableHlo.after hostOps6 (W13 m ρ c)) (Proc.devRef .tc main_v29) from by not_written [hostOps6_2],
    show StableHlo.after hostOps6_1 (StableHlo.after hostOps6 (W13 m ρ c)) (Proc.devRef .tc main_v29) = StableHlo.after hostOps6 (W13 m ρ c) (Proc.devRef .tc main_v29) from by not_written [hostOps6_1]]
  not_written [hostOps6]

theorem v_keep_main_v49 : W16 m ρ c (Proc.devRef .tc main_v49) = W13 m ρ c (Proc.devRef .tc main_v49) := by
  show StableHlo.after hostOps6_2 (StableHlo.after hostOps6_1 (StableHlo.after hostOps6 (W13 m ρ c))) (Proc.devRef .tc main_v49) = _
  rw [show StableHlo.after hostOps6_2 (StableHlo.after hostOps6_1 (StableHlo.after hostOps6 (W13 m ρ c))) (Proc.devRef .tc main_v49) = StableHlo.after hostOps6_1 (StableHlo.after hostOps6 (W13 m ρ c)) (Proc.devRef .tc main_v49) from by not_written [hostOps6_2],
    show StableHlo.after hostOps6_1 (StableHlo.after hostOps6 (W13 m ρ c)) (Proc.devRef .tc main_v49) = StableHlo.after hostOps6 (W13 m ρ c) (Proc.devRef .tc main_v49) from by not_written [hostOps6_1]]
  not_written [hostOps6]

/-! ### The normalise-rectify-residual region -/

theorem n_out : W17 m ρ c (Proc.devRef .tc main_v58) = bnMulF (N := 100000) (W16 m ρ c (Proc.devRef .tc main_v49)) (W16 m ρ c (Proc.devRef .tc main_v29)) (W16 m ρ c (Proc.devRef .tc main_v52)) (W16 m ρ c (Proc.devRef .tc main_v53)) (W16 m ρ c (Proc.devRef .tc main_v55)) (W16 m ρ c (Proc.devRef .tc main_v57)) :=
  (W17_arr m ρ c 6).trans (Cert.KernelIdeal.Bn6.final (V16 m ρ) c)

theorem n_keep_main_v0 : W17 m ρ c (Proc.devRef .tc main_v0) = W16 m ρ c (Proc.devRef .tc main_v0) := W17_of_ne m ρ c main_v0 (by decide)

theorem n_keep_main_arg2 : W17 m ρ c (Proc.devRef .tc main_arg2) = W16 m ρ c (Proc.devRef .tc main_arg2) := W17_of_ne m ρ c main_arg2 (by decide)

theorem n_keep_main_arg3 : W17 m ρ c (Proc.devRef .tc main_arg3) = W16 m ρ c (Proc.devRef .tc main_arg3) := W17_of_ne m ρ c main_arg3 (by decide)

theorem n_keep_main_arg6 : W17 m ρ c (Proc.devRef .tc main_arg6) = W16 m ρ c (Proc.devRef .tc main_arg6) := W17_of_ne m ρ c main_arg6 (by decide)

theorem n_keep_main_arg7 : W17 m ρ c (Proc.devRef .tc main_arg7) = W16 m ρ c (Proc.devRef .tc main_arg7) := W17_of_ne m ρ c main_arg7 (by decide)

theorem n_keep_main_arg8 : W17 m ρ c (Proc.devRef .tc main_arg8) = W16 m ρ c (Proc.devRef .tc main_arg8) := W17_of_ne m ρ c main_arg8 (by decide)

theorem n_keep_main_arg9 : W17 m ρ c (Proc.devRef .tc main_arg9) = W16 m ρ c (Proc.devRef .tc main_arg9) := W17_of_ne m ρ c main_arg9 (by decide)

theorem n_keep_main_arg10 : W17 m ρ c (Proc.devRef .tc main_arg10) = W16 m ρ c (Proc.devRef .tc main_arg10) := W17_of_ne m ρ c main_arg10 (by decide)

theorem n_keep_main_arg11 : W17 m ρ c (Proc.devRef .tc main_arg11) = W16 m ρ c (Proc.devRef .tc main_arg11) := W17_of_ne m ρ c main_arg11 (by decide)

/-! ### The layer -/

/-- The layer leaves the transformed edge features alone. -/
theorem kept_main_v0 : W17 m ρ c (Proc.devRef .tc main_v0) = W9 m ρ c (Proc.devRef .tc main_v0) := by
  rw [n_keep_main_v0 m ρ c, v_keep_main_v0 m ρ c, p_keep_main_v0 m ρ c, s_keep_main_v0 m ρ c, m_keep_main_v0 m ρ c, g_keep_main_v0 m ρ c]
/-- The layer leaves argument 2 alone. -/
theorem kept_main_arg2 : W17 m ρ c (Proc.devRef .tc main_arg2) = W9 m ρ c (Proc.devRef .tc main_arg2) := by
  rw [n_keep_main_arg2 m ρ c, v_keep_main_arg2 m ρ c, p_keep_main_arg2 m ρ c, s_keep_main_arg2 m ρ c, m_keep_main_arg2 m ρ c, g_keep_main_arg2 m ρ c]
/-- The layer leaves argument 3 alone. -/
theorem kept_main_arg3 : W17 m ρ c (Proc.devRef .tc main_arg3) = W9 m ρ c (Proc.devRef .tc main_arg3) := by
  rw [n_keep_main_arg3 m ρ c, v_keep_main_arg3 m ρ c, p_keep_main_arg3 m ρ c, s_keep_main_arg3 m ρ c, m_keep_main_arg3 m ρ c, g_keep_main_arg3 m ρ c]
/-- The layer leaves argument 6 alone. -/
theorem kept_main_arg6 : W17 m ρ c (Proc.devRef .tc main_arg6) = W9 m ρ c (Proc.devRef .tc main_arg6) := by
  rw [n_keep_main_arg6 m ρ c, v_keep_main_arg6 m ρ c, p_keep_main_arg6 m ρ c, s_keep_main_arg6 m ρ c, m_keep_main_arg6 m ρ c, g_keep_main_arg6 m ρ c]
/-- The layer leaves argument 7 alone. -/
theorem kept_main_arg7 : W17 m ρ c (Proc.devRef .tc main_arg7) = W9 m ρ c (Proc.devRef .tc main_arg7) := by
  rw [n_keep_main_arg7 m ρ c, v_keep_main_arg7 m ρ c, p_keep_main_arg7 m ρ c, s_keep_main_arg7 m ρ c, m_keep_main_arg7 m ρ c, g_keep_main_arg7 m ρ c]
/-- The layer leaves argument 8 alone. -/
theorem kept_main_arg8 : W17 m ρ c (Proc.devRef .tc main_arg8) = W9 m ρ c (Proc.devRef .tc main_arg8) := by
  rw [n_keep_main_arg8 m ρ c, v_keep_main_arg8 m ρ c, p_keep_main_arg8 m ρ c, s_keep_main_arg8 m ρ c, m_keep_main_arg8 m ρ c, g_keep_main_arg8 m ρ c]
/-- The layer leaves argument 9 alone. -/
theorem kept_main_arg9 : W17 m ρ c (Proc.devRef .tc main_arg9) = W9 m ρ c (Proc.devRef .tc main_arg9) := by
  rw [n_keep_main_arg9 m ρ c, v_keep_main_arg9 m ρ c, p_keep_main_arg9 m ρ c, s_keep_main_arg9 m ρ c, m_keep_main_arg9 m ρ c, g_keep_main_arg9 m ρ c]
/-- The layer leaves argument 10 alone. -/
theorem kept_main_arg10 : W17 m ρ c (Proc.devRef .tc main_arg10) = W9 m ρ c (Proc.devRef .tc main_arg10) := by
  rw [n_keep_main_arg10 m ρ c, v_keep_main_arg10 m ρ c, p_keep_main_arg10 m ρ c, s_keep_main_arg10 m ρ c, m_keep_main_arg10 m ρ c, g_keep_main_arg10 m ρ c]
/-- The layer leaves argument 11 alone. -/
theorem kept_main_arg11 : W17 m ρ c (Proc.devRef .tc main_arg11) = W9 m ρ c (Proc.devRef .tc main_arg11) := by
  rw [n_keep_main_arg11 m ρ c, v_keep_main_arg11 m ρ c, p_keep_main_arg11 m ρ c, s_keep_main_arg11 m ρ c, m_keep_main_arg11 m ρ c, g_keep_main_arg11 m ρ c]

/-- The layer's output is the specification's layer, the kernel's way, of the entry contents. -/
theorem layer : W17 m ρ c (Proc.devRef .tc main_v58)
    = layerMul (N := 100000) (E := 1600000) (gathR (W9 m ρ c (Proc.devRef .tc main_arg2))) (scatR (W9 m ρ c (Proc.devRef .tc main_arg3))) meanR varR
        (mat1 (W9 m ρ c (Proc.devRef .tc main_arg6))) (vec1 (W9 m ρ c (Proc.devRef .tc main_arg7))) (mat1 (W9 m ρ c (Proc.devRef .tc main_arg8))) (vec1 (W9 m ρ c (Proc.devRef .tc main_arg9)))
        (vec1 (W9 m ρ c (Proc.devRef .tc main_arg10))) (vec1 (W9 m ρ c (Proc.devRef .tc main_arg11))) (W9 m ρ c (Proc.devRef .tc main_v0)) (W9 m ρ c (Proc.devRef .tc main_v29)) := by
  unfold layerMul
  simp only [n_out m ρ c, v_mean m ρ c, v_var m ρ c, v_g m ρ c, v_b m ρ c, v_keep_main_v49 m ρ c, v_keep_main_v29 m ρ c, p_z m ρ c, s_agg m ρ c, s_w1 m ρ c, s_b1 m ρ c, s_w2 m ρ c, s_b2 m ρ c, s_keep_main_v29 m ρ c, m_msg m ρ c, m_keep_main_v29 m ρ c, m_keep_main_v0 m ρ c, g_gath m ρ c, g_keep_main_v29 m ρ c, g_keep_main_v0 m ρ c, p_keep_main_v29 m ρ c, m_keep_main_arg3 m ρ c, g_keep_main_arg3 m ρ c, m_keep_main_arg6 m ρ c, g_keep_main_arg6 m ρ c, m_keep_main_arg7 m ρ c, g_keep_main_arg7 m ρ c, m_keep_main_arg8 m ρ c, g_keep_main_arg8 m ρ c, m_keep_main_arg9 m ρ c, g_keep_main_arg9 m ρ c, p_keep_main_arg10 m ρ c, s_keep_main_arg10 m ρ c, m_keep_main_arg10 m ρ c, g_keep_main_arg10 m ρ c, p_keep_main_arg11 m ρ c, s_keep_main_arg11 m ρ c, m_keep_main_arg11 m ρ c, g_keep_main_arg11 m ρ c]

end Cert.KernelIdeal.KLayer1

end
-- ==== Proof.Msg7.lean ====
/-
  Region 7 (the message kernel): the array it leaves.  Each grid point reads block t of the gathered source rows and
  block t of the transformed edge rows (10000 rows each), and writes back block t of relu(source + edge).  The blocks
  are consecutive row ranges that tile the 1600000 rows, and the message is pointwise, so the array after the region
  is the message function of the two whole arrays the region found.
-/
import proofs.«166775_j9826885173932_2_alg».proof.Proof.Gen.KernelIdeal.Frame
import proofs.«166775_j9826885173932_2_alg».proof.Proof.Spec
import Idealize.ShloMosaic.Lib.Pipeline.Value

set_option maxRecDepth 16384

noncomputable section

namespace Cert.KernelIdeal.Msg7

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the message function of its two loaded blocks. -/
theorem pay_eq (x0 x1 : Vec Ideal S10000x64 .f32) : k7_pay1 x0 x1 = msgF (E := 10000) x0 x1 := by
  funext j
  unfold k7_pay1
  simp only [shapeCast_self]
  rfl

/-- The printed index maps, decided over the grid: all three windows move together, block t at row-block t. -/
theorem idx_facts : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) = t.val ∧ win7_2.index t (1 : Fin 2) = 0 :=
  (by decide +kernel : ∀ t : Fin grid7.N, _)

/-- What point t writes back is block t of the message function of the arrays as the region finds them. -/
theorem flushed_eq (c : Dev nD) (t : Fin cfg7.N) :
    (dat7 V c).flushed 2 t = ((cfg7.win 2).blk t).view.read (Elt Ideal)
      (msgF (E := 1600000) (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S10000x64) hz]
  rw [pay_eq]
  obtain ⟨e0, e1, e2, e3, e4, e5⟩ := idx_facts t
  funext j
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * (j 1).val = win7_2.index t (1 : Fin 2) * 64 + 1 * (j 1).val; omega
  have h1 : ((cfg7.win 1).blk t).view.emb j = ((cfg7.win 2).blk t).view.emb j := by
    funext a; apply Fin.ext
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 64 + 1 * (j 1).val = win7_2.index t (1 : Fin 2) * 64 + 1 * (j 1).val; omega
  have hA : iblk7 V c 0 t j = V c (Pipeline.arrRef spec7 0) (((cfg7.win 2).blk t).view.emb j) := by
    show V c (Pipeline.arrRef spec7 0) (((cfg7.win 0).blk t).view.emb j) = _
    rw [h0]
  have hB : iblk7 V c 1 t j = V c (Pipeline.arrRef spec7 1) (((cfg7.win 2).blk t).view.emb j) := by
    show V c (Pipeline.arrRef spec7 1) (((cfg7.win 1).blk t).view.emb j) = _
    rw [h1]
  show msgF (E := 10000) (iblk7 V c 0 t) (iblk7 V c 1 t) j
     = msgF (E := 1600000) (V c (Pipeline.arrRef spec7 0)) (V c (Pipeline.arrRef spec7 1)) (((cfg7.win 2).blk t).view.emb j)
  unfold msgF
  rw [hA, hB]

/-- An index of the array is in point t's block iff each coordinate is in the block's range on its axis. -/
theorem mem_blk (t : Fin cfg7.N) (i : S1600000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v66).slice (win7_2.rect t)).set ↔ _
  rw [View.set_slice_whole, Rect.mem_set_unit]
  exact Iff.rfl

/-- Every row is in the block of the point numbered by its row-block. -/
theorem cover (i : S1600000x64.Idx) : ∃ t : Fin cfg7.N, (cfg7.win 2).flush t = true ∧ i ∈ ((cfg7.win 2).blk t).view.set := by
  have hN : grid7.N = 160 := N_7
  have hi0 : (i 0).val < 1600000 := (i 0).isLt
  have hi1 : (i 1).val < 64 := (i 1).isLt
  let t : Fin cfg7.N := ⟨(i 0).val / 10000, by show _ < grid7.N; omega⟩
  obtain ⟨e0, e1, e2, e3, e4, e5⟩ := idx_facts t
  have e4' : win7_2.index t (0 : Fin 2) = (i 0).val / 10000 := e4
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- THE ARRAY after the region: the message function of the two arrays the region found. -/
theorem final (c : Dev nD) : (dat7 V c).arrAt 2 cfg7.N
    = msgF (E := 1600000) (V c (Pipeline.arrRef spec7 0)) (V c (Pipeline.arrRef spec7 1)) :=
  (dat7 V c).arrAt_eq_of_cover 2 _ (fun t _ => flushed_eq V c t) (cover)

end Cert.KernelIdeal.Msg7

end
-- ==== Proof.Mlp8.lean ====
/-
  Region 8 (the two-layer perceptron): the array it leaves.  Each grid point reads block t (10000 rows) of the layer's
  input h and of the aggregated messages, and the whole weights and biases; it writes back block t of
  relu((h + agg)·W1 + b1)·W2 + b2.  The kernel rounds to bf16 on the way into each product: on the extended reals a
  change of float format is the identity.  Row r of the result reads row r of h and agg only, and the blocks are
  consecutive row ranges tiling the 100000 rows: the array after the region is that function of the whole arrays.
-/
import proofs.«166775_j9826885173932_2_alg».proof.Proof.Gen.KernelIdeal.Frame
import proofs.«166775_j9826885173932_2_alg».proof.Proof.Spec
import proofs.«166775_j9826885173932_2_alg».proof.Proof.LibPlainDot
import Idealize.ShloMosaic.Lib.Pipeline.Value
import Idealize.ShloMosaic.Lib.ValueLayout

set_option maxRecDepth 16384

noncomputable section

namespace Cert.KernelIdeal.Mlp8

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The kernel's product of a 10000 × 64 block by a 64 × 64 weight, at an entry: a sum of sixty-four products. -/
theorem mm (l : FVec Ideal S10000x64 .bf16) (r : FVec Ideal S64x64 .bf16) (a : Fin 10000) (b : Fin 64) :
    matmul dot_S10000x64_S64x64_S10000x64_1_0_0_1_n_n none l r (constant S10000x64 .f32 0x00000000#32) (ix2 a b)
      = ∑ k : Fin 64, l (ix2 a k) * r (ix2 k b) :=
  Cert.LibPlainDot.matmul_zero_apply (M := 10000) (K := 64) (N := 64) dot_S10000x64_S64x64_S10000x64_1_0_0_1_n_n rfl rfl rfl rfl
    (fun _ _ => rfl) (fun _ _ => rfl) none l r a b

/-- The body's stored value, entry by entry: the perceptron of its loaded blocks. -/
theorem pay_eq (h agg : Vec Ideal S10000x64 .f32) (w1 : Vec Ideal S64x64 .f32) (b1 : Vec Ideal S64 .f32)
    (w2 : Vec Ideal S64x64 .f32) (b2 : Vec Ideal S64 .f32) :
    k8_pay1 h agg w1 b1 w2 b2 = mlpF (N := 10000) h agg w1 b1 w2 b2 := by
  funext j
  obtain ⟨p, q, rfl⟩ : ∃ (p : Fin 10000) (q : Fin 64), j = ix2 p q := ⟨j 0, j 1, eq_ix2 j⟩
  unfold k8_pay1
  simp only [shapeCast_self]
  simp only [addf_apply, maximumf_apply, truncf_apply, broadcast_apply, broadcastTo_1b_ab_apply, shapeCast_a_1a_apply, mm]
  rfl

/-- The printed index maps, decided over the grid: h, agg and the result move together, block t at row-block t; the
    weights and biases are read whole. -/
theorem idx_facts : ∀ t : Fin cfg8.N, win8_0.index t (0 : Fin 2) = win8_6.index t (0 : Fin 2)
    ∧ win8_0.index t (1 : Fin 2) = 0
    ∧ win8_1.index t (0 : Fin 2) = win8_6.index t (0 : Fin 2)
    ∧ win8_1.index t (1 : Fin 2) = 0
    ∧ win8_2.index t (0 : Fin 2) = 0 ∧ win8_2.index t (1 : Fin 2) = 0
    ∧ win8_3.index t (0 : Fin 1) = 0
    ∧ win8_4.index t (0 : Fin 2) = 0 ∧ win8_4.index t (1 : Fin 2) = 0
    ∧ win8_5.index t (0 : Fin 1) = 0
    ∧ win8_6.index t (0 : Fin 2) = t.val ∧ win8_6.index t (1 : Fin 2) = 0 :=
  (by decide +kernel : ∀ t : Fin grid8.N, _)

/-- Row r, column k of row-blocked window 0's block at point t is the output block's row of its array. -/
theorem rd0 (c : Dev nD) (t : Fin cfg8.N) (j : ((cfg8.win 6).xblock (cfg8.grid.coords t)).Idx) (k : Fin 64) :
    iblk8 V c 0 t (ix2 (j 0) k) = V c (Pipeline.arrRef spec8 0) (ix2 ((((cfg8.win 6).blk t).view.emb j) 0) k) := by
  obtain ⟨e0, e1, e2, e3, e4, e5, e6, e7, e8, e9, e10, e11⟩ := idx_facts t
  refine (show iblk8 V c 0 t (ix2 (j 0) k) = V c (Pipeline.arrRef spec8 0) (((cfg8.win 0).blk t).view.emb (ix2 (j 0) k)) from rfl).trans
    (congrArg (V c (Pipeline.arrRef spec8 0)) ?_)
  funext a; apply Fin.ext
  match a with
  | ⟨0, _⟩ => show win8_0.index t (0 : Fin 2) * 10000 + 1 * (j 0).val = win8_6.index t (0 : Fin 2) * 10000 + 1 * (j 0).val; omega
  | ⟨1, _⟩ => show win8_0.index t (1 : Fin 2) * 64 + 1 * k.val = k.val; omega

/-- Row r, column k of row-blocked window 1's block at point t is the output block's row of its array. -/
theorem rd1 (c : Dev nD) (t : Fin cfg8.N) (j : ((cfg8.win 6).xblock (cfg8.grid.coords t)).Idx) (k : Fin 64) :
    iblk8 V c 1 t (ix2 (j 0) k) = V c (Pipeline.arrRef spec8 1) (ix2 ((((cfg8.win 6).blk t).view.emb j) 0) k) := by
  obtain ⟨e0, e1, e2, e3, e4, e5, e6, e7, e8, e9, e10, e11⟩ := idx_facts t
  refine (show iblk8 V c 1 t (ix2 (j 0) k) = V c (Pipeline.arrRef spec8 1) (((cfg8.win 1).blk t).view.emb (ix2 (j 0) k)) from rfl).trans
    (congrArg (V c (Pipeline.arrRef spec8 1)) ?_)
  funext a; apply Fin.ext
  match a with
  | ⟨0, _⟩ => show win8_1.index t (0 : Fin 2) * 10000 + 1 * (j 0).val = win8_6.index t (0 : Fin 2) * 10000 + 1 * (j 0).val; omega
  | ⟨1, _⟩ => show win8_1.index t (1 : Fin 2) * 64 + 1 * k.val = k.val; omega

/-- Weight window 2 is read whole at every point. -/
theorem rd2 (c : Dev nD) (t : Fin cfg8.N) (y : S64x64.Idx) : iblk8 V c 2 t y = V c (Pipeline.arrRef spec8 2) y := by
  obtain ⟨e0, e1, e2, e3, e4, e5, e6, e7, e8, e9, e10, e11⟩ := idx_facts t
  refine (show iblk8 V c 2 t y = V c (Pipeline.arrRef spec8 2) (((cfg8.win 2).blk t).view.emb y) from rfl).trans
    (congrArg (V c (Pipeline.arrRef spec8 2)) ?_)
  funext a; apply Fin.ext
  match a with
  | ⟨0, _⟩ => show win8_2.index t (0 : Fin 2) * 64 + 1 * (y 0).val = (y 0).val; omega
  | ⟨1, _⟩ => show win8_2.index t (1 : Fin 2) * 64 + 1 * (y 1).val = (y 1).val; omega

/-- Bias window 3 is read whole at every point. -/
theorem rd3 (c : Dev nD) (t : Fin cfg8.N) (y : S64.Idx) : iblk8 V c 3 t y = V c (Pipeline.arrRef spec8 3) y := by
  obtain ⟨e0, e1, e2, e3, e4, e5, e6, e7, e8, e9, e10, e11⟩ := idx_facts t
  refine (show iblk8 V c 3 t y = V c (Pipeline.arrRef spec8 3) (((cfg8.win 3).blk t).view.emb y) from rfl).trans
    (congrArg (V c (Pipeline.arrRef spec8 3)) ?_)
  funext a; apply Fin.ext
  match a with
  | ⟨0, _⟩ => show win8_3.index t (0 : Fin 1) * 64 + 1 * (y 0).val = (y 0).val; omega

/-- Weight window 4 is read whole at every point. -/
theorem rd4 (c : Dev nD) (t : Fin cfg8.N) (y : S64x64.Idx) : iblk8 V c 4 t y = V c (Pipeline.arrRef spec8 4) y := by
  obtain ⟨e0, e1, e2, e3, e4, e5, e6, e7, e8, e9, e10, e11⟩ := idx_facts t
  refine (show iblk8 V c 4 t y = V c (Pipeline.arrRef spec8 4) (((cfg8.win 4).blk t).view.emb y) from rfl).trans
    (congrArg (V c (Pipeline.arrRef spec8 4)) ?_)
  funext a; apply Fin.ext
  match a with
  | ⟨0, _⟩ => show win8_4.index t (0 : Fin 2) * 64 + 1 * (y 0).val = (y 0).val; omega
  | ⟨1, _⟩ => show win8_4.index t (1 : Fin 2) * 64 + 1 * (y 1).val = (y 1).val; omega

/-- Bias window 5 is read whole at every point. -/
theorem rd5 (c : Dev nD) (t : Fin cfg8.N) (y : S64.Idx) : iblk8 V c 5 t y = V c (Pipeline.arrRef spec8 5) y := by
  obtain ⟨e0, e1, e2, e3, e4, e5, e6, e7, e8, e9, e10, e11⟩ := idx_facts t
  refine (show iblk8 V c 5 t y = V c (Pipeline.arrRef spec8 5) (((cfg8.win 5).blk t).view.emb y) from rfl).trans
    (congrArg (V c (Pipeline.arrRef spec8 5)) ?_)
  funext a; apply Fin.ext
  match a with
  | ⟨0, _⟩ => show win8_5.index t (0 : Fin 1) * 64 + 1 * (y 0).val = (y 0).val; omega

/-- The column of an element of the output's block is its column inside the block. -/
theorem col_eq (t : Fin cfg8.N) (j : ((cfg8.win 6).xblock (cfg8.grid.coords t)).Idx) :
    (((cfg8.win 6).blk t).view.emb j) 1 = j 1 := by
  obtain ⟨e0, e1, e2, e3, e4, e5, e6, e7, e8, e9, e10, e11⟩ := idx_facts t
  exact Fin.ext (by show win8_6.index t (1 : Fin 2) * 64 + 1 * (j 1).val = (j 1).val; omega)

/-- The perceptron of the blocks at point t, at an element of the block, is the perceptron of the whole arrays at that
    element's place in the array. -/
theorem blk_eq (c : Dev nD) (t : Fin cfg8.N) (j : ((cfg8.win 6).xblock (cfg8.grid.coords t)).Idx) :
    mlpF (N := 10000) (iblk8 V c 0 t) (iblk8 V c 1 t) (iblk8 V c 2 t) (iblk8 V c 3 t) (iblk8 V c 4 t) (iblk8 V c 5 t) j
     = mlpF (N := 100000) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (((cfg8.win 6).blk t).view.emb j) := by
  unfold mlpF hidF
  simp only [rd0 V c t j, rd1 V c t j, rd2 V c t, rd3 V c t, rd4 V c t, rd5 V c t, col_eq t j]

/-- What point t writes back is block t of the perceptron of the arrays as the region finds them. -/
theorem flushed_eq (c : Dev nD) (t : Fin cfg8.N) :
    (dat8 V c).flushed 6 t = ((cfg8.win 6).blk t).view.read (Elt Ideal)
      (mlpF (N := 100000) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero hz2]
  simp only [View.ld_unit_zero (S := S10000x64) hz2, View.ld_unit_zero (S := S64x64) hz2, View.ld_unit_zero (S := S64) hz1]
  rw [pay_eq]
  exact funext fun j => blk_eq V c t j

/-- An index of the array is in point t's block iff each coordinate is in the block's range on its axis. -/
theorem mem_blk (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v78).slice (win8_6.rect t)).set ↔ _
  rw [View.set_slice_whole, Rect.mem_set_unit]
  exact Iff.rfl

/-- Every row is in the block of the point numbered by its row-block. -/
theorem cover (i : S100000x64.Idx) : ∃ t : Fin cfg8.N, (cfg8.win 6).flush t = true ∧ i ∈ ((cfg8.win 6).blk t).view.set := by
  have hN : grid8.N = 10 := N_8
  have hi0 : (i 0).val < 100000 := (i 0).isLt
  have hi1 : (i 1).val < 64 := (i 1).isLt
  let t : Fin cfg8.N := ⟨(i 0).val / 10000, by show _ < grid8.N; omega⟩
  obtain ⟨e0, e1, e2, e3, e4, e5, e6, e7, e8, e9, e10, e11⟩ := idx_facts t
  have e10' : win8_6.index t (0 : Fin 2) = (i 0).val / 10000 := e10
  refine ⟨t, flush8_6 t, ?_⟩
  rw [mem_blk]
  intro a
  match a with
  | ⟨0, _⟩ => show win8_6.index t (0 : Fin 2) * 10000 ≤ (i 0).val ∧ (i 0).val < win8_6.index t (0 : Fin 2) * 10000 + 10000; omega
  | ⟨1, _⟩ => show win8_6.index t (1 : Fin 2) * 64 ≤ (i 1).val ∧ (i 1).val < win8_6.index t (1 : Fin 2) * 64 + 64; omega

/-- THE ARRAY after the region. -/
theorem final (c : Dev nD) : (dat8 V c).arrAt 6 cfg8.N
    = mlpF (N := 100000) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) :=
  (dat8 V c).arrAt_eq_of_cover 6 _ (fun t _ => flushed_eq V c t) (cover)

end Cert.KernelIdeal.Mlp8

end
-- ==== Proof.Bn9.lean ====
/-
  Region 9 (normalise, rectify, add the residual): the array it leaves.  Each grid point reads block t (10000 rows) of
  the perceptron's output and of the layer's input, and the whole column statistics, scale and shift; it writes back
  block t of  relu(γ·(z − μ)·(var + ε)^(−1/2) + β) + h.  The function is pointwise in the row, the blocks are
  consecutive row ranges tiling the 100000 rows: the array after the region is that function of the whole arrays.
-/
import proofs.«166775_j9826885173932_2_alg».proof.Proof.Gen.KernelIdeal.Frame
import proofs.«166775_j9826885173932_2_alg».proof.Proof.Spec
import Idealize.ShloMosaic.Lib.Pipeline.Value
import Idealize.ShloMosaic.Lib.ValueLayout

set_option maxRecDepth 16384

noncomputable section

namespace Cert.KernelIdeal.Bn9

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The reciprocal square root of a vector, read at an index. -/
theorem rsqrt_at {s : Shape} (v : FVec Ideal s .f32) (i : s.Idx) : rsqrt v i = Ideal.rsqrt (v i) := rfl

/-- The body's stored value, entry by entry: the normalised, rectified, residual function of its loaded blocks. -/
theorem pay_eq (z : Vec Ideal S10000x64 .f32) (mu var g b : Vec Ideal S64 .f32) (h : Vec Ideal S10000x64 .f32) :
    k9_pay1 z mu var g b h = bnMulF (N := 10000) z h mu var g b := by
  funext j
  obtain ⟨p, q, rfl⟩ : ∃ (p : Fin 10000) (q : Fin 64), j = ix2 p q := ⟨j 0, j 1, eq_ix2 j⟩
  unfold k9_pay1
  simp only [shapeCast_self]
  simp only [addf_apply, maximumf_apply, mulf_apply, subf_apply, broadcast_apply, broadcastTo_1b_ab_apply, rsqrt_at,
    shapeCast_a_1a_apply]
  rfl

/-- The printed index maps, decided over the grid: the row-blocked windows move together, block t at row-block t; the
    column vectors are read whole. -/
theorem idx_facts : ∀ t : Fin cfg9.N, win9_0.index t (0 : Fin 2) = win9_6.index t (0 : Fin 2)
    ∧ win9_0.index t (1 : Fin 2) = win9_6.index t (1 : Fin 2)
    ∧ win9_1.index t (0 : Fin 2) = win9_6.index t (0 : Fin 2)
    ∧ win9_1.index t (1 : Fin 2) = win9_6.index t (1 : Fin 2)
    ∧ win9_2.index t (0 : Fin 1) = 0 ∧ win9_3.index t (0 : Fin 1) = 0
    ∧ win9_4.index t (0 : Fin 1) = 0 ∧ win9_5.index t (0 : Fin 1) = 0
    ∧ win9_6.index t (0 : Fin 2) = t.val ∧ win9_6.index t (1 : Fin 2) = 0 :=
  (by decide +kernel : ∀ t : Fin grid9.N, _)

/-- Row-blocked window 0's block at point t is the same rows of its array as the output's block. -/
theorem rd0 (c : Dev nD) (t : Fin cfg9.N) (j : ((cfg9.win 6).xblock (cfg9.grid.coords t)).Idx) :
    iblk9 V c 0 t j = V c (Pipeline.arrRef spec9 0) (((cfg9.win 6).blk t).view.emb j) := by
  obtain ⟨e0, e1, e2, e3, e4, e5, e6, e7, e8, e9⟩ := idx_facts t
  refine (show iblk9 V c 0 t j = V c (Pipeline.arrRef spec9 0) (((cfg9.win 0).blk t).view.emb j) from rfl).trans
    (congrArg (V c (Pipeline.arrRef spec9 0)) ?_)
  funext a; apply Fin.ext
  match a with
  | ⟨0, _⟩ => show win9_0.index t (0 : Fin 2) * 10000 + 1 * (j 0).val = win9_6.index t (0 : Fin 2) * 10000 + 1 * (j 0).val; omega
  | ⟨1, _⟩ => show win9_0.index t (1 : Fin 2) * 64 + 1 * (j 1).val = win9_6.index t (1 : Fin 2) * 64 + 1 * (j 1).val; omega

/-- Row-blocked window 1's block at point t is the same rows of its array as the output's block. -/
theorem rd1 (c : Dev nD) (t : Fin cfg9.N) (j : ((cfg9.win 6).xblock (cfg9.grid.coords t)).Idx) :
    iblk9 V c 1 t j = V c (Pipeline.arrRef spec9 1) (((cfg9.win 6).blk t).view.emb j) := by
  obtain ⟨e0, e1, e2, e3, e4, e5, e6, e7, e8, e9⟩ := idx_facts t
  refine (show iblk9 V c 1 t j = V c (Pipeline.arrRef spec9 1) (((cfg9.win 1).blk t).view.emb j) from rfl).trans
    (congrArg (V c (Pipeline.arrRef spec9 1)) ?_)
  funext a; apply Fin.ext
  match a with
  | ⟨0, _⟩ => show win9_1.index t (0 : Fin 2) * 10000 + 1 * (j 0).val = win9_6.index t (0 : Fin 2) * 10000 + 1 * (j 0).val; omega
  | ⟨1, _⟩ => show win9_1.index t (1 : Fin 2) * 64 + 1 * (j 1).val = win9_6.index t (1 : Fin 2) * 64 + 1 * (j 1).val; omega

/-- Column window 2 is read whole at every point. -/
theorem rd2 (c : Dev nD) (t : Fin cfg9.N) (y : S64.Idx) : iblk9 V c 2 t y = V c (Pipeline.arrRef spec9 2) y := by
  obtain ⟨e0, e1, e2, e3, e4, e5, e6, e7, e8, e9⟩ := idx_facts t
  refine (show iblk9 V c 2 t y = V c (Pipeline.arrRef spec9 2) (((cfg9.win 2).blk t).view.emb y) from rfl).trans
    (congrArg (V c (Pipeline.arrRef spec9 2)) ?_)
  funext a; apply Fin.ext
  match a with
  | ⟨0, _⟩ => show win9_2.index t (0 : Fin 1) * 64 + 1 * (y 0).val = (y 0).val; omega

/-- Column window 3 is read whole at every point. -/
theorem rd3 (c : Dev nD) (t : Fin cfg9.N) (y : S64.Idx) : iblk9 V c 3 t y = V c (Pipeline.arrRef spec9 3) y := by
  obtain ⟨e0, e1, e2, e3, e4, e5, e6, e7, e8, e9⟩ := idx_facts t
  refine (show iblk9 V c 3 t y = V c (Pipeline.arrRef spec9 3) (((cfg9.win 3).blk t).view.emb y) from rfl).trans
    (congrArg (V c (Pipeline.arrRef spec9 3)) ?_)
  funext a; apply Fin.ext
  match a with
  | ⟨0, _⟩ => show win9_3.index t (0 : Fin 1) * 64 + 1 * (y 0).val = (y 0).val; omega

/-- Column window 4 is read whole at every point. -/
theorem rd4 (c : Dev nD) (t : Fin cfg9.N) (y : S64.Idx) : iblk9 V c 4 t y = V c (Pipeline.arrRef spec9 4) y := by
  obtain ⟨e0, e1, e2, e3, e4, e5, e6, e7, e8, e9⟩ := idx_facts t
  refine (show iblk9 V c 4 t y = V c (Pipeline.arrRef spec9 4) (((cfg9.win 4).blk t).view.emb y) from rfl).trans
    (congrArg (V c (Pipeline.arrRef spec9 4)) ?_)
  funext a; apply Fin.ext
  match a with
  | ⟨0, _⟩ => show win9_4.index t (0 : Fin 1) * 64 + 1 * (y 0).val = (y 0).val; omega

/-- Column window 5 is read whole at every point. -/
theorem rd5 (c : Dev nD) (t : Fin cfg9.N) (y : S64.Idx) : iblk9 V c 5 t y = V c (Pipeline.arrRef spec9 5) y := by
  obtain ⟨e0, e1, e2, e3, e4, e5, e6, e7, e8, e9⟩ := idx_facts t
  refine (show iblk9 V c 5 t y = V c (Pipeline.arrRef spec9 5) (((cfg9.win 5).blk t).view.emb y) from rfl).trans
    (congrArg (V c (Pipeline.arrRef spec9 5)) ?_)
  funext a; apply Fin.ext
  match a with
  | ⟨0, _⟩ => show win9_5.index t (0 : Fin 1) * 64 + 1 * (y 0).val = (y 0).val; omega

/-- The column of an element of the output's block is its column inside the block. -/
theorem col_eq (t : Fin cfg9.N) (j : ((cfg9.win 6).xblock (cfg9.grid.coords t)).Idx) :
    (ix1 ((((cfg9.win 6).blk t).view.emb j) 1) : (⟨1, ![64]⟩ : Shape).Idx) = ix1 (j 1) := by
  obtain ⟨e0, e1, e2, e3, e4, e5, e6, e7, e8, e9⟩ := idx_facts t
  exact congrArg ix1 (Fin.ext (by show win9_6.index t (1 : Fin 2) * 64 + 1 * (j 1).val = (j 1).val; omega))

/-- The function of the blocks at point t, at an element of the block, is the function of the whole arrays at that
    element's place in the array. -/
theorem blk_eq (c : Dev nD) (t : Fin cfg9.N) (j : ((cfg9.win 6).xblock (cfg9.grid.coords t)).Idx) :
    bnMulF (N := 10000) (iblk9 V c 0 t) (iblk9 V c 1 t) (iblk9 V c 2 t) (iblk9 V c 3 t) (iblk9 V c 4 t) (iblk9 V c 5 t) j
     = bnMulF (N := 100000) (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5)) (((cfg9.win 6).blk t).view.emb j) := by
  unfold bnMulF
  simp only [rd0 V c t j, rd1 V c t j, rd2 V c t, rd3 V c t, rd4 V c t, rd5 V c t, col_eq t j] <;> rfl

set_option maxHeartbeats 1000000 in
/-- What point t writes back is block t of the function of the arrays as the region finds them. -/
theorem flushed_eq (c : Dev nD) (t : Fin cfg9.N) :
    (dat9 V c).flushed 6 t = ((cfg9.win 6).blk t).view.read (Elt Ideal)
      (bnMulF (N := 100000) (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))) := by
  show (cfg9.win 6).cut (grid9.coords t) ((dat9 V c).after 6 t) = _
  rw [after9_6]
  unfold out9_6
  rw [View.canon_unit_zero hz2]
  simp only [View.ld_unit_zero (S := S10000x64) hz2, View.ld_unit_zero (S := S64) hz1]
  rw [pay_eq]
  exact funext fun j => blk_eq V c t j

/-- An index of the array is in point t's block iff each coordinate is in the block's range on its axis. -/
theorem mem_blk (t : Fin cfg9.N) (i : S100000x64.Idx) :
    i ∈ ((cfg9.win 6).blk t).view.set ↔ ∀ a : Fin 2, win9_6.index t a * S10000x64.size a ≤ (i a).val ∧ (i a).val < win9_6.index t a * S10000x64.size a + S10000x64.size a := by
  show i ∈ ((View.whole main_v87).slice (win9_6.rect t)).set ↔ _
  rw [View.set_slice_whole, Rect.mem_set_unit]
  exact Iff.rfl

/-- Every row is in the block of the point numbered by its row-block. -/
theorem cover (i : S100000x64.Idx) : ∃ t : Fin cfg9.N, (cfg9.win 6).flush t = true ∧ i ∈ ((cfg9.win 6).blk t).view.set := by
  have hN : grid9.N = 10 := N_9
  have hi0 : (i 0).val < 100000 := (i 0).isLt
  have hi1 : (i 1).val < 64 := (i 1).isLt
  let t : Fin cfg9.N := ⟨(i 0).val / 10000, by show _ < grid9.N; omega⟩
  obtain ⟨e0, e1, e2, e3, e4, e5, e6, e7, e8, e9⟩ := idx_facts t
  have e8' : win9_6.index t (0 : Fin 2) = (i 0).val / 10000 := e8
  refine ⟨t, flush9_6 t, ?_⟩
  rw [mem_blk]
  intro a
  match a with
  | ⟨0, _⟩ => show win9_6.index t (0 : Fin 2) * 10000 ≤ (i 0).val ∧ (i 0).val < win9_6.index t (0 : Fin 2) * 10000 + 10000; omega
  | ⟨1, _⟩ => show win9_6.index t (1 : Fin 2) * 64 ≤ (i 1).val ∧ (i 1).val < win9_6.index t (1 : Fin 2) * 64 + 64; omega

/-- THE ARRAY after the region. -/
theorem final (c : Dev nD) : (dat9 V c).arrAt 6 cfg9.N
    = bnMulF (N := 100000) (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5)) :=
  (dat9 V c).arrAt_eq_of_cover 6 _ (fun t _ => flushed_eq V c t) (cover)

end Cert.KernelIdeal.Bn9

end
-- ==== Proof.KLayer2.lean ====
/-
  Layer 2 of the idealized kernel program, read through its boundary contents.  From the contents W17 at the layer's
  entry: a host stretch gathers the source rows; the message region leaves relu(source + edge); a host stretch
  scatter-adds the messages into destination rows and slices this layer's weights; the perceptron region leaves its
  output; three host stretches take the column mean and variance and slice the scale and shift; the last region
  normalises, rectifies and adds the residual.  Each step is one small equation between reads of consecutive boundary
  contents; together they say the layer's output is the specification's layer (the kernel's way) of the entry
  contents, and that the transformed edge features and the arguments pass through untouched.
-/
import proofs.«166775_j9826885173932_2_alg».proof.Proof.Gen.KernelIdeal.Frame
import proofs.«166775_j9826885173932_2_alg».proof.Proof.Msg7
import proofs.«166775_j9826885173932_2_alg».proof.Proof.Mlp8
import proofs.«166775_j9826885173932_2_alg».proof.Proof.Bn9
import proofs.«166775_j9826885173932_2_alg».proof.Proof.RefStages
import proofs.«166775_j9826885173932_2_alg».proof.Proof.NotWritten

set_option maxRecDepth 16384
set_option maxHeartbeats 1000000

noncomputable section

namespace Cert.KernelIdeal.KLayer2

open Cert.KernelIdeal Cert.KernelIdeal.Gen Cert.Gine Cert.ReferenceIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ### The gather stretch -/

theorem g_gath : W18 m ρ c (Proc.devRef .tc main_v65) = gathR (W17 m ρ c (Proc.devRef .tc main_arg2)) (W17 m ρ c (Proc.devRef .tc main_v58)) := by
  show StableHlo.after hostOps7 (W17 m ρ c) (Proc.devRef .tc main_v65) = _
  after_results_simp
  try rfl

theorem g_keep_main_v0 : W18 m ρ c (Proc.devRef .tc main_v0) = W17 m ρ c (Proc.devRef .tc main_v0) := by
  show StableHlo.after hostOps7 (W17 m ρ c) (Proc.devRef .tc main_v0) = _
  not_written [hostOps7]

theorem g_keep_main_arg2 : W18 m ρ c (Proc.devRef .tc main_arg2) = W17 m ρ c (Proc.devRef .tc main_arg2) := by
  show StableHlo.after hostOps7 (W17 m ρ c) (Proc.devRef .tc main_arg2) = _
  not_written [hostOps7]

theorem g_keep_main_arg3 : W18 m ρ c (Proc.devRef .tc main_arg3) = W17 m ρ c (Proc.devRef .tc main_arg3) := by
  show StableHlo.after hostOps7 (W17 m ρ c) (Proc.devRef .tc main_arg3) = _
  not_written [hostOps7]

theorem g_keep_main_arg6 : W18 m ρ c (Proc.devRef .tc main_arg6) = W17 m ρ c (Proc.devRef .tc main_arg6) := by
  show StableHlo.after hostOps7 (W17 m ρ c) (Proc.devRef .tc main_arg6) = _
  not_written [hostOps7]

theorem g_keep_main_arg7 : W18 m ρ c (Proc.devRef .tc main_arg7) = W17 m ρ c (Proc.devRef .tc main_arg7) := by
  show StableHlo.after hostOps7 (W17 m ρ c) (Proc.devRef .tc main_arg7) = _
  not_written [hostOps7]

theorem g_keep_main_arg8 : W18 m ρ c (Proc.devRef .tc main_arg8) = W17 m ρ c (Proc.devRef .tc main_arg8) := by
  show StableHlo.after hostOps7 (W17 m ρ c) (Proc.devRef .tc main_arg8) = _
  not_written [hostOps7]

theorem g_keep_main_arg9 : W18 m ρ c (Proc.devRef .tc main_arg9) = W17 m ρ c (Proc.devRef .tc main_arg9) := by
  show StableHlo.after hostOps7 (W17 m ρ c) (Proc.devRef .tc main_arg9) = _
  not_written [hostOps7]

theorem g_keep_main_arg10 : W18 m ρ c (Proc.devRef .tc main_arg10) = W17 m ρ c (Proc.devRef .tc main_arg10) := by
  show StableHlo.after hostOps7 (W17 m ρ c) (Proc.devRef .tc main_arg10) = _
  not_written [hostOps7]

theorem g_keep_main_arg11 : W18 m ρ c (Proc.devRef .tc main_arg11) = W17 m ρ c (Proc.devRef .tc main_arg11) := by
  show StableHlo.after hostOps7 (W17 m ρ c) (Proc.devRef .tc main_arg11) = _
  not_written [hostOps7]

theorem g_keep_main_v58 : W18 m ρ c (Proc.devRef .tc main_v58) = W17 m ρ c (Proc.devRef .tc main_v58) := by
  show StableHlo.after hostOps7 (W17 m ρ c) (Proc.devRef .tc main_v58) = _
  not_written [hostOps7]

/-! ### The message region -/

theorem m_msg : W19 m ρ c (Proc.devRef .tc main_v66) = msgF (E := 1600000) (W18 m ρ c (Proc.devRef .tc main_v65)) (W18 m ρ c (Proc.devRef .tc main_v0)) :=
  (W19_arr m ρ c 2).trans (Cert.KernelIdeal.Msg7.final (V18 m ρ) c)

theorem m_keep_main_v0 : W19 m ρ c (Proc.devRef .tc main_v0) = W18 m ρ c (Proc.devRef .tc main_v0) :=
  (W19_arr m ρ c 1).trans (((dat7 (V18 m ρ) c).arrAt_in 1 rfl _).trans (A_eq7 (V18 m ρ) c 1))

theorem m_keep_main_arg2 : W19 m ρ c (Proc.devRef .tc main_arg2) = W18 m ρ c (Proc.devRef .tc main_arg2) := W19_of_ne m ρ c main_arg2 (by decide)

theorem m_keep_main_arg3 : W19 m ρ c (Proc.devRef .tc main_arg3) = W18 m ρ c (Proc.devRef .tc main_arg3) := W19_of_ne m ρ c main_arg3 (by decide)

theorem m_keep_main_arg6 : W19 m ρ c (Proc.devRef .tc main_arg6) = W18 m ρ c (Proc.devRef .tc main_arg6) := W19_of_ne m ρ c main_arg6 (by decide)

theorem m_keep_main_arg7 : W19 m ρ c (Proc.devRef .tc main_arg7) = W18 m ρ c (Proc.devRef .tc main_arg7) := W19_of_ne m ρ c main_arg7 (by decide)

theorem m_keep_main_arg8 : W19 m ρ c (Proc.devRef .tc main_arg8) = W18 m ρ c (Proc.devRef .tc main_arg8) := W19_of_ne m ρ c main_arg8 (by decide)

theorem m_keep_main_arg9 : W19 m ρ c (Proc.devRef .tc main_arg9) = W18 m ρ c (Proc.devRef .tc main_arg9) := W19_of_ne m ρ c main_arg9 (by decide)

theorem m_keep_main_arg10 : W19 m ρ c (Proc.devRef .tc main_arg10) = W18 m ρ c (Proc.devRef .tc main_arg10) := W19_of_ne m ρ c main_arg10 (by decide)

theorem m_keep_main_arg11 : W19 m ρ c (Proc.devRef .tc main_arg11) = W18 m ρ c (Proc.devRef .tc main_arg11) := W19_of_ne m ρ c main_arg11 (by decide)

theorem m_keep_main_v58 : W19 m ρ c (Proc.devRef .tc main_v58) = W18 m ρ c (Proc.devRef .tc main_v58) := W19_of_ne m ρ c main_v58 (by decide)

/-! ### The scatter-add stretch (and this layer's slices of the perceptron's weights) -/

theorem s_agg : W20 m ρ c (Proc.devRef .tc main_v69) = scatR (W19 m ρ c (Proc.devRef .tc main_arg3)) (W19 m ρ c (Proc.devRef .tc main_v66)) := by
  show StableHlo.after hostOps8 (W19 m ρ c) (Proc.devRef .tc main_v69) = _
  after_results_simp
  try rfl

theorem s_w1 : W20 m ρ c (Proc.devRef .tc main_v71) = mat2 (W19 m ρ c (Proc.devRef .tc main_arg6)) := by
  show StableHlo.after hostOps8 (W19 m ρ c) (Proc.devRef .tc main_v71) = _
  after_results_simp
  try rfl

theorem s_b1 : W20 m ρ c (Proc.devRef .tc main_v73) = vec2 (W19 m ρ c (Proc.devRef .tc main_arg7)) := by
  show StableHlo.after hostOps8 (W19 m ρ c) (Proc.devRef .tc main_v73) = _
  after_results_simp
  try rfl

theorem s_w2 : W20 m ρ c (Proc.devRef .tc main_v75) = mat2 (W19 m ρ c (Proc.devRef .tc main_arg8)) := by
  show StableHlo.after hostOps8 (W19 m ρ c) (Proc.devRef .tc main_v75) = _
  after_results_simp
  try rfl

theorem s_b2 : W20 m ρ c (Proc.devRef .tc main_v77) = vec2 (W19 m ρ c (Proc.devRef .tc main_arg9)) := by
  show StableHlo.after hostOps8 (W19 m ρ c) (Proc.devRef .tc main_v77) = _
  after_results_simp
  try rfl

theorem s_keep_main_v0 : W20 m ρ c (Proc.devRef .tc main_v0) = W19 m ρ c (Proc.devRef .tc main_v0) := by
  show StableHlo.after hostOps8 (W19 m ρ c) (Proc.devRef .tc main_v0) = _
  not_written [hostOps8]

theorem s_keep_main_arg2 : W20 m ρ c (Proc.devRef .tc main_arg2) = W19 m ρ c (Proc.devRef .tc main_arg2) := by
  show StableHlo.after hostOps8 (W19 m ρ c) (Proc.devRef .tc main_arg2) = _
  not_written [hostOps8]

theorem s_keep_main_arg3 : W20 m ρ c (Proc.devRef .tc main_arg3) = W19 m ρ c (Proc.devRef .tc main_arg3) := by
  show StableHlo.after hostOps8 (W19 m ρ c) (Proc.devRef .tc main_arg3) = _
  not_written [hostOps8]

theorem s_keep_main_arg6 : W20 m ρ c (Proc.devRef .tc main_arg6) = W19 m ρ c (Proc.devRef .tc main_arg6) := by
  show StableHlo.after hostOps8 (W19 m ρ c) (Proc.devRef .tc main_arg6) = _
  not_written [hostOps8]

theorem s_keep_main_arg7 : W20 m ρ c (Proc.devRef .tc main_arg7) = W19 m ρ c (Proc.devRef .tc main_arg7) := by
  show StableHlo.after hostOps8 (W19 m ρ c) (Proc.devRef .tc main_arg7) = _
  not_written [hostOps8]

theorem s_keep_main_arg8 : W20 m ρ c (Proc.devRef .tc main_arg8) = W19 m ρ c (Proc.devRef .tc main_arg8) := by
  show StableHlo.after hostOps8 (W19 m ρ c) (Proc.devRef .tc main_arg8) = _
  not_written [hostOps8]

theorem s_keep_main_arg9 : W20 m ρ c (Proc.devRef .tc main_arg9) = W19 m ρ c (Proc.devRef .tc main_arg9) := by
  show StableHlo.after hostOps8 (W19 m ρ c) (Proc.devRef .tc main_arg9) = _
  not_written [hostOps8]

theorem s_keep_main_arg10 : W20 m ρ c (Proc.devRef .tc main_arg10) = W19 m ρ c (Proc.devRef .tc main_arg10) := by
  show StableHlo.after hostOps8 (W19 m ρ c) (Proc.devRef .tc main_arg10) = _
  not_written [hostOps8]

theorem s_keep_main_arg11 : W20 m ρ c (Proc.devRef .tc main_arg11) = W19 m ρ c (Proc.devRef .tc main_arg11) := by
  show StableHlo.after hostOps8 (W19 m ρ c) (Proc.devRef .tc main_arg11) = _
  not_written [hostOps8]

theorem s_keep_main_v58 : W20 m ρ c (Proc.devRef .tc main_v58) = W19 m ρ c (Proc.devRef .tc main_v58) := by
  show StableHlo.after hostOps8 (W19 m ρ c) (Proc.devRef .tc main_v58) = _
  not_written [hostOps8]

/-! ### The perceptron region -/

theorem p_z : W21 m ρ c (Proc.devRef .tc main_v78) = mlpF (N := 100000) (W20 m ρ c (Proc.devRef .tc main_v58)) (W20 m ρ c (Proc.devRef .tc main_v69)) (W20 m ρ c (Proc.devRef .tc main_v71)) (W20 m ρ c (Proc.devRef .tc main_v73)) (W20 m ρ c (Proc.devRef .tc main_v75)) (W20 m ρ c (Proc.devRef .tc main_v77)) :=
  (W21_arr m ρ c 6).trans (Cert.KernelIdeal.Mlp8.final (V20 m ρ) c)

theorem p_keep_main_v58 : W21 m ρ c (Proc.devRef .tc main_v58) = W20 m ρ c (Proc.devRef .tc main_v58) :=
  (W21_arr m ρ c 0).trans (((dat8 (V20 m ρ) c).arrAt_in 0 rfl _).trans (A_eq8 (V20 m ρ) c 0))

theorem p_keep_main_v0 : W21 m ρ c (Proc.devRef .tc main_v0) = W20 m ρ c (Proc.devRef .tc main_v0) := W21_of_ne m ρ c main_v0 (by decide)

theorem p_keep_main_arg2 : W21 m ρ c (Proc.devRef .tc main_arg2) = W20 m ρ c (Proc.devRef .tc main_arg2) := W21_of_ne m ρ c main_arg2 (by decide)

theorem p_keep_main_arg3 : W21 m ρ c (Proc.devRef .tc main_arg3) = W20 m ρ c (Proc.devRef .tc main_arg3) := W21_of_ne m ρ c main_arg3 (by decide)

theorem p_keep_main_arg6 : W21 m ρ c (Proc.devRef .tc main_arg6) = W20 m ρ c (Proc.devRef .tc main_arg6) := W21_of_ne m ρ c main_arg6 (by decide)

theorem p_keep_main_arg7 : W21 m ρ c (Proc.devRef .tc main_arg7) = W20 m ρ c (Proc.devRef .tc main_arg7) := W21_of_ne m ρ c main_arg7 (by decide)

theorem p_keep_main_arg8 : W21 m ρ c (Proc.devRef .tc main_arg8) = W20 m ρ c (Proc.devRef .tc main_arg8) := W21_of_ne m ρ c main_arg8 (by decide)

theorem p_keep_main_arg9 : W21 m ρ c (Proc.devRef .tc main_arg9) = W20 m ρ c (Proc.devRef .tc main_arg9) := W21_of_ne m ρ c main_arg9 (by decide)

theorem p_keep_main_arg10 : W21 m ρ c (Proc.devRef .tc main_arg10) = W20 m ρ c (Proc.devRef .tc main_arg10) := W21_of_ne m ρ c main_arg10 (by decide)

theorem p_keep_main_arg11 : W21 m ρ c (Proc.devRef .tc main_arg11) = W20 m ρ c (Proc.devRef .tc main_arg11) := W21_of_ne m ρ c main_arg11 (by decide)

/-! ### The batch statistics (three stretches in a row) and this layer's scale and shift -/

theorem v_mean : W24 m ρ c (Proc.devRef .tc main_v81) = meanR (W21 m ρ c (Proc.devRef .tc main_v78)) := by
  show StableHlo.after hostOps9_2 (StableHlo.after hostOps9_1 (StableHlo.after hostOps9 (W21 m ρ c))) (Proc.devRef .tc main_v81) = _
  after_results_simp
  try rfl

theorem v_var : W24 m ρ c (Proc.devRef .tc main_v82) = varR (W21 m ρ c (Proc.devRef .tc main_v78)) := by
  show StableHlo.after hostOps9_2 (StableHlo.after hostOps9_1 (StableHlo.after hostOps9 (W21 m ρ c))) (Proc.devRef .tc main_v82) = _
  after_results_simp
  try rfl

theorem v_g : W24 m ρ c (Proc.devRef .tc main_v84) = vec2 (W21 m ρ c (Proc.devRef .tc main_arg10)) := by
  show StableHlo.after hostOps9_2 (StableHlo.after hostOps9_1 (StableHlo.after hostOps9 (W21 m ρ c))) (Proc.devRef .tc main_v84) = _
  after_results_simp
  try rfl

theorem v_b : W24 m ρ c (Proc.devRef .tc main_v86) = vec2 (W21 m ρ c (Proc.devRef .tc main_arg11)) := by
  show StableHlo.after hostOps9_2 (StableHlo.after hostOps9_1 (StableHlo.after hostOps9 (W21 m ρ c))) (Proc.devRef .tc main_v86) = _
  after_results_simp
  try rfl

theorem v_keep_main_v0 : W24 m ρ c (Proc.devRef .tc main_v0) = W21 m ρ c (Proc.devRef .tc main_v0) := by
  show StableHlo.after hostOps9_2 (StableHlo.after hostOps9_1 (StableHlo.after hostOps9 (W21 m ρ c))) (Proc.devRef .tc main_v0) = _
  rw [show StableHlo.after hostOps9_2 (StableHlo.after hostOps9_1 (StableHlo.after hostOps9 (W21 m ρ c))) (Proc.devRef .tc main_v0) = StableHlo.after hostOps9_1 (StableHlo.after hostOps9 (W21 m ρ c)) (Proc.devRef .tc main_v0) from by not_written [hostOps9_2],
    show StableHlo.after hostOps9_1 (StableHlo.after hostOps9 (W21 m ρ c)) (Proc.devRef .tc main_v0) = StableHlo.after hostOps9 (W21 m ρ c) (Proc.devRef .tc main_v0) from by not_written [hostOps9_1]]
  not_written [hostOps9]

theorem v_keep_main_arg2 : W24 m ρ c (Proc.devRef .tc main_arg2) = W21 m ρ c (Proc.devRef .tc main_arg2) := by
  show StableHlo.after hostOps9_2 (StableHlo.after hostOps9_1 (StableHlo.after hostOps9 (W21 m ρ c))) (Proc.devRef .tc main_arg2) = _
  rw [show StableHlo.after hostOps9_2 (StableHlo.after hostOps9_1 (StableHlo.after hostOps9 (W21 m ρ c))) (Proc.devRef .tc main_arg2) = StableHlo.after hostOps9_1 (StableHlo.after hostOps9 (W21 m ρ c)) (Proc.devRef .tc main_arg2) from by not_written [hostOps9_2],
    show StableHlo.after hostOps9_1 (StableHlo.after hostOps9 (W21 m ρ c)) (Proc.devRef .tc main_arg2) = StableHlo.after hostOps9 (W21 m ρ c) (Proc.devRef .tc main_arg2) from by not_written [hostOps9_1]]
  not_written [hostOps9]

theorem v_keep_main_arg3 : W24 m ρ c (Proc.devRef .tc main_arg3) = W21 m ρ c (Proc.devRef .tc main_arg3) := by
  show StableHlo.after hostOps9_2 (StableHlo.after hostOps9_1 (StableHlo.after hostOps9 (W21 m ρ c))) (Proc.devRef .tc main_arg3) = _
  rw [show StableHlo.after hostOps9_2 (StableHlo.after hostOps9_1 (StableHlo.after hostOps9 (W21 m ρ c))) (Proc.devRef .tc main_arg3) = StableHlo.after hostOps9_1 (StableHlo.after hostOps9 (W21 m ρ c)) (Proc.devRef .tc main_arg3) from by not_written [hostOps9_2],
    show StableHlo.after hostOps9_1 (StableHlo.after hostOps9 (W21 m ρ c)) (Proc.devRef .tc main_arg3) = StableHlo.after hostOps9 (W21 m ρ c) (Proc.devRef .tc main_arg3) from by not_written [hostOps9_1]]
  not_written [hostOps9]

theorem v_keep_main_arg6 : W24 m ρ c (Proc.devRef .tc main_arg6) = W21 m ρ c (Proc.devRef .tc main_arg6) := by
  show StableHlo.after hostOps9_2 (StableHlo.after hostOps9_1 (StableHlo.after hostOps9 (W21 m ρ c))) (Proc.devRef .tc main_arg6) = _
  rw [show StableHlo.after hostOps9_2 (StableHlo.after hostOps9_1 (StableHlo.after hostOps9 (W21 m ρ c))) (Proc.devRef .tc main_arg6) = StableHlo.after hostOps9_1 (StableHlo.after hostOps9 (W21 m ρ c)) (Proc.devRef .tc main_arg6) from by not_written [hostOps9_2],
    show StableHlo.after hostOps9_1 (StableHlo.after hostOps9 (W21 m ρ c)) (Proc.devRef .tc main_arg6) = StableHlo.after hostOps9 (W21 m ρ c) (Proc.devRef .tc main_arg6) from by not_written [hostOps9_1]]
  not_written [hostOps9]

theorem v_keep_main_arg7 : W24 m ρ c (Proc.devRef .tc main_arg7) = W21 m ρ c (Proc.devRef .tc main_arg7) := by
  show StableHlo.after hostOps9_2 (StableHlo.after hostOps9_1 (StableHlo.after hostOps9 (W21 m ρ c))) (Proc.devRef .tc main_arg7) = _
  rw [show StableHlo.after hostOps9_2 (StableHlo.after hostOps9_1 (StableHlo.after hostOps9 (W21 m ρ c))) (Proc.devRef .tc main_arg7) = StableHlo.after hostOps9_1 (StableHlo.after hostOps9 (W21 m ρ c)) (Proc.devRef .tc main_arg7) from by not_written [hostOps9_2],
    show StableHlo.after hostOps9_1 (StableHlo.after hostOps9 (W21 m ρ c)) (Proc.devRef .tc main_arg7) = StableHlo.after hostOps9 (W21 m ρ c) (Proc.devRef .tc main_arg7) from by not_written [hostOps9_1]]
  not_written [hostOps9]

theorem v_keep_main_arg8 : W24 m ρ c (Proc.devRef .tc main_arg8) = W21 m ρ c (Proc.devRef .tc main_arg8) := by
  show StableHlo.after hostOps9_2 (StableHlo.after hostOps9_1 (StableHlo.after hostOps9 (W21 m ρ c))) (Proc.devRef .tc main_arg8) = _
  rw [show StableHlo.after hostOps9_2 (StableHlo.after hostOps9_1 (StableHlo.after hostOps9 (W21 m ρ c))) (Proc.devRef .tc main_arg8) = StableHlo.after hostOps9_1 (StableHlo.after hostOps9 (W21 m ρ c)) (Proc.devRef .tc main_arg8) from by not_written [hostOps9_2],
    show StableHlo.after hostOps9_1 (StableHlo.after hostOps9 (W21 m ρ c)) (Proc.devRef .tc main_arg8) = StableHlo.after hostOps9 (W21 m ρ c) (Proc.devRef .tc main_arg8) from by not_written [hostOps9_1]]
  not_written [hostOps9]

theorem v_keep_main_arg9 : W24 m ρ c (Proc.devRef .tc main_arg9) = W21 m ρ c (Proc.devRef .tc main_arg9) := by
  show StableHlo.after hostOps9_2 (StableHlo.after hostOps9_1 (StableHlo.after hostOps9 (W21 m ρ c))) (Proc.devRef .tc main_arg9) = _
  rw [show StableHlo.after hostOps9_2 (StableHlo.after hostOps9_1 (StableHlo.after hostOps9 (W21 m ρ c))) (Proc.devRef .tc main_arg9) = StableHlo.after hostOps9_1 (StableHlo.after hostOps9 (W21 m ρ c)) (Proc.devRef .tc main_arg9) from by not_written [hostOps9_2],
    show StableHlo.after hostOps9_1 (StableHlo.after hostOps9 (W21 m ρ c)) (Proc.devRef .tc main_arg9) = StableHlo.after hostOps9 (W21 m ρ c) (Proc.devRef .tc main_arg9) from by not_written [hostOps9_1]]
  not_written [hostOps9]

theorem v_keep_main_arg10 : W24 m ρ c (Proc.devRef .tc main_arg10) = W21 m ρ c (Proc.devRef .tc main_arg10) := by
  show StableHlo.after hostOps9_2 (StableHlo.after hostOps9_1 (StableHlo.after hostOps9 (W21 m ρ c))) (Proc.devRef .tc main_arg10) = _
  rw [show StableHlo.after hostOps9_2 (StableHlo.after hostOps9_1 (StableHlo.after hostOps9 (W21 m ρ c))) (Proc.devRef .tc main_arg10) = StableHlo.after hostOps9_1 (StableHlo.after hostOps9 (W21 m ρ c)) (Proc.devRef .tc main_arg10) from by not_written [hostOps9_2],
    show StableHlo.after hostOps9_1 (StableHlo.after hostOps9 (W21 m ρ c)) (Proc.devRef .tc main_arg10) = StableHlo.after hostOps9 (W21 m ρ c) (Proc.devRef .tc main_arg10) from by not_written [hostOps9_1]]
  not_written [hostOps9]

theorem v_keep_main_arg11 : W24 m ρ c (Proc.devRef .tc main_arg11) = W21 m ρ c (Proc.devRef .tc main_arg11) := by
  show StableHlo.after hostOps9_2 (StableHlo.after hostOps9_1 (StableHlo.after hostOps9 (W21 m ρ c))) (Proc.devRef .tc main_arg11) = _
  rw [show StableHlo.after hostOps9_2 (StableHlo.after hostOps9_1 (StableHlo.after hostOps9 (W21 m ρ c))) (Proc.devRef .tc main_arg11) = StableHlo.after hostOps9_1 (StableHlo.after hostOps9 (W21 m ρ c)) (Proc.devRef .tc main_arg11) from by not_written [hostOps9_2],
    show StableHlo.after hostOps9_1 (StableHlo.after hostOps9 (W21 m ρ c)) (Proc.devRef .tc main_arg11) = StableHlo.after hostOps9 (W21 m ρ c) (Proc.devRef .tc main_arg11) from by not_written [hostOps9_1]]
  not_written [hostOps9]

theorem v_keep_main_v58 : W24 m ρ c (Proc.devRef .tc main_v58) = W21 m ρ c (Proc.devRef .tc main_v58) := by
  show StableHlo.after hostOps9_2 (StableHlo.after hostOps9_1 (StableHlo.after hostOps9 (W21 m ρ c))) (Proc.devRef .tc main_v58) = _
  rw [show StableHlo.after hostOps9_2 (StableHlo.after hostOps9_1 (StableHlo.after hostOps9 (W21 m ρ c))) (Proc.devRef .tc main_v58) = StableHlo.after hostOps9_1 (StableHlo.after hostOps9 (W21 m ρ c)) (Proc.devRef .tc main_v58) from by not_written [hostOps9_2],
    show StableHlo.after hostOps9_1 (StableHlo.after hostOps9 (W21 m ρ c)) (Proc.devRef .tc main_v58) = StableHlo.after hostOps9 (W21 m ρ c) (Proc.devRef .tc main_v58) from by not_written [hostOps9_1]]
  not_written [hostOps9]

theorem v_keep_main_v78 : W24 m ρ c (Proc.devRef .tc main_v78) = W21 m ρ c (Proc.devRef .tc main_v78) := by
  show StableHlo.after hostOps9_2 (StableHlo.after hostOps9_1 (StableHlo.after hostOps9 (W21 m ρ c))) (Proc.devRef .tc main_v78) = _
  rw [show StableHlo.after hostOps9_2 (StableHlo.after hostOps9_1 (StableHlo.after hostOps9 (W21 m ρ c))) (Proc.devRef .tc main_v78) = StableHlo.after hostOps9_1 (StableHlo.after hostOps9 (W21 m ρ c)) (Proc.devRef .tc main_v78) from by not_written [hostOps9_2],
    show StableHlo.after hostOps9_1 (StableHlo.after hostOps9 (W21 m ρ c)) (Proc.devRef .tc main_v78) = StableHlo.after hostOps9 (W21 m ρ c) (Proc.devRef .tc main_v78) from by not_written [hostOps9_1]]
  not_written [hostOps9]

/-! ### The normalise-rectify-residual region -/

theorem n_out : W25 m ρ c (Proc.devRef .tc main_v87) = bnMulF (N := 100000) (W24 m ρ c (Proc.devRef .tc main_v78)) (W24 m ρ c (Proc.devRef .tc main_v58)) (W24 m ρ c (Proc.devRef .tc main_v81)) (W24 m ρ c (Proc.devRef .tc main_v82)) (W24 m ρ c (Proc.devRef .tc main_v84)) (W24 m ρ c (Proc.devRef .tc main_v86)) :=
  (W25_arr m ρ c 6).trans (Cert.KernelIdeal.Bn9.final (V24 m ρ) c)

theorem n_keep_main_v0 : W25 m ρ c (Proc.devRef .tc main_v0) = W24 m ρ c (Proc.devRef .tc main_v0) := W25_of_ne m ρ c main_v0 (by decide)

theorem n_keep_main_arg2 : W25 m ρ c (Proc.devRef .tc main_arg2) = W24 m ρ c (Proc.devRef .tc main_arg2) := W25_of_ne m ρ c main_arg2 (by decide)

theorem n_keep_main_arg3 : W25 m ρ c (Proc.devRef .tc main_arg3) = W24 m ρ c (Proc.devRef .tc main_arg3) := W25_of_ne m ρ c main_arg3 (by decide)

theorem n_keep_main_arg6 : W25 m ρ c (Proc.devRef .tc main_arg6) = W24 m ρ c (Proc.devRef .tc main_arg6) := W25_of_ne m ρ c main_arg6 (by decide)

theorem n_keep_main_arg7 : W25 m ρ c (Proc.devRef .tc main_arg7) = W24 m ρ c (Proc.devRef .tc main_arg7) := W25_of_ne m ρ c main_arg7 (by decide)

theorem n_keep_main_arg8 : W25 m ρ c (Proc.devRef .tc main_arg8) = W24 m ρ c (Proc.devRef .tc main_arg8) := W25_of_ne m ρ c main_arg8 (by decide)

theorem n_keep_main_arg9 : W25 m ρ c (Proc.devRef .tc main_arg9) = W24 m ρ c (Proc.devRef .tc main_arg9) := W25_of_ne m ρ c main_arg9 (by decide)

theorem n_keep_main_arg10 : W25 m ρ c (Proc.devRef .tc main_arg10) = W24 m ρ c (Proc.devRef .tc main_arg10) := W25_of_ne m ρ c main_arg10 (by decide)

theorem n_keep_main_arg11 : W25 m ρ c (Proc.devRef .tc main_arg11) = W24 m ρ c (Proc.devRef .tc main_arg11) := W25_of_ne m ρ c main_arg11 (by decide)

/-! ### The layer -/

/-- The layer leaves the transformed edge features alone. -/
theorem kept_main_v0 : W25 m ρ c (Proc.devRef .tc main_v0) = W17 m ρ c (Proc.devRef .tc main_v0) := by
  rw [n_keep_main_v0 m ρ c, v_keep_main_v0 m ρ c, p_keep_main_v0 m ρ c, s_keep_main_v0 m ρ c, m_keep_main_v0 m ρ c, g_keep_main_v0 m ρ c]
/-- The layer leaves argument 2 alone. -/
theorem kept_main_arg2 : W25 m ρ c (Proc.devRef .tc main_arg2) = W17 m ρ c (Proc.devRef .tc main_arg2) := by
  rw [n_keep_main_arg2 m ρ c, v_keep_main_arg2 m ρ c, p_keep_main_arg2 m ρ c, s_keep_main_arg2 m ρ c, m_keep_main_arg2 m ρ c, g_keep_main_arg2 m ρ c]
/-- The layer leaves argument 3 alone. -/
theorem kept_main_arg3 : W25 m ρ c (Proc.devRef .tc main_arg3) = W17 m ρ c (Proc.devRef .tc main_arg3) := by
  rw [n_keep_main_arg3 m ρ c, v_keep_main_arg3 m ρ c, p_keep_main_arg3 m ρ c, s_keep_main_arg3 m ρ c, m_keep_main_arg3 m ρ c, g_keep_main_arg3 m ρ c]
/-- The layer leaves argument 6 alone. -/
theorem kept_main_arg6 : W25 m ρ c (Proc.devRef .tc main_arg6) = W17 m ρ c (Proc.devRef .tc main_arg6) := by
  rw [n_keep_main_arg6 m ρ c, v_keep_main_arg6 m ρ c, p_keep_main_arg6 m ρ c, s_keep_main_arg6 m ρ c, m_keep_main_arg6 m ρ c, g_keep_main_arg6 m ρ c]
/-- The layer leaves argument 7 alone. -/
theorem kept_main_arg7 : W25 m ρ c (Proc.devRef .tc main_arg7) = W17 m ρ c (Proc.devRef .tc main_arg7) := by
  rw [n_keep_main_arg7 m ρ c, v_keep_main_arg7 m ρ c, p_keep_main_arg7 m ρ c, s_keep_main_arg7 m ρ c, m_keep_main_arg7 m ρ c, g_keep_main_arg7 m ρ c]
/-- The layer leaves argument 8 alone. -/
theorem kept_main_arg8 : W25 m ρ c (Proc.devRef .tc main_arg8) = W17 m ρ c (Proc.devRef .tc main_arg8) := by
  rw [n_keep_main_arg8 m ρ c, v_keep_main_arg8 m ρ c, p_keep_main_arg8 m ρ c, s_keep_main_arg8 m ρ c, m_keep_main_arg8 m ρ c, g_keep_main_arg8 m ρ c]
/-- The layer leaves argument 9 alone. -/
theorem kept_main_arg9 : W25 m ρ c (Proc.devRef .tc main_arg9) = W17 m ρ c (Proc.devRef .tc main_arg9) := by
  rw [n_keep_main_arg9 m ρ c, v_keep_main_arg9 m ρ c, p_keep_main_arg9 m ρ c, s_keep_main_arg9 m ρ c, m_keep_main_arg9 m ρ c, g_keep_main_arg9 m ρ c]
/-- The layer leaves argument 10 alone. -/
theorem kept_main_arg10 : W25 m ρ c (Proc.devRef .tc main_arg10) = W17 m ρ c (Proc.devRef .tc main_arg10) := by
  rw [n_keep_main_arg10 m ρ c, v_keep_main_arg10 m ρ c, p_keep_main_arg10 m ρ c, s_keep_main_arg10 m ρ c, m_keep_main_arg10 m ρ c, g_keep_main_arg10 m ρ c]
/-- The layer leaves argument 11 alone. -/
theorem kept_main_arg11 : W25 m ρ c (Proc.devRef .tc main_arg11) = W17 m ρ c (Proc.devRef .tc main_arg11) := by
  rw [n_keep_main_arg11 m ρ c, v_keep_main_arg11 m ρ c, p_keep_main_arg11 m ρ c, s_keep_main_arg11 m ρ c, m_keep_main_arg11 m ρ c, g_keep_main_arg11 m ρ c]

/-- The layer's output is the specification's layer, the kernel's way, of the entry contents. -/
theorem layer : W25 m ρ c (Proc.devRef .tc main_v87)
    = layerMul (N := 100000) (E := 1600000) (gathR (W17 m ρ c (Proc.devRef .tc main_arg2))) (scatR (W17 m ρ c (Proc.devRef .tc main_arg3))) meanR varR
        (mat2 (W17 m ρ c (Proc.devRef .tc main_arg6))) (vec2 (W17 m ρ c (Proc.devRef .tc main_arg7))) (mat2 (W17 m ρ c (Proc.devRef .tc main_arg8))) (vec2 (W17 m ρ c (Proc.devRef .tc main_arg9)))
        (vec2 (W17 m ρ c (Proc.devRef .tc main_arg10))) (vec2 (W17 m ρ c (Proc.devRef .tc main_arg11))) (W17 m ρ c (Proc.devRef .tc main_v0)) (W17 m ρ c (Proc.devRef .tc main_v58)) := by
  unfold layerMul
  simp only [n_out m ρ c, v_mean m ρ c, v_var m ρ c, v_g m ρ c, v_b m ρ c, v_keep_main_v78 m ρ c, v_keep_main_v58 m ρ c, p_z m ρ c, s_agg m ρ c, s_w1 m ρ c, s_b1 m ρ c, s_w2 m ρ c, s_b2 m ρ c, s_keep_main_v58 m ρ c, m_msg m ρ c, m_keep_main_v58 m ρ c, m_keep_main_v0 m ρ c, g_gath m ρ c, g_keep_main_v58 m ρ c, g_keep_main_v0 m ρ c, p_keep_main_v58 m ρ c, m_keep_main_arg3 m ρ c, g_keep_main_arg3 m ρ c, m_keep_main_arg6 m ρ c, g_keep_main_arg6 m ρ c, m_keep_main_arg7 m ρ c, g_keep_main_arg7 m ρ c, m_keep_main_arg8 m ρ c, g_keep_main_arg8 m ρ c, m_keep_main_arg9 m ρ c, g_keep_main_arg9 m ρ c, p_keep_main_arg10 m ρ c, s_keep_main_arg10 m ρ c, m_keep_main_arg10 m ρ c, g_keep_main_arg10 m ρ c, p_keep_main_arg11 m ρ c, s_keep_main_arg11 m ρ c, m_keep_main_arg11 m ρ c, g_keep_main_arg11 m ρ c]

end Cert.KernelIdeal.KLayer2

end
-- ==== Proof.Msg10.lean ====
/-
  Region 10 (the message kernel): the array it leaves.  Each grid point reads block t of the gathered source rows and
  block t of the transformed edge rows (10000 rows each), and writes back block t of relu(source + edge).  The blocks
  are consecutive row ranges that tile the 1600000 rows, and the message is pointwise, so the array after the region
  is the message function of the two whole arrays the region found.
-/
import proofs.«166775_j9826885173932_2_alg».proof.Proof.Gen.KernelIdeal.Frame
import proofs.«166775_j9826885173932_2_alg».proof.Proof.Spec
import Idealize.ShloMosaic.Lib.Pipeline.Value

set_option maxRecDepth 16384

noncomputable section

namespace Cert.KernelIdeal.Msg10

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the message function of its two loaded blocks. -/
theorem pay_eq (x0 x1 : Vec Ideal S10000x64 .f32) : k10_pay1 x0 x1 = msgF (E := 10000) x0 x1 := by
  funext j
  unfold k10_pay1
  simp only [shapeCast_self]
  rfl

/-- The printed index maps, decided over the grid: all three windows move together, block t at row-block t. -/
theorem idx_facts : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = win10_2.index t (1 : Fin 2)
    ∧ win10_2.index t (0 : Fin 2) = t.val ∧ win10_2.index t (1 : Fin 2) = 0 :=
  (by decide +kernel : ∀ t : Fin grid10.N, _)

/-- What point t writes back is block t of the message function of the arrays as the region finds them. -/
theorem flushed_eq (c : Dev nD) (t : Fin cfg10.N) :
    (dat10 V c).flushed 2 t = ((cfg10.win 2).blk t).view.read (Elt Ideal)
      (msgF (E := 1600000) (V c (Pipeline.arrRef spec10 0)) (V c (Pipeline.arrRef spec10 1))) := by
  show (cfg10.win 2).cut (grid10.coords t) ((dat10 V c).after 2 t) = _
  rw [after10_2]
  unfold out10_2
  rw [View.canon_unit_zero hz]
  simp only [View.ld_unit_zero (S := S10000x64) hz]
  rw [pay_eq]
  obtain ⟨e0, e1, e2, e3, e4, e5⟩ := idx_facts t
  funext j
  have h0 : ((cfg10.win 0).blk t).view.emb j = ((cfg10.win 2).blk t).view.emb j := by
    funext a; apply Fin.ext
    match a with
    | ⟨0, _⟩ => show win10_0.index t (0 : Fin 2) * 10000 + 1 * (j 0).val = win10_2.index t (0 : Fin 2) * 10000 + 1 * (j 0).val; omega
    | ⟨1, _⟩ => show win10_0.index t (1 : Fin 2) * 64 + 1 * (j 1).val = win10_2.index t (1 : Fin 2) * 64 + 1 * (j 1).val; omega
  have h1 : ((cfg10.win 1).blk t).view.emb j = ((cfg10.win 2).blk t).view.emb j := by
    funext a; apply Fin.ext
    match a with
    | ⟨0, _⟩ => show win10_1.index t (0 : Fin 2) * 10000 + 1 * (j 0).val = win10_2.index t (0 : Fin 2) * 10000 + 1 * (j 0).val; omega
    | ⟨1, _⟩ => show win10_1.index t (1 : Fin 2) * 64 + 1 * (j 1).val = win10_2.index t (1 : Fin 2) * 64 + 1 * (j 1).val; omega
  have hA : iblk10 V c 0 t j = V c (Pipeline.arrRef spec10 0) (((cfg10.win 2).blk t).view.emb j) := by
    show V c (Pipeline.arrRef spec10 0) (((cfg10.win 0).blk t).view.emb j) = _
    rw [h0]
  have hB : iblk10 V c 1 t j = V c (Pipeline.arrRef spec10 1) (((cfg10.win 2).blk t).view.emb j) := by
    show V c (Pipeline.arrRef spec10 1) (((cfg10.win 1).blk t).view.emb j) = _
    rw [h1]
  show msgF (E := 10000) (iblk10 V c 0 t) (iblk10 V c 1 t) j
     = msgF (E := 1600000) (V c (Pipeline.arrRef spec10 0)) (V c (Pipeline.arrRef spec10 1)) (((cfg10.win 2).blk t).view.emb j)
  unfold msgF
  rw [hA, hB]

/-- An index of the array is in point t's block iff each coordinate is in the block's range on its axis. -/
theorem mem_blk (t : Fin cfg10.N) (i : S1600000x64.Idx) :
    i ∈ ((cfg10.win 2).blk t).view.set ↔ ∀ a : Fin 2, win10_2.index t a * S10000x64.size a ≤ (i a).val ∧ (i a).val < win10_2.index t a * S10000x64.size a + S10000x64.size a := by
  show i ∈ ((View.whole main_v95).slice (win10_2.rect t)).set ↔ _
  rw [View.set_slice_whole, Rect.mem_set_unit]
  exact Iff.rfl

/-- Every row is in the block of the point numbered by its row-block. -/
theorem cover (i : S1600000x64.Idx) : ∃ t : Fin cfg10.N, (cfg10.win 2).flush t = true ∧ i ∈ ((cfg10.win 2).blk t).view.set := by
  have hN : grid10.N = 160 := N_10
  have hi0 : (i 0).val < 1600000 := (i 0).isLt
  have hi1 : (i 1).val < 64 := (i 1).isLt
  let t : Fin cfg10.N := ⟨(i 0).val / 10000, by show _ < grid10.N; omega⟩
  obtain ⟨e0, e1, e2, e3, e4, e5⟩ := idx_facts t
  have e4' : win10_2.index t (0 : Fin 2) = (i 0).val / 10000 := e4
  refine ⟨t, flush10_2 t, ?_⟩
  rw [mem_blk]
  intro a
  match a with
  | ⟨0, _⟩ => show win10_2.index t (0 : Fin 2) * 10000 ≤ (i 0).val ∧ (i 0).val < win10_2.index t (0 : Fin 2) * 10000 + 10000; omega
  | ⟨1, _⟩ => show win10_2.index t (1 : Fin 2) * 64 ≤ (i 1).val ∧ (i 1).val < win10_2.index t (1 : Fin 2) * 64 + 64; omega

/-- THE ARRAY after the region: the message function of the two arrays the region found. -/
theorem final (c : Dev nD) : (dat10 V c).arrAt 2 cfg10.N
    = msgF (E := 1600000) (V c (Pipeline.arrRef spec10 0)) (V c (Pipeline.arrRef spec10 1)) :=
  (dat10 V c).arrAt_eq_of_cover 2 _ (fun t _ => flushed_eq V c t) (cover)

end Cert.KernelIdeal.Msg10

end
-- ==== Proof.Mlp11.lean ====
/-
  Region 11 (the two-layer perceptron): the array it leaves.  Each grid point reads block t (10000 rows) of the layer's
  input h and of the aggregated messages, and the whole weights and biases; it writes back block t of
  relu((h + agg)·W1 + b1)·W2 + b2.  The kernel rounds to bf16 on the way into each product: on the extended reals a
  change of float format is the identity.  Row r of the result reads row r of h and agg only, and the blocks are
  consecutive row ranges tiling the 100000 rows: the array after the region is that function of the whole arrays.
-/
import proofs.«166775_j9826885173932_2_alg».proof.Proof.Gen.KernelIdeal.Frame
import proofs.«166775_j9826885173932_2_alg».proof.Proof.Spec
import proofs.«166775_j9826885173932_2_alg».proof.Proof.LibPlainDot
import Idealize.ShloMosaic.Lib.Pipeline.Value
import Idealize.ShloMosaic.Lib.ValueLayout

set_option maxRecDepth 16384

noncomputable section

namespace Cert.KernelIdeal.Mlp11

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The kernel's product of a 10000 × 64 block by a 64 × 64 weight, at an entry: a sum of sixty-four products. -/
theorem mm (l : FVec Ideal S10000x64 .bf16) (r : FVec Ideal S64x64 .bf16) (a : Fin 10000) (b : Fin 64) :
    matmul dot_S10000x64_S64x64_S10000x64_1_0_0_1_n_n none l r (constant S10000x64 .f32 0x00000000#32) (ix2 a b)
      = ∑ k : Fin 64, l (ix2 a k) * r (ix2 k b) :=
  Cert.LibPlainDot.matmul_zero_apply (M := 10000) (K := 64) (N := 64) dot_S10000x64_S64x64_S10000x64_1_0_0_1_n_n rfl rfl rfl rfl
    (fun _ _ => rfl) (fun _ _ => rfl) none l r a b

/-- The body's stored value, entry by entry: the perceptron of its loaded blocks. -/
theorem pay_eq (h agg : Vec Ideal S10000x64 .f32) (w1 : Vec Ideal S64x64 .f32) (b1 : Vec Ideal S64 .f32)
    (w2 : Vec Ideal S64x64 .f32) (b2 : Vec Ideal S64 .f32) :
    k11_pay1 h agg w1 b1 w2 b2 = mlpF (N := 10000) h agg w1 b1 w2 b2 := by
  funext j
  obtain ⟨p, q, rfl⟩ : ∃ (p : Fin 10000) (q : Fin 64), j = ix2 p q := ⟨j 0, j 1, eq_ix2 j⟩
  unfold k11_pay1
  simp only [shapeCast_self]
  simp only [addf_apply, maximumf_apply, truncf_apply, broadcast_apply, broadcastTo_1b_ab_apply, shapeCast_a_1a_apply, mm]
  rfl

/-- The printed index maps, decided over the grid: h, agg and the result move together, block t at row-block t; the
    weights and biases are read whole. -/
theorem idx_facts : ∀ t : Fin cfg11.N, win11_0.index t (0 : Fin 2) = win11_6.index t (0 : Fin 2)
    ∧ win11_0.index t (1 : Fin 2) = 0
    ∧ win11_1.index t (0 : Fin 2) = win11_6.index t (0 : Fin 2)
    ∧ win11_1.index t (1 : Fin 2) = 0
    ∧ win11_2.index t (0 : Fin 2) = 0 ∧ win11_2.index t (1 : Fin 2) = 0
    ∧ win11_3.index t (0 : Fin 1) = 0
    ∧ win11_4.index t (0 : Fin 2) = 0 ∧ win11_4.index t (1 : Fin 2) = 0
    ∧ win11_5.index t (0 : Fin 1) = 0
    ∧ win11_6.index t (0 : Fin 2) = t.val ∧ win11_6.index t (1 : Fin 2) = 0 :=
  (by decide +kernel : ∀ t : Fin grid11.N, _)

/-- Row r, column k of row-blocked window 0's block at point t is the output block's row of its array. -/
theorem rd0 (c : Dev nD) (t : Fin cfg11.N) (j : ((cfg11.win 6).xblock (cfg11.grid.coords t)).Idx) (k : Fin 64) :
    iblk11 V c 0 t (ix2 (j 0) k) = V c (Pipeline.arrRef spec11 0) (ix2 ((((cfg11.win 6).blk t).view.emb j) 0) k) := by
  obtain ⟨e0, e1, e2, e3, e4, e5, e6, e7, e8, e9, e10, e11⟩ := idx_facts t
  refine (show iblk11 V c 0 t (ix2 (j 0) k) = V c (Pipeline.arrRef spec11 0) (((cfg11.win 0).blk t).view.emb (ix2 (j 0) k)) from rfl).trans
    (congrArg (V c (Pipeline.arrRef spec11 0)) ?_)
  funext a; apply Fin.ext
  match a with
  | ⟨0, _⟩ => show win11_0.index t (0 : Fin 2) * 10000 + 1 * (j 0).val = win11_6.index t (0 : Fin 2) * 10000 + 1 * (j 0).val; omega
  | ⟨1, _⟩ => show win11_0.index t (1 : Fin 2) * 64 + 1 * k.val = k.val; omega

/-- Row r, column k of row-blocked window 1's block at point t is the output block's row of its array. -/
theorem rd1 (c : Dev nD) (t : Fin cfg11.N) (j : ((cfg11.win 6).xblock (cfg11.grid.coords t)).Idx) (k : Fin 64) :
    iblk11 V c 1 t (ix2 (j 0) k) = V c (Pipeline.arrRef spec11 1) (ix2 ((((cfg11.win 6).blk t).view.emb j) 0) k) := by
  obtain ⟨e0, e1, e2, e3, e4, e5, e6, e7, e8, e9, e10, e11⟩ := idx_facts t
  refine (show iblk11 V c 1 t (ix2 (j 0) k) = V c (Pipeline.arrRef spec11 1) (((cfg11.win 1).blk t).view.emb (ix2 (j 0) k)) from rfl).trans
    (congrArg (V c (Pipeline.arrRef spec11 1)) ?_)
  funext a; apply Fin.ext
  match a with
  | ⟨0, _⟩ => show win11_1.index t (0 : Fin 2) * 10000 + 1 * (j 0).val = win11_6.index t (0 : Fin 2) * 10000 + 1 * (j 0).val; omega
  | ⟨1, _⟩ => show win11_1.index t (1 : Fin 2) * 64 + 1 * k.val = k.val; omega

/-- Weight window 2 is read whole at every point. -/
theorem rd2 (c : Dev nD) (t : Fin cfg11.N) (y : S64x64.Idx) : iblk11 V c 2 t y = V c (Pipeline.arrRef spec11 2) y := by
  obtain ⟨e0, e1, e2, e3, e4, e5, e6, e7, e8, e9, e10, e11⟩ := idx_facts t
  refine (show iblk11 V c 2 t y = V c (Pipeline.arrRef spec11 2) (((cfg11.win 2).blk t).view.emb y) from rfl).trans
    (congrArg (V c (Pipeline.arrRef spec11 2)) ?_)
  funext a; apply Fin.ext
  match a with
  | ⟨0, _⟩ => show win11_2.index t (0 : Fin 2) * 64 + 1 * (y 0).val = (y 0).val; omega
  | ⟨1, _⟩ => show win11_2.index t (1 : Fin 2) * 64 + 1 * (y 1).val = (y 1).val; omega

/-- Bias window 3 is read whole at every point. -/
theorem rd3 (c : Dev nD) (t : Fin cfg11.N) (y : S64.Idx) : iblk11 V c 3 t y = V c (Pipeline.arrRef spec11 3) y := by
  obtain ⟨e0, e1, e2, e3, e4, e5, e6, e7, e8, e9, e10, e11⟩ := idx_facts t
  refine (show iblk11 V c 3 t y = V c (Pipeline.arrRef spec11 3) (((cfg11.win 3).blk t).view.emb y) from rfl).trans
    (congrArg (V c (Pipeline.arrRef spec11 3)) ?_)
  funext a; apply Fin.ext
  match a with
  | ⟨0, _⟩ => show win11_3.index t (0 : Fin 1) * 64 + 1 * (y 0).val = (y 0).val; omega

/-- Weight window 4 is read whole at every point. -/
theorem rd4 (c : Dev nD) (t : Fin cfg11.N) (y : S64x64.Idx) : iblk11 V c 4 t y = V c (Pipeline.arrRef spec11 4) y := by
  obtain ⟨e0, e1, e2, e3, e4, e5, e6, e7, e8, e9, e10, e11⟩ := idx_facts t
  refine (show iblk11 V c 4 t y = V c (Pipeline.arrRef spec11 4) (((cfg11.win 4).blk t).view.emb y) from rfl).trans
    (congrArg (V c (Pipeline.arrRef spec11 4)) ?_)
  funext a; apply Fin.ext
  match a with
  | ⟨0, _⟩ => show win11_4.index t (0 : Fin 2) * 64 + 1 * (y 0).val = (y 0).val; omega
  | ⟨1, _⟩ => show win11_4.index t (1 : Fin 2) * 64 + 1 * (y 1).val = (y 1).val; omega

/-- Bias window 5 is read whole at every point. -/
theorem rd5 (c : Dev nD) (t : Fin cfg11.N) (y : S64.Idx) : iblk11 V c 5 t y = V c (Pipeline.arrRef spec11 5) y := by
  obtain ⟨e0, e1, e2, e3, e4, e5, e6, e7, e8, e9, e10, e11⟩ := idx_facts t
  refine (show iblk11 V c 5 t y = V c (Pipeline.arrRef spec11 5) (((cfg11.win 5).blk t).view.emb y) from rfl).trans
    (congrArg (V c (Pipeline.arrRef spec11 5)) ?_)
  funext a; apply Fin.ext
  match a with
  | ⟨0, _⟩ => show win11_5.index t (0 : Fin 1) * 64 + 1 * (y 0).val = (y 0).val; omega

/-- The column of an element of the output's block is its column inside the block. -/
theorem col_eq (t : Fin cfg11.N) (j : ((cfg11.win 6).xblock (cfg11.grid.coords t)).Idx) :
    (((cfg11.win 6).blk t).view.emb j) 1 = j 1 := by
  obtain ⟨e0, e1, e2, e3, e4, e5, e6, e7, e8, e9, e10, e11⟩ := idx_facts t
  exact Fin.ext (by show win11_6.index t (1 : Fin 2) * 64 + 1 * (j 1).val = (j 1).val; omega)

/-- The perceptron of the blocks at point t, at an element of the block, is the perceptron of the whole arrays at that
    element's place in the array. -/
theorem blk_eq (c : Dev nD) (t : Fin cfg11.N) (j : ((cfg11.win 6).xblock (cfg11.grid.coords t)).Idx) :
    mlpF (N := 10000) (iblk11 V c 0 t) (iblk11 V c 1 t) (iblk11 V c 2 t) (iblk11 V c 3 t) (iblk11 V c 4 t) (iblk11 V c 5 t) j
     = mlpF (N := 100000) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (((cfg11.win 6).blk t).view.emb j) := by
  unfold mlpF hidF
  simp only [rd0 V c t j, rd1 V c t j, rd2 V c t, rd3 V c t, rd4 V c t, rd5 V c t, col_eq t j]

/-- What point t writes back is block t of the perceptron of the arrays as the region finds them. -/
theorem flushed_eq (c : Dev nD) (t : Fin cfg11.N) :
    (dat11 V c).flushed 6 t = ((cfg11.win 6).blk t).view.read (Elt Ideal)
      (mlpF (N := 100000) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))) := by
  show (cfg11.win 6).cut (grid11.coords t) ((dat11 V c).after 6 t) = _
  rw [after11_6]
  unfold out11_6
  rw [View.canon_unit_zero hz2]
  simp only [View.ld_unit_zero (S := S10000x64) hz2, View.ld_unit_zero (S := S64x64) hz2, View.ld_unit_zero (S := S64) hz1]
  rw [pay_eq]
  exact funext fun j => blk_eq V c t j

/-- An index of the array is in point t's block iff each coordinate is in the block's range on its axis. -/
theorem mem_blk (t : Fin cfg11.N) (i : S100000x64.Idx) :
    i ∈ ((cfg11.win 6).blk t).view.set ↔ ∀ a : Fin 2, win11_6.index t a * S10000x64.size a ≤ (i a).val ∧ (i a).val < win11_6.index t a * S10000x64.size a + S10000x64.size a := by
  show i ∈ ((View.whole main_v107).slice (win11_6.rect t)).set ↔ _
  rw [View.set_slice_whole, Rect.mem_set_unit]
  exact Iff.rfl

/-- Every row is in the block of the point numbered by its row-block. -/
theorem cover (i : S100000x64.Idx) : ∃ t : Fin cfg11.N, (cfg11.win 6).flush t = true ∧ i ∈ ((cfg11.win 6).blk t).view.set := by
  have hN : grid11.N = 10 := N_11
  have hi0 : (i 0).val < 100000 := (i 0).isLt
  have hi1 : (i 1).val < 64 := (i 1).isLt
  let t : Fin cfg11.N := ⟨(i 0).val / 10000, by show _ < grid11.N; omega⟩
  obtain ⟨e0, e1, e2, e3, e4, e5, e6, e7, e8, e9, e10, e11⟩ := idx_facts t
  have e10' : win11_6.index t (0 : Fin 2) = (i 0).val / 10000 := e10
  refine ⟨t, flush11_6 t, ?_⟩
  rw [mem_blk]
  intro a
  match a with
  | ⟨0, _⟩ => show win11_6.index t (0 : Fin 2) * 10000 ≤ (i 0).val ∧ (i 0).val < win11_6.index t (0 : Fin 2) * 10000 + 10000; omega
  | ⟨1, _⟩ => show win11_6.index t (1 : Fin 2) * 64 ≤ (i 1).val ∧ (i 1).val < win11_6.index t (1 : Fin 2) * 64 + 64; omega

/-- THE ARRAY after the region. -/
theorem final (c : Dev nD) : (dat11 V c).arrAt 6 cfg11.N
    = mlpF (N := 100000) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) :=
  (dat11 V c).arrAt_eq_of_cover 6 _ (fun t _ => flushed_eq V c t) (cover)

end Cert.KernelIdeal.Mlp11

end
-- ==== Proof.Bn12.lean ====
/-
  Region 12 (normalise, rectify, add the residual): the array it leaves.  Each grid point reads block t (10000 rows) of
  the perceptron's output and of the layer's input, and the whole column statistics, scale and shift; it writes back
  block t of  relu(γ·(z − μ)·(var + ε)^(−1/2) + β) + h.  The function is pointwise in the row, the blocks are
  consecutive row ranges tiling the 100000 rows: the array after the region is that function of the whole arrays.
-/
import proofs.«166775_j9826885173932_2_alg».proof.Proof.Gen.KernelIdeal.Frame
import proofs.«166775_j9826885173932_2_alg».proof.Proof.Spec
import Idealize.ShloMosaic.Lib.Pipeline.Value
import Idealize.ShloMosaic.Lib.ValueLayout

set_option maxRecDepth 16384

noncomputable section

namespace Cert.KernelIdeal.Bn12

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The reciprocal square root of a vector, read at an index. -/
theorem rsqrt_at {s : Shape} (v : FVec Ideal s .f32) (i : s.Idx) : rsqrt v i = Ideal.rsqrt (v i) := rfl

/-- The body's stored value, entry by entry: the normalised, rectified, residual function of its loaded blocks. -/
theorem pay_eq (z : Vec Ideal S10000x64 .f32) (mu var g b : Vec Ideal S64 .f32) (h : Vec Ideal S10000x64 .f32) :
    k12_pay1 z mu var g b h = bnMulF (N := 10000) z h mu var g b := by
  funext j
  obtain ⟨p, q, rfl⟩ : ∃ (p : Fin 10000) (q : Fin 64), j = ix2 p q := ⟨j 0, j 1, eq_ix2 j⟩
  unfold k12_pay1
  simp only [shapeCast_self]
  simp only [addf_apply, maximumf_apply, mulf_apply, subf_apply, broadcast_apply, broadcastTo_1b_ab_apply, rsqrt_at,
    shapeCast_a_1a_apply]
  rfl

/-- The printed index maps, decided over the grid: the row-blocked windows move together, block t at row-block t; the
    column vectors are read whole. -/
theorem idx_facts : ∀ t : Fin cfg12.N, win12_0.index t (0 : Fin 2) = win12_6.index t (0 : Fin 2)
    ∧ win12_0.index t (1 : Fin 2) = win12_6.index t (1 : Fin 2)
    ∧ win12_1.index t (0 : Fin 2) = win12_6.index t (0 : Fin 2)
    ∧ win12_1.index t (1 : Fin 2) = win12_6.index t (1 : Fin 2)
    ∧ win12_2.index t (0 : Fin 1) = 0 ∧ win12_3.index t (0 : Fin 1) = 0
    ∧ win12_4.index t (0 : Fin 1) = 0 ∧ win12_5.index t (0 : Fin 1) = 0
    ∧ win12_6.index t (0 : Fin 2) = t.val ∧ win12_6.index t (1 : Fin 2) = 0 :=
  (by decide +kernel : ∀ t : Fin grid12.N, _)

/-- Row-blocked window 0's block at point t is the same rows of its array as the output's block. -/
theorem rd0 (c : Dev nD) (t : Fin cfg12.N) (j : ((cfg12.win 6).xblock (cfg12.grid.coords t)).Idx) :
    iblk12 V c 0 t j = V c (Pipeline.arrRef spec12 0) (((cfg12.win 6).blk t).view.emb j) := by
  obtain ⟨e0, e1, e2, e3, e4, e5, e6, e7, e8, e9⟩ := idx_facts t
  refine (show iblk12 V c 0 t j = V c (Pipeline.arrRef spec12 0) (((cfg12.win 0).blk t).view.emb j) from rfl).trans
    (congrArg (V c (Pipeline.arrRef spec12 0)) ?_)
  funext a; apply Fin.ext
  match a with
  | ⟨0, _⟩ => show win12_0.index t (0 : Fin 2) * 10000 + 1 * (j 0).val = win12_6.index t (0 : Fin 2) * 10000 + 1 * (j 0).val; omega
  | ⟨1, _⟩ => show win12_0.index t (1 : Fin 2) * 64 + 1 * (j 1).val = win12_6.index t (1 : Fin 2) * 64 + 1 * (j 1).val; omega

/-- Row-blocked window 1's block at point t is the same rows of its array as the output's block. -/
theorem rd1 (c : Dev nD) (t : Fin cfg12.N) (j : ((cfg12.win 6).xblock (cfg12.grid.coords t)).Idx) :
    iblk12 V c 1 t j = V c (Pipeline.arrRef spec12 1) (((cfg12.win 6).blk t).view.emb j) := by
  obtain ⟨e0, e1, e2, e3, e4, e5, e6, e7, e8, e9⟩ := idx_facts t
  refine (show iblk12 V c 1 t j = V c (Pipeline.arrRef spec12 1) (((cfg12.win 1).blk t).view.emb j) from rfl).trans
    (congrArg (V c (Pipeline.arrRef spec12 1)) ?_)
  funext a; apply Fin.ext
  match a with
  | ⟨0, _⟩ => show win12_1.index t (0 : Fin 2) * 10000 + 1 * (j 0).val = win12_6.index t (0 : Fin 2) * 10000 + 1 * (j 0).val; omega
  | ⟨1, _⟩ => show win12_1.index t (1 : Fin 2) * 64 + 1 * (j 1).val = win12_6.index t (1 : Fin 2) * 64 + 1 * (j 1).val; omega

/-- Column window 2 is read whole at every point. -/
theorem rd2 (c : Dev nD) (t : Fin cfg12.N) (y : S64.Idx) : iblk12 V c 2 t y = V c (Pipeline.arrRef spec12 2) y := by
  obtain ⟨e0, e1, e2, e3, e4, e5, e6, e7, e8, e9⟩ := idx_facts t
  refine (show iblk12 V c 2 t y = V c (Pipeline.arrRef spec12 2) (((cfg12.win 2).blk t).view.emb y) from rfl).trans
    (congrArg (V c (Pipeline.arrRef spec12 2)) ?_)
  funext a; apply Fin.ext
  match a with
  | ⟨0, _⟩ => show win12_2.index t (0 : Fin 1) * 64 + 1 * (y 0).val = (y 0).val; omega

/-- Column window 3 is read whole at every point. -/
theorem rd3 (c : Dev nD) (t : Fin cfg12.N) (y : S64.Idx) : iblk12 V c 3 t y = V c (Pipeline.arrRef spec12 3) y := by
  obtain ⟨e0, e1, e2, e3, e4, e5, e6, e7, e8, e9⟩ := idx_facts t
  refine (show iblk12 V c 3 t y = V c (Pipeline.arrRef spec12 3) (((cfg12.win 3).blk t).view.emb y) from rfl).trans
    (congrArg (V c (Pipeline.arrRef spec12 3)) ?_)
  funext a; apply Fin.ext
  match a with
  | ⟨0, _⟩ => show win12_3.index t (0 : Fin 1) * 64 + 1 * (y 0).val = (y 0).val; omega

/-- Column window 4 is read whole at every point. -/
theorem rd4 (c : Dev nD) (t : Fin cfg12.N) (y : S64.Idx) : iblk12 V c 4 t y = V c (Pipeline.arrRef spec12 4) y := by
  obtain ⟨e0, e1, e2, e3, e4, e5, e6, e7, e8, e9⟩ := idx_facts t
  refine (show iblk12 V c 4 t y = V c (Pipeline.arrRef spec12 4) (((cfg12.win 4).blk t).view.emb y) from rfl).trans
    (congrArg (V c (Pipeline.arrRef spec12 4)) ?_)
  funext a; apply Fin.ext
  match a with
  | ⟨0, _⟩ => show win12_4.index t (0 : Fin 1) * 64 + 1 * (y 0).val = (y 0).val; omega

/-- Column window 5 is read whole at every point. -/
theorem rd5 (c : Dev nD) (t : Fin cfg12.N) (y : S64.Idx) : iblk12 V c 5 t y = V c (Pipeline.arrRef spec12 5) y := by
  obtain ⟨e0, e1, e2, e3, e4, e5, e6, e7, e8, e9⟩ := idx_facts t
  refine (show iblk12 V c 5 t y = V c (Pipeline.arrRef spec12 5) (((cfg12.win 5).blk t).view.emb y) from rfl).trans
    (congrArg (V c (Pipeline.arrRef spec12 5)) ?_)
  funext a; apply Fin.ext
  match a with
  | ⟨0, _⟩ => show win12_5.index t (0 : Fin 1) * 64 + 1 * (y 0).val = (y 0).val; omega

/-- The column of an element of the output's block is its column inside the block. -/
theorem col_eq (t : Fin cfg12.N) (j : ((cfg12.win 6).xblock (cfg12.grid.coords t)).Idx) :
    (ix1 ((((cfg12.win 6).blk t).view.emb j) 1) : (⟨1, ![64]⟩ : Shape).Idx) = ix1 (j 1) := by
  obtain ⟨e0, e1, e2, e3, e4, e5, e6, e7, e8, e9⟩ := idx_facts t
  exact congrArg ix1 (Fin.ext (by show win12_6.index t (1 : Fin 2) * 64 + 1 * (j 1).val = (j 1).val; omega))

/-- The function of the blocks at point t, at an element of the block, is the function of the whole arrays at that
    element's place in the array. -/
theorem blk_eq (c : Dev nD) (t : Fin cfg12.N) (j : ((cfg12.win 6).xblock (cfg12.grid.coords t)).Idx) :
    bnMulF (N := 10000) (iblk12 V c 0 t) (iblk12 V c 1 t) (iblk12 V c 2 t) (iblk12 V c 3 t) (iblk12 V c 4 t) (iblk12 V c 5 t) j
     = bnMulF (N := 100000) (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5)) (((cfg12.win 6).blk t).view.emb j) := by
  unfold bnMulF
  simp only [rd0 V c t j, rd1 V c t j, rd2 V c t, rd3 V c t, rd4 V c t, rd5 V c t, col_eq t j] <;> rfl

set_option maxHeartbeats 1000000 in
/-- What point t writes back is block t of the function of the arrays as the region finds them. -/
theorem flushed_eq (c : Dev nD) (t : Fin cfg12.N) :
    (dat12 V c).flushed 6 t = ((cfg12.win 6).blk t).view.read (Elt Ideal)
      (bnMulF (N := 100000) (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5))) := by
  show (cfg12.win 6).cut (grid12.coords t) ((dat12 V c).after 6 t) = _
  rw [after12_6]
  unfold out12_6
  rw [View.canon_unit_zero hz2]
  simp only [View.ld_unit_zero (S := S10000x64) hz2, View.ld_unit_zero (S := S64) hz1]
  rw [pay_eq]
  exact funext fun j => blk_eq V c t j

/-- An index of the array is in point t's block iff each coordinate is in the block's range on its axis. -/
theorem mem_blk (t : Fin cfg12.N) (i : S100000x64.Idx) :
    i ∈ ((cfg12.win 6).blk t).view.set ↔ ∀ a : Fin 2, win12_6.index t a * S10000x64.size a ≤ (i a).val ∧ (i a).val < win12_6.index t a * S10000x64.size a + S10000x64.size a := by
  show i ∈ ((View.whole main_v116).slice (win12_6.rect t)).set ↔ _
  rw [View.set_slice_whole, Rect.mem_set_unit]
  exact Iff.rfl

/-- Every row is in the block of the point numbered by its row-block. -/
theorem cover (i : S100000x64.Idx) : ∃ t : Fin cfg12.N, (cfg12.win 6).flush t = true ∧ i ∈ ((cfg12.win 6).blk t).view.set := by
  have hN : grid12.N = 10 := N_12
  have hi0 : (i 0).val < 100000 := (i 0).isLt
  have hi1 : (i 1).val < 64 := (i 1).isLt
  let t : Fin cfg12.N := ⟨(i 0).val / 10000, by show _ < grid12.N; omega⟩
  obtain ⟨e0, e1, e2, e3, e4, e5, e6, e7, e8, e9⟩ := idx_facts t
  have e8' : win12_6.index t (0 : Fin 2) = (i 0).val / 10000 := e8
  refine ⟨t, flush12_6 t, ?_⟩
  rw [mem_blk]
  intro a
  match a with
  | ⟨0, _⟩ => show win12_6.index t (0 : Fin 2) * 10000 ≤ (i 0).val ∧ (i 0).val < win12_6.index t (0 : Fin 2) * 10000 + 10000; omega
  | ⟨1, _⟩ => show win12_6.index t (1 : Fin 2) * 64 ≤ (i 1).val ∧ (i 1).val < win12_6.index t (1 : Fin 2) * 64 + 64; omega

/-- THE ARRAY after the region. -/
theorem final (c : Dev nD) : (dat12 V c).arrAt 6 cfg12.N
    = bnMulF (N := 100000) (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5)) :=
  (dat12 V c).arrAt_eq_of_cover 6 _ (fun t _ => flushed_eq V c t) (cover)

end Cert.KernelIdeal.Bn12

end
-- ==== Proof.KLayer3.lean ====
/-
  Layer 3 of the idealized kernel program, read through its boundary contents.  From the contents W25 at the layer's
  entry: a host stretch gathers the source rows; the message region leaves relu(source + edge); a host stretch
  scatter-adds the messages into destination rows and slices this layer's weights; the perceptron region leaves its
  output; three host stretches take the column mean and variance and slice the scale and shift; the last region
  normalises, rectifies and adds the residual.  Each step is one small equation between reads of consecutive boundary
  contents; together they say the layer's output is the specification's layer (the kernel's way) of the entry
  contents, and that the transformed edge features and the arguments pass through untouched.
-/
import proofs.«166775_j9826885173932_2_alg».proof.Proof.Gen.KernelIdeal.Frame
import proofs.«166775_j9826885173932_2_alg».proof.Proof.Msg10
import proofs.«166775_j9826885173932_2_alg».proof.Proof.Mlp11
import proofs.«166775_j9826885173932_2_alg».proof.Proof.Bn12
import proofs.«166775_j9826885173932_2_alg».proof.Proof.RefStages
import proofs.«166775_j9826885173932_2_alg».proof.Proof.NotWritten

set_option maxRecDepth 16384
set_option maxHeartbeats 1000000

noncomputable section

namespace Cert.KernelIdeal.KLayer3

open Cert.KernelIdeal Cert.KernelIdeal.Gen Cert.Gine Cert.ReferenceIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ### The gather stretch -/

theorem g_gath : W26 m ρ c (Proc.devRef .tc main_v94) = gathR (W25 m ρ c (Proc.devRef .tc main_arg2)) (W25 m ρ c (Proc.devRef .tc main_v87)) := by
  show StableHlo.after hostOps10 (W25 m ρ c) (Proc.devRef .tc main_v94) = _
  after_results_simp
  try rfl

theorem g_keep_main_v0 : W26 m ρ c (Proc.devRef .tc main_v0) = W25 m ρ c (Proc.devRef .tc main_v0) := by
  show StableHlo.after hostOps10 (W25 m ρ c) (Proc.devRef .tc main_v0) = _
  not_written [hostOps10]

theorem g_keep_main_arg2 : W26 m ρ c (Proc.devRef .tc main_arg2) = W25 m ρ c (Proc.devRef .tc main_arg2) := by
  show StableHlo.after hostOps10 (W25 m ρ c) (Proc.devRef .tc main_arg2) = _
  not_written [hostOps10]

theorem g_keep_main_arg3 : W26 m ρ c (Proc.devRef .tc main_arg3) = W25 m ρ c (Proc.devRef .tc main_arg3) := by
  show StableHlo.after hostOps10 (W25 m ρ c) (Proc.devRef .tc main_arg3) = _
  not_written [hostOps10]

theorem g_keep_main_arg6 : W26 m ρ c (Proc.devRef .tc main_arg6) = W25 m ρ c (Proc.devRef .tc main_arg6) := by
  show StableHlo.after hostOps10 (W25 m ρ c) (Proc.devRef .tc main_arg6) = _
  not_written [hostOps10]

theorem g_keep_main_arg7 : W26 m ρ c (Proc.devRef .tc main_arg7) = W25 m ρ c (Proc.devRef .tc main_arg7) := by
  show StableHlo.after hostOps10 (W25 m ρ c) (Proc.devRef .tc main_arg7) = _
  not_written [hostOps10]

theorem g_keep_main_arg8 : W26 m ρ c (Proc.devRef .tc main_arg8) = W25 m ρ c (Proc.devRef .tc main_arg8) := by
  show StableHlo.after hostOps10 (W25 m ρ c) (Proc.devRef .tc main_arg8) = _
  not_written [hostOps10]

theorem g_keep_main_arg9 : W26 m ρ c (Proc.devRef .tc main_arg9) = W25 m ρ c (Proc.devRef .tc main_arg9) := by
  show StableHlo.after hostOps10 (W25 m ρ c) (Proc.devRef .tc main_arg9) = _
  not_written [hostOps10]

theorem g_keep_main_arg10 : W26 m ρ c (Proc.devRef .tc main_arg10) = W25 m ρ c (Proc.devRef .tc main_arg10) := by
  show StableHlo.after hostOps10 (W25 m ρ c) (Proc.devRef .tc main_arg10) = _
  not_written [hostOps10]

theorem g_keep_main_arg11 : W26 m ρ c (Proc.devRef .tc main_arg11) = W25 m ρ c (Proc.devRef .tc main_arg11) := by
  show StableHlo.after hostOps10 (W25 m ρ c) (Proc.devRef .tc main_arg11) = _
  not_written [hostOps10]

theorem g_keep_main_v87 : W26 m ρ c (Proc.devRef .tc main_v87) = W25 m ρ c (Proc.devRef .tc main_v87) := by
  show StableHlo.after hostOps10 (W25 m ρ c) (Proc.devRef .tc main_v87) = _
  not_written [hostOps10]

/-! ### The message region -/

theorem m_msg : W27 m ρ c (Proc.devRef .tc main_v95) = msgF (E := 1600000) (W26 m ρ c (Proc.devRef .tc main_v94)) (W26 m ρ c (Proc.devRef .tc main_v0)) :=
  (W27_arr m ρ c 2).trans (Cert.KernelIdeal.Msg10.final (V26 m ρ) c)

theorem m_keep_main_v0 : W27 m ρ c (Proc.devRef .tc main_v0) = W26 m ρ c (Proc.devRef .tc main_v0) :=
  (W27_arr m ρ c 1).trans (((dat10 (V26 m ρ) c).arrAt_in 1 rfl _).trans (A_eq10 (V26 m ρ) c 1))

theorem m_keep_main_arg2 : W27 m ρ c (Proc.devRef .tc main_arg2) = W26 m ρ c (Proc.devRef .tc main_arg2) := W27_of_ne m ρ c main_arg2 (by decide)

theorem m_keep_main_arg3 : W27 m ρ c (Proc.devRef .tc main_arg3) = W26 m ρ c (Proc.devRef .tc main_arg3) := W27_of_ne m ρ c main_arg3 (by decide)

theorem m_keep_main_arg6 : W27 m ρ c (Proc.devRef .tc main_arg6) = W26 m ρ c (Proc.devRef .tc main_arg6) := W27_of_ne m ρ c main_arg6 (by decide)

theorem m_keep_main_arg7 : W27 m ρ c (Proc.devRef .tc main_arg7) = W26 m ρ c (Proc.devRef .tc main_arg7) := W27_of_ne m ρ c main_arg7 (by decide)

theorem m_keep_main_arg8 : W27 m ρ c (Proc.devRef .tc main_arg8) = W26 m ρ c (Proc.devRef .tc main_arg8) := W27_of_ne m ρ c main_arg8 (by decide)

theorem m_keep_main_arg9 : W27 m ρ c (Proc.devRef .tc main_arg9) = W26 m ρ c (Proc.devRef .tc main_arg9) := W27_of_ne m ρ c main_arg9 (by decide)

theorem m_keep_main_arg10 : W27 m ρ c (Proc.devRef .tc main_arg10) = W26 m ρ c (Proc.devRef .tc main_arg10) := W27_of_ne m ρ c main_arg10 (by decide)

theorem m_keep_main_arg11 : W27 m ρ c (Proc.devRef .tc main_arg11) = W26 m ρ c (Proc.devRef .tc main_arg11) := W27_of_ne m ρ c main_arg11 (by decide)

theorem m_keep_main_v87 : W27 m ρ c (Proc.devRef .tc main_v87) = W26 m ρ c (Proc.devRef .tc main_v87) := W27_of_ne m ρ c main_v87 (by decide)

/-! ### The scatter-add stretch (and this layer's slices of the perceptron's weights) -/

theorem s_agg : W28 m ρ c (Proc.devRef .tc main_v98) = scatR (W27 m ρ c (Proc.devRef .tc main_arg3)) (W27 m ρ c (Proc.devRef .tc main_v95)) := by
  show StableHlo.after hostOps11 (W27 m ρ c) (Proc.devRef .tc main_v98) = _
  after_results_simp
  try rfl

theorem s_w1 : W28 m ρ c (Proc.devRef .tc main_v100) = mat3 (W27 m ρ c (Proc.devRef .tc main_arg6)) := by
  show StableHlo.after hostOps11 (W27 m ρ c) (Proc.devRef .tc main_v100) = _
  after_results_simp
  try rfl

theorem s_b1 : W28 m ρ c (Proc.devRef .tc main_v102) = vec3 (W27 m ρ c (Proc.devRef .tc main_arg7)) := by
  show StableHlo.after hostOps11 (W27 m ρ c) (Proc.devRef .tc main_v102) = _
  after_results_simp
  try rfl

theorem s_w2 : W28 m ρ c (Proc.devRef .tc main_v104) = mat3 (W27 m ρ c (Proc.devRef .tc main_arg8)) := by
  show StableHlo.after hostOps11 (W27 m ρ c) (Proc.devRef .tc main_v104) = _
  after_results_simp
  try rfl

theorem s_b2 : W28 m ρ c (Proc.devRef .tc main_v106) = vec3 (W27 m ρ c (Proc.devRef .tc main_arg9)) := by
  show StableHlo.after hostOps11 (W27 m ρ c) (Proc.devRef .tc main_v106) = _
  after_results_simp
  try rfl

theorem s_keep_main_v0 : W28 m ρ c (Proc.devRef .tc main_v0) = W27 m ρ c (Proc.devRef .tc main_v0) := by
  show StableHlo.after hostOps11 (W27 m ρ c) (Proc.devRef .tc main_v0) = _
  not_written [hostOps11]

theorem s_keep_main_arg2 : W28 m ρ c (Proc.devRef .tc main_arg2) = W27 m ρ c (Proc.devRef .tc main_arg2) := by
  show StableHlo.after hostOps11 (W27 m ρ c) (Proc.devRef .tc main_arg2) = _
  not_written [hostOps11]

theorem s_keep_main_arg3 : W28 m ρ c (Proc.devRef .tc main_arg3) = W27 m ρ c (Proc.devRef .tc main_arg3) := by
  show StableHlo.after hostOps11 (W27 m ρ c) (Proc.devRef .tc main_arg3) = _
  not_written [hostOps11]

theorem s_keep_main_arg6 : W28 m ρ c (Proc.devRef .tc main_arg6) = W27 m ρ c (Proc.devRef .tc main_arg6) := by
  show StableHlo.after hostOps11 (W27 m ρ c) (Proc.devRef .tc main_arg6) = _
  not_written [hostOps11]

theorem s_keep_main_arg7 : W28 m ρ c (Proc.devRef .tc main_arg7) = W27 m ρ c (Proc.devRef .tc main_arg7) := by
  show StableHlo.after hostOps11 (W27 m ρ c) (Proc.devRef .tc main_arg7) = _
  not_written [hostOps11]

theorem s_keep_main_arg8 : W28 m ρ c (Proc.devRef .tc main_arg8) = W27 m ρ c (Proc.devRef .tc main_arg8) := by
  show StableHlo.after hostOps11 (W27 m ρ c) (Proc.devRef .tc main_arg8) = _
  not_written [hostOps11]

theorem s_keep_main_arg9 : W28 m ρ c (Proc.devRef .tc main_arg9) = W27 m ρ c (Proc.devRef .tc main_arg9) := by
  show StableHlo.after hostOps11 (W27 m ρ c) (Proc.devRef .tc main_arg9) = _
  not_written [hostOps11]

theorem s_keep_main_arg10 : W28 m ρ c (Proc.devRef .tc main_arg10) = W27 m ρ c (Proc.devRef .tc main_arg10) := by
  show StableHlo.after hostOps11 (W27 m ρ c) (Proc.devRef .tc main_arg10) = _
  not_written [hostOps11]

theorem s_keep_main_arg11 : W28 m ρ c (Proc.devRef .tc main_arg11) = W27 m ρ c (Proc.devRef .tc main_arg11) := by
  show StableHlo.after hostOps11 (W27 m ρ c) (Proc.devRef .tc main_arg11) = _
  not_written [hostOps11]

theorem s_keep_main_v87 : W28 m ρ c (Proc.devRef .tc main_v87) = W27 m ρ c (Proc.devRef .tc main_v87) := by
  show StableHlo.after hostOps11 (W27 m ρ c) (Proc.devRef .tc main_v87) = _
  not_written [hostOps11]

/-! ### The perceptron region -/

theorem p_z : W29 m ρ c (Proc.devRef .tc main_v107) = mlpF (N := 100000) (W28 m ρ c (Proc.devRef .tc main_v87)) (W28 m ρ c (Proc.devRef .tc main_v98)) (W28 m ρ c (Proc.devRef .tc main_v100)) (W28 m ρ c (Proc.devRef .tc main_v102)) (W28 m ρ c (Proc.devRef .tc main_v104)) (W28 m ρ c (Proc.devRef .tc main_v106)) :=
  (W29_arr m ρ c 6).trans (Cert.KernelIdeal.Mlp11.final (V28 m ρ) c)

theorem p_keep_main_v87 : W29 m ρ c (Proc.devRef .tc main_v87) = W28 m ρ c (Proc.devRef .tc main_v87) :=
  (W29_arr m ρ c 0).trans (((dat11 (V28 m ρ) c).arrAt_in 0 rfl _).trans (A_eq11 (V28 m ρ) c 0))

theorem p_keep_main_v0 : W29 m ρ c (Proc.devRef .tc main_v0) = W28 m ρ c (Proc.devRef .tc main_v0) := W29_of_ne m ρ c main_v0 (by decide)

theorem p_keep_main_arg2 : W29 m ρ c (Proc.devRef .tc main_arg2) = W28 m ρ c (Proc.devRef .tc main_arg2) := W29_of_ne m ρ c main_arg2 (by decide)

theorem p_keep_main_arg3 : W29 m ρ c (Proc.devRef .tc main_arg3) = W28 m ρ c (Proc.devRef .tc main_arg3) := W29_of_ne m ρ c main_arg3 (by decide)

theorem p_keep_main_arg6 : W29 m ρ c (Proc.devRef .tc main_arg6) = W28 m ρ c (Proc.devRef .tc main_arg6) := W29_of_ne m ρ c main_arg6 (by decide)

theorem p_keep_main_arg7 : W29 m ρ c (Proc.devRef .tc main_arg7) = W28 m ρ c (Proc.devRef .tc main_arg7) := W29_of_ne m ρ c main_arg7 (by decide)

theorem p_keep_main_arg8 : W29 m ρ c (Proc.devRef .tc main_arg8) = W28 m ρ c (Proc.devRef .tc main_arg8) := W29_of_ne m ρ c main_arg8 (by decide)

theorem p_keep_main_arg9 : W29 m ρ c (Proc.devRef .tc main_arg9) = W28 m ρ c (Proc.devRef .tc main_arg9) := W29_of_ne m ρ c main_arg9 (by decide)

theorem p_keep_main_arg10 : W29 m ρ c (Proc.devRef .tc main_arg10) = W28 m ρ c (Proc.devRef .tc main_arg10) := W29_of_ne m ρ c main_arg10 (by decide)

theorem p_keep_main_arg11 : W29 m ρ c (Proc.devRef .tc main_arg11) = W28 m ρ c (Proc.devRef .tc main_arg11) := W29_of_ne m ρ c main_arg11 (by decide)

/-! ### The batch statistics (three stretches in a row) and this layer's scale and shift -/

theorem v_mean : W32 m ρ c (Proc.devRef .tc main_v110) = meanR (W29 m ρ c (Proc.devRef .tc main_v107)) := by
  show StableHlo.after hostOps12_2 (StableHlo.after hostOps12_1 (StableHlo.after hostOps12 (W29 m ρ c))) (Proc.devRef .tc main_v110) = _
  after_results_simp
  try rfl

theorem v_var : W32 m ρ c (Proc.devRef .tc main_v111) = varR (W29 m ρ c (Proc.devRef .tc main_v107)) := by
  show StableHlo.after hostOps12_2 (StableHlo.after hostOps12_1 (StableHlo.after hostOps12 (W29 m ρ c))) (Proc.devRef .tc main_v111) = _
  after_results_simp
  try rfl

theorem v_g : W32 m ρ c (Proc.devRef .tc main_v113) = vec3 (W29 m ρ c (Proc.devRef .tc main_arg10)) := by
  show StableHlo.after hostOps12_2 (StableHlo.after hostOps12_1 (StableHlo.after hostOps12 (W29 m ρ c))) (Proc.devRef .tc main_v113) = _
  after_results_simp
  try rfl

theorem v_b : W32 m ρ c (Proc.devRef .tc main_v115) = vec3 (W29 m ρ c (Proc.devRef .tc main_arg11)) := by
  show StableHlo.after hostOps12_2 (StableHlo.after hostOps12_1 (StableHlo.after hostOps12 (W29 m ρ c))) (Proc.devRef .tc main_v115) = _
  after_results_simp
  try rfl

theorem v_keep_main_v0 : W32 m ρ c (Proc.devRef .tc main_v0) = W29 m ρ c (Proc.devRef .tc main_v0) := by
  show StableHlo.after hostOps12_2 (StableHlo.after hostOps12_1 (StableHlo.after hostOps12 (W29 m ρ c))) (Proc.devRef .tc main_v0) = _
  rw [show StableHlo.after hostOps12_2 (StableHlo.after hostOps12_1 (StableHlo.after hostOps12 (W29 m ρ c))) (Proc.devRef .tc main_v0) = StableHlo.after hostOps12_1 (StableHlo.after hostOps12 (W29 m ρ c)) (Proc.devRef .tc main_v0) from by not_written [hostOps12_2],
    show StableHlo.after hostOps12_1 (StableHlo.after hostOps12 (W29 m ρ c)) (Proc.devRef .tc main_v0) = StableHlo.after hostOps12 (W29 m ρ c) (Proc.devRef .tc main_v0) from by not_written [hostOps12_1]]
  not_written [hostOps12]

theorem v_keep_main_arg2 : W32 m ρ c (Proc.devRef .tc main_arg2) = W29 m ρ c (Proc.devRef .tc main_arg2) := by
  show StableHlo.after hostOps12_2 (StableHlo.after hostOps12_1 (StableHlo.after hostOps12 (W29 m ρ c))) (Proc.devRef .tc main_arg2) = _
  rw [show StableHlo.after hostOps12_2 (StableHlo.after hostOps12_1 (StableHlo.after hostOps12 (W29 m ρ c))) (Proc.devRef .tc main_arg2) = StableHlo.after hostOps12_1 (StableHlo.after hostOps12 (W29 m ρ c)) (Proc.devRef .tc main_arg2) from by not_written [hostOps12_2],
    show StableHlo.after hostOps12_1 (StableHlo.after hostOps12 (W29 m ρ c)) (Proc.devRef .tc main_arg2) = StableHlo.after hostOps12 (W29 m ρ c) (Proc.devRef .tc main_arg2) from by not_written [hostOps12_1]]
  not_written [hostOps12]

theorem v_keep_main_arg3 : W32 m ρ c (Proc.devRef .tc main_arg3) = W29 m ρ c (Proc.devRef .tc main_arg3) := by
  show StableHlo.after hostOps12_2 (StableHlo.after hostOps12_1 (StableHlo.after hostOps12 (W29 m ρ c))) (Proc.devRef .tc main_arg3) = _
  rw [show StableHlo.after hostOps12_2 (StableHlo.after hostOps12_1 (StableHlo.after hostOps12 (W29 m ρ c))) (Proc.devRef .tc main_arg3) = StableHlo.after hostOps12_1 (StableHlo.after hostOps12 (W29 m ρ c)) (Proc.devRef .tc main_arg3) from by not_written [hostOps12_2],
    show StableHlo.after hostOps12_1 (StableHlo.after hostOps12 (W29 m ρ c)) (Proc.devRef .tc main_arg3) = StableHlo.after hostOps12 (W29 m ρ c) (Proc.devRef .tc main_arg3) from by not_written [hostOps12_1]]
  not_written [hostOps12]

theorem v_keep_main_arg6 : W32 m ρ c (Proc.devRef .tc main_arg6) = W29 m ρ c (Proc.devRef .tc main_arg6) := by
  show StableHlo.after hostOps12_2 (StableHlo.after hostOps12_1 (StableHlo.after hostOps12 (W29 m ρ c))) (Proc.devRef .tc main_arg6) = _
  rw [show StableHlo.after hostOps12_2 (StableHlo.after hostOps12_1 (StableHlo.after hostOps12 (W29 m ρ c))) (Proc.devRef .tc main_arg6) = StableHlo.after hostOps12_1 (StableHlo.after hostOps12 (W29 m ρ c)) (Proc.devRef .tc main_arg6) from by not_written [hostOps12_2],
    show StableHlo.after hostOps12_1 (StableHlo.after hostOps12 (W29 m ρ c)) (Proc.devRef .tc main_arg6) = StableHlo.after hostOps12 (W29 m ρ c) (Proc.devRef .tc main_arg6) from by not_written [hostOps12_1]]
  not_written [hostOps12]

theorem v_keep_main_arg7 : W32 m ρ c (Proc.devRef .tc main_arg7) = W29 m ρ c (Proc.devRef .tc main_arg7) := by
  show StableHlo.after hostOps12_2 (StableHlo.after hostOps12_1 (StableHlo.after hostOps12 (W29 m ρ c))) (Proc.devRef .tc main_arg7) = _
  rw [show StableHlo.after hostOps12_2 (StableHlo.after hostOps12_1 (StableHlo.after hostOps12 (W29 m ρ c))) (Proc.devRef .tc main_arg7) = StableHlo.after hostOps12_1 (StableHlo.after hostOps12 (W29 m ρ c)) (Proc.devRef .tc main_arg7) from by not_written [hostOps12_2],
    show StableHlo.after hostOps12_1 (StableHlo.after hostOps12 (W29 m ρ c)) (Proc.devRef .tc main_arg7) = StableHlo.after hostOps12 (W29 m ρ c) (Proc.devRef .tc main_arg7) from by not_written [hostOps12_1]]
  not_written [hostOps12]

theorem v_keep_main_arg8 : W32 m ρ c (Proc.devRef .tc main_arg8) = W29 m ρ c (Proc.devRef .tc main_arg8) := by
  show StableHlo.after hostOps12_2 (StableHlo.after hostOps12_1 (StableHlo.after hostOps12 (W29 m ρ c))) (Proc.devRef .tc main_arg8) = _
  rw [show StableHlo.after hostOps12_2 (StableHlo.after hostOps12_1 (StableHlo.after hostOps12 (W29 m ρ c))) (Proc.devRef .tc main_arg8) = StableHlo.after hostOps12_1 (StableHlo.after hostOps12 (W29 m ρ c)) (Proc.devRef .tc main_arg8) from by not_written [hostOps12_2],
    show StableHlo.after hostOps12_1 (StableHlo.after hostOps12 (W29 m ρ c)) (Proc.devRef .tc main_arg8) = StableHlo.after hostOps12 (W29 m ρ c) (Proc.devRef .tc main_arg8) from by not_written [hostOps12_1]]
  not_written [hostOps12]

theorem v_keep_main_arg9 : W32 m ρ c (Proc.devRef .tc main_arg9) = W29 m ρ c (Proc.devRef .tc main_arg9) := by
  show StableHlo.after hostOps12_2 (StableHlo.after hostOps12_1 (StableHlo.after hostOps12 (W29 m ρ c))) (Proc.devRef .tc main_arg9) = _
  rw [show StableHlo.after hostOps12_2 (StableHlo.after hostOps12_1 (StableHlo.after hostOps12 (W29 m ρ c))) (Proc.devRef .tc main_arg9) = StableHlo.after hostOps12_1 (StableHlo.after hostOps12 (W29 m ρ c)) (Proc.devRef .tc main_arg9) from by not_written [hostOps12_2],
    show StableHlo.after hostOps12_1 (StableHlo.after hostOps12 (W29 m ρ c)) (Proc.devRef .tc main_arg9) = StableHlo.after hostOps12 (W29 m ρ c) (Proc.devRef .tc main_arg9) from by not_written [hostOps12_1]]
  not_written [hostOps12]

theorem v_keep_main_arg10 : W32 m ρ c (Proc.devRef .tc main_arg10) = W29 m ρ c (Proc.devRef .tc main_arg10) := by
  show StableHlo.after hostOps12_2 (StableHlo.after hostOps12_1 (StableHlo.after hostOps12 (W29 m ρ c))) (Proc.devRef .tc main_arg10) = _
  rw [show StableHlo.after hostOps12_2 (StableHlo.after hostOps12_1 (StableHlo.after hostOps12 (W29 m ρ c))) (Proc.devRef .tc main_arg10) = StableHlo.after hostOps12_1 (StableHlo.after hostOps12 (W29 m ρ c)) (Proc.devRef .tc main_arg10) from by not_written [hostOps12_2],
    show StableHlo.after hostOps12_1 (StableHlo.after hostOps12 (W29 m ρ c)) (Proc.devRef .tc main_arg10) = StableHlo.after hostOps12 (W29 m ρ c) (Proc.devRef .tc main_arg10) from by not_written [hostOps12_1]]
  not_written [hostOps12]

theorem v_keep_main_arg11 : W32 m ρ c (Proc.devRef .tc main_arg11) = W29 m ρ c (Proc.devRef .tc main_arg11) := by
  show StableHlo.after hostOps12_2 (StableHlo.after hostOps12_1 (StableHlo.after hostOps12 (W29 m ρ c))) (Proc.devRef .tc main_arg11) = _
  rw [show StableHlo.after hostOps12_2 (StableHlo.after hostOps12_1 (StableHlo.after hostOps12 (W29 m ρ c))) (Proc.devRef .tc main_arg11) = StableHlo.after hostOps12_1 (StableHlo.after hostOps12 (W29 m ρ c)) (Proc.devRef .tc main_arg11) from by not_written [hostOps12_2],
    show StableHlo.after hostOps12_1 (StableHlo.after hostOps12 (W29 m ρ c)) (Proc.devRef .tc main_arg11) = StableHlo.after hostOps12 (W29 m ρ c) (Proc.devRef .tc main_arg11) from by not_written [hostOps12_1]]
  not_written [hostOps12]

theorem v_keep_main_v87 : W32 m ρ c (Proc.devRef .tc main_v87) = W29 m ρ c (Proc.devRef .tc main_v87) := by
  show StableHlo.after hostOps12_2 (StableHlo.after hostOps12_1 (StableHlo.after hostOps12 (W29 m ρ c))) (Proc.devRef .tc main_v87) = _
  rw [show StableHlo.after hostOps12_2 (StableHlo.after hostOps12_1 (StableHlo.after hostOps12 (W29 m ρ c))) (Proc.devRef .tc main_v87) = StableHlo.after hostOps12_1 (StableHlo.after hostOps12 (W29 m ρ c)) (Proc.devRef .tc main_v87) from by not_written [hostOps12_2],
    show StableHlo.after hostOps12_1 (StableHlo.after hostOps12 (W29 m ρ c)) (Proc.devRef .tc main_v87) = StableHlo.after hostOps12 (W29 m ρ c) (Proc.devRef .tc main_v87) from by not_written [hostOps12_1]]
  not_written [hostOps12]

theorem v_keep_main_v107 : W32 m ρ c (Proc.devRef .tc main_v107) = W29 m ρ c (Proc.devRef .tc main_v107) := by
  show StableHlo.after hostOps12_2 (StableHlo.after hostOps12_1 (StableHlo.after hostOps12 (W29 m ρ c))) (Proc.devRef .tc main_v107) = _
  rw [show StableHlo.after hostOps12_2 (StableHlo.after hostOps12_1 (StableHlo.after hostOps12 (W29 m ρ c))) (Proc.devRef .tc main_v107) = StableHlo.after hostOps12_1 (StableHlo.after hostOps12 (W29 m ρ c)) (Proc.devRef .tc main_v107) from by not_written [hostOps12_2],
    show StableHlo.after hostOps12_1 (StableHlo.after hostOps12 (W29 m ρ c)) (Proc.devRef .tc main_v107) = StableHlo.after hostOps12 (W29 m ρ c) (Proc.devRef .tc main_v107) from by not_written [hostOps12_1]]
  not_written [hostOps12]

/-! ### The normalise-rectify-residual region -/

theorem n_out : W33 m ρ c (Proc.devRef .tc main_v116) = bnMulF (N := 100000) (W32 m ρ c (Proc.devRef .tc main_v107)) (W32 m ρ c (Proc.devRef .tc main_v87)) (W32 m ρ c (Proc.devRef .tc main_v110)) (W32 m ρ c (Proc.devRef .tc main_v111)) (W32 m ρ c (Proc.devRef .tc main_v113)) (W32 m ρ c (Proc.devRef .tc main_v115)) :=
  (W33_arr m ρ c 6).trans (Cert.KernelIdeal.Bn12.final (V32 m ρ) c)

theorem n_keep_main_v0 : W33 m ρ c (Proc.devRef .tc main_v0) = W32 m ρ c (Proc.devRef .tc main_v0) := W33_of_ne m ρ c main_v0 (by decide)

theorem n_keep_main_arg2 : W33 m ρ c (Proc.devRef .tc main_arg2) = W32 m ρ c (Proc.devRef .tc main_arg2) := W33_of_ne m ρ c main_arg2 (by decide)

theorem n_keep_main_arg3 : W33 m ρ c (Proc.devRef .tc main_arg3) = W32 m ρ c (Proc.devRef .tc main_arg3) := W33_of_ne m ρ c main_arg3 (by decide)

theorem n_keep_main_arg6 : W33 m ρ c (Proc.devRef .tc main_arg6) = W32 m ρ c (Proc.devRef .tc main_arg6) := W33_of_ne m ρ c main_arg6 (by decide)

theorem n_keep_main_arg7 : W33 m ρ c (Proc.devRef .tc main_arg7) = W32 m ρ c (Proc.devRef .tc main_arg7) := W33_of_ne m ρ c main_arg7 (by decide)

theorem n_keep_main_arg8 : W33 m ρ c (Proc.devRef .tc main_arg8) = W32 m ρ c (Proc.devRef .tc main_arg8) := W33_of_ne m ρ c main_arg8 (by decide)

theorem n_keep_main_arg9 : W33 m ρ c (Proc.devRef .tc main_arg9) = W32 m ρ c (Proc.devRef .tc main_arg9) := W33_of_ne m ρ c main_arg9 (by decide)

theorem n_keep_main_arg10 : W33 m ρ c (Proc.devRef .tc main_arg10) = W32 m ρ c (Proc.devRef .tc main_arg10) := W33_of_ne m ρ c main_arg10 (by decide)

theorem n_keep_main_arg11 : W33 m ρ c (Proc.devRef .tc main_arg11) = W32 m ρ c (Proc.devRef .tc main_arg11) := W33_of_ne m ρ c main_arg11 (by decide)

/-! ### The layer -/

/-- The layer leaves the transformed edge features alone. -/
theorem kept_main_v0 : W33 m ρ c (Proc.devRef .tc main_v0) = W25 m ρ c (Proc.devRef .tc main_v0) := by
  rw [n_keep_main_v0 m ρ c, v_keep_main_v0 m ρ c, p_keep_main_v0 m ρ c, s_keep_main_v0 m ρ c, m_keep_main_v0 m ρ c, g_keep_main_v0 m ρ c]
/-- The layer leaves argument 2 alone. -/
theorem kept_main_arg2 : W33 m ρ c (Proc.devRef .tc main_arg2) = W25 m ρ c (Proc.devRef .tc main_arg2) := by
  rw [n_keep_main_arg2 m ρ c, v_keep_main_arg2 m ρ c, p_keep_main_arg2 m ρ c, s_keep_main_arg2 m ρ c, m_keep_main_arg2 m ρ c, g_keep_main_arg2 m ρ c]
/-- The layer leaves argument 3 alone. -/
theorem kept_main_arg3 : W33 m ρ c (Proc.devRef .tc main_arg3) = W25 m ρ c (Proc.devRef .tc main_arg3) := by
  rw [n_keep_main_arg3 m ρ c, v_keep_main_arg3 m ρ c, p_keep_main_arg3 m ρ c, s_keep_main_arg3 m ρ c, m_keep_main_arg3 m ρ c, g_keep_main_arg3 m ρ c]
/-- The layer leaves argument 6 alone. -/
theorem kept_main_arg6 : W33 m ρ c (Proc.devRef .tc main_arg6) = W25 m ρ c (Proc.devRef .tc main_arg6) := by
  rw [n_keep_main_arg6 m ρ c, v_keep_main_arg6 m ρ c, p_keep_main_arg6 m ρ c, s_keep_main_arg6 m ρ c, m_keep_main_arg6 m ρ c, g_keep_main_arg6 m ρ c]
/-- The layer leaves argument 7 alone. -/
theorem kept_main_arg7 : W33 m ρ c (Proc.devRef .tc main_arg7) = W25 m ρ c (Proc.devRef .tc main_arg7) := by
  rw [n_keep_main_arg7 m ρ c, v_keep_main_arg7 m ρ c, p_keep_main_arg7 m ρ c, s_keep_main_arg7 m ρ c, m_keep_main_arg7 m ρ c, g_keep_main_arg7 m ρ c]
/-- The layer leaves argument 8 alone. -/
theorem kept_main_arg8 : W33 m ρ c (Proc.devRef .tc main_arg8) = W25 m ρ c (Proc.devRef .tc main_arg8) := by
  rw [n_keep_main_arg8 m ρ c, v_keep_main_arg8 m ρ c, p_keep_main_arg8 m ρ c, s_keep_main_arg8 m ρ c, m_keep_main_arg8 m ρ c, g_keep_main_arg8 m ρ c]
/-- The layer leaves argument 9 alone. -/
theorem kept_main_arg9 : W33 m ρ c (Proc.devRef .tc main_arg9) = W25 m ρ c (Proc.devRef .tc main_arg9) := by
  rw [n_keep_main_arg9 m ρ c, v_keep_main_arg9 m ρ c, p_keep_main_arg9 m ρ c, s_keep_main_arg9 m ρ c, m_keep_main_arg9 m ρ c, g_keep_main_arg9 m ρ c]
/-- The layer leaves argument 10 alone. -/
theorem kept_main_arg10 : W33 m ρ c (Proc.devRef .tc main_arg10) = W25 m ρ c (Proc.devRef .tc main_arg10) := by
  rw [n_keep_main_arg10 m ρ c, v_keep_main_arg10 m ρ c, p_keep_main_arg10 m ρ c, s_keep_main_arg10 m ρ c, m_keep_main_arg10 m ρ c, g_keep_main_arg10 m ρ c]
/-- The layer leaves argument 11 alone. -/
theorem kept_main_arg11 : W33 m ρ c (Proc.devRef .tc main_arg11) = W25 m ρ c (Proc.devRef .tc main_arg11) := by
  rw [n_keep_main_arg11 m ρ c, v_keep_main_arg11 m ρ c, p_keep_main_arg11 m ρ c, s_keep_main_arg11 m ρ c, m_keep_main_arg11 m ρ c, g_keep_main_arg11 m ρ c]

/-- The layer's output is the specification's layer, the kernel's way, of the entry contents. -/
theorem layer : W33 m ρ c (Proc.devRef .tc main_v116)
    = layerMul (N := 100000) (E := 1600000) (gathR (W25 m ρ c (Proc.devRef .tc main_arg2))) (scatR (W25 m ρ c (Proc.devRef .tc main_arg3))) meanR varR
        (mat3 (W25 m ρ c (Proc.devRef .tc main_arg6))) (vec3 (W25 m ρ c (Proc.devRef .tc main_arg7))) (mat3 (W25 m ρ c (Proc.devRef .tc main_arg8))) (vec3 (W25 m ρ c (Proc.devRef .tc main_arg9)))
        (vec3 (W25 m ρ c (Proc.devRef .tc main_arg10))) (vec3 (W25 m ρ c (Proc.devRef .tc main_arg11))) (W25 m ρ c (Proc.devRef .tc main_v0)) (W25 m ρ c (Proc.devRef .tc main_v87)) := by
  unfold layerMul
  simp only [n_out m ρ c, v_mean m ρ c, v_var m ρ c, v_g m ρ c, v_b m ρ c, v_keep_main_v107 m ρ c, v_keep_main_v87 m ρ c, p_z m ρ c, s_agg m ρ c, s_w1 m ρ c, s_b1 m ρ c, s_w2 m ρ c, s_b2 m ρ c, s_keep_main_v87 m ρ c, m_msg m ρ c, m_keep_main_v87 m ρ c, m_keep_main_v0 m ρ c, g_gath m ρ c, g_keep_main_v87 m ρ c, g_keep_main_v0 m ρ c, p_keep_main_v87 m ρ c, m_keep_main_arg3 m ρ c, g_keep_main_arg3 m ρ c, m_keep_main_arg6 m ρ c, g_keep_main_arg6 m ρ c, m_keep_main_arg7 m ρ c, g_keep_main_arg7 m ρ c, m_keep_main_arg8 m ρ c, g_keep_main_arg8 m ρ c, m_keep_main_arg9 m ρ c, g_keep_main_arg9 m ρ c, p_keep_main_arg10 m ρ c, s_keep_main_arg10 m ρ c, m_keep_main_arg10 m ρ c, g_keep_main_arg10 m ρ c, p_keep_main_arg11 m ρ c, s_keep_main_arg11 m ρ c, m_keep_main_arg11 m ρ c, g_keep_main_arg11 m ρ c]

end Cert.KernelIdeal.KLayer3

end
-- ==== Proof.VarNonneg.lean ====
/-
  The column variance statistic is never negative, whatever the array — infinities included.  Its guard is the count
  100000 − 0 > 0, which holds, so the statistic is the sum of the squares of the centred entries divided by 100000.
  On the extended reals a square x·x is never negative (the two factors have the same sign; (−∞)·(−∞) = +∞), a sum of
  nonnegative terms starting from zero is nonnegative, and dividing by the positive real 100000 is multiplying by the
  positive real 1/100000.  This is all the batch-norm step needs of the variance: no finiteness of the inputs.
-/
import proofs.«166775_j9826885173932_2_alg».proof.Proof.RefStages
import Idealize.ShloMosaic.Lib.IdealHost

noncomputable section

namespace Cert.ReferenceIdeal.Stages

open Cert.ReferenceIdeal Cert.ReferenceIdeal.Gen Cert.Gine
open Idealize.ShloMosaic Idealize.ShloMosaic.TcCoe Idealize.ShloMosaic.ValueIdx

/-- The count is the real 100000. -/
theorem cntR_eq (k : S_.Idx) : cntR k = ((100000 : ℝ) : EReal) := by
  show Ideal.ofBits .f32 0x47C35000#32 - (((0#32 : BitVec 32).toInt : ℝ) : EReal) = _
  rw [Cert.BnLaw.ofBits_1e5]
  simp

/-- A square is never negative on the extended reals. -/
theorem mul_self_nonneg' (x : EReal) : 0 ≤ x * x :=
  EReal.mul_nonneg_iff.2 ((le_total 0 x).imp (fun h => ⟨h, h⟩) (fun h => ⟨h, h⟩))

/-- The sum of squares from zero is never negative. -/
theorem sumsq_nonneg (c : CF S100000x64) (j : S64.Idx) :
    0 ≤ Host.reduceAdd (mulf c c) (constant (F := Ideal) S_ .f32 0x00000000#32) reducesTo_S100000x64_S64_d0 h_S_ j := by
  show 0 ≤ Ideal.hostReduceAdd reducesTo_S100000x64_S64_d0 (mulf c c) (Ideal.ofBits .f32 0x00000000#32) j
  unfold Ideal.hostReduceAdd
  rw [Ideal.ofBits_zero_f32, zero_add]
  exact Finset.sum_nonneg fun i _ => mul_self_nonneg' (c i)

/-- The variance statistic is never negative. -/
theorem varR_nonneg (z : CF S100000x64) (j : S64.Idx) : 0 ≤ varR z j := by
  unfold varR
  rw [select_apply]
  have hbit : (broadcastInDim S64 ![] bcast_S_S64 (cmpf .ogt cntR (constant (F := Ideal) S_ .f32 0x00000000#32))) j = 1#1 := by
    show Ideal.cmp .ogt (cntR _) (Ideal.ofBits .f32 0x00000000#32) = 1#1
    rw [cntR_eq, Ideal.ofBits_zero_f32]
    have h : (0 : EReal) < ((100000 : ℝ) : EReal) := by exact_mod_cast (by norm_num : (0 : ℝ) < 100000)
    simp [Ideal.cmp, h]
  rw [hbit]
  show 0 ≤ Ideal.div (Host.reduceAdd (mulf (centR z) (centR z)) (constant (F := Ideal) S_ .f32 0x00000000#32) reducesTo_S100000x64_S64_d0 h_S_ j) (cntR _)
  rw [cntR_eq, Ideal.div_coe (by norm_num : (100000 : ℝ) ≠ 0)]
  exact EReal.mul_nonneg (sumsq_nonneg (centR z) j) (by exact_mod_cast (by norm_num : (0 : ℝ) ≤ 1 / 100000))

end Cert.ReferenceIdeal.Stages

end
-- ==== Proof.NetSpec.lean ====
/-
  The whole network as ONE function of the argument arrays: the edge transform once, then four message-passing layers
  over the shared host stages with each layer's slices of the stacked weights.  Written twice — with the kernel's
  normalisation (times the reciprocal root) and with the reference's (divided by the root) — and the two are the same
  function, because the variance statistic is never negative.
-/
import proofs.«166775_j9826885173932_2_alg».proof.Proof.RefStages
import proofs.«166775_j9826885173932_2_alg».proof.Proof.VarNonneg

noncomputable section

namespace Cert.Gine

open Cert.ReferenceIdeal Cert.ReferenceIdeal.Stages Idealize.ShloMosaic

/-- The network, the kernel's way. -/
def netMul (x : CF S100000x64) (ef : CF S1600000x4) (s d : CI S1600000) (we : CF S4x64) (be : CF S64)
    (W1 : CF S4x64x64) (b1 : CF S4x64) (W2 : CF S4x64x64) (b2 g b : CF S4x64) : CF S100000x64 :=
  layerMul (N := 100000) (E := 1600000) (gathR s) (scatR d) meanR varR (mat3 W1) (vec3 b1) (mat3 W2) (vec3 b2) (vec3 g) (vec3 b) (edgeF (E := 1600000) ef we be)
   (layerMul (N := 100000) (E := 1600000) (gathR s) (scatR d) meanR varR (mat2 W1) (vec2 b1) (mat2 W2) (vec2 b2) (vec2 g) (vec2 b) (edgeF (E := 1600000) ef we be)
    (layerMul (N := 100000) (E := 1600000) (gathR s) (scatR d) meanR varR (mat1 W1) (vec1 b1) (mat1 W2) (vec1 b2) (vec1 g) (vec1 b) (edgeF (E := 1600000) ef we be)
     (layerMul (N := 100000) (E := 1600000) (gathR s) (scatR d) meanR varR (mat0 W1) (vec0 b1) (mat0 W2) (vec0 b2) (vec0 g) (vec0 b) (edgeF (E := 1600000) ef we be) x)))

/-- The network, the reference's way. -/
def netDiv (x : CF S100000x64) (ef : CF S1600000x4) (s d : CI S1600000) (we : CF S4x64) (be : CF S64)
    (W1 : CF S4x64x64) (b1 : CF S4x64) (W2 : CF S4x64x64) (b2 g b : CF S4x64) : CF S100000x64 :=
  layerDiv (N := 100000) (E := 1600000) (gathR s) (scatR d) meanR varR (mat3 W1) (vec3 b1) (mat3 W2) (vec3 b2) (vec3 g) (vec3 b) (edgeF (E := 1600000) ef we be)
   (layerDiv (N := 100000) (E := 1600000) (gathR s) (scatR d) meanR varR (mat2 W1) (vec2 b1) (mat2 W2) (vec2 b2) (vec2 g) (vec2 b) (edgeF (E := 1600000) ef we be)
    (layerDiv (N := 100000) (E := 1600000) (gathR s) (scatR d) meanR varR (mat1 W1) (vec1 b1) (mat1 W2) (vec1 b2) (vec1 g) (vec1 b) (edgeF (E := 1600000) ef we be)
     (layerDiv (N := 100000) (E := 1600000) (gathR s) (scatR d) meanR varR (mat0 W1) (vec0 b1) (mat0 W2) (vec0 b2) (vec0 g) (vec0 b) (edgeF (E := 1600000) ef we be) x)))

/-- One function: each layer's two normalisations agree, the variance being nonnegative. -/
theorem netMul_eq_netDiv (x : CF S100000x64) (ef : CF S1600000x4) (s d : CI S1600000) (we : CF S4x64) (be : CF S64)
    (W1 : CF S4x64x64) (b1 : CF S4x64) (W2 : CF S4x64x64) (b2 g b : CF S4x64) :
    netMul x ef s d we be W1 b1 W2 b2 g b = netDiv x ef s d we be W1 b1 W2 b2 g b := by
  unfold netMul netDiv
  simp only [layerMul_eq_layerDiv (N := 100000) (E := 1600000) (gathR s) (scatR d) meanR varR varR_nonneg]

end Cert.Gine

end
-- ==== Proof.KTop.lean ====
/-
  The idealized kernel program's result as a function of the launch memory.  Region 0 leaves the edge transform of
  the edge features, weight and bias; each of the four layers takes the previous layer's output (the node features
  for the first) and the edge transform to the next output, leaving the arguments alone; the arguments at region 0's
  exit are the launch contents.  So the last region's output array is the network function, the kernel's way, of the
  twelve argument arrays as launched.
-/
import proofs.«166775_j9826885173932_2_alg».proof.Proof.Edge0
import proofs.«166775_j9826885173932_2_alg».proof.Proof.KLayer0
import proofs.«166775_j9826885173932_2_alg».proof.Proof.KLayer1
import proofs.«166775_j9826885173932_2_alg».proof.Proof.KLayer2
import proofs.«166775_j9826885173932_2_alg».proof.Proof.KLayer3
import proofs.«166775_j9826885173932_2_alg».proof.Proof.NetSpec

set_option maxRecDepth 16384
set_option maxHeartbeats 1000000

noncomputable section

namespace Cert.KernelIdeal.KTop

open Cert.KernelIdeal Cert.KernelIdeal.Gen Cert.Gine Cert.ReferenceIdeal.Stages
open Idealize.ShloMosaic Idealize.ShloMosaic.TcCoe Idealize.SL.Sem

variable (m : (ℓ : Loc nD τ sig) → Buf (Elt Ideal) ℓ) (ρ : Dev nD → PrngReg) (c : Dev nD)

/-- Region 0 leaves the edge transform of the launch contents. -/
theorem edge : W1 m ρ c (Proc.devRef .tc main_v0) = edgeF (E := 1600000) (m ((c : Thread nD τ).loc main_arg1)) (m ((c : Thread nD τ).loc main_arg4)) (m ((c : Thread nD τ).loc main_arg5)) :=
  (W1_arr m ρ c 3).trans (Cert.KernelIdeal.Edge0.final (V0 m ρ) c)

theorem arg0 : W1 m ρ c (Proc.devRef .tc main_arg0) = m ((c : Thread nD τ).loc main_arg0) := W1_of_ne m ρ c main_arg0 (by decide)
theorem arg2 : W1 m ρ c (Proc.devRef .tc main_arg2) = m ((c : Thread nD τ).loc main_arg2) := W1_of_ne m ρ c main_arg2 (by decide)
theorem arg3 : W1 m ρ c (Proc.devRef .tc main_arg3) = m ((c : Thread nD τ).loc main_arg3) := W1_of_ne m ρ c main_arg3 (by decide)
theorem arg6 : W1 m ρ c (Proc.devRef .tc main_arg6) = m ((c : Thread nD τ).loc main_arg6) := W1_of_ne m ρ c main_arg6 (by decide)
theorem arg7 : W1 m ρ c (Proc.devRef .tc main_arg7) = m ((c : Thread nD τ).loc main_arg7) := W1_of_ne m ρ c main_arg7 (by decide)
theorem arg8 : W1 m ρ c (Proc.devRef .tc main_arg8) = m ((c : Thread nD τ).loc main_arg8) := W1_of_ne m ρ c main_arg8 (by decide)
theorem arg9 : W1 m ρ c (Proc.devRef .tc main_arg9) = m ((c : Thread nD τ).loc main_arg9) := W1_of_ne m ρ c main_arg9 (by decide)
theorem arg10 : W1 m ρ c (Proc.devRef .tc main_arg10) = m ((c : Thread nD τ).loc main_arg10) := W1_of_ne m ρ c main_arg10 (by decide)
theorem arg11 : W1 m ρ c (Proc.devRef .tc main_arg11) = m ((c : Thread nD τ).loc main_arg11) := W1_of_ne m ρ c main_arg11 (by decide)

/-- The program's result array is the network function, the kernel's way, of the arguments as launched. -/
theorem result : W33 m ρ c (Proc.devRef .tc main_v116)
    = netMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold netMul
  rw [KLayer3.layer m ρ c, KLayer2.layer m ρ c, KLayer1.layer m ρ c, KLayer0.layer m ρ c]
  simp only [KLayer3.kept_main_v0 m ρ c, KLayer3.kept_main_arg2 m ρ c, KLayer3.kept_main_arg3 m ρ c, KLayer3.kept_main_arg6 m ρ c, KLayer3.kept_main_arg7 m ρ c, KLayer3.kept_main_arg8 m ρ c, KLayer3.kept_main_arg9 m ρ c, KLayer3.kept_main_arg10 m ρ c, KLayer3.kept_main_arg11 m ρ c, KLayer2.kept_main_v0 m ρ c, KLayer2.kept_main_arg2 m ρ c, KLayer2.kept_main_arg3 m ρ c, KLayer2.kept_main_arg6 m ρ c, KLayer2.kept_main_arg7 m ρ c, KLayer2.kept_main_arg8 m ρ c, KLayer2.kept_main_arg9 m ρ c, KLayer2.kept_main_arg10 m ρ c, KLayer2.kept_main_arg11 m ρ c, KLayer1.kept_main_v0 m ρ c, KLayer1.kept_main_arg2 m ρ c, KLayer1.kept_main_arg3 m ρ c, KLayer1.kept_main_arg6 m ρ c, KLayer1.kept_main_arg7 m ρ c, KLayer1.kept_main_arg8 m ρ c, KLayer1.kept_main_arg9 m ρ c, KLayer1.kept_main_arg10 m ρ c, KLayer1.kept_main_arg11 m ρ c,
    KLayer0.kept_main_v0 m ρ c, KLayer0.kept_main_arg2 m ρ c, KLayer0.kept_main_arg3 m ρ c, KLayer0.kept_main_arg6 m ρ c, KLayer0.kept_main_arg7 m ρ c, KLayer0.kept_main_arg8 m ρ c, KLayer0.kept_main_arg9 m ρ c, KLayer0.kept_main_arg10 m ρ c, KLayer0.kept_main_arg11 m ρ c,
    edge m ρ c, arg0 m ρ c, arg2 m ρ c, arg3 m ρ c, arg6 m ρ c, arg7 m ρ c, arg8 m ρ c, arg9 m ρ c, arg10 m ρ c, arg11 m ρ c]

end Cert.KernelIdeal.KTop

end
-- ==== Proof.RefOps.lean ====
/- The reference's @main as lists of its host operations: window by window as the program is printed (for the equation
   between @main and the line of operations), and stage by stage as the network is built — the edge transform, then the
   four message-passing layers — for reading the result one layer at a time. -/
import proofs.«166775_j9826885173932_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The operations of window 0 of @main as printed. -/
abbrev opsW0 : List (HloOp τ sig (Elt F)) :=
  [ StableHlo.binary main_arg1 main_arg4 main_v0 ((fun l r => Host.dotGeneral dot_S1600000x4_S4x64_S1600000x64_1_0_0_1_n_n none l r) : (⟨S1600000x4, .f32⟩ : BufTy).Contents (Elt F) → (⟨S4x64, .f32⟩ : BufTy).Contents (Elt F) → (⟨S1600000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S1600000x64 ![0, 1] bcast_S1x64_S1600000x64_0_1 : (⟨S1x64, .f32⟩ : BufTy).Contents (Elt F) → (⟨S1600000x64, .f32⟩ : BufTy).Contents (Elt F)),
    StableHlo.binary main_v0 main_v2 main_v3 (addf : (⟨S1600000x64, .f32⟩ : BufTy).Contents (Elt F) → (⟨S1600000x64, .f32⟩ : BufTy).Contents (Elt F) → (⟨S1600000x64, .f32⟩ : BufTy).Contents (Elt F)),
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg2 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_arg2 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg2 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v10 main_v3 main_v11 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v11) main_call0.v0 main_call0.v1 maximumf,
    StableHlo.nullary main_cst (constant S_ .f32 0x00000000#32),
    StableHlo.unary main_cst main_v13 (broadcastInDim S100000x64 ![] bcast_S_S100000x64 : (⟨S_, .f32⟩ : BufTy).Contents (Elt F) → (⟨S100000x64, .f32⟩ : BufTy).Contents (Elt F)),
    StableHlo.unary main_arg3 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v15 main_v16 (addf : (⟨S100000x64, .f32⟩ : BufTy).Contents (Elt F) → (⟨S100000x64, .f32⟩ : BufTy).Contents (Elt F) → (⟨S100000x64, .f32⟩ : BufTy).Contents (Elt F)),
    StableHlo.unary main_arg6 main_v17 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v17 main_v18 rfl shapeCasts_S1x64x64_S64x64,
    StableHlo.binary main_v16 main_v18 main_v19 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v20 ((extractStridedSlice S1x64 ![0, 0] · slices_S4x64_S1x64_0_0) : (⟨S4x64, .f32⟩ : BufTy).Contents (Elt F) → (⟨S1x64, .f32⟩ : BufTy).Contents (Elt F)),
    StableHlo.reshape main_v20 main_v21 rfl shapeCasts_S1x64_S64,
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v23 main_v24 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v24) main_call1.v0 main_call1.v1 maximumf,
    StableHlo.unary main_arg8 main_v26 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v26 main_v27 rfl shapeCasts_S1x64x64_S64x64,
    StableHlo.binary main_v25 main_v27 main_v28 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v29 ((extractStridedSlice S1x64 ![0, 0] · slices_S4x64_S1x64_0_0) : (⟨S4x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v32 main_v33 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v33 main_cst_1 main_v34 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v35 (broadcastInDim S64 ![] bcast_S_S64 : (⟨S_, .f32⟩ : BufTy).Contents (Elt F) → (⟨S64, .f32⟩ : BufTy).Contents (Elt F)),
    StableHlo.binary main_v34 main_v35 main_v36 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call2.cst (constant S_ .f32 0x00000000#32),
    StableHlo.TRef.binary (.of main_v33) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v33) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_arg10 main_v38 ((extractStridedSlice S1x64 ![0, 0] · slices_S4x64_S1x64_0_0) : (⟨S4x64, .f32⟩ : BufTy).Contents (Elt F) → (⟨S1x64, .f32⟩ : BufTy).Contents (Elt F)),
    StableHlo.reshape main_v38 main_v39 rfl shapeCasts_S1x64_S64,
    StableHlo.unary main_v36 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v41 main_v42 (subf : (⟨S100000x64, .f32⟩ : BufTy).Contents (Elt F) → (⟨S100000x64, .f32⟩ : BufTy).Contents (Elt F) → (⟨S100000x64, .f32⟩ : BufTy).Contents (Elt F)),
    StableHlo.unary main_v39 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v42 main_v45 (mulf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v46 (broadcastInDim S64 ![] bcast_S_S64 : (⟨S_, .f32⟩ : BufTy).Contents (Elt F) → (⟨S64, .f32⟩ : BufTy).Contents (Elt F)),
    StableHlo.binary main_v37 main_v46 main_v47 (addf : (⟨S64, .f32⟩ : BufTy).Contents (Elt F) → (⟨S64, .f32⟩ : BufTy).Contents (Elt F) → (⟨S64, .f32⟩ : BufTy).Contents (Elt F)),
    StableHlo.unary main_v47 main_v48 (Host.sqrt : (⟨S64, .f32⟩ : BufTy).Contents (Elt F) → (⟨S64, .f32⟩ : BufTy).Contents (Elt F)),
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v50 main_v51 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v52 ((extractStridedSlice S1x64 ![0, 0] · slices_S4x64_S1x64_0_0) : (⟨S4x64, .f32⟩ : BufTy).Contents (Elt F) → (⟨S1x64, .f32⟩ : BufTy).Contents (Elt F)) ]

theorem opsW0_sub : (opsW0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub ..⟩

/-- The operations of window 1 of @main as printed. -/
abbrev opsW1 : List (HloOp τ sig (Elt F)) :=
  [ StableHlo.reshape main_v52 main_v53 rfl shapeCasts_S1x64_S64,
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v55 main_v56 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v56) main_call3.v0 main_call3.v1 maximumf,
    StableHlo.binary main_v57 main_arg0 main_v58 (addf : (⟨S100000x64, .f32⟩ : BufTy).Contents (Elt F) → (⟨S100000x64, .f32⟩ : BufTy).Contents (Elt F) → (⟨S100000x64, .f32⟩ : BufTy).Contents (Elt F)),
    StableHlo.nullary main_c_5 (constantI S_ 32 0#32),
    StableHlo.unary main_c_5 main_v59 (broadcastInDim S1600000 ![] bcast_S_S1600000 : (⟨S_, .i32⟩ : BufTy).Contents (Elt F) → (⟨S1600000, .i32⟩ : BufTy).Contents (Elt F)),
    StableHlo.binary main_arg2 main_v59 main_v60 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v61 (broadcastInDim S1600000 ![] bcast_S_S1600000 : (⟨S_, .i32⟩ : BufTy).Contents (Elt F) → (⟨S1600000, .i32⟩ : BufTy).Contents (Elt F)),
    StableHlo.binary main_arg2 main_v61 main_v62 (addi : (⟨S1600000, .i32⟩ : BufTy).Contents (Elt F) → (⟨S1600000, .i32⟩ : BufTy).Contents (Elt F) → (⟨S1600000, .i32⟩ : BufTy).Contents (Elt F)),
    StableHlo.ternary main_v60 main_v62 main_arg2 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v63 main_v64 (broadcastInDim S1600000x1 ![0] bcast_S1600000_S1600000x1_0 : (⟨S1600000, .i32⟩ : BufTy).Contents (Elt F) → (⟨S1600000x1, .i32⟩ : BufTy).Contents (Elt F)),
    StableHlo.binary main_v58 main_v64 main_v65 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v65 main_v3 main_v66 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call4.cst (constant S_ .f32 0x00000000#32),
    StableHlo.TRef.unary main_call4.cst main_call4.v0 (broadcastInDim S1600000x64 ![] bcast_S_S1600000x64),
    StableHlo.TRef.binary (.of main_v66) main_call4.v0 main_call4.v1 maximumf,
    StableHlo.nullary main_cst_7 (constant S_ .f32 0x00000000#32),
    StableHlo.unary main_cst_7 main_v68 (broadcastInDim S100000x64 ![] bcast_S_S100000x64 : (⟨S_, .f32⟩ : BufTy).Contents (Elt F) → (⟨S100000x64, .f32⟩ : BufTy).Contents (Elt F)),
    StableHlo.unary main_arg3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v58 main_v70 main_v71 (addf : (⟨S100000x64, .f32⟩ : BufTy).Contents (Elt F) → (⟨S100000x64, .f32⟩ : BufTy).Contents (Elt F) → (⟨S100000x64, .f32⟩ : BufTy).Contents (Elt F)),
    StableHlo.unary main_arg6 main_v72 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v72 main_v73 rfl shapeCasts_S1x64x64_S64x64,
    StableHlo.binary main_v71 main_v73 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v75 ((extractStridedSlice S1x64 ![1, 0] · slices_S4x64_S1x64_1_0) : (⟨S4x64, .f32⟩ : BufTy).Contents (Elt F) → (⟨S1x64, .f32⟩ : BufTy).Contents (Elt F)),
    StableHlo.reshape main_v75 main_v76 rfl shapeCasts_S1x64_S64,
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v78 main_v79 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v79) main_call5.v0 main_call5.v1 maximumf,
    StableHlo.unary main_arg8 main_v81 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v81 main_v82 rfl shapeCasts_S1x64x64_S64x64,
    StableHlo.binary main_v80 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v84 ((extractStridedSlice S1x64 ![1, 0] · slices_S4x64_S1x64_1_0) : (⟨S4x64, .f32⟩ : BufTy).Contents (Elt F) → (⟨S1x64, .f32⟩ : BufTy).Contents (Elt F)),
    StableHlo.reshape main_v84 main_v85 rfl shapeCasts_S1x64_S64,
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v87 main_v88 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v88 main_cst_8 main_v89 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v90 (broadcastInDim S64 ![] bcast_S_S64 : (⟨S_, .f32⟩ : BufTy).Contents (Elt F) → (⟨S64, .f32⟩ : BufTy).Contents (Elt F)),
    StableHlo.binary main_v89 main_v90 main_v91 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call6.cst (constant S_ .f32 0x00000000#32),
    StableHlo.TRef.binary (.of main_v88) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v88) main_call6.v4 main_call6.v5 subf,
    StableHlo.TRef.binary main_call6.v5 main_call6.v5 main_call6.v6 mulf,
    StableHlo.TRef.unary (.of main_c_10) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_arg10 main_v93 ((extractStridedSlice S1x64 ![1, 0] · slices_S4x64_S1x64_1_0) : (⟨S4x64, .f32⟩ : BufTy).Contents (Elt F) → (⟨S1x64, .f32⟩ : BufTy).Contents (Elt F)),
    StableHlo.reshape main_v93 main_v94 rfl shapeCasts_S1x64_S64,
    StableHlo.unary main_v91 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v96 main_v97 (subf : (⟨S100000x64, .f32⟩ : BufTy).Contents (Elt F) → (⟨S100000x64, .f32⟩ : BufTy).Contents (Elt F) → (⟨S100000x64, .f32⟩ : BufTy).Contents (Elt F)),
    StableHlo.unary main_v94 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v97 main_v100 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v101 (broadcastInDim S64 ![] bcast_S_S64 : (⟨S_, .f32⟩ : BufTy).Contents (Elt F) → (⟨S64, .f32⟩ : BufTy).Contents (Elt F)),
    StableHlo.binary main_v92 main_v101 main_v102 (addf : (⟨S64, .f32⟩ : BufTy).Contents (Elt F) → (⟨S64, .f32⟩ : BufTy).Contents (Elt F) → (⟨S64, .f32⟩ : BufTy).Contents (Elt F)),
    StableHlo.unary main_v102 main_v103 (Host.sqrt : (⟨S64, .f32⟩ : BufTy).Contents (Elt F) → (⟨S64, .f32⟩ : BufTy).Contents (Elt F)),
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S100000x64 ![0, 1] bcast_S1x64_S100000x64_0_1 : (⟨S1x64, .f32⟩ : BufTy).Contents (Elt F) → (⟨S100000x64, .f32⟩ : BufTy).Contents (Elt F)) ]

theorem opsW1_sub : (opsW1 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub ..⟩

/-- The operations of window 2 of @main as printed. -/
abbrev opsW2 : List (HloOp τ sig (Elt F)) :=
  [ StableHlo.binary main_v100 main_v105 main_v106 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v107 ((extractStridedSlice S1x64 ![1, 0] · slices_S4x64_S1x64_1_0) : (⟨S4x64, .f32⟩ : BufTy).Contents (Elt F) → (⟨S1x64, .f32⟩ : BufTy).Contents (Elt F)),
    StableHlo.reshape main_v107 main_v108 rfl shapeCasts_S1x64_S64,
    StableHlo.unary main_v108 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v110 main_v111 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v111) main_call7.v0 main_call7.v1 maximumf,
    StableHlo.binary main_v112 main_v58 main_v113 (addf : (⟨S100000x64, .f32⟩ : BufTy).Contents (Elt F) → (⟨S100000x64, .f32⟩ : BufTy).Contents (Elt F) → (⟨S100000x64, .f32⟩ : BufTy).Contents (Elt F)),
    StableHlo.nullary main_c_12 (constantI S_ 32 0#32),
    StableHlo.unary main_c_12 main_v114 (broadcastInDim S1600000 ![] bcast_S_S1600000 : (⟨S_, .i32⟩ : BufTy).Contents (Elt F) → (⟨S1600000, .i32⟩ : BufTy).Contents (Elt F)),
    StableHlo.binary main_arg2 main_v114 main_v115 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v116 (broadcastInDim S1600000 ![] bcast_S_S1600000 : (⟨S_, .i32⟩ : BufTy).Contents (Elt F) → (⟨S1600000, .i32⟩ : BufTy).Contents (Elt F)),
    StableHlo.binary main_arg2 main_v116 main_v117 (addi : (⟨S1600000, .i32⟩ : BufTy).Contents (Elt F) → (⟨S1600000, .i32⟩ : BufTy).Contents (Elt F) → (⟨S1600000, .i32⟩ : BufTy).Contents (Elt F)),
    StableHlo.ternary main_v115 main_v117 main_arg2 main_v118 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v118 main_v119 (broadcastInDim S1600000x1 ![0] bcast_S1600000_S1600000x1_0 : (⟨S1600000, .i32⟩ : BufTy).Contents (Elt F) → (⟨S1600000x1, .i32⟩ : BufTy).Contents (Elt F)),
    StableHlo.binary main_v113 main_v119 main_v120 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v120 main_v3 main_v121 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call8.cst (constant S_ .f32 0x00000000#32),
    StableHlo.TRef.unary main_call8.cst main_call8.v0 (broadcastInDim S1600000x64 ![] bcast_S_S1600000x64),
    StableHlo.TRef.binary (.of main_v121) main_call8.v0 main_call8.v1 maximumf,
    StableHlo.nullary main_cst_14 (constant S_ .f32 0x00000000#32),
    StableHlo.unary main_cst_14 main_v123 (broadcastInDim S100000x64 ![] bcast_S_S100000x64 : (⟨S_, .f32⟩ : BufTy).Contents (Elt F) → (⟨S100000x64, .f32⟩ : BufTy).Contents (Elt F)),
    StableHlo.unary main_arg3 main_v124 (broadcastInDim S1600000x1 ![0] bcast_S1600000_S1600000x1_0 : (⟨S1600000, .i32⟩ : BufTy).Contents (Elt F) → (⟨S1600000x1, .i32⟩ : BufTy).Contents (Elt F)),
    StableHlo.ternary main_v123 main_v124 main_v122 main_v125 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v113 main_v125 main_v126 (addf : (⟨S100000x64, .f32⟩ : BufTy).Contents (Elt F) → (⟨S100000x64, .f32⟩ : BufTy).Contents (Elt F) → (⟨S100000x64, .f32⟩ : BufTy).Contents (Elt F)),
    StableHlo.unary main_arg6 main_v127 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v127 main_v128 rfl shapeCasts_S1x64x64_S64x64,
    StableHlo.binary main_v126 main_v128 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v130 ((extractStridedSlice S1x64 ![2, 0] · slices_S4x64_S1x64_2_0) : (⟨S4x64, .f32⟩ : BufTy).Contents (Elt F) → (⟨S1x64, .f32⟩ : BufTy).Contents (Elt F)),
    StableHlo.reshape main_v130 main_v131 rfl shapeCasts_S1x64_S64,
    StableHlo.unary main_v131 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v133 main_v134 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v134) main_call9.v0 main_call9.v1 maximumf,
    StableHlo.unary main_arg8 main_v136 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v136 main_v137 rfl shapeCasts_S1x64x64_S64x64,
    StableHlo.binary main_v135 main_v137 main_v138 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v139 ((extractStridedSlice S1x64 ![2, 0] · slices_S4x64_S1x64_2_0) : (⟨S4x64, .f32⟩ : BufTy).Contents (Elt F) → (⟨S1x64, .f32⟩ : BufTy).Contents (Elt F)),
    StableHlo.reshape main_v139 main_v140 rfl shapeCasts_S1x64_S64,
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v142 main_v143 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.binary main_v143 main_cst_15 main_v144 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v145 (broadcastInDim S64 ![] bcast_S_S64 : (⟨S_, .f32⟩ : BufTy).Contents (Elt F) → (⟨S64, .f32⟩ : BufTy).Contents (Elt F)),
    StableHlo.binary main_v144 main_v145 main_v146 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call10.cst (constant S_ .f32 0x00000000#32),
    StableHlo.TRef.binary (.of main_v143) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v143) main_call10.v4 main_call10.v5 subf,
    StableHlo.TRef.binary main_call10.v5 main_call10.v5 main_call10.v6 mulf,
    StableHlo.TRef.unary (.of main_c_17) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_arg10 main_v148 ((extractStridedSlice S1x64 ![2, 0] · slices_S4x64_S1x64_2_0) : (⟨S4x64, .f32⟩ : BufTy).Contents (Elt F) → (⟨S1x64, .f32⟩ : BufTy).Contents (Elt F)),
    StableHlo.reshape main_v148 main_v149 rfl shapeCasts_S1x64_S64,
    StableHlo.unary main_v146 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v151 main_v152 (subf : (⟨S100000x64, .f32⟩ : BufTy).Contents (Elt F) → (⟨S100000x64, .f32⟩ : BufTy).Contents (Elt F) → (⟨S100000x64, .f32⟩ : BufTy).Contents (Elt F)),
    StableHlo.unary main_v149 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S100000x64 ![0, 1] bcast_S1x64_S100000x64_0_1 : (⟨S1x64, .f32⟩ : BufTy).Contents (Elt F) → (⟨S100000x64, .f32⟩ : BufTy).Contents (Elt F)),
    StableHlo.binary main_v154 main_v152 main_v155 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v156 (broadcastInDim S64 ![] bcast_S_S64 : (⟨S_, .f32⟩ : BufTy).Contents (Elt F) → (⟨S64, .f32⟩ : BufTy).Contents (Elt F)),
    StableHlo.binary main_v147 main_v156 main_v157 (addf : (⟨S64, .f32⟩ : BufTy).Contents (Elt F) → (⟨S64, .f32⟩ : BufTy).Contents (Elt F) → (⟨S64, .f32⟩ : BufTy).Contents (Elt F)),
    StableHlo.unary main_v157 main_v158 (Host.sqrt : (⟨S64, .f32⟩ : BufTy).Contents (Elt F) → (⟨S64, .f32⟩ : BufTy).Contents (Elt F)) ]

theorem opsW2_sub : (opsW2 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩

/-- The operations of window 3 of @main as printed. -/
abbrev opsW3 : List (HloOp τ sig (Elt F)) :=
  [ StableHlo.unary main_v158 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
    StableHlo.binary main_v155 main_v160 main_v161 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v162 ((extractStridedSlice S1x64 ![2, 0] · slices_S4x64_S1x64_2_0) : (⟨S4x64, .f32⟩ : BufTy).Contents (Elt F) → (⟨S1x64, .f32⟩ : BufTy).Contents (Elt F)),
    StableHlo.reshape main_v162 main_v163 rfl shapeCasts_S1x64_S64,
    StableHlo.unary main_v163 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v161 main_v165 main_v166 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v166) main_call11.v0 main_call11.v1 maximumf,
    StableHlo.binary main_v167 main_v113 main_v168 (addf : (⟨S100000x64, .f32⟩ : BufTy).Contents (Elt F) → (⟨S100000x64, .f32⟩ : BufTy).Contents (Elt F) → (⟨S100000x64, .f32⟩ : BufTy).Contents (Elt F)),
    StableHlo.nullary main_c_19 (constantI S_ 32 0#32),
    StableHlo.unary main_c_19 main_v169 (broadcastInDim S1600000 ![] bcast_S_S1600000 : (⟨S_, .i32⟩ : BufTy).Contents (Elt F) → (⟨S1600000, .i32⟩ : BufTy).Contents (Elt F)),
    StableHlo.binary main_arg2 main_v169 main_v170 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v171 (broadcastInDim S1600000 ![] bcast_S_S1600000 : (⟨S_, .i32⟩ : BufTy).Contents (Elt F) → (⟨S1600000, .i32⟩ : BufTy).Contents (Elt F)),
    StableHlo.binary main_arg2 main_v171 main_v172 (addi : (⟨S1600000, .i32⟩ : BufTy).Contents (Elt F) → (⟨S1600000, .i32⟩ : BufTy).Contents (Elt F) → (⟨S1600000, .i32⟩ : BufTy).Contents (Elt F)),
    StableHlo.ternary main_v170 main_v172 main_arg2 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v173 main_v174 (broadcastInDim S1600000x1 ![0] bcast_S1600000_S1600000x1_0 : (⟨S1600000, .i32⟩ : BufTy).Contents (Elt F) → (⟨S1600000x1, .i32⟩ : BufTy).Contents (Elt F)),
    StableHlo.binary main_v168 main_v174 main_v175 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v175 main_v3 main_v176 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call12.cst (constant S_ .f32 0x00000000#32),
    StableHlo.TRef.unary main_call12.cst main_call12.v0 (broadcastInDim S1600000x64 ![] bcast_S_S1600000x64),
    StableHlo.TRef.binary (.of main_v176) main_call12.v0 main_call12.v1 maximumf,
    StableHlo.nullary main_cst_21 (constant S_ .f32 0x00000000#32),
    StableHlo.unary main_cst_21 main_v178 (broadcastInDim S100000x64 ![] bcast_S_S100000x64 : (⟨S_, .f32⟩ : BufTy).Contents (Elt F) → (⟨S100000x64, .f32⟩ : BufTy).Contents (Elt F)),
    StableHlo.unary main_arg3 main_v179 (broadcastInDim S1600000x1 ![0] bcast_S1600000_S1600000x1_0 : (⟨S1600000, .i32⟩ : BufTy).Contents (Elt F) → (⟨S1600000x1, .i32⟩ : BufTy).Contents (Elt F)),
    StableHlo.ternary main_v178 main_v179 main_v177 main_v180 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v168 main_v180 main_v181 (addf : (⟨S100000x64, .f32⟩ : BufTy).Contents (Elt F) → (⟨S100000x64, .f32⟩ : BufTy).Contents (Elt F) → (⟨S100000x64, .f32⟩ : BufTy).Contents (Elt F)),
    StableHlo.unary main_arg6 main_v182 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v182 main_v183 rfl shapeCasts_S1x64x64_S64x64,
    StableHlo.binary main_v181 main_v183 main_v184 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v185 ((extractStridedSlice S1x64 ![3, 0] · slices_S4x64_S1x64_3_0) : (⟨S4x64, .f32⟩ : BufTy).Contents (Elt F) → (⟨S1x64, .f32⟩ : BufTy).Contents (Elt F)),
    StableHlo.reshape main_v185 main_v186 rfl shapeCasts_S1x64_S64,
    StableHlo.unary main_v186 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S100000x64 ![0, 1] bcast_S1x64_S100000x64_0_1 : (⟨S1x64, .f32⟩ : BufTy).Contents (Elt F) → (⟨S100000x64, .f32⟩ : BufTy).Contents (Elt F)),
    StableHlo.binary main_v184 main_v188 main_v189 (addf : (⟨S100000x64, .f32⟩ : BufTy).Contents (Elt F) → (⟨S100000x64, .f32⟩ : BufTy).Contents (Elt F) → (⟨S100000x64, .f32⟩ : BufTy).Contents (Elt F)),
    StableHlo.TRef.nullary main_call13.cst (constant S_ .f32 0x00000000#32),
    StableHlo.TRef.unary main_call13.cst main_call13.v0 (broadcastInDim S100000x64 ![] bcast_S_S100000x64),
    StableHlo.TRef.binary (.of main_v189) main_call13.v0 main_call13.v1 maximumf,
    StableHlo.unary main_arg8 main_v191 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v191 main_v192 rfl shapeCasts_S1x64x64_S64x64,
    StableHlo.binary main_v190 main_v192 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v194 ((extractStridedSlice S1x64 ![3, 0] · slices_S4x64_S1x64_3_0) : (⟨S4x64, .f32⟩ : BufTy).Contents (Elt F) → (⟨S1x64, .f32⟩ : BufTy).Contents (Elt F)),
    StableHlo.reshape main_v194 main_v195 rfl shapeCasts_S1x64_S64,
    StableHlo.unary main_v195 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S100000x64 ![0, 1] bcast_S1x64_S100000x64_0_1 : (⟨S1x64, .f32⟩ : BufTy).Contents (Elt F) → (⟨S100000x64, .f32⟩ : BufTy).Contents (Elt F)),
    StableHlo.binary main_v193 main_v197 main_v198 (addf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x00000000#32),
    StableHlo.binary main_v198 main_cst_22 main_v199 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_23 (constant S_ .f32 0x47C35000#32),
    StableHlo.unary main_cst_23 main_v200 (broadcastInDim S64 ![] bcast_S_S64 : (⟨S_, .f32⟩ : BufTy).Contents (Elt F) → (⟨S64, .f32⟩ : BufTy).Contents (Elt F)),
    StableHlo.binary main_v199 main_v200 main_v201 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call14.cst (constant S_ .f32 0x00000000#32),
    StableHlo.TRef.binary (.of main_v198) main_call14.cst main_call14.v0 (fun x v => Host.reduceAdd x v reducesTo_S100000x64_S64_d0 h_S_),
    StableHlo.TRef.unary main_call14.v0 main_call14.v1 (broadcastInDim S1x64 ![1] bcast_S64_S1x64_1),
    StableHlo.TRef.nullary main_call14.cst_0 (constant S_ .f32 0x47C35000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S100000x64 ![0, 1] bcast_S1x64_S100000x64_0_1),
    StableHlo.TRef.binary (.of main_v198) main_call14.v4 main_call14.v5 subf,
    StableHlo.TRef.binary main_call14.v5 main_call14.v5 main_call14.v6 mulf,
    StableHlo.TRef.unary (.of main_c_24) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_arg10 main_v203 ((extractStridedSlice S1x64 ![3, 0] · slices_S4x64_S1x64_3_0) : (⟨S4x64, .f32⟩ : BufTy).Contents (Elt F) → (⟨S1x64, .f32⟩ : BufTy).Contents (Elt F)),
    StableHlo.reshape main_v203 main_v204 rfl shapeCasts_S1x64_S64,
    StableHlo.unary main_v201 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S100000x64 ![0, 1] bcast_S1x64_S100000x64_0_1 : (⟨S1x64, .f32⟩ : BufTy).Contents (Elt F) → (⟨S100000x64, .f32⟩ : BufTy).Contents (Elt F)),
    StableHlo.binary main_v198 main_v206 main_v207 (subf : (⟨S100000x64, .f32⟩ : BufTy).Contents (Elt F) → (⟨S100000x64, .f32⟩ : BufTy).Contents (Elt F) → (⟨S100000x64, .f32⟩ : BufTy).Contents (Elt F)),
    StableHlo.unary main_v204 main_v208 (broadcastInDim S1x64 ![1] bcast_S64_S1x64_1 : (⟨S64, .f32⟩ : BufTy).Contents (Elt F) → (⟨S1x64, .f32⟩ : BufTy).Contents (Elt F)),
    StableHlo.unary main_v208 main_v209 (broadcastInDim S100000x64 ![0, 1] bcast_S1x64_S100000x64_0_1 : (⟨S1x64, .f32⟩ : BufTy).Contents (Elt F) → (⟨S100000x64, .f32⟩ : BufTy).Contents (Elt F)),
    StableHlo.binary main_v209 main_v207 main_v210 (mulf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3727C5AC#32),
    StableHlo.unary main_cst_25 main_v211 (broadcastInDim S64 ![] bcast_S_S64 : (⟨S_, .f32⟩ : BufTy).Contents (Elt F) → (⟨S64, .f32⟩ : BufTy).Contents (Elt F)) ]

theorem opsW3_sub : (opsW3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub ..⟩

/-- The operations of window 4 of @main as printed. -/
abbrev opsW4 : List (HloOp τ sig (Elt F)) :=
  [ StableHlo.binary main_v202 main_v211 main_v212 (addf : (⟨S64, .f32⟩ : BufTy).Contents (Elt F) → (⟨S64, .f32⟩ : BufTy).Contents (Elt F) → (⟨S64, .f32⟩ : BufTy).Contents (Elt F)),
    StableHlo.unary main_v212 main_v213 (Host.sqrt : (⟨S64, .f32⟩ : BufTy).Contents (Elt F) → (⟨S64, .f32⟩ : BufTy).Contents (Elt F)),
    StableHlo.unary main_v213 main_v214 (broadcastInDim S1x64 ![1] bcast_S64_S1x64_1 : (⟨S64, .f32⟩ : BufTy).Contents (Elt F) → (⟨S1x64, .f32⟩ : BufTy).Contents (Elt F)),
    StableHlo.unary main_v214 main_v215 (broadcastInDim S100000x64 ![0, 1] bcast_S1x64_S100000x64_0_1 : (⟨S1x64, .f32⟩ : BufTy).Contents (Elt F) → (⟨S100000x64, .f32⟩ : BufTy).Contents (Elt F)),
    StableHlo.binary main_v210 main_v215 main_v216 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v217 ((extractStridedSlice S1x64 ![3, 0] · slices_S4x64_S1x64_3_0) : (⟨S4x64, .f32⟩ : BufTy).Contents (Elt F) → (⟨S1x64, .f32⟩ : BufTy).Contents (Elt F)),
    StableHlo.reshape main_v217 main_v218 rfl shapeCasts_S1x64_S64,
    StableHlo.unary main_v218 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S100000x64 ![0, 1] bcast_S1x64_S100000x64_0_1 : (⟨S1x64, .f32⟩ : BufTy).Contents (Elt F) → (⟨S100000x64, .f32⟩ : BufTy).Contents (Elt F)),
    StableHlo.binary main_v216 main_v220 main_v221 (addf : (⟨S100000x64, .f32⟩ : BufTy).Contents (Elt F) → (⟨S100000x64, .f32⟩ : BufTy).Contents (Elt F) → (⟨S100000x64, .f32⟩ : BufTy).Contents (Elt F)),
    StableHlo.TRef.nullary main_call15.cst (constant S_ .f32 0x00000000#32),
    StableHlo.TRef.unary main_call15.cst main_call15.v0 (broadcastInDim S100000x64 ![] bcast_S_S100000x64),
    StableHlo.TRef.binary (.of main_v221) main_call15.v0 main_call15.v1 maximumf,
    StableHlo.binary main_v222 main_v168 main_v223 (addf : (⟨S100000x64, .f32⟩ : BufTy).Contents (Elt F) → (⟨S100000x64, .f32⟩ : BufTy).Contents (Elt F) → (⟨S100000x64, .f32⟩ : BufTy).Contents (Elt F)) ]

theorem opsW4_sub : (opsW4 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- The edge transform: edge features times the weight, plus the bias. -/
abbrev opsE : List (HloOp τ sig (Elt F)) :=
  [ StableHlo.binary main_arg1 main_arg4 main_v0 ((fun l r => Host.dotGeneral dot_S1600000x4_S4x64_S1600000x64_1_0_0_1_n_n none l r) : (⟨S1600000x4, .f32⟩ : BufTy).Contents (Elt F) → (⟨S4x64, .f32⟩ : BufTy).Contents (Elt F) → (⟨S1600000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S1600000x64 ![0, 1] bcast_S1x64_S1600000x64_0_1 : (⟨S1x64, .f32⟩ : BufTy).Contents (Elt F) → (⟨S1600000x64, .f32⟩ : BufTy).Contents (Elt F)),
    StableHlo.binary main_v0 main_v2 main_v3 (addf : (⟨S1600000x64, .f32⟩ : BufTy).Contents (Elt F) → (⟨S1600000x64, .f32⟩ : BufTy).Contents (Elt F) → (⟨S1600000x64, .f32⟩ : BufTy).Contents (Elt F)) ]

theorem opsE_sub : (opsE : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- Message-passing layer 0: gather, message, scatter-add, perceptron, batch statistics, normalise, residual. -/
abbrev opsL0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg2 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_arg2 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg2 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v10 main_v3 main_v11 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v11) main_call0.v0 main_call0.v1 maximumf,
    StableHlo.nullary main_cst (constant S_ .f32 0x00000000#32),
    StableHlo.unary main_cst main_v13 (broadcastInDim S100000x64 ![] bcast_S_S100000x64 : (⟨S_, .f32⟩ : BufTy).Contents (Elt F) → (⟨S100000x64, .f32⟩ : BufTy).Contents (Elt F)),
    StableHlo.unary main_arg3 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v15 main_v16 (addf : (⟨S100000x64, .f32⟩ : BufTy).Contents (Elt F) → (⟨S100000x64, .f32⟩ : BufTy).Contents (Elt F) → (⟨S100000x64, .f32⟩ : BufTy).Contents (Elt F)),
    StableHlo.unary main_arg6 main_v17 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v17 main_v18 rfl shapeCasts_S1x64x64_S64x64,
    StableHlo.binary main_v16 main_v18 main_v19 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v20 ((extractStridedSlice S1x64 ![0, 0] · slices_S4x64_S1x64_0_0) : (⟨S4x64, .f32⟩ : BufTy).Contents (Elt F) → (⟨S1x64, .f32⟩ : BufTy).Contents (Elt F)),
    StableHlo.reshape main_v20 main_v21 rfl shapeCasts_S1x64_S64,
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v23 main_v24 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v24) main_call1.v0 main_call1.v1 maximumf,
    StableHlo.unary main_arg8 main_v26 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v26 main_v27 rfl shapeCasts_S1x64x64_S64x64,
    StableHlo.binary main_v25 main_v27 main_v28 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v29 ((extractStridedSlice S1x64 ![0, 0] · slices_S4x64_S1x64_0_0) : (⟨S4x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v32 main_v33 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v33 main_cst_1 main_v34 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v35 (broadcastInDim S64 ![] bcast_S_S64 : (⟨S_, .f32⟩ : BufTy).Contents (Elt F) → (⟨S64, .f32⟩ : BufTy).Contents (Elt F)),
    StableHlo.binary main_v34 main_v35 main_v36 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call2.cst (constant S_ .f32 0x00000000#32),
    StableHlo.TRef.binary (.of main_v33) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v33) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_arg10 main_v38 ((extractStridedSlice S1x64 ![0, 0] · slices_S4x64_S1x64_0_0) : (⟨S4x64, .f32⟩ : BufTy).Contents (Elt F) → (⟨S1x64, .f32⟩ : BufTy).Contents (Elt F)),
    StableHlo.reshape main_v38 main_v39 rfl shapeCasts_S1x64_S64,
    StableHlo.unary main_v36 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v41 main_v42 (subf : (⟨S100000x64, .f32⟩ : BufTy).Contents (Elt F) → (⟨S100000x64, .f32⟩ : BufTy).Contents (Elt F) → (⟨S100000x64, .f32⟩ : BufTy).Contents (Elt F)),
    StableHlo.unary main_v39 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v42 main_v45 (mulf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v46 (broadcastInDim S64 ![] bcast_S_S64 : (⟨S_, .f32⟩ : BufTy).Contents (Elt F) → (⟨S64, .f32⟩ : BufTy).Contents (Elt F)),
    StableHlo.binary main_v37 main_v46 main_v47 (addf : (⟨S64, .f32⟩ : BufTy).Contents (Elt F) → (⟨S64, .f32⟩ : BufTy).Contents (Elt F) → (⟨S64, .f32⟩ : BufTy).Contents (Elt F)),
    StableHlo.unary main_v47 main_v48 (Host.sqrt : (⟨S64, .f32⟩ : BufTy).Contents (Elt F) → (⟨S64, .f32⟩ : BufTy).Contents (Elt F)),
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v50 main_v51 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v52 ((extractStridedSlice S1x64 ![0, 0] · slices_S4x64_S1x64_0_0) : (⟨S4x64, .f32⟩ : BufTy).Contents (Elt F) → (⟨S1x64, .f32⟩ : BufTy).Contents (Elt F)),
    StableHlo.reshape main_v52 main_v53 rfl shapeCasts_S1x64_S64,
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v55 main_v56 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v56) main_call3.v0 main_call3.v1 maximumf,
    StableHlo.binary main_v57 main_arg0 main_v58 (addf : (⟨S100000x64, .f32⟩ : BufTy).Contents (Elt F) → (⟨S100000x64, .f32⟩ : BufTy).Contents (Elt F) → (⟨S100000x64, .f32⟩ : BufTy).Contents (Elt F)) ]

theorem opsL0_sub : (opsL0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- Message-passing layer 1: gather, message, scatter-add, perceptron, batch statistics, normalise, residual. -/
abbrev opsL1 : List (HloOp τ sig (Elt F)) :=
  [ StableHlo.nullary main_c_5 (constantI S_ 32 0#32),
    StableHlo.unary main_c_5 main_v59 (broadcastInDim S1600000 ![] bcast_S_S1600000 : (⟨S_, .i32⟩ : BufTy).Contents (Elt F) → (⟨S1600000, .i32⟩ : BufTy).Contents (Elt F)),
    StableHlo.binary main_arg2 main_v59 main_v60 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v61 (broadcastInDim S1600000 ![] bcast_S_S1600000 : (⟨S_, .i32⟩ : BufTy).Contents (Elt F) → (⟨S1600000, .i32⟩ : BufTy).Contents (Elt F)),
    StableHlo.binary main_arg2 main_v61 main_v62 (addi : (⟨S1600000, .i32⟩ : BufTy).Contents (Elt F) → (⟨S1600000, .i32⟩ : BufTy).Contents (Elt F) → (⟨S1600000, .i32⟩ : BufTy).Contents (Elt F)),
    StableHlo.ternary main_v60 main_v62 main_arg2 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v63 main_v64 (broadcastInDim S1600000x1 ![0] bcast_S1600000_S1600000x1_0 : (⟨S1600000, .i32⟩ : BufTy).Contents (Elt F) → (⟨S1600000x1, .i32⟩ : BufTy).Contents (Elt F)),
    StableHlo.binary main_v58 main_v64 main_v65 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v65 main_v3 main_v66 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call4.cst (constant S_ .f32 0x00000000#32),
    StableHlo.TRef.unary main_call4.cst main_call4.v0 (broadcastInDim S1600000x64 ![] bcast_S_S1600000x64),
    StableHlo.TRef.binary (.of main_v66) main_call4.v0 main_call4.v1 maximumf,
    StableHlo.nullary main_cst_7 (constant S_ .f32 0x00000000#32),
    StableHlo.unary main_cst_7 main_v68 (broadcastInDim S100000x64 ![] bcast_S_S100000x64 : (⟨S_, .f32⟩ : BufTy).Contents (Elt F) → (⟨S100000x64, .f32⟩ : BufTy).Contents (Elt F)),
    StableHlo.unary main_arg3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v58 main_v70 main_v71 (addf : (⟨S100000x64, .f32⟩ : BufTy).Contents (Elt F) → (⟨S100000x64, .f32⟩ : BufTy).Contents (Elt F) → (⟨S100000x64, .f32⟩ : BufTy).Contents (Elt F)),
    StableHlo.unary main_arg6 main_v72 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v72 main_v73 rfl shapeCasts_S1x64x64_S64x64,
    StableHlo.binary main_v71 main_v73 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v75 ((extractStridedSlice S1x64 ![1, 0] · slices_S4x64_S1x64_1_0) : (⟨S4x64, .f32⟩ : BufTy).Contents (Elt F) → (⟨S1x64, .f32⟩ : BufTy).Contents (Elt F)),
    StableHlo.reshape main_v75 main_v76 rfl shapeCasts_S1x64_S64,
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v78 main_v79 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v79) main_call5.v0 main_call5.v1 maximumf,
    StableHlo.unary main_arg8 main_v81 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v81 main_v82 rfl shapeCasts_S1x64x64_S64x64,
    StableHlo.binary main_v80 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v84 ((extractStridedSlice S1x64 ![1, 0] · slices_S4x64_S1x64_1_0) : (⟨S4x64, .f32⟩ : BufTy).Contents (Elt F) → (⟨S1x64, .f32⟩ : BufTy).Contents (Elt F)),
    StableHlo.reshape main_v84 main_v85 rfl shapeCasts_S1x64_S64,
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v87 main_v88 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v88 main_cst_8 main_v89 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v90 (broadcastInDim S64 ![] bcast_S_S64 : (⟨S_, .f32⟩ : BufTy).Contents (Elt F) → (⟨S64, .f32⟩ : BufTy).Contents (Elt F)),
    StableHlo.binary main_v89 main_v90 main_v91 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call6.cst (constant S_ .f32 0x00000000#32),
    StableHlo.TRef.binary (.of main_v88) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v88) main_call6.v4 main_call6.v5 subf,
    StableHlo.TRef.binary main_call6.v5 main_call6.v5 main_call6.v6 mulf,
    StableHlo.TRef.unary (.of main_c_10) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_arg10 main_v93 ((extractStridedSlice S1x64 ![1, 0] · slices_S4x64_S1x64_1_0) : (⟨S4x64, .f32⟩ : BufTy).Contents (Elt F) → (⟨S1x64, .f32⟩ : BufTy).Contents (Elt F)),
    StableHlo.reshape main_v93 main_v94 rfl shapeCasts_S1x64_S64,
    StableHlo.unary main_v91 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v96 main_v97 (subf : (⟨S100000x64, .f32⟩ : BufTy).Contents (Elt F) → (⟨S100000x64, .f32⟩ : BufTy).Contents (Elt F) → (⟨S100000x64, .f32⟩ : BufTy).Contents (Elt F)),
    StableHlo.unary main_v94 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v97 main_v100 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v101 (broadcastInDim S64 ![] bcast_S_S64 : (⟨S_, .f32⟩ : BufTy).Contents (Elt F) → (⟨S64, .f32⟩ : BufTy).Contents (Elt F)),
    StableHlo.binary main_v92 main_v101 main_v102 (addf : (⟨S64, .f32⟩ : BufTy).Contents (Elt F) → (⟨S64, .f32⟩ : BufTy).Contents (Elt F) → (⟨S64, .f32⟩ : BufTy).Contents (Elt F)),
    StableHlo.unary main_v102 main_v103 (Host.sqrt : (⟨S64, .f32⟩ : BufTy).Contents (Elt F) → (⟨S64, .f32⟩ : BufTy).Contents (Elt F)),
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v105 main_v106 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v107 ((extractStridedSlice S1x64 ![1, 0] · slices_S4x64_S1x64_1_0) : (⟨S4x64, .f32⟩ : BufTy).Contents (Elt F) → (⟨S1x64, .f32⟩ : BufTy).Contents (Elt F)),
    StableHlo.reshape main_v107 main_v108 rfl shapeCasts_S1x64_S64,
    StableHlo.unary main_v108 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v110 main_v111 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v111) main_call7.v0 main_call7.v1 maximumf,
    StableHlo.binary main_v112 main_v58 main_v113 (addf : (⟨S100000x64, .f32⟩ : BufTy).Contents (Elt F) → (⟨S100000x64, .f32⟩ : BufTy).Contents (Elt F) → (⟨S100000x64, .f32⟩ : BufTy).Contents (Elt F)) ]

theorem opsL1_sub : (opsL1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- Message-passing layer 2: gather, message, scatter-add, perceptron, batch statistics, normalise, residual. -/
abbrev opsL2 : List (HloOp τ sig (Elt F)) :=
  [ StableHlo.nullary main_c_12 (constantI S_ 32 0#32),
    StableHlo.unary main_c_12 main_v114 (broadcastInDim S1600000 ![] bcast_S_S1600000 : (⟨S_, .i32⟩ : BufTy).Contents (Elt F) → (⟨S1600000, .i32⟩ : BufTy).Contents (Elt F)),
    StableHlo.binary main_arg2 main_v114 main_v115 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v116 (broadcastInDim S1600000 ![] bcast_S_S1600000 : (⟨S_, .i32⟩ : BufTy).Contents (Elt F) → (⟨S1600000, .i32⟩ : BufTy).Contents (Elt F)),
    StableHlo.binary main_arg2 main_v116 main_v117 (addi : (⟨S1600000, .i32⟩ : BufTy).Contents (Elt F) → (⟨S1600000, .i32⟩ : BufTy).Contents (Elt F) → (⟨S1600000, .i32⟩ : BufTy).Contents (Elt F)),
    StableHlo.ternary main_v115 main_v117 main_arg2 main_v118 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v118 main_v119 (broadcastInDim S1600000x1 ![0] bcast_S1600000_S1600000x1_0 : (⟨S1600000, .i32⟩ : BufTy).Contents (Elt F) → (⟨S1600000x1, .i32⟩ : BufTy).Contents (Elt F)),
    StableHlo.binary main_v113 main_v119 main_v120 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v120 main_v3 main_v121 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call8.cst (constant S_ .f32 0x00000000#32),
    StableHlo.TRef.unary main_call8.cst main_call8.v0 (broadcastInDim S1600000x64 ![] bcast_S_S1600000x64),
    StableHlo.TRef.binary (.of main_v121) main_call8.v0 main_call8.v1 maximumf,
    StableHlo.nullary main_cst_14 (constant S_ .f32 0x00000000#32),
    StableHlo.unary main_cst_14 main_v123 (broadcastInDim S100000x64 ![] bcast_S_S100000x64 : (⟨S_, .f32⟩ : BufTy).Contents (Elt F) → (⟨S100000x64, .f32⟩ : BufTy).Contents (Elt F)),
    StableHlo.unary main_arg3 main_v124 (broadcastInDim S1600000x1 ![0] bcast_S1600000_S1600000x1_0 : (⟨S1600000, .i32⟩ : BufTy).Contents (Elt F) → (⟨S1600000x1, .i32⟩ : BufTy).Contents (Elt F)),
    StableHlo.ternary main_v123 main_v124 main_v122 main_v125 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v113 main_v125 main_v126 (addf : (⟨S100000x64, .f32⟩ : BufTy).Contents (Elt F) → (⟨S100000x64, .f32⟩ : BufTy).Contents (Elt F) → (⟨S100000x64, .f32⟩ : BufTy).Contents (Elt F)),
    StableHlo.unary main_arg6 main_v127 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v127 main_v128 rfl shapeCasts_S1x64x64_S64x64,
    StableHlo.binary main_v126 main_v128 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v130 ((extractStridedSlice S1x64 ![2, 0] · slices_S4x64_S1x64_2_0) : (⟨S4x64, .f32⟩ : BufTy).Contents (Elt F) → (⟨S1x64, .f32⟩ : BufTy).Contents (Elt F)),
    StableHlo.reshape main_v130 main_v131 rfl shapeCasts_S1x64_S64,
    StableHlo.unary main_v131 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v133 main_v134 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v134) main_call9.v0 main_call9.v1 maximumf,
    StableHlo.unary main_arg8 main_v136 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v136 main_v137 rfl shapeCasts_S1x64x64_S64x64,
    StableHlo.binary main_v135 main_v137 main_v138 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v139 ((extractStridedSlice S1x64 ![2, 0] · slices_S4x64_S1x64_2_0) : (⟨S4x64, .f32⟩ : BufTy).Contents (Elt F) → (⟨S1x64, .f32⟩ : BufTy).Contents (Elt F)),
    StableHlo.reshape main_v139 main_v140 rfl shapeCasts_S1x64_S64,
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v142 main_v143 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.binary main_v143 main_cst_15 main_v144 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v145 (broadcastInDim S64 ![] bcast_S_S64 : (⟨S_, .f32⟩ : BufTy).Contents (Elt F) → (⟨S64, .f32⟩ : BufTy).Contents (Elt F)),
    StableHlo.binary main_v144 main_v145 main_v146 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call10.cst (constant S_ .f32 0x00000000#32),
    StableHlo.TRef.binary (.of main_v143) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v143) main_call10.v4 main_call10.v5 subf,
    StableHlo.TRef.binary main_call10.v5 main_call10.v5 main_call10.v6 mulf,
    StableHlo.TRef.unary (.of main_c_17) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_arg10 main_v148 ((extractStridedSlice S1x64 ![2, 0] · slices_S4x64_S1x64_2_0) : (⟨S4x64, .f32⟩ : BufTy).Contents (Elt F) → (⟨S1x64, .f32⟩ : BufTy).Contents (Elt F)),
    StableHlo.reshape main_v148 main_v149 rfl shapeCasts_S1x64_S64,
    StableHlo.unary main_v146 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v151 main_v152 (subf : (⟨S100000x64, .f32⟩ : BufTy).Contents (Elt F) → (⟨S100000x64, .f32⟩ : BufTy).Contents (Elt F) → (⟨S100000x64, .f32⟩ : BufTy).Contents (Elt F)),
    StableHlo.unary main_v149 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S100000x64 ![0, 1] bcast_S1x64_S100000x64_0_1 : (⟨S1x64, .f32⟩ : BufTy).Contents (Elt F) → (⟨S100000x64, .f32⟩ : BufTy).Contents (Elt F)),
    StableHlo.binary main_v154 main_v152 main_v155 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v156 (broadcastInDim S64 ![] bcast_S_S64 : (⟨S_, .f32⟩ : BufTy).Contents (Elt F) → (⟨S64, .f32⟩ : BufTy).Contents (Elt F)),
    StableHlo.binary main_v147 main_v156 main_v157 (addf : (⟨S64, .f32⟩ : BufTy).Contents (Elt F) → (⟨S64, .f32⟩ : BufTy).Contents (Elt F) → (⟨S64, .f32⟩ : BufTy).Contents (Elt F)),
    StableHlo.unary main_v157 main_v158 (Host.sqrt : (⟨S64, .f32⟩ : BufTy).Contents (Elt F) → (⟨S64, .f32⟩ : BufTy).Contents (Elt F)),
    StableHlo.unary main_v158 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
    StableHlo.binary main_v155 main_v160 main_v161 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v162 ((extractStridedSlice S1x64 ![2, 0] · slices_S4x64_S1x64_2_0) : (⟨S4x64, .f32⟩ : BufTy).Contents (Elt F) → (⟨S1x64, .f32⟩ : BufTy).Contents (Elt F)),
    StableHlo.reshape main_v162 main_v163 rfl shapeCasts_S1x64_S64,
    StableHlo.unary main_v163 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v161 main_v165 main_v166 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v166) main_call11.v0 main_call11.v1 maximumf,
    StableHlo.binary main_v167 main_v113 main_v168 (addf : (⟨S100000x64, .f32⟩ : BufTy).Contents (Elt F) → (⟨S100000x64, .f32⟩ : BufTy).Contents (Elt F) → (⟨S100000x64, .f32⟩ : BufTy).Contents (Elt F)) ]

theorem opsL2_sub : (opsL2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- Message-passing layer 3: gather, message, scatter-add, perceptron, batch statistics, normalise, residual. -/
abbrev opsL3 : List (HloOp τ sig (Elt F)) :=
  [ StableHlo.nullary main_c_19 (constantI S_ 32 0#32),
    StableHlo.unary main_c_19 main_v169 (broadcastInDim S1600000 ![] bcast_S_S1600000 : (⟨S_, .i32⟩ : BufTy).Contents (Elt F) → (⟨S1600000, .i32⟩ : BufTy).Contents (Elt F)),
    StableHlo.binary main_arg2 main_v169 main_v170 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v171 (broadcastInDim S1600000 ![] bcast_S_S1600000 : (⟨S_, .i32⟩ : BufTy).Contents (Elt F) → (⟨S1600000, .i32⟩ : BufTy).Contents (Elt F)),
    StableHlo.binary main_arg2 main_v171 main_v172 (addi : (⟨S1600000, .i32⟩ : BufTy).Contents (Elt F) → (⟨S1600000, .i32⟩ : BufTy).Contents (Elt F) → (⟨S1600000, .i32⟩ : BufTy).Contents (Elt F)),
    StableHlo.ternary main_v170 main_v172 main_arg2 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v173 main_v174 (broadcastInDim S1600000x1 ![0] bcast_S1600000_S1600000x1_0 : (⟨S1600000, .i32⟩ : BufTy).Contents (Elt F) → (⟨S1600000x1, .i32⟩ : BufTy).Contents (Elt F)),
    StableHlo.binary main_v168 main_v174 main_v175 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v175 main_v3 main_v176 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call12.cst (constant S_ .f32 0x00000000#32),
    StableHlo.TRef.unary main_call12.cst main_call12.v0 (broadcastInDim S1600000x64 ![] bcast_S_S1600000x64),
    StableHlo.TRef.binary (.of main_v176) main_call12.v0 main_call12.v1 maximumf,
    StableHlo.nullary main_cst_21 (constant S_ .f32 0x00000000#32),
    StableHlo.unary main_cst_21 main_v178 (broadcastInDim S100000x64 ![] bcast_S_S100000x64 : (⟨S_, .f32⟩ : BufTy).Contents (Elt F) → (⟨S100000x64, .f32⟩ : BufTy).Contents (Elt F)),
    StableHlo.unary main_arg3 main_v179 (broadcastInDim S1600000x1 ![0] bcast_S1600000_S1600000x1_0 : (⟨S1600000, .i32⟩ : BufTy).Contents (Elt F) → (⟨S1600000x1, .i32⟩ : BufTy).Contents (Elt F)),
    StableHlo.ternary main_v178 main_v179 main_v177 main_v180 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v168 main_v180 main_v181 (addf : (⟨S100000x64, .f32⟩ : BufTy).Contents (Elt F) → (⟨S100000x64, .f32⟩ : BufTy).Contents (Elt F) → (⟨S100000x64, .f32⟩ : BufTy).Contents (Elt F)),
    StableHlo.unary main_arg6 main_v182 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v182 main_v183 rfl shapeCasts_S1x64x64_S64x64,
    StableHlo.binary main_v181 main_v183 main_v184 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v185 ((extractStridedSlice S1x64 ![3, 0] · slices_S4x64_S1x64_3_0) : (⟨S4x64, .f32⟩ : BufTy).Contents (Elt F) → (⟨S1x64, .f32⟩ : BufTy).Contents (Elt F)),
    StableHlo.reshape main_v185 main_v186 rfl shapeCasts_S1x64_S64,
    StableHlo.unary main_v186 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S100000x64 ![0, 1] bcast_S1x64_S100000x64_0_1 : (⟨S1x64, .f32⟩ : BufTy).Contents (Elt F) → (⟨S100000x64, .f32⟩ : BufTy).Contents (Elt F)),
    StableHlo.binary main_v184 main_v188 main_v189 (addf : (⟨S100000x64, .f32⟩ : BufTy).Contents (Elt F) → (⟨S100000x64, .f32⟩ : BufTy).Contents (Elt F) → (⟨S100000x64, .f32⟩ : BufTy).Contents (Elt F)),
    StableHlo.TRef.nullary main_call13.cst (constant S_ .f32 0x00000000#32),
    StableHlo.TRef.unary main_call13.cst main_call13.v0 (broadcastInDim S100000x64 ![] bcast_S_S100000x64),
    StableHlo.TRef.binary (.of main_v189) main_call13.v0 main_call13.v1 maximumf,
    StableHlo.unary main_arg8 main_v191 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v191 main_v192 rfl shapeCasts_S1x64x64_S64x64,
    StableHlo.binary main_v190 main_v192 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v194 ((extractStridedSlice S1x64 ![3, 0] · slices_S4x64_S1x64_3_0) : (⟨S4x64, .f32⟩ : BufTy).Contents (Elt F) → (⟨S1x64, .f32⟩ : BufTy).Contents (Elt F)),
    StableHlo.reshape main_v194 main_v195 rfl shapeCasts_S1x64_S64,
    StableHlo.unary main_v195 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S100000x64 ![0, 1] bcast_S1x64_S100000x64_0_1 : (⟨S1x64, .f32⟩ : BufTy).Contents (Elt F) → (⟨S100000x64, .f32⟩ : BufTy).Contents (Elt F)),
    StableHlo.binary main_v193 main_v197 main_v198 (addf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x00000000#32),
    StableHlo.binary main_v198 main_cst_22 main_v199 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_23 (constant S_ .f32 0x47C35000#32),
    StableHlo.unary main_cst_23 main_v200 (broadcastInDim S64 ![] bcast_S_S64 : (⟨S_, .f32⟩ : BufTy).Contents (Elt F) → (⟨S64, .f32⟩ : BufTy).Contents (Elt F)),
    StableHlo.binary main_v199 main_v200 main_v201 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call14.cst (constant S_ .f32 0x00000000#32),
    StableHlo.TRef.binary (.of main_v198) main_call14.cst main_call14.v0 (fun x v => Host.reduceAdd x v reducesTo_S100000x64_S64_d0 h_S_),
    StableHlo.TRef.unary main_call14.v0 main_call14.v1 (broadcastInDim S1x64 ![1] bcast_S64_S1x64_1),
    StableHlo.TRef.nullary main_call14.cst_0 (constant S_ .f32 0x47C35000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S100000x64 ![0, 1] bcast_S1x64_S100000x64_0_1),
    StableHlo.TRef.binary (.of main_v198) main_call14.v4 main_call14.v5 subf,
    StableHlo.TRef.binary main_call14.v5 main_call14.v5 main_call14.v6 mulf,
    StableHlo.TRef.unary (.of main_c_24) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_arg10 main_v203 ((extractStridedSlice S1x64 ![3, 0] · slices_S4x64_S1x64_3_0) : (⟨S4x64, .f32⟩ : BufTy).Contents (Elt F) → (⟨S1x64, .f32⟩ : BufTy).Contents (Elt F)),
    StableHlo.reshape main_v203 main_v204 rfl shapeCasts_S1x64_S64,
    StableHlo.unary main_v201 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S100000x64 ![0, 1] bcast_S1x64_S100000x64_0_1 : (⟨S1x64, .f32⟩ : BufTy).Contents (Elt F) → (⟨S100000x64, .f32⟩ : BufTy).Contents (Elt F)),
    StableHlo.binary main_v198 main_v206 main_v207 (subf : (⟨S100000x64, .f32⟩ : BufTy).Contents (Elt F) → (⟨S100000x64, .f32⟩ : BufTy).Contents (Elt F) → (⟨S100000x64, .f32⟩ : BufTy).Contents (Elt F)),
    StableHlo.unary main_v204 main_v208 (broadcastInDim S1x64 ![1] bcast_S64_S1x64_1 : (⟨S64, .f32⟩ : BufTy).Contents (Elt F) → (⟨S1x64, .f32⟩ : BufTy).Contents (Elt F)),
    StableHlo.unary main_v208 main_v209 (broadcastInDim S100000x64 ![0, 1] bcast_S1x64_S100000x64_0_1 : (⟨S1x64, .f32⟩ : BufTy).Contents (Elt F) → (⟨S100000x64, .f32⟩ : BufTy).Contents (Elt F)),
    StableHlo.binary main_v209 main_v207 main_v210 (mulf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3727C5AC#32),
    StableHlo.unary main_cst_25 main_v211 (broadcastInDim S64 ![] bcast_S_S64 : (⟨S_, .f32⟩ : BufTy).Contents (Elt F) → (⟨S64, .f32⟩ : BufTy).Contents (Elt F)),
    StableHlo.binary main_v202 main_v211 main_v212 (addf : (⟨S64, .f32⟩ : BufTy).Contents (Elt F) → (⟨S64, .f32⟩ : BufTy).Contents (Elt F) → (⟨S64, .f32⟩ : BufTy).Contents (Elt F)),
    StableHlo.unary main_v212 main_v213 (Host.sqrt : (⟨S64, .f32⟩ : BufTy).Contents (Elt F) → (⟨S64, .f32⟩ : BufTy).Contents (Elt F)),
    StableHlo.unary main_v213 main_v214 (broadcastInDim S1x64 ![1] bcast_S64_S1x64_1 : (⟨S64, .f32⟩ : BufTy).Contents (Elt F) → (⟨S1x64, .f32⟩ : BufTy).Contents (Elt F)),
    StableHlo.unary main_v214 main_v215 (broadcastInDim S100000x64 ![0, 1] bcast_S1x64_S100000x64_0_1 : (⟨S1x64, .f32⟩ : BufTy).Contents (Elt F) → (⟨S100000x64, .f32⟩ : BufTy).Contents (Elt F)),
    StableHlo.binary main_v210 main_v215 main_v216 (Host.divf : (⟨S100000x64, .f32⟩ : BufTy).Contents (Elt F) → (⟨S100000x64, .f32⟩ : BufTy).Contents (Elt F) → (⟨S100000x64, .f32⟩ : BufTy).Contents (Elt F)),
    StableHlo.unary main_arg11 main_v217 ((extractStridedSlice S1x64 ![3, 0] · slices_S4x64_S1x64_3_0) : (⟨S4x64, .f32⟩ : BufTy).Contents (Elt F) → (⟨S1x64, .f32⟩ : BufTy).Contents (Elt F)),
    StableHlo.reshape main_v217 main_v218 rfl shapeCasts_S1x64_S64,
    StableHlo.unary main_v218 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S100000x64 ![0, 1] bcast_S1x64_S100000x64_0_1 : (⟨S1x64, .f32⟩ : BufTy).Contents (Elt F) → (⟨S100000x64, .f32⟩ : BufTy).Contents (Elt F)),
    StableHlo.binary main_v216 main_v220 main_v221 (addf : (⟨S100000x64, .f32⟩ : BufTy).Contents (Elt F) → (⟨S100000x64, .f32⟩ : BufTy).Contents (Elt F) → (⟨S100000x64, .f32⟩ : BufTy).Contents (Elt F)),
    StableHlo.TRef.nullary main_call15.cst (constant S_ .f32 0x00000000#32),
    StableHlo.TRef.unary main_call15.cst main_call15.v0 (broadcastInDim S100000x64 ![] bcast_S_S100000x64),
    StableHlo.TRef.binary (.of main_v221) main_call15.v0 main_call15.v1 maximumf,
    StableHlo.binary main_v222 main_v168 main_v223 (addf : (⟨S100000x64, .f32⟩ : BufTy).Contents (Elt F) → (⟨S100000x64, .f32⟩ : BufTy).Contents (Elt F) → (⟨S100000x64, .f32⟩ : BufTy).Contents (Elt F)) ]

theorem opsL3_sub : (opsL3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

end Cert.ReferenceIdeal.RefOps

end
-- ==== Proof.RefRun.lean ====
/-
  The reference program's run.  Its @main is a straight line of host operations (printed in five windows, each call of
  a jax-outlined function standing for the callee's statements over the call's own buffers).  Each window is the line
  of its operations, so @main is the line of all of them in order, and every weakly fair execution terminates with
  each buffer at the fold of the operations over the launch contents.  The stages of the network (edge transform,
  then four layers) are the same line cut differently.
-/
import proofs.«166775_j9826885173932_2_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- All of @main's operations, window after window. -/
abbrev ops : List (HloOp τ sig (Elt F)) := opsW0 ++ (opsW1 ++ (opsW2 ++ (opsW3 ++ opsW4)))

/-- The same line cut by stage: the edge transform, then the four layers. -/
theorem ops_stages : (ops : List (HloOp τ sig (Elt F))) = opsE ++ (opsL0 ++ (opsL1 ++ (opsL2 ++ opsL3))) := rfl

set_option maxRecDepth 8192 in
/-- Window 0, followed by anything, is its line of operations followed by the same. -/
theorem part0_bind (c : Dev nD) (k : PUnit → Prog (TpuEff nD τ sig (Elt F) (Pipeline.Sig Λ₀ (Fin 0) fun p => (pcfgs (F := F) p).Adm) .tc) PUnit) : (main_part0 (F := F) c >>= k) = (seq opsW0 >>= k) := by
  simp only [main_part0, fn_relu.body, fn_relu_0.body, fn_var.body, fn_where.body, seq, bind_assoc, pure_bind]

set_option maxRecDepth 8192 in
theorem part1_bind (c : Dev nD) (k : PUnit → Prog (TpuEff nD τ sig (Elt F) (Pipeline.Sig Λ₀ (Fin 0) fun p => (pcfgs (F := F) p).Adm) .tc) PUnit) : (main_part1 (F := F) c >>= k) = (seq opsW1 >>= k) := by
  simp only [main_part1, fn_relu.body, fn_relu_0.body, fn_var.body, fn_where.body, seq, bind_assoc, pure_bind]

set_option maxRecDepth 8192 in
theorem part2_bind (c : Dev nD) (k : PUnit → Prog (TpuEff nD τ sig (Elt F) (Pipeline.Sig Λ₀ (Fin 0) fun p => (pcfgs (F := F) p).Adm) .tc) PUnit) : (main_part2 (F := F) c >>= k) = (seq opsW2 >>= k) := by
  simp only [main_part2, fn_relu.body, fn_relu_0.body, fn_var.body, fn_where.body, seq, bind_assoc, pure_bind]

set_option maxRecDepth 8192 in
theorem part3_bind (c : Dev nD) (k : PUnit → Prog (TpuEff nD τ sig (Elt F) (Pipeline.Sig Λ₀ (Fin 0) fun p => (pcfgs (F := F) p).Adm) .tc) PUnit) : (main_part3 (F := F) c >>= k) = (seq opsW3 >>= k) := by
  simp only [main_part3, fn_relu.body, fn_relu_0.body, fn_var.body, fn_where.body, seq, bind_assoc, pure_bind]

set_option maxRecDepth 8192 in
/-- The last window ends with the return, as a line of operations does. -/
theorem part4_eq (c : Dev nD) : main_part4 (F := F) c = seq opsW4 := by
  simp only [main_part4, fn_relu.body, fn_relu_0.body, fn_var.body, fn_where.body, seq, bind_assoc, pure_bind]

/-- @main is the line of all its operations. -/
theorem main_eq (c : Dev nD) : main (F := F) c = seq ops := by
  show (main_part0 (F := F) c >>= fun _ => main_part1 c >>= fun _ => main_part2 c >>= fun _ => main_part3 c >>= fun _ => main_part4 c) = _
  simp only [ops, seq_append]
  rw [part0_bind]; refine congrArg _ (funext fun _ => ?_)
  rw [part1_bind]; refine congrArg _ (funext fun _ => ?_)
  rw [part2_bind]; refine congrArg _ (funext fun _ => ?_)
  rw [part3_bind]; refine congrArg _ (funext fun _ => ?_)
  exact part4_eq c

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨opsW0_sub, List.forall_append.2 ⟨opsW1_sub, List.forall_append.2 ⟨opsW2_sub, List.forall_append.2 ⟨opsW3_sub, opsW4_sub⟩⟩⟩⟩

theorem opsW0_fresh : (opsW0 : List (HloOp τ sig (Elt F))).Forall fun op => op.fresh = ∅ := by
  simp only [List.Forall]; repeat' constructor
theorem opsW1_fresh : (opsW1 : List (HloOp τ sig (Elt F))).Forall fun op => op.fresh = ∅ := by
  simp only [List.Forall]; repeat' constructor
theorem opsW2_fresh : (opsW2 : List (HloOp τ sig (Elt F))).Forall fun op => op.fresh = ∅ := by
  simp only [List.Forall]; repeat' constructor
theorem opsW3_fresh : (opsW3 : List (HloOp τ sig (Elt F))).Forall fun op => op.fresh = ∅ := by
  simp only [List.Forall]; repeat' constructor
theorem opsW4_fresh : (opsW4 : List (HloOp τ sig (Elt F))).Forall fun op => op.fresh = ∅ := by
  simp only [List.Forall]; repeat' constructor

/-- No operation of the reference allocates a buffer. -/
theorem ops_fresh : ∀ op ∈ (ops : List (HloOp τ sig (Elt F))), op.fresh = ∅ :=
  List.forall_iff_forall_mem.1 (List.forall_append.2 ⟨opsW0_fresh, List.forall_append.2 ⟨opsW1_fresh,
    List.forall_append.2 ⟨opsW2_fresh, List.forall_append.2 ⟨opsW3_fresh, opsW4_fresh⟩⟩⟩⟩)

/-- Every weakly fair execution of the reference terminates, nothing faulting, with each TensorCore buffer at the fold
    of @main's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefEval.lean ====
/-
  The reference's stages, evaluated.  Folding a stage's operations over ANY buffer contents leaves the stage's result
  at the stage function of the contents it started from, and touches neither the argument arrays nor (for a layer) the
  transformed edge features nor the previous layers' outputs.  The edge transform lands on the raw edge stage; layer l
  lands on the raw layer over the shared host stages with layer l's slices of the stacked weights.
-/
import proofs.«166775_j9826885173932_2_alg».proof.Proof.RefRun
import proofs.«166775_j9826885173932_2_alg».proof.Proof.RefStages
import proofs.«166775_j9826885173932_2_alg».proof.Proof.NotWritten

set_option maxRecDepth 16384

noncomputable section

namespace Cert.ReferenceIdeal.RefEval

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

variable (V : Valuation τ sig (Elt Ideal))

/-! ## The edge transform -/

set_option maxHeartbeats 1000000 in
theorem evalE : after (opsE (F := Ideal)) V (Proc.devRef .tc main_v3)
    = edgeRaw (V (Proc.devRef .tc main_arg1)) (V (Proc.devRef .tc main_arg4)) (V (Proc.devRef .tc main_arg5)) := by
  after_results_simp
  try rfl

theorem keepE_main_arg0 : after (opsE (F := Ideal)) V (Proc.devRef .tc main_arg0) = V (Proc.devRef .tc main_arg0) := by not_written [opsE]
theorem keepE_main_arg1 : after (opsE (F := Ideal)) V (Proc.devRef .tc main_arg1) = V (Proc.devRef .tc main_arg1) := by not_written [opsE]
theorem keepE_main_arg2 : after (opsE (F := Ideal)) V (Proc.devRef .tc main_arg2) = V (Proc.devRef .tc main_arg2) := by not_written [opsE]
theorem keepE_main_arg3 : after (opsE (F := Ideal)) V (Proc.devRef .tc main_arg3) = V (Proc.devRef .tc main_arg3) := by not_written [opsE]
theorem keepE_main_arg4 : after (opsE (F := Ideal)) V (Proc.devRef .tc main_arg4) = V (Proc.devRef .tc main_arg4) := by not_written [opsE]
theorem keepE_main_arg5 : after (opsE (F := Ideal)) V (Proc.devRef .tc main_arg5) = V (Proc.devRef .tc main_arg5) := by not_written [opsE]
theorem keepE_main_arg6 : after (opsE (F := Ideal)) V (Proc.devRef .tc main_arg6) = V (Proc.devRef .tc main_arg6) := by not_written [opsE]
theorem keepE_main_arg7 : after (opsE (F := Ideal)) V (Proc.devRef .tc main_arg7) = V (Proc.devRef .tc main_arg7) := by not_written [opsE]
theorem keepE_main_arg8 : after (opsE (F := Ideal)) V (Proc.devRef .tc main_arg8) = V (Proc.devRef .tc main_arg8) := by not_written [opsE]
theorem keepE_main_arg9 : after (opsE (F := Ideal)) V (Proc.devRef .tc main_arg9) = V (Proc.devRef .tc main_arg9) := by not_written [opsE]
theorem keepE_main_arg10 : after (opsE (F := Ideal)) V (Proc.devRef .tc main_arg10) = V (Proc.devRef .tc main_arg10) := by not_written [opsE]
theorem keepE_main_arg11 : after (opsE (F := Ideal)) V (Proc.devRef .tc main_arg11) = V (Proc.devRef .tc main_arg11) := by not_written [opsE]

/-! ## Layer 0 -/

set_option maxHeartbeats 4000000 in
theorem evalL0 : after (opsL0 (F := Ideal)) V (Proc.devRef .tc main_v58)
    = layerRaw (V (Proc.devRef .tc main_arg2)) (V (Proc.devRef .tc main_arg3))
        (mat0 (V (Proc.devRef .tc main_arg6))) (vec0 (V (Proc.devRef .tc main_arg7)))
        (mat0 (V (Proc.devRef .tc main_arg8))) (vec0 (V (Proc.devRef .tc main_arg9)))
        (vec0 (V (Proc.devRef .tc main_arg10))) (vec0 (V (Proc.devRef .tc main_arg11)))
        (V (Proc.devRef .tc main_v3)) (V (Proc.devRef .tc main_arg0)) := by
  after_results_simp
  try rfl

set_option maxHeartbeats 1000000 in
theorem keepL0_main_v3 : after (opsL0 (F := Ideal)) V (Proc.devRef .tc main_v3) = V (Proc.devRef .tc main_v3) := by not_written [opsL0]
set_option maxHeartbeats 1000000 in
theorem keepL0_main_arg0 : after (opsL0 (F := Ideal)) V (Proc.devRef .tc main_arg0) = V (Proc.devRef .tc main_arg0) := by not_written [opsL0]
set_option maxHeartbeats 1000000 in
theorem keepL0_main_arg1 : after (opsL0 (F := Ideal)) V (Proc.devRef .tc main_arg1) = V (Proc.devRef .tc main_arg1) := by not_written [opsL0]
set_option maxHeartbeats 1000000 in
theorem keepL0_main_arg2 : after (opsL0 (F := Ideal)) V (Proc.devRef .tc main_arg2) = V (Proc.devRef .tc main_arg2) := by not_written [opsL0]
set_option maxHeartbeats 1000000 in
theorem keepL0_main_arg3 : after (opsL0 (F := Ideal)) V (Proc.devRef .tc main_arg3) = V (Proc.devRef .tc main_arg3) := by not_written [opsL0]
set_option maxHeartbeats 1000000 in
theorem keepL0_main_arg4 : after (opsL0 (F := Ideal)) V (Proc.devRef .tc main_arg4) = V (Proc.devRef .tc main_arg4) := by not_written [opsL0]
set_option maxHeartbeats 1000000 in
theorem keepL0_main_arg5 : after (opsL0 (F := Ideal)) V (Proc.devRef .tc main_arg5) = V (Proc.devRef .tc main_arg5) := by not_written [opsL0]
set_option maxHeartbeats 1000000 in
theorem keepL0_main_arg6 : after (opsL0 (F := Ideal)) V (Proc.devRef .tc main_arg6) = V (Proc.devRef .tc main_arg6) := by not_written [opsL0]
set_option maxHeartbeats 1000000 in
theorem keepL0_main_arg7 : after (opsL0 (F := Ideal)) V (Proc.devRef .tc main_arg7) = V (Proc.devRef .tc main_arg7) := by not_written [opsL0]
set_option maxHeartbeats 1000000 in
theorem keepL0_main_arg8 : after (opsL0 (F := Ideal)) V (Proc.devRef .tc main_arg8) = V (Proc.devRef .tc main_arg8) := by not_written [opsL0]
set_option maxHeartbeats 1000000 in
theorem keepL0_main_arg9 : after (opsL0 (F := Ideal)) V (Proc.devRef .tc main_arg9) = V (Proc.devRef .tc main_arg9) := by not_written [opsL0]
set_option maxHeartbeats 1000000 in
theorem keepL0_main_arg10 : after (opsL0 (F := Ideal)) V (Proc.devRef .tc main_arg10) = V (Proc.devRef .tc main_arg10) := by not_written [opsL0]
set_option maxHeartbeats 1000000 in
theorem keepL0_main_arg11 : after (opsL0 (F := Ideal)) V (Proc.devRef .tc main_arg11) = V (Proc.devRef .tc main_arg11) := by not_written [opsL0]

/-! ## Layer 1 -/

set_option maxHeartbeats 4000000 in
theorem evalL1 : after (opsL1 (F := Ideal)) V (Proc.devRef .tc main_v113)
    = layerRaw (V (Proc.devRef .tc main_arg2)) (V (Proc.devRef .tc main_arg3))
        (mat1 (V (Proc.devRef .tc main_arg6))) (vec1 (V (Proc.devRef .tc main_arg7)))
        (mat1 (V (Proc.devRef .tc main_arg8))) (vec1 (V (Proc.devRef .tc main_arg9)))
        (vec1 (V (Proc.devRef .tc main_arg10))) (vec1 (V (Proc.devRef .tc main_arg11)))
        (V (Proc.devRef .tc main_v3)) (V (Proc.devRef .tc main_v58)) := by
  after_results_simp
  try rfl

set_option maxHeartbeats 1000000 in
theorem keepL1_main_v3 : after (opsL1 (F := Ideal)) V (Proc.devRef .tc main_v3) = V (Proc.devRef .tc main_v3) := by not_written [opsL1]
set_option maxHeartbeats 1000000 in
theorem keepL1_main_arg0 : after (opsL1 (F := Ideal)) V (Proc.devRef .tc main_arg0) = V (Proc.devRef .tc main_arg0) := by not_written [opsL1]
set_option maxHeartbeats 1000000 in
theorem keepL1_main_arg1 : after (opsL1 (F := Ideal)) V (Proc.devRef .tc main_arg1) = V (Proc.devRef .tc main_arg1) := by not_written [opsL1]
set_option maxHeartbeats 1000000 in
theorem keepL1_main_arg2 : after (opsL1 (F := Ideal)) V (Proc.devRef .tc main_arg2) = V (Proc.devRef .tc main_arg2) := by not_written [opsL1]
set_option maxHeartbeats 1000000 in
theorem keepL1_main_arg3 : after (opsL1 (F := Ideal)) V (Proc.devRef .tc main_arg3) = V (Proc.devRef .tc main_arg3) := by not_written [opsL1]
set_option maxHeartbeats 1000000 in
theorem keepL1_main_arg4 : after (opsL1 (F := Ideal)) V (Proc.devRef .tc main_arg4) = V (Proc.devRef .tc main_arg4) := by not_written [opsL1]
set_option maxHeartbeats 1000000 in
theorem keepL1_main_arg5 : after (opsL1 (F := Ideal)) V (Proc.devRef .tc main_arg5) = V (Proc.devRef .tc main_arg5) := by not_written [opsL1]
set_option maxHeartbeats 1000000 in
theorem keepL1_main_arg6 : after (opsL1 (F := Ideal)) V (Proc.devRef .tc main_arg6) = V (Proc.devRef .tc main_arg6) := by not_written [opsL1]
set_option maxHeartbeats 1000000 in
theorem keepL1_main_arg7 : after (opsL1 (F := Ideal)) V (Proc.devRef .tc main_arg7) = V (Proc.devRef .tc main_arg7) := by not_written [opsL1]
set_option maxHeartbeats 1000000 in
theorem keepL1_main_arg8 : after (opsL1 (F := Ideal)) V (Proc.devRef .tc main_arg8) = V (Proc.devRef .tc main_arg8) := by not_written [opsL1]
set_option maxHeartbeats 1000000 in
theorem keepL1_main_arg9 : after (opsL1 (F := Ideal)) V (Proc.devRef .tc main_arg9) = V (Proc.devRef .tc main_arg9) := by not_written [opsL1]
set_option maxHeartbeats 1000000 in
theorem keepL1_main_arg10 : after (opsL1 (F := Ideal)) V (Proc.devRef .tc main_arg10) = V (Proc.devRef .tc main_arg10) := by not_written [opsL1]
set_option maxHeartbeats 1000000 in
theorem keepL1_main_arg11 : after (opsL1 (F := Ideal)) V (Proc.devRef .tc main_arg11) = V (Proc.devRef .tc main_arg11) := by not_written [opsL1]

/-! ## Layer 2 -/

set_option maxHeartbeats 4000000 in
theorem evalL2 : after (opsL2 (F := Ideal)) V (Proc.devRef .tc main_v168)
    = layerRaw (V (Proc.devRef .tc main_arg2)) (V (Proc.devRef .tc main_arg3))
        (mat2 (V (Proc.devRef .tc main_arg6))) (vec2 (V (Proc.devRef .tc main_arg7)))
        (mat2 (V (Proc.devRef .tc main_arg8))) (vec2 (V (Proc.devRef .tc main_arg9)))
        (vec2 (V (Proc.devRef .tc main_arg10))) (vec2 (V (Proc.devRef .tc main_arg11)))
        (V (Proc.devRef .tc main_v3)) (V (Proc.devRef .tc main_v113)) := by
  after_results_simp
  try rfl

set_option maxHeartbeats 1000000 in
theorem keepL2_main_v3 : after (opsL2 (F := Ideal)) V (Proc.devRef .tc main_v3) = V (Proc.devRef .tc main_v3) := by not_written [opsL2]
set_option maxHeartbeats 1000000 in
theorem keepL2_main_arg0 : after (opsL2 (F := Ideal)) V (Proc.devRef .tc main_arg0) = V (Proc.devRef .tc main_arg0) := by not_written [opsL2]
set_option maxHeartbeats 1000000 in
theorem keepL2_main_arg1 : after (opsL2 (F := Ideal)) V (Proc.devRef .tc main_arg1) = V (Proc.devRef .tc main_arg1) := by not_written [opsL2]
set_option maxHeartbeats 1000000 in
theorem keepL2_main_arg2 : after (opsL2 (F := Ideal)) V (Proc.devRef .tc main_arg2) = V (Proc.devRef .tc main_arg2) := by not_written [opsL2]
set_option maxHeartbeats 1000000 in
theorem keepL2_main_arg3 : after (opsL2 (F := Ideal)) V (Proc.devRef .tc main_arg3) = V (Proc.devRef .tc main_arg3) := by not_written [opsL2]
set_option maxHeartbeats 1000000 in
theorem keepL2_main_arg4 : after (opsL2 (F := Ideal)) V (Proc.devRef .tc main_arg4) = V (Proc.devRef .tc main_arg4) := by not_written [opsL2]
set_option maxHeartbeats 1000000 in
theorem keepL2_main_arg5 : after (opsL2 (F := Ideal)) V (Proc.devRef .tc main_arg5) = V (Proc.devRef .tc main_arg5) := by not_written [opsL2]
set_option maxHeartbeats 1000000 in
theorem keepL2_main_arg6 : after (opsL2 (F := Ideal)) V (Proc.devRef .tc main_arg6) = V (Proc.devRef .tc main_arg6) := by not_written [opsL2]
set_option maxHeartbeats 1000000 in
theorem keepL2_main_arg7 : after (opsL2 (F := Ideal)) V (Proc.devRef .tc main_arg7) = V (Proc.devRef .tc main_arg7) := by not_written [opsL2]
set_option maxHeartbeats 1000000 in
theorem keepL2_main_arg8 : after (opsL2 (F := Ideal)) V (Proc.devRef .tc main_arg8) = V (Proc.devRef .tc main_arg8) := by not_written [opsL2]
set_option maxHeartbeats 1000000 in
theorem keepL2_main_arg9 : after (opsL2 (F := Ideal)) V (Proc.devRef .tc main_arg9) = V (Proc.devRef .tc main_arg9) := by not_written [opsL2]
set_option maxHeartbeats 1000000 in
theorem keepL2_main_arg10 : after (opsL2 (F := Ideal)) V (Proc.devRef .tc main_arg10) = V (Proc.devRef .tc main_arg10) := by not_written [opsL2]
set_option maxHeartbeats 1000000 in
theorem keepL2_main_arg11 : after (opsL2 (F := Ideal)) V (Proc.devRef .tc main_arg11) = V (Proc.devRef .tc main_arg11) := by not_written [opsL2]

/-! ## Layer 3 -/

set_option maxHeartbeats 4000000 in
theorem evalL3 : after (opsL3 (F := Ideal)) V (Proc.devRef .tc main_v223)
    = layerRaw (V (Proc.devRef .tc main_arg2)) (V (Proc.devRef .tc main_arg3))
        (mat3 (V (Proc.devRef .tc main_arg6))) (vec3 (V (Proc.devRef .tc main_arg7)))
        (mat3 (V (Proc.devRef .tc main_arg8))) (vec3 (V (Proc.devRef .tc main_arg9)))
        (vec3 (V (Proc.devRef .tc main_arg10))) (vec3 (V (Proc.devRef .tc main_arg11)))
        (V (Proc.devRef .tc main_v3)) (V (Proc.devRef .tc main_v168)) := by
  after_results_simp
  try rfl

set_option maxHeartbeats 1000000 in
theorem keepL3_main_v3 : after (opsL3 (F := Ideal)) V (Proc.devRef .tc main_v3) = V (Proc.devRef .tc main_v3) := by not_written [opsL3]
set_option maxHeartbeats 1000000 in
theorem keepL3_main_arg0 : after (opsL3 (F := Ideal)) V (Proc.devRef .tc main_arg0) = V (Proc.devRef .tc main_arg0) := by not_written [opsL3]
set_option maxHeartbeats 1000000 in
theorem keepL3_main_arg1 : after (opsL3 (F := Ideal)) V (Proc.devRef .tc main_arg1) = V (Proc.devRef .tc main_arg1) := by not_written [opsL3]
set_option maxHeartbeats 1000000 in
theorem keepL3_main_arg2 : after (opsL3 (F := Ideal)) V (Proc.devRef .tc main_arg2) = V (Proc.devRef .tc main_arg2) := by not_written [opsL3]
set_option maxHeartbeats 1000000 in
theorem keepL3_main_arg3 : after (opsL3 (F := Ideal)) V (Proc.devRef .tc main_arg3) = V (Proc.devRef .tc main_arg3) := by not_written [opsL3]
set_option maxHeartbeats 1000000 in
theorem keepL3_main_arg4 : after (opsL3 (F := Ideal)) V (Proc.devRef .tc main_arg4) = V (Proc.devRef .tc main_arg4) := by not_written [opsL3]
set_option maxHeartbeats 1000000 in
theorem keepL3_main_arg5 : after (opsL3 (F := Ideal)) V (Proc.devRef .tc main_arg5) = V (Proc.devRef .tc main_arg5) := by not_written [opsL3]
set_option maxHeartbeats 1000000 in
theorem keepL3_main_arg6 : after (opsL3 (F := Ideal)) V (Proc.devRef .tc main_arg6) = V (Proc.devRef .tc main_arg6) := by not_written [opsL3]
set_option maxHeartbeats 1000000 in
theorem keepL3_main_arg7 : after (opsL3 (F := Ideal)) V (Proc.devRef .tc main_arg7) = V (Proc.devRef .tc main_arg7) := by not_written [opsL3]
set_option maxHeartbeats 1000000 in
theorem keepL3_main_arg8 : after (opsL3 (F := Ideal)) V (Proc.devRef .tc main_arg8) = V (Proc.devRef .tc main_arg8) := by not_written [opsL3]
set_option maxHeartbeats 1000000 in
theorem keepL3_main_arg9 : after (opsL3 (F := Ideal)) V (Proc.devRef .tc main_arg9) = V (Proc.devRef .tc main_arg9) := by not_written [opsL3]
set_option maxHeartbeats 1000000 in
theorem keepL3_main_arg10 : after (opsL3 (F := Ideal)) V (Proc.devRef .tc main_arg10) = V (Proc.devRef .tc main_arg10) := by not_written [opsL3]
set_option maxHeartbeats 1000000 in
theorem keepL3_main_arg11 : after (opsL3 (F := Ideal)) V (Proc.devRef .tc main_arg11) = V (Proc.devRef .tc main_arg11) := by not_written [opsL3]

end Cert.ReferenceIdeal.RefEval

end
-- ==== Proof.RefTop.lean ====
/-
  The reference's result as a function of the launch memory.  @main's line of operations is the edge transform followed
  by the four layers; folding them in turn over the launch contents, each layer lands on the raw layer of the previous
  one's output and the edge transform, the arguments passing through every stage.  Each raw stage is the specification's
  (Proof/RefStages.lean), so the result buffer ends at the network function, the reference's way, of the twelve argument
  arrays — and every weakly fair execution of the reference ends there, the arguments unchanged.
-/
import proofs.«166775_j9826885173932_2_alg».proof.Proof.RefEval
import proofs.«166775_j9826885173932_2_alg».proof.Proof.NetSpec

set_option maxRecDepth 16384
set_option maxHeartbeats 1000000

noncomputable section

namespace Cert.ReferenceIdeal.RefTop

open Cert.ReferenceIdeal Cert.ReferenceIdeal.Gen Cert.ReferenceIdeal.RefOps Cert.ReferenceIdeal.RefRun Cert.ReferenceIdeal.RefEval
open Cert.ReferenceIdeal.Stages Cert.Gine
open Idealize.ShloMosaic Idealize.ShloMosaic.TcCoe Idealize.SL.Sem Idealize.ShloMosaic.StableHlo

variable (V : Valuation τ sig (Elt Ideal))

/-- The whole line, folded over any contents, leaves the result buffer at the network function of the arguments. -/
theorem result : after (ops (F := Ideal)) V (Proc.devRef .tc main_v223)
    = netDiv (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_stages, after_append, after_append, after_append, after_append]
  rw [evalL3, evalL2, evalL1, evalL0, keepL2_main_v3, keepL2_main_arg2, keepL2_main_arg3, keepL2_main_arg6, keepL2_main_arg7, keepL2_main_arg8, keepL2_main_arg9, keepL2_main_arg10, keepL2_main_arg11, keepL1_main_v3, keepL1_main_arg2, keepL1_main_arg3, keepL1_main_arg6, keepL1_main_arg7, keepL1_main_arg8, keepL1_main_arg9, keepL1_main_arg10, keepL1_main_arg11, keepL0_main_v3, keepL0_main_arg2, keepL0_main_arg3, keepL0_main_arg6, keepL0_main_arg7, keepL0_main_arg8, keepL0_main_arg9, keepL0_main_arg10, keepL0_main_arg11, evalE, keepE_main_arg0, keepE_main_arg2, keepE_main_arg3, keepE_main_arg6, keepE_main_arg7, keepE_main_arg8, keepE_main_arg9, keepE_main_arg10, keepE_main_arg11]
  simp only [layerRaw_eq, edgeRaw_eq]
  rfl

theorem kept_arg0 : after (ops (F := Ideal)) V (Proc.devRef .tc main_arg0) = V (Proc.devRef .tc main_arg0) := by
  rw [ops_stages, after_append, after_append, after_append, after_append, keepL3_main_arg0, keepL2_main_arg0, keepL1_main_arg0, keepL0_main_arg0, keepE_main_arg0]
theorem kept_arg1 : after (ops (F := Ideal)) V (Proc.devRef .tc main_arg1) = V (Proc.devRef .tc main_arg1) := by
  rw [ops_stages, after_append, after_append, after_append, after_append, keepL3_main_arg1, keepL2_main_arg1, keepL1_main_arg1, keepL0_main_arg1, keepE_main_arg1]
theorem kept_arg2 : after (ops (F := Ideal)) V (Proc.devRef .tc main_arg2) = V (Proc.devRef .tc main_arg2) := by
  rw [ops_stages, after_append, after_append, after_append, after_append, keepL3_main_arg2, keepL2_main_arg2, keepL1_main_arg2, keepL0_main_arg2, keepE_main_arg2]
theorem kept_arg3 : after (ops (F := Ideal)) V (Proc.devRef .tc main_arg3) = V (Proc.devRef .tc main_arg3) := by
  rw [ops_stages, after_append, after_append, after_append, after_append, keepL3_main_arg3, keepL2_main_arg3, keepL1_main_arg3, keepL0_main_arg3, keepE_main_arg3]
theorem kept_arg4 : after (ops (F := Ideal)) V (Proc.devRef .tc main_arg4) = V (Proc.devRef .tc main_arg4) := by
  rw [ops_stages, after_append, after_append, after_append, after_append, keepL3_main_arg4, keepL2_main_arg4, keepL1_main_arg4, keepL0_main_arg4, keepE_main_arg4]
theorem kept_arg5 : after (ops (F := Ideal)) V (Proc.devRef .tc main_arg5) = V (Proc.devRef .tc main_arg5) := by
  rw [ops_stages, after_append, after_append, after_append, after_append, keepL3_main_arg5, keepL2_main_arg5, keepL1_main_arg5, keepL0_main_arg5, keepE_main_arg5]
theorem kept_arg6 : after (ops (F := Ideal)) V (Proc.devRef .tc main_arg6) = V (Proc.devRef .tc main_arg6) := by
  rw [ops_stages, after_append, after_append, after_append, after_append, keepL3_main_arg6, keepL2_main_arg6, keepL1_main_arg6, keepL0_main_arg6, keepE_main_arg6]
theorem kept_arg7 : after (ops (F := Ideal)) V (Proc.devRef .tc main_arg7) = V (Proc.devRef .tc main_arg7) := by
  rw [ops_stages, after_append, after_append, after_append, after_append, keepL3_main_arg7, keepL2_main_arg7, keepL1_main_arg7, keepL0_main_arg7, keepE_main_arg7]
theorem kept_arg8 : after (ops (F := Ideal)) V (Proc.devRef .tc main_arg8) = V (Proc.devRef .tc main_arg8) := by
  rw [ops_stages, after_append, after_append, after_append, after_append, keepL3_main_arg8, keepL2_main_arg8, keepL1_main_arg8, keepL0_main_arg8, keepE_main_arg8]
theorem kept_arg9 : after (ops (F := Ideal)) V (Proc.devRef .tc main_arg9) = V (Proc.devRef .tc main_arg9) := by
  rw [ops_stages, after_append, after_append, after_append, after_append, keepL3_main_arg9, keepL2_main_arg9, keepL1_main_arg9, keepL0_main_arg9, keepE_main_arg9]
theorem kept_arg10 : after (ops (F := Ideal)) V (Proc.devRef .tc main_arg10) = V (Proc.devRef .tc main_arg10) := by
  rw [ops_stages, after_append, after_append, after_append, after_append, keepL3_main_arg10, keepL2_main_arg10, keepL1_main_arg10, keepL0_main_arg10, keepE_main_arg10]
theorem kept_arg11 : after (ops (F := Ideal)) V (Proc.devRef .tc main_arg11) = V (Proc.devRef .tc main_arg11) := by
  rw [ops_stages, after_append, after_append, after_append, after_append, keepL3_main_arg11, keepL2_main_arg11, keepL1_main_arg11, keepL0_main_arg11, keepE_main_arg11]

/-- Every weakly fair execution of the reference terminates, nothing faulting, with the result at the network function
    (the reference's way) of the argument arrays as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v223) = netDiv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c main_v223).trans (result (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c))⟩)
    (run_main m ρ)

end Cert.ReferenceIdeal.RefTop

end
-- ==== Proof.lean ====
/-
  The proof of `Cert.Claim`: a four-layer edge-featured graph network (GINE-style message passing, a two-layer
  perceptron, batch normalisation, residual) computed by thirteen tiled kernels among host gathers and scatter-adds,
  against its plain jnp reference, over the extended reals.

  The three frames: the two kernel programs' are the generated frame certificates; the reference's is its run with the
  result dropped.  The idealization rewrote nothing, so `preserves` is `True`.  For `algebraic`: the idealized
  kernel's result array is the network function N× of the arguments (each region's array is its kernel's function of
  the arrays it found; each host stretch is a shared host stage), the reference's result is the network function N÷
  of the same arguments, and N× = N÷.  The only arithmetic difference between the two programs is the normalisation —
  (γ·(z − μ))·(var + ε)^(−1/2) in the kernel, (γ·(z − μ)) / √(var + ε) in the reference — and these agree on the
  extended reals exactly when var + ε > 0, which always holds: a variance is a sum of squares (never negative, even
  at infinities) over a positive count, and ε is a positive real.  The matrix products agree because a change of float
  format is the identity on the extended reals and a product into a zero accumulator is the host's product; the tiling
  is invisible because every kernel's function reads row r of its row-indexed inputs only.  The finiteness of the
  inputs is never used.
-/
import proofs.«166775_j9826885173932_2_alg».proof.Defs
import proofs.«166775_j9826885173932_2_alg».proof.Proof.Gen.Kernel
import proofs.«166775_j9826885173932_2_alg».proof.Proof.Gen.Kernel.Frame
import proofs.«166775_j9826885173932_2_alg».proof.Proof.Gen.KernelIdeal
import proofs.«166775_j9826885173932_2_alg».proof.Proof.Gen.KernelIdeal.Frame
import proofs.«166775_j9826885173932_2_alg».proof.Proof.Gen.ReferenceIdeal
import proofs.«166775_j9826885173932_2_alg».proof.Proof.Gen.Pre_finite_inputs
import proofs.«166775_j9826885173932_2_alg».proof.Proof.KRun
import proofs.«166775_j9826885173932_2_alg».proof.Proof.KTop
import proofs.«166775_j9826885173932_2_alg».proof.Proof.RefTop
import proofs.«166775_j9826885173932_2_alg».proof.Proof.NetSpec
import Idealize.ShloMosaic.Adequacy
import Idealize.ShloMosaic.Init

set_option maxRecDepth 16384
set_option maxHeartbeats 1000000

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefTop.run m ρ)

/-- The ideal pass rewrote no operation. -/
theorem preserves : Cert.preserves_Kernel_KernelIdeal := trivial

/-- Both idealized programs end at one function of arguments that agree: the kernel's at the network the kernel's way,
    the reference's at the network the reference's way, and the two are equal. -/
theorem algebraic : Cert.algebraic_KernelIdeal_ReferenceIdeal := by
  intro m ρ m' ρ' _ hagree
  refine ⟨fun c => Cert.Gine.netMul (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c _ (Cert.KernelIdeal.Gen.mem_uc Cert.KernelIdeal.main_v116 (by decide))).trans (Cert.KernelIdeal.KTop.result m ρ c),
       (h c _ (Cert.KernelIdeal.Gen.mem_uc Cert.KernelIdeal.main_arg0 (by decide))).trans (Cert.KernelIdeal.Gen.W33_main_arg0 m ρ c),
       (h c _ (Cert.KernelIdeal.Gen.mem_uc Cert.KernelIdeal.main_arg1 (by decide))).trans (Cert.KernelIdeal.Gen.W33_main_arg1 m ρ c),
       (h c _ (Cert.KernelIdeal.Gen.mem_uc Cert.KernelIdeal.main_arg2 (by decide))).trans (Cert.KernelIdeal.Gen.W33_main_arg2 m ρ c),
       (h c _ (Cert.KernelIdeal.Gen.mem_uc Cert.KernelIdeal.main_arg3 (by decide))).trans (Cert.KernelIdeal.Gen.W33_main_arg3 m ρ c),
       (h c _ (Cert.KernelIdeal.Gen.mem_uc Cert.KernelIdeal.main_arg4 (by decide))).trans (Cert.KernelIdeal.Gen.W33_main_arg4 m ρ c),
       (h c _ (Cert.KernelIdeal.Gen.mem_uc Cert.KernelIdeal.main_arg5 (by decide))).trans (Cert.KernelIdeal.Gen.W33_main_arg5 m ρ c),
       (h c _ (Cert.KernelIdeal.Gen.mem_uc Cert.KernelIdeal.main_arg6 (by decide))).trans (Cert.KernelIdeal.Gen.W33_main_arg6 m ρ c),
       (h c _ (Cert.KernelIdeal.Gen.mem_uc Cert.KernelIdeal.main_arg7 (by decide))).trans (Cert.KernelIdeal.Gen.W33_main_arg7 m ρ c),
       (h c _ (Cert.KernelIdeal.Gen.mem_uc Cert.KernelIdeal.main_arg8 (by decide))).trans (Cert.KernelIdeal.Gen.W33_main_arg8 m ρ c),
       (h c _ (Cert.KernelIdeal.Gen.mem_uc Cert.KernelIdeal.main_arg9 (by decide))).trans (Cert.KernelIdeal.Gen.W33_main_arg9 m ρ c),
       (h c _ (Cert.KernelIdeal.Gen.mem_uc Cert.KernelIdeal.main_arg10 (by decide))).trans (Cert.KernelIdeal.Gen.W33_main_arg10 m ρ c),
       (h c _ (Cert.KernelIdeal.Gen.mem_uc Cert.KernelIdeal.main_arg11 (by decide))).trans (Cert.KernelIdeal.Gen.W33_main_arg11 m ρ c)⟩)
      (Cert.KernelIdeal.KRun.run_final m ρ)
  · refine (θ_run Cert.ReferenceIdeal.defs _ _).mono (fun r h c => ⟨(h c).1.trans ?_, (h c).2⟩) (Cert.ReferenceIdeal.RefTop.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Gine.netMul_eq_netDiv _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
